-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v101)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S2x524288 : Shape := ⟨2, ![2, 524288]⟩
abbrev S524288x32 : Shape := ⟨2, ![524288, 32]⟩
abbrev S32768 : Shape := ⟨1, ![32768]⟩
abbrev S32x128 : Shape := ⟨2, ![32, 128]⟩
abbrev S128 : Shape := ⟨1, ![128]⟩
abbrev S128x256 : Shape := ⟨2, ![128, 256]⟩
abbrev S256 : Shape := ⟨1, ![256]⟩
abbrev S32x256 : Shape := ⟨2, ![32, 256]⟩
abbrev S256x256 : Shape := ⟨2, ![256, 256]⟩
abbrev S256x1 : Shape := ⟨2, ![256, 1]⟩
abbrev S1 : Shape := ⟨1, ![1]⟩
abbrev S256x10 : Shape := ⟨2, ![256, 10]⟩
abbrev S10 : Shape := ⟨1, ![10]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S524288x32 : S_.BroadcastsInDim S524288x32 (![] : Fin 0 → Fin S524288x32.rank)
  reducesTo_S524288x32_S_d0_1 : S524288x32.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S32x256 : S_.BroadcastsInDim S32x256 (![] : Fin 0 → Fin S32x256.rank)
  reducesTo_S32x256_S_d0_1 : S32x256.ReducesTo [0, 1] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part8 {F : FTy → Type} [FloatOps F] (main_arg30 : FVec F S256x10 .f32) (main_arg31 : FVec F S10 .f32) (main_v133 : IVec S_ 1) (main_v136 : IVec S256 1) : IVec S_ 1 :=
  let main_c_53 : IVec S_ 1 := constantI S_ 1 1#1
  let main_v137 : IVec S_ 1 := (fun x v => Host.reduce IntOp.andi x v reducesTo_S256_S_d0 h_S_) main_v136 main_c_53
  let main_v138 : IVec S_ 1 := andi main_v133 main_v137
  let main_v139 : FVec F S256x10 .f32 := Host.absf main_arg30
  let main_cst_54 : FVec F S_ .f32 := constant S_ .f32 0x7F800000#32
  let main_v140 : FVec F S256x10 .f32 := broadcastInDim S256x10 ![] bcast_S_S256x10 main_cst_54
  let main_v141 : IVec S256x10 1 := cmpf .olt main_v139 main_v140
  let main_c_55 : IVec S_ 1 := constantI S_ 1 1#1
  let main_v142 : IVec S_ 1 := (fun x v => Host.reduce IntOp.andi x v reducesTo_S256x10_S_d0_1 h_S_) main_v141 main_c_55
  let main_v143 : IVec S_ 1 := andi main_v138 main_v142
  let main_v144 : FVec F S10 .f32 := Host.absf main_arg31
  let main_cst_56 : FVec F S_ .f32 := constant S_ .f32 0x7F800000#32
  let main_v145 : FVec F S10 .f32 := broadcastInDim S10 ![] bcast_S_S10 main_cst_56
  let main_v146 : IVec S10 1 := cmpf .olt main_v144 main_v145
  let main_c_57 : IVec S_ 1 := constantI S_ 1 1#1
  let main_v147 : IVec S_ 1 := (fun x v => Host.reduce IntOp.andi x v reducesTo_S10_S_d0 h_S_) main_v146 main_c_57
  let main_v148 : IVec S_ 1 := andi main_v143 main_v147
  main_v148

def fn_part7 {F : FTy → Type} [FloatOps F] (main_arg27 : FVec F S256 .f32) (main_arg28 : FVec F S256 .f32) (main_arg29 : FVec F S256 .f32) (main_arg30 : FVec F S256x10 .f32) (main_arg31 : FVec F S10 .f32) (main_v118 : IVec S_ 1) (main_v119 : FVec F S256x256 .f32) : IVec S_ 1 :=
  let main_cst_46 : FVec F S_ .f32 := constant S_ .f32 0x7F800000#32
  let main_v120 : FVec F S256x256 .f32 := broadcastInDim S256x256 ![] bcast_S_S256x256 main_cst_46
  let main_v121 : IVec S256x256 1 := cmpf .olt main_v119 main_v120
  let main_c_47 : IVec S_ 1 := constantI S_ 1 1#1
  let main_v122 : IVec S_ 1 := (fun x v => Host.reduce IntOp.andi x v reducesTo_S256x256_S_d0_1 h_S_) main_v121 main_c_47
  let main_v123 : IVec S_ 1 := andi main_v118 main_v122
  let main_v124 : FVec F S256 .f32 := Host.absf main_arg27
  let main_cst_48 : FVec F S_ .f32 := constant S_ .f32 0x7F800000#32
  let main_v125 : FVec F S256 .f32 := broadcastInDim S256 ![] bcast_S_S256 main_cst_48
  let main_v126 : IVec S256 1 := cmpf .olt main_v124 main_v125
  let main_c_49 : IVec S_ 1 := constantI S_ 1 1#1
  let main_v127 : IVec S_ 1 := (fun x v => Host.reduce IntOp.andi x v reducesTo_S256_S_d0 h_S_) main_v126 main_c_49
  let main_v128 : IVec S_ 1 := andi main_v123 main_v127
  let main_v129 : FVec F S256 .f32 := Host.absf main_arg28
  let main_cst_50 : FVec F S_ .f32 := constant S_ .f32 0x7F800000#32
  let main_v130 : FVec F S256 .f32 := broadcastInDim S256 ![] bcast_S_S256 main_cst_50
  let main_v131 : IVec S256 1 := cmpf .olt main_v129 main_v130
  let main_c_51 : IVec S_ 1 := constantI S_ 1 1#1
  let main_v132 : IVec S_ 1 := (fun x v => Host.reduce IntOp.andi x v reducesTo_S256_S_d0 h_S_) main_v131 main_c_51
  let main_v133 : IVec S_ 1 := andi main_v128 main_v132
  let main_v134 : FVec F S256 .f32 := Host.absf main_arg29
  let main_cst_52 : FVec F S_ .f32 := constant S_ .f32 0x7F800000#32
  let main_v135 : FVec F S256 .f32 := broadcastInDim S256 ![] bcast_S_S256 main_cst_52
  let main_v136 : IVec S256 1 := cmpf .olt main_v134 main_v135
  fn_part8 (F := F) main_arg30 main_arg31 main_v133 main_v136

def fn_part6 {F : FTy → Type} [FloatOps F] (main_arg23 : FVec F S256 .f32) (main_arg24 : FVec F S256 .f32) (main_arg25 : FVec F S256 .f32) (main_arg26 : FVec F S256x256 .f32) (main_arg27 : FVec F S256 .f32) (main_arg28 : FVec F S256 .f32) (main_arg29 : FVec F S256 .f32) (main_arg30 : FVec F S256x10 .f32) (main_arg31 : FVec F S10 .f32) (main_v98 : IVec S_ 1) (main_v101 : IVec S256x256 1) (main_c_39 : IVec S_ 1) : IVec S_ 1 :=
  let main_v102 : IVec S_ 1 := (fun x v => Host.reduce IntOp.andi x v reducesTo_S256x256_S_d0_1 h_S_) main_v101 main_c_39
  let main_v103 : IVec S_ 1 := andi main_v98 main_v102
  let main_v104 : FVec F S256 .f32 := Host.absf main_arg23
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256 .f32 := Host.absf main_arg24
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256 .f32 := Host.absf main_arg25
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S256x256 .f32 := Host.absf main_arg26
  fn_part7 (F := F) main_arg27 main_arg28 main_arg29 main_arg30 main_arg31 main_v118 main_v119

def fn_part5 {F : FTy → Type} [FloatOps F] (main_arg20 : FVec F S256x1 .f32) (main_arg21 : FVec F S1 .f32) (main_arg22 : FVec F S256x256 .f32) (main_arg23 : FVec F S256 .f32) (main_arg24 : FVec F S256 .f32) (main_arg25 : FVec F S256 .f32) (main_arg26 : FVec F S256x256 .f32) (main_arg27 : FVec F S256 .f32) (main_arg28 : FVec F S256 .f32) (main_arg29 : FVec F S256 .f32) (main_arg30 : FVec F S256x10 .f32) (main_arg31 : FVec F S10 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x1 .f32 := Host.absf main_arg20
  let main_cst_34 : FVec F S_ .f32 := constant S_ .f32 0x7F800000#32
  let main_v90 : FVec F S256x1 .f32 := broadcastInDim S256x1 ![] bcast_S_S256x1 main_cst_34
  let main_v91 : IVec S256x1 1 := cmpf .olt main_v89 main_v90
  let main_c_35 : IVec S_ 1 := constantI S_ 1 1#1
  let main_v92 : IVec S_ 1 := (fun x v => Host.reduce IntOp.andi x v reducesTo_S256x1_S_d0_1 h_S_) main_v91 main_c_35
  let main_v93 : IVec S_ 1 := andi main_v88 main_v92
  let main_v94 : FVec F S1 .f32 := Host.absf main_arg21
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_v99 : FVec F S256x256 .f32 := Host.absf main_arg22
  let main_cst_38 : FVec F S_ .f32 := constant S_ .f32 0x7F800000#32
  let main_v100 : FVec F S256x256 .f32 := broadcastInDim S256x256 ![] bcast_S_S256x256 main_cst_38
  let main_v101 : IVec S256x256 1 := cmpf .olt main_v99 main_v100
  let main_c_39 : IVec S_ 1 := constantI S_ 1 1#1
  fn_part6 (F := F) main_arg23 main_arg24 main_arg25 main_arg26 main_arg27 main_arg28 main_arg29 main_arg30 main_arg31 main_v98 main_v101 main_c_39

def fn_part4 {F : FTy → Type} [FloatOps F] (main_arg16 : FVec F S256x256 .f32) (main_arg17 : FVec F S256 .f32) (main_arg18 : FVec F S256x256 .f32) (main_arg19 : FVec F S256 .f32) (main_arg20 : FVec F S256x1 .f32) (main_arg21 : FVec F S1 .f32) (main_arg22 : FVec F S256x256 .f32) (main_arg23 : FVec F S256 .f32) (main_arg24 : FVec F S256 .f32) (main_arg25 : FVec F S256 .f32) (main_arg26 : FVec F S256x256 .f32) (main_arg27 : FVec F S256 .f32) (main_arg28 : FVec F S256 .f32) (main_arg29 : FVec F S256 .f32) (main_arg30 : FVec F S256x10 .f32) (main_arg31 : FVec F S10 .f32) (main_v63 : IVec S_ 1) (main_v67 : IVec S_ 1) : IVec S_ 1 :=
  let main_v68 : IVec S_ 1 := andi main_v63 main_v67
  let main_v69 : FVec F S256x256 .f32 := Host.absf main_arg16
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg17
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg18
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_arg30 main_arg31 main_v83 main_v84 main_cst_32

def fn_part3 {F : FTy → Type} [FloatOps F] (main_arg13 : FVec F S256 .f32) (main_arg14 : FVec F S256 .f32) (main_arg15 : FVec F S256 .f32) (main_arg16 : FVec F S256x256 .f32) (main_arg17 : FVec F S256 .f32) (main_arg18 : FVec F S256x256 .f32) (main_arg19 : FVec F S256 .f32) (main_arg20 : FVec F S256x1 .f32) (main_arg21 : FVec F S1 .f32) (main_arg22 : FVec F S256x256 .f32) (main_arg23 : FVec F S256 .f32) (main_arg24 : FVec F S256 .f32) (main_arg25 : FVec F S256 .f32) (main_arg26 : FVec F S256x256 .f32) (main_arg27 : FVec F S256 .f32) (main_arg28 : FVec F S256 .f32) (main_arg29 : FVec F S256 .f32) (main_arg30 : FVec F S256x10 .f32) (main_arg31 : FVec F S10 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg16 main_arg17 main_arg18 main_arg19 main_arg20 main_arg21 main_arg22 main_arg23 main_arg24 main_arg25 main_arg26 main_arg27 main_arg28 main_arg29 main_arg30 main_arg31 main_v63 main_v67

def fn_part2 {F : FTy → Type} [FloatOps F] (main_arg9 : FVec F S256 .f32) (main_arg10 : FVec F S32x256 .f32) (main_arg11 : FVec F S256 .f32) (main_arg12 : FVec F S256x256 .f32) (main_arg13 : FVec F S256 .f32) (main_arg14 : FVec F S256 .f32) (main_arg15 : FVec F S256 .f32) (main_arg16 : FVec F S256x256 .f32) (main_arg17 : FVec F S256 .f32) (main_arg18 : FVec F S256x256 .f32) (main_arg19 : FVec F S256 .f32) (main_arg20 : FVec F S256x1 .f32) (main_arg21 : FVec F S1 .f32) (main_arg22 : FVec F S256x256 .f32) (main_arg23 : FVec F S256 .f32) (main_arg24 : FVec F S256 .f32) (main_arg25 : FVec F S256 .f32) (main_arg26 : FVec F S256x256 .f32) (main_arg27 : FVec F S256 .f32) (main_arg28 : FVec F S256 .f32) (main_arg29 : FVec F S256 .f32) (main_arg30 : FVec F S256x10 .f32) (main_arg31 : FVec F S10 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S32x256 .f32 := Host.absf main_arg10
  let main_cst_14 : FVec F S_ .f32 := constant S_ .f32 0x7F800000#32
  let main_v40 : FVec F S32x256 .f32 := broadcastInDim S32x256 ![] bcast_S_S32x256 main_cst_14
  let main_v41 : IVec S32x256 1 := cmpf .olt main_v39 main_v40
  let main_c_15 : IVec S_ 1 := constantI S_ 1 1#1
  let main_v42 : IVec S_ 1 := (fun x v => Host.reduce IntOp.andi x v reducesTo_S32x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg12
  let main_cst_18 : FVec F S_ .f32 := constant S_ .f32 0x7F800000#32
  let main_v50 : FVec F S256x256 .f32 := broadcastInDim S256x256 ![] bcast_S_S256x256 main_cst_18
  fn_part3 (F := F) main_arg13 main_arg14 main_arg15 main_arg16 main_arg17 main_arg18 main_arg19 main_arg20 main_arg21 main_arg22 main_arg23 main_arg24 main_arg25 main_arg26 main_arg27 main_arg28 main_arg29 main_arg30 main_arg31 main_v48 main_v49 main_v50

def fn_part1 {F : FTy → Type} [FloatOps F] (main_arg6 : FVec F S128x256 .f32) (main_arg7 : FVec F S256 .f32) (main_arg8 : FVec F S256 .f32) (main_arg9 : FVec F S256 .f32) (main_arg10 : FVec F S32x256 .f32) (main_arg11 : FVec F S256 .f32) (main_arg12 : FVec F S256x256 .f32) (main_arg13 : FVec F S256 .f32) (main_arg14 : FVec F S256 .f32) (main_arg15 : FVec F S256 .f32) (main_arg16 : FVec F S256x256 .f32) (main_arg17 : FVec F S256 .f32) (main_arg18 : FVec F S256x256 .f32) (main_arg19 : FVec F S256 .f32) (main_arg20 : FVec F S256x1 .f32) (main_arg21 : FVec F S1 .f32) (main_arg22 : FVec F S256x256 .f32) (main_arg23 : FVec F S256 .f32) (main_arg24 : FVec F S256 .f32) (main_arg25 : FVec F S256 .f32) (main_arg26 : FVec F S256x256 .f32) (main_arg27 : FVec F S256 .f32) (main_arg28 : FVec F S256 .f32) (main_arg29 : FVec F S256 .f32) (main_arg30 : FVec F S256x10 .f32) (main_arg31 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v33

def fn {F : FTy → Type} [FloatOps F] (main_arg0 : FVec F S32768x128 .f32) (main_arg1 : IVec S2x524288 32) (main_arg2 : FVec F S524288x32 .f32) (main_arg3 : IVec S32768 32) (main_arg4 : FVec F S32x128 .f32) (main_arg5 : FVec F S128 .f32) (main_arg6 : FVec F S128x256 .f32) (main_arg7 : FVec F S256 .f32) (main_arg8 : FVec F S256 .f32) (main_arg9 : FVec F S256 .f32) (main_arg10 : FVec F S32x256 .f32) (main_arg11 : FVec F S256 .f32) (main_arg12 : FVec F S256x256 .f32) (main_arg13 : FVec F S256 .f32) (main_arg14 : FVec F S256 .f32) (main_arg15 : FVec F S256 .f32) (main_arg16 : FVec F S256x256 .f32) (main_arg17 : FVec F S256 .f32) (main_arg18 : FVec F S256x256 .f32) (main_arg19 : FVec F S256 .f32) (main_arg20 : FVec F S256x1 .f32) (main_arg21 : FVec F S1 .f32) (main_arg22 : FVec F S256x256 .f32) (main_arg23 : FVec F S256 .f32) (main_arg24 : FVec F S256 .f32) (main_arg25 : FVec F S256 .f32) (main_arg26 : FVec F S256x256 .f32) (main_arg27 : FVec F S256 .f32) (main_arg28 : FVec F S256 .f32) (main_arg29 : FVec F S256 .f32) (main_arg30 : FVec F S256x10 .f32) (main_arg31 : FVec F S10 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S524288x32 .f32 := Host.absf main_arg2
  let main_cst_0 : FVec F S_ .f32 := constant S_ .f32 0x7F800000#32
  let main_v5 : FVec F S524288x32 .f32 := broadcastInDim S524288x32 ![] bcast_S_S524288x32 main_cst_0
  let main_v6 : IVec S524288x32 1 := cmpf .olt main_v4 main_v5
  let main_c_1 : IVec S_ 1 := constantI S_ 1 1#1
  let main_v7 : IVec S_ 1 := (fun x v => Host.reduce IntOp.andi x v reducesTo_S524288x32_S_d0_1 h_S_) main_v6 main_c_1
  let main_v8 : IVec S_ 1 := andi main_v3 main_v7
  let main_v9 : FVec F S32x128 .f32 := Host.absf main_arg4
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v13 main_v16
-- ==== Kernel.lean ====
abbrev S32768x128 : Shape := ⟨2, ![32768, 128]⟩
abbrev S2x524288 : Shape := ⟨2, ![2, 524288]⟩
abbrev S524288x32 : Shape := ⟨2, ![524288, 32]⟩
abbrev S32768 : Shape := ⟨1, ![32768]⟩
abbrev S32x128 : Shape := ⟨2, ![32, 128]⟩
abbrev S128 : Shape := ⟨1, ![128]⟩
abbrev S128x256 : Shape := ⟨2, ![128, 256]⟩
abbrev S256 : Shape := ⟨1, ![256]⟩
abbrev S32x256 : Shape := ⟨2, ![32, 256]⟩
abbrev S256x256 : Shape := ⟨2, ![256, 256]⟩
abbrev S256x1 : Shape := ⟨2, ![256, 1]⟩
abbrev S1 : Shape := ⟨1, ![1]⟩
abbrev S256x10 : Shape := ⟨2, ![256, 10]⟩
abbrev S10 : Shape := ⟨1, ![10]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S524288x128 : Shape := ⟨2, ![524288, 128]⟩
abbrev S4096x32 : Shape := ⟨2, ![4096, 32]⟩
abbrev S4096x128 : Shape := ⟨2, ![4096, 128]⟩
abbrev S1x128 : Shape := ⟨2, ![1, 128]⟩
abbrev S32768x256 : Shape := ⟨2, ![32768, 256]⟩
abbrev S2048x128 : Shape := ⟨2, ![2048, 128]⟩
abbrev S2048x256 : Shape := ⟨2, ![2048, 256]⟩
abbrev S1x256 : Shape := ⟨2, ![1, 256]⟩
abbrev S4096x256 : Shape := ⟨2, ![4096, 256]⟩
abbrev S524288x256 : Shape := ⟨2, ![524288, 256]⟩
abbrev S32768x1 : Shape := ⟨2, ![32768, 1]⟩
abbrev S4096x1 : Shape := ⟨2, ![4096, 1]⟩
abbrev S1x1 : Shape := ⟨2, ![1, 1]⟩
abbrev S64x512 : Shape := ⟨2, ![64, 512]⟩
abbrev S64x512x256 : Shape := ⟨3, ![64, 512, 256]⟩
abbrev S64x256 : Shape := ⟨2, ![64, 256]⟩
abbrev S64x10 : Shape := ⟨2, ![64, 10]⟩
abbrev S1x10 : Shape := ⟨2, ![1, 10]⟩

abbrev nBuf : Space → Nat
  | .hbm => 246
  | .vmem => 58
  | .smem => 0
  | _ => 0

abbrev hbmTy0_0 (i : Nat) : BufTy := match i % 128 with
  | 0 => ⟨S32768x128, .f32⟩
  | 1 => ⟨S2x524288, .i32⟩
  | 2 => ⟨S524288x32, .f32⟩
  | 3 => ⟨S32768, .i32⟩
  | 4 => ⟨S32x128, .f32⟩
  | 5 => ⟨S128, .f32⟩
  | 6 => ⟨S128x256, .f32⟩
  | 7 => ⟨S256, .f32⟩
  | 8 => ⟨S256, .f32⟩
  | 9 => ⟨S256, .f32⟩
  | 10 => ⟨S32x256, .f32⟩
  | 11 => ⟨S256, .f32⟩
  | 12 => ⟨S256x256, .f32⟩
  | 13 => ⟨S256, .f32⟩
  | 14 => ⟨S256, .f32⟩
  | 15 => ⟨S256, .f32⟩
  | 16 => ⟨S256x256, .f32⟩
  | 17 => ⟨S256, .f32⟩
  | 18 => ⟨S256x256, .f32⟩
  | 19 => ⟨S256, .f32⟩
  | 20 => ⟨S256x1, .f32⟩
  | 21 => ⟨S1, .f32⟩
  | 22 => ⟨S256x256, .f32⟩
  | 23 => ⟨S256, .f32⟩
  | 24 => ⟨S256, .f32⟩
  | 25 => ⟨S256, .f32⟩
  | 26 => ⟨S256x256, .f32⟩
  | 27 => ⟨S256, .f32⟩
  | 28 => ⟨S256, .f32⟩
  | 29 => ⟨S256, .f32⟩
  | 30 => ⟨S256x10, .f32⟩
  | 31 => ⟨S10, .f32⟩
  | 32 => ⟨S1x524288, .i32⟩
  | 33 => ⟨S524288, .i32⟩
  | 34 => ⟨S1x524288, .i32⟩
  | 35 => ⟨S524288, .i32⟩
  | 36 => ⟨S_, .i32⟩
  | 37 => ⟨S524288, .i32⟩
  | 38 => ⟨S524288, .i1⟩
  | 39 => ⟨S_, .i32⟩
  | 40 => ⟨S524288, .i32⟩
  | 41 => ⟨S524288, .i32⟩
  | 42 => ⟨S524288, .i32⟩
  | 43 => ⟨S524288x1, .i32⟩
  | 44 => ⟨S524288x128, .f32⟩
  | 45 => ⟨S524288x128, .f32⟩
  | 46 => ⟨S_, .f32⟩
  | 47 => ⟨S32768x128, .f32⟩
  | 48 => ⟨S524288x1, .i32⟩
  | 49 => ⟨S32768x128, .f32⟩
  | 50 => ⟨S32768x256, .f32⟩
  | 51 => ⟨S_, .f32⟩
  | 52 => ⟨S256, .f32⟩
  | 53 => ⟨S_, .f32⟩
  | 54 => ⟨S256, .f32⟩
  | 55 => ⟨S256, .f32⟩
  | 56 => ⟨S_, .i32⟩
  | 57 => ⟨S_, .f32⟩
  | 58 => ⟨S256, .f32⟩
  | 59 => ⟨S1x256, .f32⟩
  | 60 => ⟨S_, .f32⟩
  | 61 => ⟨S1x256, .f32⟩
  | 62 => ⟨S1x256, .f32⟩
  | 63 => ⟨S32768x256, .f32⟩
  | 64 => ⟨S32768x256, .f32⟩
  | 65 => ⟨S32768x256, .f32⟩
  | 66 => ⟨S_, .f32⟩
  | 67 => ⟨S_, .f32⟩
  | 68 => ⟨S_, .f32⟩
  | 69 => ⟨S_, .f32⟩
  | 70 => ⟨S256, .f32⟩
  | 71 => ⟨S256, .f32⟩
  | 72 => ⟨S256, .f32⟩
  | 73 => ⟨S_, .f32⟩
  | 74 => ⟨S_, .i1⟩
  | 75 => ⟨S_, .f32⟩
  | 76 => ⟨S_, .f32⟩
  | 77 => ⟨S256, .f32⟩
  | 78 => ⟨S256, .f32⟩
  | 79 => ⟨S32768x256, .f32⟩
  | 80 => ⟨S_, .i32⟩
  | 81 => ⟨S524288, .i32⟩
  | 82 => ⟨S524288, .i1⟩
  | 83 => ⟨S_, .i32⟩
  | 84 => ⟨S524288, .i32⟩
  | 85 => ⟨S524288, .i32⟩
  | 86 => ⟨S524288, .i32⟩
  | 87 => ⟨S524288x1, .i32⟩
  | 88 => ⟨S524288x256, .f32⟩
  | 89 => ⟨S524288x256, .f32⟩
  | 90 => ⟨S_, .f32⟩
  | 91 => ⟨S32768x256, .f32⟩
  | 92 => ⟨S524288x1, .i32⟩
  | 93 => ⟨S32768x256, .f32⟩
  | 94 => ⟨S32768x256, .f32⟩
  | 95 => ⟨S_, .f32⟩
  | 96 => ⟨S256, .f32⟩
  | 97 => ⟨S_, .f32⟩
  | 98 => ⟨S256, .f32⟩
  | 99 => ⟨S256, .f32⟩
  | 100 => ⟨S_, .i32⟩
  | 101 => ⟨S_, .f32⟩
  | 102 => ⟨S256, .f32⟩
  | 103 => ⟨S1x256, .f32⟩
  | 104 => ⟨S_, .f32⟩
  | 105 => ⟨S1x256, .f32⟩
  | 106 => ⟨S1x256, .f32⟩
  | 107 => ⟨S32768x256, .f32⟩
  | 108 => ⟨S32768x256, .f32⟩
  | 109 => ⟨S32768x256, .f32⟩
  | 110 => ⟨S_, .f32⟩
  | 111 => ⟨S_, .f32⟩
  | 112 => ⟨S_, .f32⟩
  | 113 => ⟨S_, .f32⟩
  | 114 => ⟨S256, .f32⟩
  | 115 => ⟨S256, .f32⟩
  | 116 => ⟨S256, .f32⟩
  | 117 => ⟨S_, .f32⟩
  | 118 => ⟨S_, .i1⟩
  | 119 => ⟨S_, .f32⟩
  | 120 => ⟨S_, .f32⟩
  | 121 => ⟨S256, .f32⟩
  | 122 => ⟨S256, .f32⟩
  | 123 => ⟨S32768x256, .f32⟩
  | 124 => ⟨S32768x1, .f32⟩
  | 125 => ⟨S64x512, .f32⟩
  | 126 => ⟨S64x512x256, .f32⟩
  | 127 => ⟨S_, .f32⟩
  | _ => ⟨S32768x128, .f32⟩

abbrev hbmTy0_1 (i : Nat) : BufTy := match i % 128 with
  | 0 => ⟨S64x256, .f32⟩
  | 1 => ⟨S_, .f32⟩
  | 2 => ⟨S64x256, .f32⟩
  | 3 => ⟨S64x256, .f32⟩
  | 4 => ⟨S64x256, .f32⟩
  | 5 => ⟨S1x256, .f32⟩
  | 6 => ⟨S64x256, .f32⟩
  | 7 => ⟨S64x256, .f32⟩
  | 8 => ⟨S_, .f32⟩
  | 9 => ⟨S256, .f32⟩
  | 10 => ⟨S_, .f32⟩
  | 11 => ⟨S256, .f32⟩
  | 12 => ⟨S256, .f32⟩
  | 13 => ⟨S_, .i32⟩
  | 14 => ⟨S_, .f32⟩
  | 15 => ⟨S256, .f32⟩
  | 16 => ⟨S1x256, .f32⟩
  | 17 => ⟨S_, .f32⟩
  | 18 => ⟨S1x256, .f32⟩
  | 19 => ⟨S1x256, .f32⟩
  | 20 => ⟨S64x256, .f32⟩
  | 21 => ⟨S64x256, .f32⟩
  | 22 => ⟨S64x256, .f32⟩
  | 23 => ⟨S_, .f32⟩
  | 24 => ⟨S_, .f32⟩
  | 25 => ⟨S_, .f32⟩
  | 26 => ⟨S_, .f32⟩
  | 27 => ⟨S256, .f32⟩
  | 28 => ⟨S256, .f32⟩
  | 29 => ⟨S256, .f32⟩
  | 30 => ⟨S_, .f32⟩
  | 31 => ⟨S_, .i1⟩
  | 32 => ⟨S_, .f32⟩
  | 33 => ⟨S_, .f32⟩
  | 34 => ⟨S256, .f32⟩
  | 35 => ⟨S256, .f32⟩
  | 36 => ⟨S1x256, .f32⟩
  | 37 => ⟨S64x256, .f32⟩
  | 38 => ⟨S64x256, .f32⟩
  | 39 => ⟨S1x256, .f32⟩
  | 40 => ⟨S64x256, .f32⟩
  | 41 => ⟨S64x256, .f32⟩
  | 42 => ⟨S_, .f32⟩
  | 43 => ⟨S256, .f32⟩
  | 44 => ⟨S256, .f32⟩
  | 45 => ⟨S256, .f32⟩
  | 46 => ⟨S1x256, .f32⟩
  | 47 => ⟨S64x256, .f32⟩
  | 48 => ⟨S64x256, .f32⟩
  | 49 => ⟨S1x256, .f32⟩
  | 50 => ⟨S64x256, .f32⟩
  | 51 => ⟨S64x256, .f32⟩
  | 52 => ⟨S_, .f32⟩
  | 53 => ⟨S64x256, .f32⟩
  | 54 => ⟨S64x256, .f32⟩
  | 55 => ⟨S64x256, .f32⟩
  | 56 => ⟨S1x256, .f32⟩
  | 57 => ⟨S64x256, .f32⟩
  | 58 => ⟨S64x256, .f32⟩
  | 59 => ⟨S_, .f32⟩
  | 60 => ⟨S256, .f32⟩
  | 61 => ⟨S_, .f32⟩
  | 62 => ⟨S256, .f32⟩
  | 63 => ⟨S256, .f32⟩
  | 64 => ⟨S_, .i32⟩
  | 65 => ⟨S_, .f32⟩
  | 66 => ⟨S256, .f32⟩
  | 67 => ⟨S1x256, .f32⟩
  | 68 => ⟨S_, .f32⟩
  | 69 => ⟨S1x256, .f32⟩
  | 70 => ⟨S1x256, .f32⟩
  | 71 => ⟨S64x256, .f32⟩
  | 72 => ⟨S64x256, .f32⟩
  | 73 => ⟨S64x256, .f32⟩
  | 74 => ⟨S_, .f32⟩
  | 75 => ⟨S_, .f32⟩
  | 76 => ⟨S_, .f32⟩
  | 77 => ⟨S_, .f32⟩
  | 78 => ⟨S256, .f32⟩
  | 79 => ⟨S256, .f32⟩
  | 80 => ⟨S256, .f32⟩
  | 81 => ⟨S_, .f32⟩
  | 82 => ⟨S_, .i1⟩
  | 83 => ⟨S_, .f32⟩
  | 84 => ⟨S_, .f32⟩
  | 85 => ⟨S256, .f32⟩
  | 86 => ⟨S256, .f32⟩
  | 87 => ⟨S1x256, .f32⟩
  | 88 => ⟨S64x256, .f32⟩
  | 89 => ⟨S64x256, .f32⟩
  | 90 => ⟨S1x256, .f32⟩
  | 91 => ⟨S64x256, .f32⟩
  | 92 => ⟨S64x256, .f32⟩
  | 93 => ⟨S_, .f32⟩
  | 94 => ⟨S256, .f32⟩
  | 95 => ⟨S256, .f32⟩
  | 96 => ⟨S256, .f32⟩
  | 97 => ⟨S1x256, .f32⟩
  | 98 => ⟨S64x256, .f32⟩
  | 99 => ⟨S64x256, .f32⟩
  | 100 => ⟨S1x256, .f32⟩
  | 101 => ⟨S64x256, .f32⟩
  | 102 => ⟨S64x256, .f32⟩
  | 103 => ⟨S_, .f32⟩
  | 104 => ⟨S64x256, .f32⟩
  | 105 => ⟨S64x256, .f32⟩
  | 106 => ⟨S64x10, .f32⟩
  | 107 => ⟨S1x10, .f32⟩
  | 108 => ⟨S64x10, .f32⟩
  | 109 => ⟨S64x10, .f32⟩
  | 110 => ⟨S64x10, .f32⟩
  | 111 => ⟨S64x10, .f32⟩
  | 112 => ⟨S_, .f32⟩
  | 113 => ⟨S64x10, .f32⟩
  | 114 => ⟨S64x10, .f32⟩
  | 115 => ⟨S_, .f32⟩
  | 116 => ⟨S64x10, .f32⟩
  | 117 => ⟨S64x10, .f32⟩
  | _ => ⟨S32768x128, .f32⟩

abbrev hbmTy (i : Nat) : BufTy := match i / 128 with
  | 0 => hbmTy0_0 i
  | 1 => hbmTy0_1 i
  | _ => ⟨S32768x128, .f32⟩

abbrev bufTy : (tb : Table) → Fin (tcTables nBuf tb) → BufTy
  | .hbm, ⟨i, _⟩ => hbmTy i
  | .local _ .vmem, ⟨0, _⟩ => ⟨S4096x32, .f32⟩
  | .local _ .vmem, ⟨1, _⟩ => ⟨S4096x32, .f32⟩
  | .local _ .vmem, ⟨2, _⟩ => ⟨S32x128, .f32⟩
  | .local _ .vmem, ⟨3, _⟩ => ⟨S128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S128x256, .f32⟩
  | .local _ .vmem, ⟨13, _⟩ => ⟨S256, .f32⟩
  | .local _ .vmem, ⟨14, _⟩ => ⟨S2048x256, .f32⟩
  | .local _ .vmem, ⟨15, _⟩ => ⟨S2048x256, .f32⟩
  | .local _ .vmem, ⟨16, _⟩ => ⟨S4096x256, .f32⟩
  | .local _ .vmem, ⟨17, _⟩ => ⟨S4096x256, .f32⟩
  | .local _ .vmem, ⟨18, _⟩ => ⟨S256, .f32⟩
  | .local _ .vmem, ⟨19, _⟩ => ⟨S256, .f32⟩
  | .local _ .vmem, ⟨20, _⟩ => ⟨S256, .f32⟩
  | .local _ .vmem, ⟨21, _⟩ => ⟨S256, .f32⟩
  | .local _ .vmem, ⟨22, _⟩ => ⟨S4096x256, .f32⟩
  | .local _ .vmem, ⟨23, _⟩ => ⟨S4096x256, .f32⟩
  | .local _ .vmem, ⟨24, _⟩ => ⟨S4096x32, .f32⟩
  | .local _ .vmem, ⟨25, _⟩ => ⟨S4096x32, .f32⟩
  | .local _ .vmem, ⟨26, _⟩ => ⟨S32x256, .f32⟩
  | .local _ .vmem, ⟨27, _⟩ => ⟨S256, .f32⟩
  | .local _ .vmem, ⟨28, _⟩ => ⟨S4096x256, .f32⟩
  | .local _ .vmem, ⟨29, _⟩ => ⟨S4096x256, .f32⟩
  | .local _ .vmem, ⟨30, _⟩ => ⟨S4096x256, .f32⟩
  | .local _ .vmem, ⟨31, _⟩ => ⟨S4096x256, .f32⟩
  | .local _ .vmem, ⟨32, _⟩ => ⟨S2048x256, .f32⟩
  | .local _ .vmem, ⟨33, _⟩ => ⟨S2048x256, .f32⟩
  | .local _ .vmem, ⟨34, _⟩ => ⟨S2048x256, .f32⟩
  | .local _ .vmem, ⟨35, _⟩ => ⟨S2048x256, .f32⟩
  | .local _ .vmem, ⟨36, _⟩ => ⟨S256x256, .f32⟩
  | .local _ .vmem, ⟨37, _⟩ => ⟨S256, .f32⟩
  | .local _ .vmem, ⟨38, _⟩ => ⟨S2048x256, .f32⟩
  | .local _ .vmem, ⟨39, _⟩ => ⟨S2048x256, .f32⟩
  | .local _ .vmem, ⟨40, _⟩ => ⟨S4096x256, .f32⟩
  | .local _ .vmem, ⟨41, _⟩ => ⟨S4096x256, .f32⟩
  | .local _ .vmem, ⟨42, _⟩ => ⟨S256, .f32⟩
  | .local _ .vmem, ⟨43, _⟩ => ⟨S256, .f32⟩
  | .local _ .vmem, ⟨44, _⟩ => ⟨S256, .f32⟩
  | .local _ .vmem, ⟨45, _⟩ => ⟨S256, .f32⟩
  | .local _ .vmem, ⟨46, _⟩ => ⟨S4096x256, .f32⟩
  | .local _ .vmem, ⟨47, _⟩ => ⟨S4096x256, .f32⟩
  | .local _ .vmem, ⟨48, _⟩ => ⟨S4096x256, .f32⟩
  | .local _ .vmem, ⟨49, _⟩ => ⟨S4096x256, .f32⟩
  | .local _ .vmem, ⟨50, _⟩ => ⟨S256x256, .f32⟩
  | .local _ .vmem, ⟨51, _⟩ => ⟨S256, .f32⟩
  | .local _ .vmem, ⟨52, _⟩ => ⟨S256x256, .f32⟩
  | .local _ .vmem, ⟨53, _⟩ => ⟨S256, .f32⟩
  | .local _ .vmem, ⟨54, _⟩ => ⟨S256x1, .f32⟩
  | .local _ .vmem, ⟨55, _⟩ => ⟨S1, .f32⟩
  | .local _ .vmem, ⟨56, _⟩ => ⟨S4096x1, .f32⟩
  | .local _ .vmem, ⟨57, _⟩ => ⟨S4096x1, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_c : Ref sig .tc := ⟨.hbm, 36, rfl⟩
abbrev main_v4 : Ref sig .tc := ⟨.hbm, 37, rfl⟩
abbrev main_v5 : Ref sig .tc := ⟨.hbm, 38, rfl⟩
abbrev main_c_0 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_cst : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_cst_1 : Ref sig .tc := ⟨.hbm, 51, rfl⟩
abbrev main_v16 : Ref sig .tc := ⟨.hbm, 52, rfl⟩
abbrev main_cst_2 : Ref sig .tc := ⟨.hbm, 53, rfl⟩
abbrev main_v17 : Ref sig .tc := ⟨.hbm, 54, rfl⟩
abbrev main_v18 : Ref sig .tc := ⟨.hbm, 55, rfl⟩
abbrev main_c_3 : Ref sig .tc := ⟨.hbm, 56, rfl⟩
abbrev main_call0_cst : Ref sig .tc := ⟨.hbm, 57, rfl⟩
abbrev main_call0_v0 : Ref sig .tc := ⟨.hbm, 58, rfl⟩
abbrev main_call0_v1 : Ref sig .tc := ⟨.hbm, 59, rfl⟩
abbrev main_call0_cst_0 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_v5 : Ref sig .tc := ⟨.hbm, 64, rfl⟩
abbrev main_call0_v6 : Ref sig .tc := ⟨.hbm, 65, rfl⟩
abbrev main_call0_v7 : Ref sig .tc := ⟨.hbm, 66, rfl⟩
abbrev main_call0_cst_1 : Ref sig .tc := ⟨.hbm, 67, rfl⟩
abbrev main_call0_v8 : Ref sig .tc := ⟨.hbm, 68, rfl⟩
abbrev main_call0_cst_2 : Ref sig .tc := ⟨.hbm, 69, rfl⟩
abbrev main_call0_v9 : Ref sig .tc := ⟨.hbm, 70, rfl⟩
abbrev main_call0_v10 : Ref sig .tc := ⟨.hbm, 71, rfl⟩
abbrev main_call0_v11 : Ref sig .tc := ⟨.hbm, 72, rfl⟩
abbrev main_call0_cst_3 : Ref sig .tc := ⟨.hbm, 73, rfl⟩
abbrev main_call0_v12 : Ref sig .tc := ⟨.hbm, 74, rfl⟩
abbrev main_call0_cst_4 : Ref sig .tc := ⟨.hbm, 75, rfl⟩
abbrev main_call0_call0_v0 : Ref sig .tc := ⟨.hbm, 76, rfl⟩
abbrev main_call0_call0_v1 : Ref sig .tc := ⟨.hbm, 77, rfl⟩
abbrev main_v19 : Ref sig .tc := ⟨.hbm, 78, rfl⟩
abbrev main_v20 : Ref sig .tc := ⟨.hbm, 79, rfl⟩
abbrev main_c_4 : Ref sig .tc := ⟨.hbm, 80, rfl⟩
abbrev main_v21 : Ref sig .tc := ⟨.hbm, 81, rfl⟩
abbrev main_v22 : Ref sig .tc := ⟨.hbm, 82, rfl⟩
abbrev main_c_5 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_cst_6 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_cst_7 : Ref sig .tc := ⟨.hbm, 95, rfl⟩
abbrev main_v33 : Ref sig .tc := ⟨.hbm, 96, rfl⟩
abbrev main_cst_8 : Ref sig .tc := ⟨.hbm, 97, rfl⟩
abbrev main_v34 : Ref sig .tc := ⟨.hbm, 98, rfl⟩
abbrev main_v35 : Ref sig .tc := ⟨.hbm, 99, rfl⟩
abbrev main_c_9 : Ref sig .tc := ⟨.hbm, 100, rfl⟩
abbrev main_call1_cst : Ref sig .tc := ⟨.hbm, 101, rfl⟩
abbrev main_call1_v0 : Ref sig .tc := ⟨.hbm, 102, rfl⟩
abbrev main_call1_v1 : Ref sig .tc := ⟨.hbm, 103, rfl⟩
abbrev main_call1_cst_0 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_v5 : Ref sig .tc := ⟨.hbm, 108, rfl⟩
abbrev main_call1_v6 : Ref sig .tc := ⟨.hbm, 109, rfl⟩
abbrev main_call1_v7 : Ref sig .tc := ⟨.hbm, 110, rfl⟩
abbrev main_call1_cst_1 : Ref sig .tc := ⟨.hbm, 111, rfl⟩
abbrev main_call1_v8 : Ref sig .tc := ⟨.hbm, 112, rfl⟩
abbrev main_call1_cst_2 : Ref sig .tc := ⟨.hbm, 113, rfl⟩
abbrev main_call1_v9 : Ref sig .tc := ⟨.hbm, 114, rfl⟩
abbrev main_call1_v10 : Ref sig .tc := ⟨.hbm, 115, rfl⟩
abbrev main_call1_v11 : Ref sig .tc := ⟨.hbm, 116, rfl⟩
abbrev main_call1_cst_3 : Ref sig .tc := ⟨.hbm, 117, rfl⟩
abbrev main_call1_v12 : Ref sig .tc := ⟨.hbm, 118, rfl⟩
abbrev main_call1_cst_4 : Ref sig .tc := ⟨.hbm, 119, rfl⟩
abbrev main_call1_call0_v0 : Ref sig .tc := ⟨.hbm, 120, rfl⟩
abbrev main_call1_call0_v1 : Ref sig .tc := ⟨.hbm, 121, rfl⟩
abbrev main_v36 : Ref sig .tc := ⟨.hbm, 122, rfl⟩
abbrev main_v37 : Ref sig .tc := ⟨.hbm, 123, rfl⟩
abbrev main_v38 : Ref sig .tc := ⟨.hbm, 124, rfl⟩
abbrev main_v39 : Ref sig .tc := ⟨.hbm, 125, rfl⟩
abbrev main_v40 : Ref sig .tc := ⟨.hbm, 126, rfl⟩
abbrev main_cst_10 : Ref sig .tc := ⟨.hbm, 127, rfl⟩
abbrev main_v41 : Ref sig .tc := ⟨.hbm, 128, rfl⟩
abbrev main_cst_11 : Ref sig .tc := ⟨.hbm, 129, rfl⟩
abbrev main_v42 : Ref sig .tc := ⟨.hbm, 130, rfl⟩
abbrev main_v43 : Ref sig .tc := ⟨.hbm, 131, rfl⟩
abbrev main_v44 : Ref sig .tc := ⟨.hbm, 132, rfl⟩
abbrev main_v45 : Ref sig .tc := ⟨.hbm, 133, rfl⟩
abbrev main_v46 : Ref sig .tc := ⟨.hbm, 134, rfl⟩
abbrev main_v47 : Ref sig .tc := ⟨.hbm, 135, rfl⟩
abbrev main_cst_12 : Ref sig .tc := ⟨.hbm, 136, rfl⟩
abbrev main_v48 : Ref sig .tc := ⟨.hbm, 137, rfl⟩
abbrev main_cst_13 : Ref sig .tc := ⟨.hbm, 138, rfl⟩
abbrev main_v49 : Ref sig .tc := ⟨.hbm, 139, rfl⟩
abbrev main_v50 : Ref sig .tc := ⟨.hbm, 140, rfl⟩
abbrev main_c_14 : Ref sig .tc := ⟨.hbm, 141, rfl⟩
abbrev main_call2_cst : Ref sig .tc := ⟨.hbm, 142, rfl⟩
abbrev main_call2_v0 : Ref sig .tc := ⟨.hbm, 143, rfl⟩
abbrev main_call2_v1 : Ref sig .tc := ⟨.hbm, 144, rfl⟩
abbrev main_call2_cst_0 : Ref sig .tc := ⟨.hbm, 145, rfl⟩
abbrev main_call2_v2 : Ref sig .tc := ⟨.hbm, 146, rfl⟩
abbrev main_call2_v3 : Ref sig .tc := ⟨.hbm, 147, rfl⟩
abbrev main_call2_v4 : Ref sig .tc := ⟨.hbm, 148, rfl⟩
abbrev main_call2_v5 : Ref sig .tc := ⟨.hbm, 149, rfl⟩
abbrev main_call2_v6 : Ref sig .tc := ⟨.hbm, 150, rfl⟩
abbrev main_call2_v7 : Ref sig .tc := ⟨.hbm, 151, rfl⟩
abbrev main_call2_cst_1 : Ref sig .tc := ⟨.hbm, 152, rfl⟩
abbrev main_call2_v8 : Ref sig .tc := ⟨.hbm, 153, rfl⟩
abbrev main_call2_cst_2 : Ref sig .tc := ⟨.hbm, 154, rfl⟩
abbrev main_call2_v9 : Ref sig .tc := ⟨.hbm, 155, rfl⟩
abbrev main_call2_v10 : Ref sig .tc := ⟨.hbm, 156, rfl⟩
abbrev main_call2_v11 : Ref sig .tc := ⟨.hbm, 157, rfl⟩
abbrev main_call2_cst_3 : Ref sig .tc := ⟨.hbm, 158, rfl⟩
abbrev main_call2_v12 : Ref sig .tc := ⟨.hbm, 159, rfl⟩
abbrev main_call2_cst_4 : Ref sig .tc := ⟨.hbm, 160, rfl⟩
abbrev main_call2_call0_v0 : Ref sig .tc := ⟨.hbm, 161, rfl⟩
abbrev main_call2_call0_v1 : Ref sig .tc := ⟨.hbm, 162, rfl⟩
abbrev main_v51 : Ref sig .tc := ⟨.hbm, 163, rfl⟩
abbrev main_v52 : Ref sig .tc := ⟨.hbm, 164, rfl⟩
abbrev main_v53 : Ref sig .tc := ⟨.hbm, 165, rfl⟩
abbrev main_v54 : Ref sig .tc := ⟨.hbm, 166, rfl⟩
abbrev main_v55 : Ref sig .tc := ⟨.hbm, 167, rfl⟩
abbrev main_v56 : Ref sig .tc := ⟨.hbm, 168, rfl⟩
abbrev main_v57 : Ref sig .tc := ⟨.hbm, 169, rfl⟩
abbrev main_cst_15 : Ref sig .tc := ⟨.hbm, 170, rfl⟩
abbrev main_v58 : Ref sig .tc := ⟨.hbm, 171, rfl⟩
abbrev main_v59 : Ref sig .tc := ⟨.hbm, 172, rfl⟩
abbrev main_v60 : Ref sig .tc := ⟨.hbm, 173, rfl⟩
abbrev main_v61 : Ref sig .tc := ⟨.hbm, 174, rfl⟩
abbrev main_v62 : Ref sig .tc := ⟨.hbm, 175, rfl⟩
abbrev main_v63 : Ref sig .tc := ⟨.hbm, 176, rfl⟩
abbrev main_v64 : Ref sig .tc := ⟨.hbm, 177, rfl⟩
abbrev main_v65 : Ref sig .tc := ⟨.hbm, 178, rfl⟩
abbrev main_v66 : Ref sig .tc := ⟨.hbm, 179, rfl⟩
abbrev main_call3_cst : Ref sig .tc := ⟨.hbm, 180, rfl⟩
abbrev main_call3_v0 : Ref sig .tc := ⟨.hbm, 181, rfl⟩
abbrev main_v67 : Ref sig .tc := ⟨.hbm, 182, rfl⟩
abbrev main_v68 : Ref sig .tc := ⟨.hbm, 183, rfl⟩
abbrev main_v69 : Ref sig .tc := ⟨.hbm, 184, rfl⟩
abbrev main_v70 : Ref sig .tc := ⟨.hbm, 185, rfl⟩
abbrev main_v71 : Ref sig .tc := ⟨.hbm, 186, rfl⟩
abbrev main_cst_16 : Ref sig .tc := ⟨.hbm, 187, rfl⟩
abbrev main_v72 : Ref sig .tc := ⟨.hbm, 188, rfl⟩
abbrev main_cst_17 : Ref sig .tc := ⟨.hbm, 189, rfl⟩
abbrev main_v73 : Ref sig .tc := ⟨.hbm, 190, rfl⟩
abbrev main_v74 : Ref sig .tc := ⟨.hbm, 191, rfl⟩
abbrev main_c_18 : Ref sig .tc := ⟨.hbm, 192, rfl⟩
abbrev main_call4_cst : Ref sig .tc := ⟨.hbm, 193, rfl⟩
abbrev main_call4_v0 : Ref sig .tc := ⟨.hbm, 194, rfl⟩
abbrev main_call4_v1 : Ref sig .tc := ⟨.hbm, 195, rfl⟩
abbrev main_call4_cst_0 : Ref sig .tc := ⟨.hbm, 196, rfl⟩
abbrev main_call4_v2 : Ref sig .tc := ⟨.hbm, 197, rfl⟩
abbrev main_call4_v3 : Ref sig .tc := ⟨.hbm, 198, rfl⟩
abbrev main_call4_v4 : Ref sig .tc := ⟨.hbm, 199, rfl⟩
abbrev main_call4_v5 : Ref sig .tc := ⟨.hbm, 200, rfl⟩
abbrev main_call4_v6 : Ref sig .tc := ⟨.hbm, 201, rfl⟩
abbrev main_call4_v7 : Ref sig .tc := ⟨.hbm, 202, rfl⟩
abbrev main_call4_cst_1 : Ref sig .tc := ⟨.hbm, 203, rfl⟩
abbrev main_call4_v8 : Ref sig .tc := ⟨.hbm, 204, rfl⟩
abbrev main_call4_cst_2 : Ref sig .tc := ⟨.hbm, 205, rfl⟩
abbrev main_call4_v9 : Ref sig .tc := ⟨.hbm, 206, rfl⟩
abbrev main_call4_v10 : Ref sig .tc := ⟨.hbm, 207, rfl⟩
abbrev main_call4_v11 : Ref sig .tc := ⟨.hbm, 208, rfl⟩
abbrev main_call4_cst_3 : Ref sig .tc := ⟨.hbm, 209, rfl⟩
abbrev main_call4_v12 : Ref sig .tc := ⟨.hbm, 210, rfl⟩
abbrev main_call4_cst_4 : Ref sig .tc := ⟨.hbm, 211, rfl⟩
abbrev main_call4_call0_v0 : Ref sig .tc := ⟨.hbm, 212, rfl⟩
abbrev main_call4_call0_v1 : Ref sig .tc := ⟨.hbm, 213, rfl⟩
abbrev main_v75 : Ref sig .tc := ⟨.hbm, 214, rfl⟩
abbrev main_v76 : Ref sig .tc := ⟨.hbm, 215, rfl⟩
abbrev main_v77 : Ref sig .tc := ⟨.hbm, 216, rfl⟩
abbrev main_v78 : Ref sig .tc := ⟨.hbm, 217, rfl⟩
abbrev main_v79 : Ref sig .tc := ⟨.hbm, 218, rfl⟩
abbrev main_v80 : Ref sig .tc := ⟨.hbm, 219, rfl⟩
abbrev main_v81 : Ref sig .tc := ⟨.hbm, 220, rfl⟩
abbrev main_cst_19 : Ref sig .tc := ⟨.hbm, 221, rfl⟩
abbrev main_v82 : Ref sig .tc := ⟨.hbm, 222, rfl⟩
abbrev main_v83 : Ref sig .tc := ⟨.hbm, 223, rfl⟩
abbrev main_v84 : Ref sig .tc := ⟨.hbm, 224, rfl⟩
abbrev main_v85 : Ref sig .tc := ⟨.hbm, 225, rfl⟩
abbrev main_v86 : Ref sig .tc := ⟨.hbm, 226, rfl⟩
abbrev main_v87 : Ref sig .tc := ⟨.hbm, 227, rfl⟩
abbrev main_v88 : Ref sig .tc := ⟨.hbm, 228, rfl⟩
abbrev main_v89 : Ref sig .tc := ⟨.hbm, 229, rfl⟩
abbrev main_v90 : Ref sig .tc := ⟨.hbm, 230, rfl⟩
abbrev main_call5_cst : Ref sig .tc := ⟨.hbm, 231, rfl⟩
abbrev main_call5_v0 : Ref sig .tc := ⟨.hbm, 232, rfl⟩
abbrev main_v91 : Ref sig .tc := ⟨.hbm, 233, rfl⟩
abbrev main_v92 : Ref sig .tc := ⟨.hbm, 234, rfl⟩
abbrev main_v93 : Ref sig .tc := ⟨.hbm, 235, rfl⟩
abbrev main_v94 : Ref sig .tc := ⟨.hbm, 236, rfl⟩
abbrev main_v95 : Ref sig .tc := ⟨.hbm, 237, rfl⟩
abbrev main_v96 : Ref sig .tc := ⟨.hbm, 238, rfl⟩
abbrev main_v97 : Ref sig .tc := ⟨.hbm, 239, rfl⟩
abbrev main_cst_20 : Ref sig .tc := ⟨.hbm, 240, rfl⟩
abbrev main_v98 : Ref sig .tc := ⟨.hbm, 241, rfl⟩
abbrev main_v99 : Ref sig .tc := ⟨.hbm, 242, rfl⟩
abbrev main_cst_21 : Ref sig .tc := ⟨.hbm, 243, rfl⟩
abbrev main_v100 : Ref sig .tc := ⟨.hbm, 244, rfl⟩
abbrev main_v101 : Ref sig .tc := ⟨.hbm, 245, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg5_0 : Ref sig .tc := ⟨.vmem, 54, rfl⟩
abbrev cc6_stg6_0 : Ref sig .tc := ⟨.vmem, 55, rfl⟩
abbrev cc6_stg7_0 : Ref sig .tc := ⟨.vmem, 56, rfl⟩
abbrev cc6_stg7_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem4_0 : DmaSem sig := 53
abbrev cc6_sem5_0 : DmaSem sig := 54
abbrev cc6_sem6_0 : DmaSem sig := 55
abbrev cc6_sem7_0 : DmaSem sig := 56
abbrev cc6_sem7_1 : DmaSem sig := 57

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4096x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![128], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4096x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4096x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2048x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4096x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4096x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S256x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S4096x1 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  inb_S4096x32_S4096x32_0_0 : ∀ a, (![0, 0] : Fin 2 → Nat) a + S4096x32.size a ≤ S4096x32.size a
  h_S4096x32 : 0 < S4096x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S128_S128_0 : ∀ a, (![0] : Fin 1 → Nat) a + S128.size a ≤ S128.size a
  h_S128 : 0 < S128.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S128_S1x128 : S128.ShapeCasts S1x128
  broadcasts_S1x128_S4096x128 : S1x128.Broadcasts S4096x128
  bcast_S_S32768x128 : S_.BroadcastsInDim S32768x128 (![] : Fin 0 → Fin S32768x128.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  reducesTo_S32768x256_S256_d0 : S32768x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S32768x256_0_1 : S1x256.BroadcastsInDim S32768x256 (![0, 1] : Fin 2 → Fin S32768x256.rank)
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  shapeCasts_S256_S256 : S256.ShapeCasts S256
  broadcasts_S1x256_S4096x256 : S1x256.Broadcasts S4096x256
  inb_S32x256_S32x256_0_0 : ∀ a, (![0, 0] : Fin 2 → Nat) a + S32x256.size a ≤ S32x256.size a
  h_S32x256 : 0 < S32x256.numel
  bcast_S_S32768x256 : S_.BroadcastsInDim S32768x256 (![] : Fin 0 → Fin S32768x256.rank)
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S32768x1_S64x512 : S32768x1.ShapeCasts S64x512
  shapeCasts_S32768x256_S64x512x256 : S32768x256.ShapeCasts S64x512x256
  reducesTo_S64x512x256_S64x256_d1 : S64x512x256.ReducesTo [1] S64x256
  bcast_S_S64x256 : S_.BroadcastsInDim S64x256 (![] : Fin 0 → Fin S64x256.rank)
  bcast_S1x256_S64x256_0_1 : S1x256.BroadcastsInDim S64x256 (![0, 1] : Fin 2 → Fin S64x256.rank)
  reducesTo_S64x256_S256_d0 : S64x256.ReducesTo [0] S256
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  bcast_S_S64x10 : S_.BroadcastsInDim S64x10 (![] : Fin 0 → Fin S64x10.rank)
  gather_S32768x128_S524288x1_S524288x128_1_0_n_n_0_1_1128_wf : GatherDims.WF S32768x128 S524288x1 S524288x128 [1] [0] [] [0] [] 1 ![1, 128]
  dot_S4096x32_S32x128_S4096x128_1_0_0_1_n_n_wf : DotDims.WF S4096x32 S32x128 S4096x128 [1] [0] [0] [1] [] []
  scatter_S32768x128_S524288x1_S524288x128_1_0_0_1_wf : ScatterDims.WF S32768x128 S524288x1 S524288x128 [1] [0] [0] 1
  dot_S2048x128_S128x256_S2048x256_1_0_0_1_n_n_wf : DotDims.WF S2048x128 S128x256 S2048x256 [1] [0] [0] [1] [] []
  gather_S32768x256_S524288x1_S524288x256_1_0_n_n_0_1_1256_wf : GatherDims.WF S32768x256 S524288x1 S524288x256 [1] [0] [] [0] [] 1 ![1, 256]
  dot_S4096x32_S32x256_S4096x256_1_0_0_1_n_n_wf : DotDims.WF S4096x32 S32x256 S4096x256 [1] [0] [0] [1] [] []
  scatter_S32768x256_S524288x1_S524288x256_1_0_0_1_wf : ScatterDims.WF S32768x256 S524288x1 S524288x256 [1] [0] [0] 1
  dot_S2048x256_S256x256_S2048x256_1_0_0_1_n_n_wf : DotDims.WF S2048x256 S256x256 S2048x256 [1] [0] [0] [1] [] []
  dot_S4096x256_S256x256_S4096x256_1_0_0_1_n_n_wf : DotDims.WF S4096x256 S256x256 S4096x256 [1] [0] [0] [1] [] []
  dot_S4096x256_S256x1_S4096x1_1_0_0_1_n_n_wf : DotDims.WF S4096x256 S256x1 S4096x1 [1] [0] [0] [1] [] []
  dot_S64x256_S256x256_S64x256_1_0_0_1_n_n_wf : DotDims.WF S64x256 S256x256 S64x256 [1] [0] [0] [1] [] []
  dot_S64x256_S256x10_S64x10_1_0_0_1_n_n_wf : DotDims.WF S64x256 S256x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x32.size a ≤ S524288x32.size a
  hwx0_0 : ∀ i : grid0.Coords, EltTy.bits .f32 = 32 ∨ (Rect.block (s := S524288x32) S4096x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S524288x128.size a
  hwx0_3 : ∀ i : grid0.Coords, EltTy.bits .f32 = 32 ∨ (Rect.block (s := S524288x128) S4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S524288x128.size a
  hwx0_4 : ∀ i : grid0.Coords, EltTy.bits .f32 = 32 ∨ (Rect.block (s := S524288x128) S4096x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S32768x128.size a
  hwx1_0 : ∀ i : grid1.Coords, EltTy.bits .f32 = 32 ∨ (Rect.block (s := S32768x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S32768x128.size a
  hwx1_1 : ∀ i : grid1.Coords, EltTy.bits .f32 = 32 ∨ (Rect.block (s := S32768x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x256.size a ≤ S32768x256.size a
  hwx1_4 : ∀ i : grid1.Coords, EltTy.bits .f32 = 32 ∨ (Rect.block (s := S32768x256) S2048x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S32768x256.size a
  hwx2_0 : ∀ i : grid2.Coords, EltTy.bits .f32 = 32 ∨ (Rect.block (s := S32768x256) S4096x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256.size a ≤ S256.size a
  hwx2_1 : ∀ i : grid2.Coords, EltTy.bits .f32 = 32 ∨ (Rect.block (s := S256) S256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4096x256.size a ≤ S32768x256.size a
  hwx2_5 : ∀ i : grid2.Coords, EltTy.bits .f32 = 32 ∨ (Rect.block (s := S32768x256) S4096x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x32.size a ≤ S524288x32.size a
  hwx3_0 : ∀ i : grid3.Coords, EltTy.bits .f32 = 32 ∨ (Rect.block (s := S524288x32) S4096x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x256.size a ≤ S32x256.size a
  hwx3_1 : ∀ i : grid3.Coords, EltTy.bits .f32 = 32 ∨ (Rect.block (s := S32x256) S32x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256.size a ≤ S256.size a
  hwx3_2 : ∀ i : grid3.Coords, EltTy.bits .f32 = 32 ∨ (Rect.block (s := S256) S256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x256.size a ≤ S524288x256.size a
  hwx3_3 : ∀ i : grid3.Coords, EltTy.bits .f32 = 32 ∨ (Rect.block (s := S524288x256) S4096x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4096x256.size a ≤ S524288x256.size a
  hwx3_4 : ∀ i : grid3.Coords, EltTy.bits .f32 = 32 ∨ (Rect.block (s := S524288x256) S4096x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x256.size a ≤ S32768x256.size a
  hwx4_0 : ∀ i : grid4.Coords, EltTy.bits .f32 = 32 ∨ (Rect.block (s := S32768x256) S2048x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x256.size a ≤ S32768x256.size a
  hwx4_1 : ∀ i : grid4.Coords, EltTy.bits .f32 = 32 ∨ (Rect.block (s := S32768x256) S2048x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256.size a ≤ S256.size a
  hwx4_3 : ∀ i : grid4.Coords, EltTy.bits .f32 = 32 ∨ (Rect.block (s := S256) S256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2048x256.size a ≤ S32768x256.size a
  hwx4_4 : ∀ i : grid4.Coords, EltTy.bits .f32 = 32 ∨ (Rect.block (s := S32768x256) S2048x256.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x256.size a ≤ S32768x256.size a
  hwx5_0 : ∀ i : grid5.Coords, EltTy.bits .f32 = 32 ∨ (Rect.block (s := S32768x256) S4096x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256.size a ≤ S256.size a
  hwx5_1 : ∀ i : grid5.Coords, EltTy.bits .f32 = 32 ∨ (Rect.block (s := S256) S256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256.size a ≤ S256.size a
  hwx5_2 : ∀ i : grid5.Coords, EltTy.bits .f32 = 32 ∨ (Rect.block (s := S256) S256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256.size a ≤ S256.size a
  hwx5_3 : ∀ i : grid5.Coords, EltTy.bits .f32 = 32 ∨ (Rect.block (s := S256) S256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256.size a ≤ S256.size a
  hwx5_4 : ∀ i : grid5.Coords, EltTy.bits .f32 = 32 ∨ (Rect.block (s := S256) S256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4096x256.size a ≤ S32768x256.size a
  hwx5_5 : ∀ i : grid5.Coords, EltTy.bits .f32 = 32 ∨ (Rect.block (s := S32768x256) S4096x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096x256.size a ≤ S32768x256.size a
  hwx6_0 : ∀ i : grid6.Coords, EltTy.bits .f32 = 32 ∨ (Rect.block (s := S32768x256) S4096x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256.size a ≤ S256.size a
  hwx6_2 : ∀ i : grid6.Coords, EltTy.bits .f32 = 32 ∨ (Rect.block (s := S256) S256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x256.size a ≤ S256x256.size a
  hwx6_3 : ∀ i : grid6.Coords, EltTy.bits .f32 = 32 ∨ (Rect.block (s := S256x256) S256x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S256.size a ≤ S256.size a
  hwx6_4 : ∀ i : grid6.Coords, EltTy.bits .f32 = 32 ∨ (Rect.block (s := S256) S256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S256x1.size a ≤ S256x1.size a
  hwx6_5 : ∀ i : grid6.Coords, EltTy.bits .f32 = 32 ∨ (Rect.block (s := S256x1) S256x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1.size a ≤ S1.size a
  hwx6_6 : ∀ i : grid6.Coords, EltTy.bits .f32 = 32 ∨ (Rect.block (s := S1) S1.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S4096x1.size a ≤ S32768x1.size a
  hwx6_7 : ∀ i : grid6.Coords, EltTy.bits .f32 = 32 ∨ (Rect.block (s := S32768x1) S4096x1.size (cc6_transform_7 i) (hinb6_7 i)).WholeWords (EltTy.packing .f32)

variable [Facts₀]

def gather_S32768x128_S524288x1_S524288x128_1_0_n_n_0_1_1128 : GatherDims S32768x128 S524288x1 S524288x128 where
  offsetDims := [1]
  collapsedSliceDims := [0]
  operandBatchingDims := []
  startIndicesBatchingDims := []
  startIndexMap := [0]
  indexVectorDim := 1
  sliceSizes := ![1, 128]
  wf := gather_S32768x128_S524288x1_S524288x128_1_0_n_n_0_1_1128_wf
def dot_S4096x32_S32x128_S4096x128_1_0_0_1_n_n : DotDims S4096x32 S32x128 S4096x128 where
  lhsContracting := [1]
  rhsContracting := [0]
  lhsNonContracting := [0]
  rhsNonContracting := [1]
  lhsBatch := []
  rhsBatch := []
  wf := dot_S4096x32_S32x128_S4096x128_1_0_0_1_n_n_wf
def scatter_S32768x128_S524288x1_S524288x128_1_0_0_1 : ScatterDims S32768x128 S524288x1 S524288x128 where
  updateWindowDims := [1]
  insertedWindowDims := [0]
  scatterDimsToOperandDims := [0]
  indexVectorDim := 1
  wf := scatter_S32768x128_S524288x1_S524288x128_1_0_0_1_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def gather_S32768x256_S524288x1_S524288x256_1_0_n_n_0_1_1256 : GatherDims S32768x256 S524288x1 S524288x256 where
  offsetDims := [1]
  collapsedSliceDims := [0]
  operandBatchingDims := []
  startIndicesBatchingDims := []
  startIndexMap := [0]
  indexVectorDim := 1
  sliceSizes := ![1, 256]
  wf := gather_S32768x256_S524288x1_S524288x256_1_0_n_n_0_1_1256_wf
def dot_S4096x32_S32x256_S4096x256_1_0_0_1_n_n : DotDims S4096x32 S32x256 S4096x256 where
  lhsContracting := [1]
  rhsContracting := [0]
  lhsNonContracting := [0]
  rhsNonContracting := [1]
  lhsBatch := []
  rhsBatch := []
  wf := dot_S4096x32_S32x256_S4096x256_1_0_0_1_n_n_wf
def scatter_S32768x256_S524288x1_S524288x256_1_0_0_1 : ScatterDims S32768x256 S524288x1 S524288x256 where
  updateWindowDims := [1]
  insertedWindowDims := [0]
  scatterDimsToOperandDims := [0]
  indexVectorDim := 1
  wf := scatter_S32768x256_S524288x1_S524288x256_1_0_0_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

abbrev win0_0 : Pipeline.Window sig grid0 :=
  Pipeline.Window.ofSpec (Memref.whole main_arg2) S4096x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S4096x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S4096x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S2048x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v15) S4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v20) S4096x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg2) S4096x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S32x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v27) S4096x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v28) S4096x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v20) S2048x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v31) S2048x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg13) S256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v32) S2048x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v32) S4096x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v35) S256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v36) S256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg14) S256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg15) S256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v37) S4096x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v37) S4096x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg16) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg17) S256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg18) S256x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg19) S256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg20) S256x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_arg21) S1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v38) S4096x1.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S32768x128 : Shape := ⟨2, ![32768, 128]⟩
abbrev S2x524288 : Shape := ⟨2, ![2, 524288]⟩
abbrev S524288x32 : Shape := ⟨2, ![524288, 32]⟩
abbrev S32768 : Shape := ⟨1, ![32768]⟩
abbrev S32x128 : Shape := ⟨2, ![32, 128]⟩
abbrev S128 : Shape := ⟨1, ![128]⟩
abbrev S128x256 : Shape := ⟨2, ![128, 256]⟩
abbrev S256 : Shape := ⟨1, ![256]⟩
abbrev S32x256 : Shape := ⟨2, ![32, 256]⟩
abbrev S256x256 : Shape := ⟨2, ![256, 256]⟩
abbrev S256x1 : Shape := ⟨2, ![256, 1]⟩
abbrev S1 : Shape := ⟨1, ![1]⟩
abbrev S256x10 : Shape := ⟨2, ![256, 10]⟩
abbrev S10 : Shape := ⟨1, ![10]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S524288x128 : Shape := ⟨2, ![524288, 128]⟩
abbrev S1x128 : Shape := ⟨2, ![1, 128]⟩
abbrev S32768x256 : Shape := ⟨2, ![32768, 256]⟩
abbrev S1x256 : Shape := ⟨2, ![1, 256]⟩
abbrev S524288x256 : Shape := ⟨2, ![524288, 256]⟩
abbrev S32768x1 : Shape := ⟨2, ![32768, 1]⟩
abbrev S1x1 : Shape := ⟨2, ![1, 1]⟩
abbrev S64x512 : Shape := ⟨2, ![64, 512]⟩
abbrev S64x512x256 : Shape := ⟨3, ![64, 512, 256]⟩
abbrev S64x256 : Shape := ⟨2, ![64, 256]⟩
abbrev S64x10 : Shape := ⟨2, ![64, 10]⟩
abbrev S1x10 : Shape := ⟨2, ![1, 10]⟩

abbrev nBuf : Space → Nat
  | .hbm => 350
  | .vmem => 0
  | .smem => 0
  | _ => 0

abbrev hbmTy0_0 (i : Nat) : BufTy := match i % 128 with
  | 0 => ⟨S32768x128, .f32⟩
  | 1 => ⟨S2x524288, .i32⟩
  | 2 => ⟨S524288x32, .f32⟩
  | 3 => ⟨S32768, .i32⟩
  | 4 => ⟨S32x128, .f32⟩
  | 5 => ⟨S128, .f32⟩
  | 6 => ⟨S128x256, .f32⟩
  | 7 => ⟨S256, .f32⟩
  | 8 => ⟨S256, .f32⟩
  | 9 => ⟨S256, .f32⟩
  | 10 => ⟨S32x256, .f32⟩
  | 11 => ⟨S256, .f32⟩
  | 12 => ⟨S256x256, .f32⟩
  | 13 => ⟨S256, .f32⟩
  | 14 => ⟨S256, .f32⟩
  | 15 => ⟨S256, .f32⟩
  | 16 => ⟨S256x256, .f32⟩
  | 17 => ⟨S256, .f32⟩
  | 18 => ⟨S256x256, .f32⟩
  | 19 => ⟨S256, .f32⟩
  | 20 => ⟨S256x1, .f32⟩
  | 21 => ⟨S1, .f32⟩
  | 22 => ⟨S256x256, .f32⟩
  | 23 => ⟨S256, .f32⟩
  | 24 => ⟨S256, .f32⟩
  | 25 => ⟨S256, .f32⟩
  | 26 => ⟨S256x256, .f32⟩
  | 27 => ⟨S256, .f32⟩
  | 28 => ⟨S256, .f32⟩
  | 29 => ⟨S256, .f32⟩
  | 30 => ⟨S256x10, .f32⟩
  | 31 => ⟨S10, .f32⟩
  | 32 => ⟨S1x524288, .i32⟩
  | 33 => ⟨S524288, .i32⟩
  | 34 => ⟨S1x524288, .i32⟩
  | 35 => ⟨S524288, .i32⟩
  | 36 => ⟨S_, .i32⟩
  | 37 => ⟨S524288, .i32⟩
  | 38 => ⟨S524288, .i1⟩
  | 39 => ⟨S_, .i32⟩
  | 40 => ⟨S524288, .i32⟩
  | 41 => ⟨S524288, .i32⟩
  | 42 => ⟨S524288, .i32⟩
  | 43 => ⟨S524288x1, .i32⟩
  | 44 => ⟨S524288x128, .f32⟩
  | 45 => ⟨S524288x128, .f32⟩
  | 46 => ⟨S524288x128, .f32⟩
  | 47 => ⟨S1x128, .f32⟩
  | 48 => ⟨S524288x128, .f32⟩
  | 49 => ⟨S524288x128, .f32⟩
  | 50 => ⟨S_, .f32⟩
  | 51 => ⟨S524288x128, .f32⟩
  | 52 => ⟨S524288x128, .f32⟩
  | 53 => ⟨S_, .f32⟩
  | 54 => ⟨S32768x128, .f32⟩
  | 55 => ⟨S524288x1, .i32⟩
  | 56 => ⟨S32768x128, .f32⟩
  | 57 => ⟨S32768x128, .f32⟩
  | 58 => ⟨S32768x256, .f32⟩
  | 59 => ⟨S1x256, .f32⟩
  | 60 => ⟨S32768x256, .f32⟩
  | 61 => ⟨S32768x256, .f32⟩
  | 62 => ⟨S_, .f32⟩
  | 63 => ⟨S256, .f32⟩
  | 64 => ⟨S_, .f32⟩
  | 65 => ⟨S256, .f32⟩
  | 66 => ⟨S256, .f32⟩
  | 67 => ⟨S_, .i32⟩
  | 68 => ⟨S_, .f32⟩
  | 69 => ⟨S256, .f32⟩
  | 70 => ⟨S1x256, .f32⟩
  | 71 => ⟨S_, .f32⟩
  | 72 => ⟨S1x256, .f32⟩
  | 73 => ⟨S1x256, .f32⟩
  | 74 => ⟨S32768x256, .f32⟩
  | 75 => ⟨S32768x256, .f32⟩
  | 76 => ⟨S32768x256, .f32⟩
  | 77 => ⟨S_, .f32⟩
  | 78 => ⟨S_, .f32⟩
  | 79 => ⟨S_, .f32⟩
  | 80 => ⟨S_, .f32⟩
  | 81 => ⟨S256, .f32⟩
  | 82 => ⟨S256, .f32⟩
  | 83 => ⟨S256, .f32⟩
  | 84 => ⟨S_, .f32⟩
  | 85 => ⟨S_, .i1⟩
  | 86 => ⟨S_, .f32⟩
  | 87 => ⟨S_, .f32⟩
  | 88 => ⟨S256, .f32⟩
  | 89 => ⟨S256, .f32⟩
  | 90 => ⟨S1x256, .f32⟩
  | 91 => ⟨S32768x256, .f32⟩
  | 92 => ⟨S32768x256, .f32⟩
  | 93 => ⟨S1x256, .f32⟩
  | 94 => ⟨S32768x256, .f32⟩
  | 95 => ⟨S32768x256, .f32⟩
  | 96 => ⟨S_, .f32⟩
  | 97 => ⟨S256, .f32⟩
  | 98 => ⟨S256, .f32⟩
  | 99 => ⟨S256, .f32⟩
  | 100 => ⟨S1x256, .f32⟩
  | 101 => ⟨S32768x256, .f32⟩
  | 102 => ⟨S32768x256, .f32⟩
  | 103 => ⟨S1x256, .f32⟩
  | 104 => ⟨S32768x256, .f32⟩
  | 105 => ⟨S32768x256, .f32⟩
  | 106 => ⟨S_, .f32⟩
  | 107 => ⟨S32768x256, .f32⟩
  | 108 => ⟨S32768x256, .f32⟩
  | 109 => ⟨S_, .f32⟩
  | 110 => ⟨S32768x256, .f32⟩
  | 111 => ⟨S32768x256, .f32⟩
  | 112 => ⟨S_, .i32⟩
  | 113 => ⟨S524288, .i32⟩
  | 114 => ⟨S524288, .i1⟩
  | 115 => ⟨S_, .i32⟩
  | 116 => ⟨S524288, .i32⟩
  | 117 => ⟨S524288, .i32⟩
  | 118 => ⟨S524288, .i32⟩
  | 119 => ⟨S524288x1, .i32⟩
  | 120 => ⟨S524288x256, .f32⟩
  | 121 => ⟨S524288x256, .f32⟩
  | 122 => ⟨S524288x256, .f32⟩
  | 123 => ⟨S1x256, .f32⟩
  | 124 => ⟨S524288x256, .f32⟩
  | 125 => ⟨S524288x256, .f32⟩
  | 126 => ⟨S_, .f32⟩
  | 127 => ⟨S524288x256, .f32⟩
  | _ => ⟨S32768x128, .f32⟩

abbrev hbmTy0_1 (i : Nat) : BufTy := match i % 128 with
  | 0 => ⟨S524288x256, .f32⟩
  | 1 => ⟨S_, .f32⟩
  | 2 => ⟨S32768x256, .f32⟩
  | 3 => ⟨S524288x1, .i32⟩
  | 4 => ⟨S32768x256, .f32⟩
  | 5 => ⟨S32768x256, .f32⟩
  | 6 => ⟨S32768x256, .f32⟩
  | 7 => ⟨S1x256, .f32⟩
  | 8 => ⟨S32768x256, .f32⟩
  | 9 => ⟨S32768x256, .f32⟩
  | 10 => ⟨S_, .f32⟩
  | 11 => ⟨S256, .f32⟩
  | 12 => ⟨S_, .f32⟩
  | 13 => ⟨S256, .f32⟩
  | 14 => ⟨S256, .f32⟩
  | 15 => ⟨S_, .i32⟩
  | 16 => ⟨S_, .f32⟩
  | 17 => ⟨S256, .f32⟩
  | 18 => ⟨S1x256, .f32⟩
  | 19 => ⟨S_, .f32⟩
  | 20 => ⟨S1x256, .f32⟩
  | 21 => ⟨S1x256, .f32⟩
  | 22 => ⟨S32768x256, .f32⟩
  | 23 => ⟨S32768x256, .f32⟩
  | 24 => ⟨S32768x256, .f32⟩
  | 25 => ⟨S_, .f32⟩
  | 26 => ⟨S_, .f32⟩
  | 27 => ⟨S_, .f32⟩
  | 28 => ⟨S_, .f32⟩
  | 29 => ⟨S256, .f32⟩
  | 30 => ⟨S256, .f32⟩
  | 31 => ⟨S256, .f32⟩
  | 32 => ⟨S_, .f32⟩
  | 33 => ⟨S_, .i1⟩
  | 34 => ⟨S_, .f32⟩
  | 35 => ⟨S_, .f32⟩
  | 36 => ⟨S256, .f32⟩
  | 37 => ⟨S256, .f32⟩
  | 38 => ⟨S1x256, .f32⟩
  | 39 => ⟨S32768x256, .f32⟩
  | 40 => ⟨S32768x256, .f32⟩
  | 41 => ⟨S1x256, .f32⟩
  | 42 => ⟨S32768x256, .f32⟩
  | 43 => ⟨S32768x256, .f32⟩
  | 44 => ⟨S_, .f32⟩
  | 45 => ⟨S256, .f32⟩
  | 46 => ⟨S256, .f32⟩
  | 47 => ⟨S256, .f32⟩
  | 48 => ⟨S1x256, .f32⟩
  | 49 => ⟨S32768x256, .f32⟩
  | 50 => ⟨S32768x256, .f32⟩
  | 51 => ⟨S1x256, .f32⟩
  | 52 => ⟨S32768x256, .f32⟩
  | 53 => ⟨S32768x256, .f32⟩
  | 54 => ⟨S_, .f32⟩
  | 55 => ⟨S32768x256, .f32⟩
  | 56 => ⟨S32768x256, .f32⟩
  | 57 => ⟨S32768x256, .f32⟩
  | 58 => ⟨S32768x256, .f32⟩
  | 59 => ⟨S_, .f32⟩
  | 60 => ⟨S32768x256, .f32⟩
  | 61 => ⟨S32768x256, .f32⟩
  | 62 => ⟨S_, .f32⟩
  | 63 => ⟨S32768x256, .f32⟩
  | 64 => ⟨S32768x256, .f32⟩
  | 65 => ⟨S32768x256, .f32⟩
  | 66 => ⟨S1x256, .f32⟩
  | 67 => ⟨S32768x256, .f32⟩
  | 68 => ⟨S32768x256, .f32⟩
  | 69 => ⟨S_, .f32⟩
  | 70 => ⟨S_, .f32⟩
  | 71 => ⟨S32768x256, .f32⟩
  | 72 => ⟨S32768x256, .i1⟩
  | 73 => ⟨S_, .f32⟩
  | 74 => ⟨S32768x256, .f32⟩
  | 75 => ⟨S32768x256, .f32⟩
  | 76 => ⟨S32768x256, .f32⟩
  | 77 => ⟨S32768x256, .f32⟩
  | 78 => ⟨S1x256, .f32⟩
  | 79 => ⟨S32768x256, .f32⟩
  | 80 => ⟨S32768x256, .f32⟩
  | 81 => ⟨S_, .f32⟩
  | 82 => ⟨S_, .f32⟩
  | 83 => ⟨S32768x256, .f32⟩
  | 84 => ⟨S32768x256, .i1⟩
  | 85 => ⟨S_, .f32⟩
  | 86 => ⟨S32768x256, .f32⟩
  | 87 => ⟨S32768x256, .f32⟩
  | 88 => ⟨S32768x256, .f32⟩
  | 89 => ⟨S32768x1, .f32⟩
  | 90 => ⟨S1x1, .f32⟩
  | 91 => ⟨S32768x1, .f32⟩
  | 92 => ⟨S32768x1, .f32⟩
  | 93 => ⟨S32768x1, .f32⟩
  | 94 => ⟨S32768x1, .f32⟩
  | 95 => ⟨S_, .f32⟩
  | 96 => ⟨S32768x1, .f32⟩
  | 97 => ⟨S32768x1, .f32⟩
  | 98 => ⟨S_, .f32⟩
  | 99 => ⟨S32768x1, .f32⟩
  | 100 => ⟨S32768x1, .f32⟩
  | 101 => ⟨S64x512, .f32⟩
  | 102 => ⟨S64x512x256, .f32⟩
  | 103 => ⟨S_, .f32⟩
  | 104 => ⟨S64x256, .f32⟩
  | 105 => ⟨S_, .f32⟩
  | 106 => ⟨S64x256, .f32⟩
  | 107 => ⟨S64x256, .f32⟩
  | 108 => ⟨S64x256, .f32⟩
  | 109 => ⟨S1x256, .f32⟩
  | 110 => ⟨S64x256, .f32⟩
  | 111 => ⟨S64x256, .f32⟩
  | 112 => ⟨S_, .f32⟩
  | 113 => ⟨S256, .f32⟩
  | 114 => ⟨S_, .f32⟩
  | 115 => ⟨S256, .f32⟩
  | 116 => ⟨S256, .f32⟩
  | 117 => ⟨S_, .i32⟩
  | 118 => ⟨S_, .f32⟩
  | 119 => ⟨S256, .f32⟩
  | 120 => ⟨S1x256, .f32⟩
  | 121 => ⟨S_, .f32⟩
  | 122 => ⟨S1x256, .f32⟩
  | 123 => ⟨S1x256, .f32⟩
  | 124 => ⟨S64x256, .f32⟩
  | 125 => ⟨S64x256, .f32⟩
  | 126 => ⟨S64x256, .f32⟩
  | 127 => ⟨S_, .f32⟩
  | _ => ⟨S32768x128, .f32⟩

abbrev hbmTy0_2 (i : Nat) : BufTy := match i % 128 with
  | 0 => ⟨S_, .f32⟩
  | 1 => ⟨S_, .f32⟩
  | 2 => ⟨S_, .f32⟩
  | 3 => ⟨S256, .f32⟩
  | 4 => ⟨S256, .f32⟩
  | 5 => ⟨S256, .f32⟩
  | 6 => ⟨S_, .f32⟩
  | 7 => ⟨S_, .i1⟩
  | 8 => ⟨S_, .f32⟩
  | 9 => ⟨S_, .f32⟩
  | 10 => ⟨S256, .f32⟩
  | 11 => ⟨S256, .f32⟩
  | 12 => ⟨S1x256, .f32⟩
  | 13 => ⟨S64x256, .f32⟩
  | 14 => ⟨S64x256, .f32⟩
  | 15 => ⟨S1x256, .f32⟩
  | 16 => ⟨S64x256, .f32⟩
  | 17 => ⟨S64x256, .f32⟩
  | 18 => ⟨S_, .f32⟩
  | 19 => ⟨S256, .f32⟩
  | 20 => ⟨S256, .f32⟩
  | 21 => ⟨S256, .f32⟩
  | 22 => ⟨S1x256, .f32⟩
  | 23 => ⟨S64x256, .f32⟩
  | 24 => ⟨S64x256, .f32⟩
  | 25 => ⟨S1x256, .f32⟩
  | 26 => ⟨S64x256, .f32⟩
  | 27 => ⟨S64x256, .f32⟩
  | 28 => ⟨S_, .f32⟩
  | 29 => ⟨S64x256, .f32⟩
  | 30 => ⟨S64x256, .f32⟩
  | 31 => ⟨S64x256, .f32⟩
  | 32 => ⟨S1x256, .f32⟩
  | 33 => ⟨S64x256, .f32⟩
  | 34 => ⟨S64x256, .f32⟩
  | 35 => ⟨S_, .f32⟩
  | 36 => ⟨S256, .f32⟩
  | 37 => ⟨S_, .f32⟩
  | 38 => ⟨S256, .f32⟩
  | 39 => ⟨S256, .f32⟩
  | 40 => ⟨S_, .i32⟩
  | 41 => ⟨S_, .f32⟩
  | 42 => ⟨S256, .f32⟩
  | 43 => ⟨S1x256, .f32⟩
  | 44 => ⟨S_, .f32⟩
  | 45 => ⟨S1x256, .f32⟩
  | 46 => ⟨S1x256, .f32⟩
  | 47 => ⟨S64x256, .f32⟩
  | 48 => ⟨S64x256, .f32⟩
  | 49 => ⟨S64x256, .f32⟩
  | 50 => ⟨S_, .f32⟩
  | 51 => ⟨S_, .f32⟩
  | 52 => ⟨S_, .f32⟩
  | 53 => ⟨S_, .f32⟩
  | 54 => ⟨S256, .f32⟩
  | 55 => ⟨S256, .f32⟩
  | 56 => ⟨S256, .f32⟩
  | 57 => ⟨S_, .f32⟩
  | 58 => ⟨S_, .i1⟩
  | 59 => ⟨S_, .f32⟩
  | 60 => ⟨S_, .f32⟩
  | 61 => ⟨S256, .f32⟩
  | 62 => ⟨S256, .f32⟩
  | 63 => ⟨S1x256, .f32⟩
  | 64 => ⟨S64x256, .f32⟩
  | 65 => ⟨S64x256, .f32⟩
  | 66 => ⟨S1x256, .f32⟩
  | 67 => ⟨S64x256, .f32⟩
  | 68 => ⟨S64x256, .f32⟩
  | 69 => ⟨S_, .f32⟩
  | 70 => ⟨S256, .f32⟩
  | 71 => ⟨S256, .f32⟩
  | 72 => ⟨S256, .f32⟩
  | 73 => ⟨S1x256, .f32⟩
  | 74 => ⟨S64x256, .f32⟩
  | 75 => ⟨S64x256, .f32⟩
  | 76 => ⟨S1x256, .f32⟩
  | 77 => ⟨S64x256, .f32⟩
  | 78 => ⟨S64x256, .f32⟩
  | 79 => ⟨S_, .f32⟩
  | 80 => ⟨S64x256, .f32⟩
  | 81 => ⟨S64x256, .f32⟩
  | 82 => ⟨S64x10, .f32⟩
  | 83 => ⟨S1x10, .f32⟩
  | 84 => ⟨S64x10, .f32⟩
  | 85 => ⟨S64x10, .f32⟩
  | 86 => ⟨S64x10, .f32⟩
  | 87 => ⟨S64x10, .f32⟩
  | 88 => ⟨S_, .f32⟩
  | 89 => ⟨S64x10, .f32⟩
  | 90 => ⟨S64x10, .f32⟩
  | 91 => ⟨S_, .f32⟩
  | 92 => ⟨S64x10, .f32⟩
  | 93 => ⟨S64x10, .f32⟩
  | _ => ⟨S32768x128, .f32⟩

abbrev hbmTy (i : Nat) : BufTy := match i / 128 with
  | 0 => hbmTy0_0 i
  | 1 => hbmTy0_1 i
  | 2 => hbmTy0_2 i
  | _ => ⟨S32768x128, .f32⟩

abbrev bufTy : (tb : Table) → Fin (tcTables nBuf tb) → BufTy
  | .hbm, ⟨i, _⟩ => hbmTy i
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_c : Ref sig .tc := ⟨.hbm, 36, rfl⟩
abbrev main_v4 : Ref sig .tc := ⟨.hbm, 37, rfl⟩
abbrev main_v5 : Ref sig .tc := ⟨.hbm, 38, rfl⟩
abbrev main_c_0 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_call0_cst : Ref sig .tc := ⟨.hbm, 50, rfl⟩
abbrev main_call0_v0 : Ref sig .tc := ⟨.hbm, 51, rfl⟩
abbrev main_v16 : Ref sig .tc := ⟨.hbm, 52, rfl⟩
abbrev main_cst : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_cst_1 : Ref sig .tc := ⟨.hbm, 62, rfl⟩
abbrev main_v25 : Ref sig .tc := ⟨.hbm, 63, rfl⟩
abbrev main_cst_2 : Ref sig .tc := ⟨.hbm, 64, rfl⟩
abbrev main_v26 : Ref sig .tc := ⟨.hbm, 65, rfl⟩
abbrev main_v27 : Ref sig .tc := ⟨.hbm, 66, rfl⟩
abbrev main_c_3 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_cst_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_cst_1 : Ref sig .tc := ⟨.hbm, 78, rfl⟩
abbrev main_call1_v8 : Ref sig .tc := ⟨.hbm, 79, rfl⟩
abbrev main_call1_cst_2 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_cst_3 : Ref sig .tc := ⟨.hbm, 84, rfl⟩
abbrev main_call1_v12 : Ref sig .tc := ⟨.hbm, 85, rfl⟩
abbrev main_call1_cst_4 : Ref sig .tc := ⟨.hbm, 86, rfl⟩
abbrev main_call1_call0_v0 : Ref sig .tc := ⟨.hbm, 87, rfl⟩
abbrev main_call1_call0_v1 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_cst_4 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_call2_cst : Ref sig .tc := ⟨.hbm, 106, rfl⟩
abbrev main_call2_v0 : Ref sig .tc := ⟨.hbm, 107, rfl⟩
abbrev main_v44 : Ref sig .tc := ⟨.hbm, 108, rfl⟩
abbrev main_call3_cst : Ref sig .tc := ⟨.hbm, 109, rfl⟩
abbrev main_call3_v0 : Ref sig .tc := ⟨.hbm, 110, rfl⟩
abbrev main_v45 : Ref sig .tc := ⟨.hbm, 111, rfl⟩
abbrev main_c_5 : Ref sig .tc := ⟨.hbm, 112, rfl⟩
abbrev main_v46 : Ref sig .tc := ⟨.hbm, 113, rfl⟩
abbrev main_v47 : Ref sig .tc := ⟨.hbm, 114, rfl⟩
abbrev main_c_6 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_call4_cst : Ref sig .tc := ⟨.hbm, 126, rfl⟩
abbrev main_call4_v0 : Ref sig .tc := ⟨.hbm, 127, rfl⟩
abbrev main_v58 : Ref sig .tc := ⟨.hbm, 128, rfl⟩
abbrev main_cst_7 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_cst_8 : Ref sig .tc := ⟨.hbm, 138, rfl⟩
abbrev main_v67 : Ref sig .tc := ⟨.hbm, 139, rfl⟩
abbrev main_cst_9 : Ref sig .tc := ⟨.hbm, 140, rfl⟩
abbrev main_v68 : Ref sig .tc := ⟨.hbm, 141, rfl⟩
abbrev main_v69 : Ref sig .tc := ⟨.hbm, 142, rfl⟩
abbrev main_c_10 : Ref sig .tc := ⟨.hbm, 143, rfl⟩
abbrev main_call5_cst : Ref sig .tc := ⟨.hbm, 144, rfl⟩
abbrev main_call5_v0 : Ref sig .tc := ⟨.hbm, 145, rfl⟩
abbrev main_call5_v1 : Ref sig .tc := ⟨.hbm, 146, rfl⟩
abbrev main_call5_cst_0 : Ref sig .tc := ⟨.hbm, 147, rfl⟩
abbrev main_call5_v2 : Ref sig .tc := ⟨.hbm, 148, rfl⟩
abbrev main_call5_v3 : Ref sig .tc := ⟨.hbm, 149, rfl⟩
abbrev main_call5_v4 : Ref sig .tc := ⟨.hbm, 150, rfl⟩
abbrev main_call5_v5 : Ref sig .tc := ⟨.hbm, 151, rfl⟩
abbrev main_call5_v6 : Ref sig .tc := ⟨.hbm, 152, rfl⟩
abbrev main_call5_v7 : Ref sig .tc := ⟨.hbm, 153, rfl⟩
abbrev main_call5_cst_1 : Ref sig .tc := ⟨.hbm, 154, rfl⟩
abbrev main_call5_v8 : Ref sig .tc := ⟨.hbm, 155, rfl⟩
abbrev main_call5_cst_2 : Ref sig .tc := ⟨.hbm, 156, rfl⟩
abbrev main_call5_v9 : Ref sig .tc := ⟨.hbm, 157, rfl⟩
abbrev main_call5_v10 : Ref sig .tc := ⟨.hbm, 158, rfl⟩
abbrev main_call5_v11 : Ref sig .tc := ⟨.hbm, 159, rfl⟩
abbrev main_call5_cst_3 : Ref sig .tc := ⟨.hbm, 160, rfl⟩
abbrev main_call5_v12 : Ref sig .tc := ⟨.hbm, 161, rfl⟩
abbrev main_call5_cst_4 : Ref sig .tc := ⟨.hbm, 162, rfl⟩
abbrev main_call5_call0_v0 : Ref sig .tc := ⟨.hbm, 163, rfl⟩
abbrev main_call5_call0_v1 : Ref sig .tc := ⟨.hbm, 164, rfl⟩
abbrev main_v70 : Ref sig .tc := ⟨.hbm, 165, rfl⟩
abbrev main_v71 : Ref sig .tc := ⟨.hbm, 166, rfl⟩
abbrev main_v72 : Ref sig .tc := ⟨.hbm, 167, rfl⟩
abbrev main_v73 : Ref sig .tc := ⟨.hbm, 168, rfl⟩
abbrev main_v74 : Ref sig .tc := ⟨.hbm, 169, rfl⟩
abbrev main_v75 : Ref sig .tc := ⟨.hbm, 170, rfl⟩
abbrev main_v76 : Ref sig .tc := ⟨.hbm, 171, rfl⟩
abbrev main_cst_11 : Ref sig .tc := ⟨.hbm, 172, rfl⟩
abbrev main_v77 : Ref sig .tc := ⟨.hbm, 173, rfl⟩
abbrev main_v78 : Ref sig .tc := ⟨.hbm, 174, rfl⟩
abbrev main_v79 : Ref sig .tc := ⟨.hbm, 175, rfl⟩
abbrev main_v80 : Ref sig .tc := ⟨.hbm, 176, rfl⟩
abbrev main_v81 : Ref sig .tc := ⟨.hbm, 177, rfl⟩
abbrev main_v82 : Ref sig .tc := ⟨.hbm, 178, rfl⟩
abbrev main_v83 : Ref sig .tc := ⟨.hbm, 179, rfl⟩
abbrev main_v84 : Ref sig .tc := ⟨.hbm, 180, rfl⟩
abbrev main_v85 : Ref sig .tc := ⟨.hbm, 181, rfl⟩
abbrev main_call6_cst : Ref sig .tc := ⟨.hbm, 182, rfl⟩
abbrev main_call6_v0 : Ref sig .tc := ⟨.hbm, 183, rfl⟩
abbrev main_v86 : Ref sig .tc := ⟨.hbm, 184, rfl⟩
abbrev main_v87 : Ref sig .tc := ⟨.hbm, 185, rfl⟩
abbrev main_v88 : Ref sig .tc := ⟨.hbm, 186, rfl⟩
abbrev main_cst_12 : Ref sig .tc := ⟨.hbm, 187, rfl⟩
abbrev main_v89 : Ref sig .tc := ⟨.hbm, 188, rfl⟩
abbrev main_v90 : Ref sig .tc := ⟨.hbm, 189, rfl⟩
abbrev main_cst_13 : Ref sig .tc := ⟨.hbm, 190, rfl⟩
abbrev main_v91 : Ref sig .tc := ⟨.hbm, 191, rfl⟩
abbrev main_v92 : Ref sig .tc := ⟨.hbm, 192, rfl⟩
abbrev main_v93 : Ref sig .tc := ⟨.hbm, 193, rfl⟩
abbrev main_v94 : Ref sig .tc := ⟨.hbm, 194, rfl⟩
abbrev main_v95 : Ref sig .tc := ⟨.hbm, 195, rfl⟩
abbrev main_v96 : Ref sig .tc := ⟨.hbm, 196, rfl⟩
abbrev main_cst_14 : Ref sig .tc := ⟨.hbm, 197, rfl⟩
abbrev main_call7_cst : Ref sig .tc := ⟨.hbm, 198, rfl⟩
abbrev main_call7_v0 : Ref sig .tc := ⟨.hbm, 199, rfl⟩
abbrev main_call7_v1 : Ref sig .tc := ⟨.hbm, 200, rfl⟩
abbrev main_call7_v2 : Ref sig .tc := ⟨.hbm, 201, rfl⟩
abbrev main_call7_v3 : Ref sig .tc := ⟨.hbm, 202, rfl⟩
abbrev main_call7_v4 : Ref sig .tc := ⟨.hbm, 203, rfl⟩
abbrev main_v97 : Ref sig .tc := ⟨.hbm, 204, rfl⟩
abbrev main_v98 : Ref sig .tc := ⟨.hbm, 205, rfl⟩
abbrev main_v99 : Ref sig .tc := ⟨.hbm, 206, rfl⟩
abbrev main_v100 : Ref sig .tc := ⟨.hbm, 207, rfl⟩
abbrev main_v101 : Ref sig .tc := ⟨.hbm, 208, rfl⟩
abbrev main_cst_15 : Ref sig .tc := ⟨.hbm, 209, rfl⟩
abbrev main_call8_cst : Ref sig .tc := ⟨.hbm, 210, rfl⟩
abbrev main_call8_v0 : Ref sig .tc := ⟨.hbm, 211, rfl⟩
abbrev main_call8_v1 : Ref sig .tc := ⟨.hbm, 212, rfl⟩
abbrev main_call8_v2 : Ref sig .tc := ⟨.hbm, 213, rfl⟩
abbrev main_call8_v3 : Ref sig .tc := ⟨.hbm, 214, rfl⟩
abbrev main_call8_v4 : Ref sig .tc := ⟨.hbm, 215, rfl⟩
abbrev main_v102 : Ref sig .tc := ⟨.hbm, 216, rfl⟩
abbrev main_v103 : Ref sig .tc := ⟨.hbm, 217, rfl⟩
abbrev main_v104 : Ref sig .tc := ⟨.hbm, 218, rfl⟩
abbrev main_v105 : Ref sig .tc := ⟨.hbm, 219, rfl⟩
abbrev main_v106 : Ref sig .tc := ⟨.hbm, 220, rfl⟩
abbrev main_v107 : Ref sig .tc := ⟨.hbm, 221, rfl⟩
abbrev main_v108 : Ref sig .tc := ⟨.hbm, 222, rfl⟩
abbrev main_cst_16 : Ref sig .tc := ⟨.hbm, 223, rfl⟩
abbrev main_v109 : Ref sig .tc := ⟨.hbm, 224, rfl⟩
abbrev main_v110 : Ref sig .tc := ⟨.hbm, 225, rfl⟩
abbrev main_cst_17 : Ref sig .tc := ⟨.hbm, 226, rfl⟩
abbrev main_v111 : Ref sig .tc := ⟨.hbm, 227, rfl⟩
abbrev main_v112 : Ref sig .tc := ⟨.hbm, 228, rfl⟩
abbrev main_v113 : Ref sig .tc := ⟨.hbm, 229, rfl⟩
abbrev main_v114 : Ref sig .tc := ⟨.hbm, 230, rfl⟩
abbrev main_cst_18 : Ref sig .tc := ⟨.hbm, 231, rfl⟩
abbrev main_v115 : Ref sig .tc := ⟨.hbm, 232, rfl⟩
abbrev main_cst_19 : Ref sig .tc := ⟨.hbm, 233, rfl⟩
abbrev main_v116 : Ref sig .tc := ⟨.hbm, 234, rfl⟩
abbrev main_v117 : Ref sig .tc := ⟨.hbm, 235, rfl⟩
abbrev main_v118 : Ref sig .tc := ⟨.hbm, 236, rfl⟩
abbrev main_v119 : Ref sig .tc := ⟨.hbm, 237, rfl⟩
abbrev main_v120 : Ref sig .tc := ⟨.hbm, 238, rfl⟩
abbrev main_v121 : Ref sig .tc := ⟨.hbm, 239, rfl⟩
abbrev main_cst_20 : Ref sig .tc := ⟨.hbm, 240, rfl⟩
abbrev main_v122 : Ref sig .tc := ⟨.hbm, 241, rfl⟩
abbrev main_cst_21 : Ref sig .tc := ⟨.hbm, 242, rfl⟩
abbrev main_v123 : Ref sig .tc := ⟨.hbm, 243, rfl⟩
abbrev main_v124 : Ref sig .tc := ⟨.hbm, 244, rfl⟩
abbrev main_c_22 : Ref sig .tc := ⟨.hbm, 245, rfl⟩
abbrev main_call9_cst : Ref sig .tc := ⟨.hbm, 246, rfl⟩
abbrev main_call9_v0 : Ref sig .tc := ⟨.hbm, 247, rfl⟩
abbrev main_call9_v1 : Ref sig .tc := ⟨.hbm, 248, rfl⟩
abbrev main_call9_cst_0 : Ref sig .tc := ⟨.hbm, 249, rfl⟩
abbrev main_call9_v2 : Ref sig .tc := ⟨.hbm, 250, rfl⟩
abbrev main_call9_v3 : Ref sig .tc := ⟨.hbm, 251, rfl⟩
abbrev main_call9_v4 : Ref sig .tc := ⟨.hbm, 252, rfl⟩
abbrev main_call9_v5 : Ref sig .tc := ⟨.hbm, 253, rfl⟩
abbrev main_call9_v6 : Ref sig .tc := ⟨.hbm, 254, rfl⟩
abbrev main_call9_v7 : Ref sig .tc := ⟨.hbm, 255, rfl⟩
abbrev main_call9_cst_1 : Ref sig .tc := ⟨.hbm, 256, rfl⟩
abbrev main_call9_v8 : Ref sig .tc := ⟨.hbm, 257, rfl⟩
abbrev main_call9_cst_2 : Ref sig .tc := ⟨.hbm, 258, rfl⟩
abbrev main_call9_v9 : Ref sig .tc := ⟨.hbm, 259, rfl⟩
abbrev main_call9_v10 : Ref sig .tc := ⟨.hbm, 260, rfl⟩
abbrev main_call9_v11 : Ref sig .tc := ⟨.hbm, 261, rfl⟩
abbrev main_call9_cst_3 : Ref sig .tc := ⟨.hbm, 262, rfl⟩
abbrev main_call9_v12 : Ref sig .tc := ⟨.hbm, 263, rfl⟩
abbrev main_call9_cst_4 : Ref sig .tc := ⟨.hbm, 264, rfl⟩
abbrev main_call9_call0_v0 : Ref sig .tc := ⟨.hbm, 265, rfl⟩
abbrev main_call9_call0_v1 : Ref sig .tc := ⟨.hbm, 266, rfl⟩
abbrev main_v125 : Ref sig .tc := ⟨.hbm, 267, rfl⟩
abbrev main_v126 : Ref sig .tc := ⟨.hbm, 268, rfl⟩
abbrev main_v127 : Ref sig .tc := ⟨.hbm, 269, rfl⟩
abbrev main_v128 : Ref sig .tc := ⟨.hbm, 270, rfl⟩
abbrev main_v129 : Ref sig .tc := ⟨.hbm, 271, rfl⟩
abbrev main_v130 : Ref sig .tc := ⟨.hbm, 272, rfl⟩
abbrev main_v131 : Ref sig .tc := ⟨.hbm, 273, rfl⟩
abbrev main_cst_23 : Ref sig .tc := ⟨.hbm, 274, rfl⟩
abbrev main_v132 : Ref sig .tc := ⟨.hbm, 275, rfl⟩
abbrev main_v133 : Ref sig .tc := ⟨.hbm, 276, rfl⟩
abbrev main_v134 : Ref sig .tc := ⟨.hbm, 277, rfl⟩
abbrev main_v135 : Ref sig .tc := ⟨.hbm, 278, rfl⟩
abbrev main_v136 : Ref sig .tc := ⟨.hbm, 279, rfl⟩
abbrev main_v137 : Ref sig .tc := ⟨.hbm, 280, rfl⟩
abbrev main_v138 : Ref sig .tc := ⟨.hbm, 281, rfl⟩
abbrev main_v139 : Ref sig .tc := ⟨.hbm, 282, rfl⟩
abbrev main_v140 : Ref sig .tc := ⟨.hbm, 283, rfl⟩
abbrev main_call10_cst : Ref sig .tc := ⟨.hbm, 284, rfl⟩
abbrev main_call10_v0 : Ref sig .tc := ⟨.hbm, 285, rfl⟩
abbrev main_v141 : Ref sig .tc := ⟨.hbm, 286, rfl⟩
abbrev main_v142 : Ref sig .tc := ⟨.hbm, 287, rfl⟩
abbrev main_v143 : Ref sig .tc := ⟨.hbm, 288, rfl⟩
abbrev main_v144 : Ref sig .tc := ⟨.hbm, 289, rfl⟩
abbrev main_v145 : Ref sig .tc := ⟨.hbm, 290, rfl⟩
abbrev main_cst_24 : Ref sig .tc := ⟨.hbm, 291, rfl⟩
abbrev main_v146 : Ref sig .tc := ⟨.hbm, 292, rfl⟩
abbrev main_cst_25 : Ref sig .tc := ⟨.hbm, 293, rfl⟩
abbrev main_v147 : Ref sig .tc := ⟨.hbm, 294, rfl⟩
abbrev main_v148 : Ref sig .tc := ⟨.hbm, 295, rfl⟩
abbrev main_c_26 : Ref sig .tc := ⟨.hbm, 296, rfl⟩
abbrev main_call11_cst : Ref sig .tc := ⟨.hbm, 297, rfl⟩
abbrev main_call11_v0 : Ref sig .tc := ⟨.hbm, 298, rfl⟩
abbrev main_call11_v1 : Ref sig .tc := ⟨.hbm, 299, rfl⟩
abbrev main_call11_cst_0 : Ref sig .tc := ⟨.hbm, 300, rfl⟩
abbrev main_call11_v2 : Ref sig .tc := ⟨.hbm, 301, rfl⟩
abbrev main_call11_v3 : Ref sig .tc := ⟨.hbm, 302, rfl⟩
abbrev main_call11_v4 : Ref sig .tc := ⟨.hbm, 303, rfl⟩
abbrev main_call11_v5 : Ref sig .tc := ⟨.hbm, 304, rfl⟩
abbrev main_call11_v6 : Ref sig .tc := ⟨.hbm, 305, rfl⟩
abbrev main_call11_v7 : Ref sig .tc := ⟨.hbm, 306, rfl⟩
abbrev main_call11_cst_1 : Ref sig .tc := ⟨.hbm, 307, rfl⟩
abbrev main_call11_v8 : Ref sig .tc := ⟨.hbm, 308, rfl⟩
abbrev main_call11_cst_2 : Ref sig .tc := ⟨.hbm, 309, rfl⟩
abbrev main_call11_v9 : Ref sig .tc := ⟨.hbm, 310, rfl⟩
abbrev main_call11_v10 : Ref sig .tc := ⟨.hbm, 311, rfl⟩
abbrev main_call11_v11 : Ref sig .tc := ⟨.hbm, 312, rfl⟩
abbrev main_call11_cst_3 : Ref sig .tc := ⟨.hbm, 313, rfl⟩
abbrev main_call11_v12 : Ref sig .tc := ⟨.hbm, 314, rfl⟩
abbrev main_call11_cst_4 : Ref sig .tc := ⟨.hbm, 315, rfl⟩
abbrev main_call11_call0_v0 : Ref sig .tc := ⟨.hbm, 316, rfl⟩
abbrev main_call11_call0_v1 : Ref sig .tc := ⟨.hbm, 317, rfl⟩
abbrev main_v149 : Ref sig .tc := ⟨.hbm, 318, rfl⟩
abbrev main_v150 : Ref sig .tc := ⟨.hbm, 319, rfl⟩
abbrev main_v151 : Ref sig .tc := ⟨.hbm, 320, rfl⟩
abbrev main_v152 : Ref sig .tc := ⟨.hbm, 321, rfl⟩
abbrev main_v153 : Ref sig .tc := ⟨.hbm, 322, rfl⟩
abbrev main_v154 : Ref sig .tc := ⟨.hbm, 323, rfl⟩
abbrev main_v155 : Ref sig .tc := ⟨.hbm, 324, rfl⟩
abbrev main_cst_27 : Ref sig .tc := ⟨.hbm, 325, rfl⟩
abbrev main_v156 : Ref sig .tc := ⟨.hbm, 326, rfl⟩
abbrev main_v157 : Ref sig .tc := ⟨.hbm, 327, rfl⟩
abbrev main_v158 : Ref sig .tc := ⟨.hbm, 328, rfl⟩
abbrev main_v159 : Ref sig .tc := ⟨.hbm, 329, rfl⟩
abbrev main_v160 : Ref sig .tc := ⟨.hbm, 330, rfl⟩
abbrev main_v161 : Ref sig .tc := ⟨.hbm, 331, rfl⟩
abbrev main_v162 : Ref sig .tc := ⟨.hbm, 332, rfl⟩
abbrev main_v163 : Ref sig .tc := ⟨.hbm, 333, rfl⟩
abbrev main_v164 : Ref sig .tc := ⟨.hbm, 334, rfl⟩
abbrev main_call12_cst : Ref sig .tc := ⟨.hbm, 335, rfl⟩
abbrev main_call12_v0 : Ref sig .tc := ⟨.hbm, 336, rfl⟩
abbrev main_v165 : Ref sig .tc := ⟨.hbm, 337, rfl⟩
abbrev main_v166 : Ref sig .tc := ⟨.hbm, 338, rfl⟩
abbrev main_v167 : Ref sig .tc := ⟨.hbm, 339, rfl⟩
abbrev main_v168 : Ref sig .tc := ⟨.hbm, 340, rfl⟩
abbrev main_v169 : Ref sig .tc := ⟨.hbm, 341, rfl⟩
abbrev main_v170 : Ref sig .tc := ⟨.hbm, 342, rfl⟩
abbrev main_v171 : Ref sig .tc := ⟨.hbm, 343, rfl⟩
abbrev main_cst_28 : Ref sig .tc := ⟨.hbm, 344, rfl⟩
abbrev main_v172 : Ref sig .tc := ⟨.hbm, 345, rfl⟩
abbrev main_v173 : Ref sig .tc := ⟨.hbm, 346, rfl⟩
abbrev main_cst_29 : Ref sig .tc := ⟨.hbm, 347, rfl⟩
abbrev main_v174 : Ref sig .tc := ⟨.hbm, 348, rfl⟩
abbrev main_v175 : Ref sig .tc := ⟨.hbm, 349, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  bcast_S_S32768x128 : S_.BroadcastsInDim S32768x128 (![] : Fin 0 → Fin S32768x128.rank)
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  reducesTo_S32768x256_S256_d0 : S32768x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S32768x256 : S_.BroadcastsInDim S32768x256 (![] : Fin 0 → Fin S32768x256.rank)
  bcast_S1x256_S524288x256_0_1 : S1x256.BroadcastsInDim S524288x256 (![0, 1] : Fin 2 → Fin S524288x256.rank)
  bcast_S_S524288x256 : S_.BroadcastsInDim S524288x256 (![] : Fin 0 → Fin S524288x256.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  bcast_S_S32768x1 : S_.BroadcastsInDim S32768x1 (![] : Fin 0 → Fin S32768x1.rank)
  shapeCasts_S32768x1_S64x512 : S32768x1.ShapeCasts S64x512
  shapeCasts_S32768x256_S64x512x256 : S32768x256.ShapeCasts S64x512x256
  reducesTo_S64x512x256_S64x256_d1 : S64x512x256.ReducesTo [1] S64x256
  bcast_S_S64x256 : S_.BroadcastsInDim S64x256 (![] : Fin 0 → Fin S64x256.rank)
  bcast_S1x256_S64x256_0_1 : S1x256.BroadcastsInDim S64x256 (![0, 1] : Fin 2 → Fin S64x256.rank)
  reducesTo_S64x256_S256_d0 : S64x256.ReducesTo [0] S256
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  bcast_S_S64x10 : S_.BroadcastsInDim S64x10 (![] : Fin 0 → Fin S64x10.rank)
  gather_S32768x128_S524288x1_S524288x128_1_0_n_n_0_1_1128_wf : GatherDims.WF S32768x128 S524288x1 S524288x128 [1] [0] [] [0] [] 1 ![1, 128]
  dot_S524288x32_S32x128_S524288x128_1_0_0_1_n_n_wf : DotDims.WF S524288x32 S32x128 S524288x128 [1] [0] [0] [1] [] []
  scatter_S32768x128_S524288x1_S524288x128_1_0_0_1_wf : ScatterDims.WF S32768x128 S524288x1 S524288x128 [1] [0] [0] 1
  dot_S32768x128_S128x256_S32768x256_1_0_0_1_n_n_wf : DotDims.WF S32768x128 S128x256 S32768x256 [1] [0] [0] [1] [] []
  gather_S32768x256_S524288x1_S524288x256_1_0_n_n_0_1_1256_wf : GatherDims.WF S32768x256 S524288x1 S524288x256 [1] [0] [] [0] [] 1 ![1, 256]
  dot_S524288x32_S32x256_S524288x256_1_0_0_1_n_n_wf : DotDims.WF S524288x32 S32x256 S524288x256 [1] [0] [0] [1] [] []
  scatter_S32768x256_S524288x1_S524288x256_1_0_0_1_wf : ScatterDims.WF S32768x256 S524288x1 S524288x256 [1] [0] [0] 1
  dot_S32768x256_S256x256_S32768x256_1_0_0_1_n_n_wf : DotDims.WF S32768x256 S256x256 S32768x256 [1] [0] [0] [1] [] []
  dot_S32768x256_S256x1_S32768x1_1_0_0_1_n_n_wf : DotDims.WF S32768x256 S256x1 S32768x1 [1] [0] [0] [1] [] []
  dot_S64x256_S256x256_S64x256_1_0_0_1_n_n_wf : DotDims.WF S64x256 S256x256 S64x256 [1] [0] [0] [1] [] []
  dot_S64x256_S256x10_S64x10_1_0_0_1_n_n_wf : DotDims.WF S64x256 S256x10 S64x10 [1] [0] [0] [1] [] []

variable [Facts₀]

def gather_S32768x128_S524288x1_S524288x128_1_0_n_n_0_1_1128 : GatherDims S32768x128 S524288x1 S524288x128 where
  offsetDims := [1]
  collapsedSliceDims := [0]
  operandBatchingDims := []
  startIndicesBatchingDims := []
  startIndexMap := [0]
  indexVectorDim := 1
  sliceSizes := ![1, 128]
  wf := gather_S32768x128_S524288x1_S524288x128_1_0_n_n_0_1_1128_wf
def dot_S524288x32_S32x128_S524288x128_1_0_0_1_n_n : DotDims S524288x32 S32x128 S524288x128 where
  lhsContracting := [1]
  rhsContracting := [0]
  lhsNonContracting := [0]
  rhsNonContracting := [1]
  lhsBatch := []
  rhsBatch := []
  wf := dot_S524288x32_S32x128_S524288x128_1_0_0_1_n_n_wf
def scatter_S32768x128_S524288x1_S524288x128_1_0_0_1 : ScatterDims S32768x128 S524288x1 S524288x128 where
  updateWindowDims := [1]
  insertedWindowDims := [0]
  scatterDimsToOperandDims := [0]
  indexVectorDim := 1
  wf := scatter_S32768x128_S524288x1_S524288x128_1_0_0_1_wf
def dot_S32768x128_S128x256_S32768x256_1_0_0_1_n_n : DotDims S32768x128 S128x256 S32768x256 where
  lhsContracting := [1]
  rhsContracting := [0]
  lhsNonContracting := [0]
  rhsNonContracting := [1]
  lhsBatch := []
  rhsBatch := []
  wf := dot_S32768x128_S128x256_S32768x256_1_0_0_1_n_n_wf
def gather_S32768x256_S524288x1_S524288x256_1_0_n_n_0_1_1256 : GatherDims S32768x256 S524288x1 S524288x256 where
  offsetDims := [1]
  collapsedSliceDims := [0]
  operandBatchingDims := []
  startIndicesBatchingDims := []
  startIndexMap := [0]
  indexVectorDim := 1
  sliceSizes := ![1, 256]
  wf := gather_S32768x256_S524288x1_S524288x256_1_0_n_n_0_1_1256_wf
def dot_S524288x32_S32x256_S524288x256_1_0_0_1_n_n : DotDims S524288x32 S32x256 S524288x256 where
  lhsContracting := [1]
  rhsContracting := [0]
  lhsNonContracting := [0]
  rhsNonContracting := [1]
  lhsBatch := []
  rhsBatch := []
  wf := dot_S524288x32_S32x256_S524288x256_1_0_0_1_n_n_wf
def scatter_S32768x256_S524288x1_S524288x256_1_0_0_1 : ScatterDims S32768x256 S524288x1 S524288x256 where
  updateWindowDims := [1]
  insertedWindowDims := [0]
  scatterDimsToOperandDims := [0]
  indexVectorDim := 1
  wf := scatter_S32768x256_S524288x1_S524288x256_1_0_0_1_wf
def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf
def dot_S32768x256_S256x1_S32768x1_1_0_0_1_n_n : DotDims S32768x256 S256x1 S32768x1 where
  lhsContracting := [1]
  rhsContracting := [0]
  lhsNonContracting := [0]
  rhsNonContracting := [1]
  lhsBatch := []
  rhsBatch := []
  wf := dot_S32768x256_S256x1_S32768x1_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

class Facts : Prop extends Facts₀ where

variable [Facts]
-- ==== Proof.KRun.lean ====
/-
  The idealized kernel program's run with its two results named.

  The program is seven regions among stretches of host operations. Its run ends with every unscoped buffer of a
  TensorCore at the last fold `W24` of the buffer contents through the segments (a stretch of host operations maps
  the contents by `StableHlo.after`; a region replaces its arrays by what its write-backs leave). Read at the two
  result buffers this names the results; read at the argument buffers it gives the arguments back.
-/
import proofs.«181940_j74397423501381_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the two result buffers at the last
    fold's contents and the argument arrays as launched. -/
theorem run : θ_run defs (onTc (τ := τ) (main (F := F))) ⟨m, fun _ => 0, ρ⟩ (fun r => ∀ c : Dev nD,
      r.2.mem ((c.tc : Thread nD τ).loc main_v101) = W24 m ρ c (Proc.devRef .tc main_v101)
      ∧ r.2.mem ((c.tc : Thread nD τ).loc main_v39) = W24 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c =>
      ⟨h c _ (mem_uc main_v101 (by decide)),
       h c _ (mem_uc main_v39 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c),
       (h c _ (mem_uc main_arg6 (by decide))).trans (W24_main_arg6 m ρ c),
       (h c _ (mem_uc main_arg7 (by decide))).trans (W24_main_arg7 m ρ c),
       (h c _ (mem_uc main_arg8 (by decide))).trans (W24_main_arg8 m ρ c),
       (h c _ (mem_uc main_arg9 (by decide))).trans (W24_main_arg9 m ρ c),
       (h c _ (mem_uc main_arg10 (by decide))).trans (W24_main_arg10 m ρ c),
       (h c _ (mem_uc main_arg11 (by decide))).trans (W24_main_arg11 m ρ c),
       (h c _ (mem_uc main_arg12 (by decide))).trans (W24_main_arg12 m ρ c),
       (h c _ (mem_uc main_arg13 (by decide))).trans (W24_main_arg13 m ρ c),
       (h c _ (mem_uc main_arg14 (by decide))).trans (W24_main_arg14 m ρ c),
       (h c _ (mem_uc main_arg15 (by decide))).trans (W24_main_arg15 m ρ c),
       (h c _ (mem_uc main_arg16 (by decide))).trans (W24_main_arg16 m ρ c),
       (h c _ (mem_uc main_arg17 (by decide))).trans (W24_main_arg17 m ρ c),
       (h c _ (mem_uc main_arg18 (by decide))).trans (W24_main_arg18 m ρ c),
       (h c _ (mem_uc main_arg19 (by decide))).trans (W24_main_arg19 m ρ c),
       (h c _ (mem_uc main_arg20 (by decide))).trans (W24_main_arg20 m ρ c),
       (h c _ (mem_uc main_arg21 (by decide))).trans (W24_main_arg21 m ρ c),
       (h c _ (mem_uc main_arg22 (by decide))).trans (W24_main_arg22 m ρ c),
       (h c _ (mem_uc main_arg23 (by decide))).trans (W24_main_arg23 m ρ c),
       (h c _ (mem_uc main_arg24 (by decide))).trans (W24_main_arg24 m ρ c),
       (h c _ (mem_uc main_arg25 (by decide))).trans (W24_main_arg25 m ρ c),
       (h c _ (mem_uc main_arg26 (by decide))).trans (W24_main_arg26 m ρ c),
       (h c _ (mem_uc main_arg27 (by decide))).trans (W24_main_arg27 m ρ c),
       (h c _ (mem_uc main_arg28 (by decide))).trans (W24_main_arg28 m ρ c),
       (h c _ (mem_uc main_arg29 (by decide))).trans (W24_main_arg29 m ρ c),
       (h c _ (mem_uc main_arg30 (by decide))).trans (W24_main_arg30 m ρ c),
       (h c _ (mem_uc main_arg31 (by decide))).trans (W24_main_arg31 m ρ c)⟩)

end Cert.KernelIdeal.Results

end
-- ==== Proof.KCarry.lean ====
/-
  Buffers that a stretch of the kernel program does not write keep their contents: the argument arrays read at the
  entry of each region and of the last stretch of host operations are the launch contents, and a value computed
  before a region or a stretch that does not write it is still there after it. Each fact walks the fold of the buffer
  contents back one segment at a time: a host operation writes only its own result buffer, a region only its
  output window's array (an input window's array ends as it was found).
-/
import proofs.«181940_j74397423501381_1_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

theorem W1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W1_arg4 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W1_arg5 (c : Dev nD) : W1 m ρ c (Proc.devRef .tc main_arg5) = m ((c : Thread nD τ).loc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W6_arg8 (c : Dev nD) : W6 m ρ c (Proc.devRef .tc main_arg8) = m ((c : Thread nD τ).loc main_arg8) :=
  calc W6 m ρ c (Proc.devRef .tc main_arg8)
    _ = W5 m ρ c (Proc.devRef .tc main_arg8) := StableHlo.after_of_forall_not_mem (b := Proc.devRef .tc main_arg8) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W6_arg9 (c : Dev nD) : W6 m ρ c (Proc.devRef .tc main_arg9) = m ((c : Thread nD τ).loc main_arg9) :=
  calc W6 m ρ c (Proc.devRef .tc main_arg9)
    _ = W5 m ρ c (Proc.devRef .tc main_arg9) := StableHlo.after_of_forall_not_mem (b := Proc.devRef .tc main_arg9) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W8_arg2 (c : Dev nD) : W8 m ρ c (Proc.devRef .tc main_arg2) = m ((c : Thread nD τ).loc main_arg2) :=
  calc W8 m ρ c (Proc.devRef .tc main_arg2)
    _ = W7 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg2) := W7_of_ne m ρ c main_arg2 (by decide)
    _ = W5 m ρ c (Proc.devRef .tc main_arg2) := StableHlo.after_of_forall_not_mem (b := Proc.devRef .tc main_arg2) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 0).trans (((dat0 (V1 m ρ) c).arrAt_in 0 rfl _).trans (A_eq0 (V1 m ρ) c 0))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W8_arg10 (c : Dev nD) : W8 m ρ c (Proc.devRef .tc main_arg10) = m ((c : Thread nD τ).loc main_arg10) :=
  calc W8 m ρ c (Proc.devRef .tc main_arg10)
    _ = W7 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg10) := W7_of_ne m ρ c main_arg10 (by decide)
    _ = W5 m ρ c (Proc.devRef .tc main_arg10) := StableHlo.after_of_forall_not_mem (b := Proc.devRef .tc main_arg10) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W8_arg11 (c : Dev nD) : W8 m ρ c (Proc.devRef .tc main_arg11) = m ((c : Thread nD τ).loc main_arg11) :=
  calc W8 m ρ c (Proc.devRef .tc main_arg11)
    _ = W7 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg11) := W7_of_ne m ρ c main_arg11 (by decide)
    _ = W5 m ρ c (Proc.devRef .tc main_arg11) := StableHlo.after_of_forall_not_mem (b := Proc.devRef .tc main_arg11) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W10_arg12 (c : Dev nD) : W10 m ρ c (Proc.devRef .tc main_arg12) = m ((c : Thread nD τ).loc main_arg12) :=
  calc W10 m ρ c (Proc.devRef .tc main_arg12)
    _ = W9 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg12) := W9_of_ne m ρ c main_arg12 (by decide)
    _ = W7 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg12) := W7_of_ne m ρ c main_arg12 (by decide)
    _ = W5 m ρ c (Proc.devRef .tc main_arg12) := StableHlo.after_of_forall_not_mem (b := Proc.devRef .tc main_arg12) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem W10_arg13 (c : Dev nD) : W10 m ρ c (Proc.devRef .tc main_arg13) = m ((c : Thread nD τ).loc main_arg13) :=
  calc W10 m ρ c (Proc.devRef .tc main_arg13)
    _ = W9 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg13) := W9_of_ne m ρ c main_arg13 (by decide)
    _ = W7 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg13) := W7_of_ne m ρ c main_arg13 (by decide)
    _ = W5 m ρ c (Proc.devRef .tc main_arg13) := StableHlo.after_of_forall_not_mem (b := Proc.devRef .tc main_arg13) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem W13_arg14 (c : Dev nD) : W13 m ρ c (Proc.devRef .tc main_arg14) = m ((c : Thread nD τ).loc main_arg14) :=
  calc W13 m ρ c (Proc.devRef .tc main_arg14)
    _ = W12 m ρ c (Proc.devRef .tc main_arg14) := StableHlo.after_of_forall_not_mem (b := Proc.devRef .tc main_arg14) _ _ (List.forall_iff_forall_mem.mp (by
          simp only [hostOps5_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg14) := StableHlo.after_of_forall_not_mem (b := Proc.devRef .tc main_arg14) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg14) := W11_of_ne m ρ c main_arg14 (by decide)
    _ = W9 m ρ c (Proc.devRef .tc main_arg14) := StableHlo.after_of_forall_not_mem (b := Proc.devRef .tc main_arg14) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg14) := W9_of_ne m ρ c main_arg14 (by decide)
    _ = W7 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg14) := W7_of_ne m ρ c main_arg14 (by decide)
    _ = W5 m ρ c (Proc.devRef .tc main_arg14) := StableHlo.after_of_forall_not_mem (b := Proc.devRef .tc main_arg14) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem W13_arg15 (c : Dev nD) : W13 m ρ c (Proc.devRef .tc main_arg15) = m ((c : Thread nD τ).loc main_arg15) :=
  calc W13 m ρ c (Proc.devRef .tc main_arg15)
    _ = W12 m ρ c (Proc.devRef .tc main_arg15) := StableHlo.after_of_forall_not_mem (b := Proc.devRef .tc main_arg15) _ _ (List.forall_iff_forall_mem.mp (by
          simp only [hostOps5_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg15) := StableHlo.after_of_forall_not_mem (b := Proc.devRef .tc main_arg15) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg15) := W11_of_ne m ρ c main_arg15 (by decide)
    _ = W9 m ρ c (Proc.devRef .tc main_arg15) := StableHlo.after_of_forall_not_mem (b := Proc.devRef .tc main_arg15) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg15) := W9_of_ne m ρ c main_arg15 (by decide)
    _ = W7 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg15) := W7_of_ne m ρ c main_arg15 (by decide)
    _ = W5 m ρ c (Proc.devRef .tc main_arg15) := StableHlo.after_of_forall_not_mem (b := Proc.devRef .tc main_arg15) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

theorem W14_arg16 (c : Dev nD) : W14 m ρ c (Proc.devRef .tc main_arg16) = m ((c : Thread nD τ).loc main_arg16) :=
  calc W14 m ρ c (Proc.devRef .tc main_arg16)
    _ = W13 m ρ c (Proc.devRef .tc main_arg16) := W14_of_ne m ρ c main_arg16 (by decide)
    _ = W12 m ρ c (Proc.devRef .tc main_arg16) := StableHlo.after_of_forall_not_mem (b := Proc.devRef .tc main_arg16) _ _ (List.forall_iff_forall_mem.mp (by
          simp only [hostOps5_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg16) := StableHlo.after_of_forall_not_mem (b := Proc.devRef .tc main_arg16) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg16) := W11_of_ne m ρ c main_arg16 (by decide)
    _ = W9 m ρ c (Proc.devRef .tc main_arg16) := StableHlo.after_of_forall_not_mem (b := Proc.devRef .tc main_arg16) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg16) := W9_of_ne m ρ c main_arg16 (by decide)
    _ = W7 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg16) := W7_of_ne m ρ c main_arg16 (by decide)
    _ = W5 m ρ c (Proc.devRef .tc main_arg16) := StableHlo.after_of_forall_not_mem (b := Proc.devRef .tc main_arg16) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

theorem W14_arg17 (c : Dev nD) : W14 m ρ c (Proc.devRef .tc main_arg17) = m ((c : Thread nD τ).loc main_arg17) :=
  calc W14 m ρ c (Proc.devRef .tc main_arg17)
    _ = W13 m ρ c (Proc.devRef .tc main_arg17) := W14_of_ne m ρ c main_arg17 (by decide)
    _ = W12 m ρ c (Proc.devRef .tc main_arg17) := StableHlo.after_of_forall_not_mem (b := Proc.devRef .tc main_arg17) _ _ (List.forall_iff_forall_mem.mp (by
          simp only [hostOps5_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg17) := StableHlo.after_of_forall_not_mem (b := Proc.devRef .tc main_arg17) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg17) := W11_of_ne m ρ c main_arg17 (by decide)
    _ = W9 m ρ c (Proc.devRef .tc main_arg17) := StableHlo.after_of_forall_not_mem (b := Proc.devRef .tc main_arg17) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg17) := W9_of_ne m ρ c main_arg17 (by decide)
    _ = W7 m ρ c (Proc.devRef .tc main_arg17) := StableHlo.after_of_forall_not_mem (b := Proc.devRef .tc main_arg17) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg17) := W7_of_ne m ρ c main_arg17 (by decide)
    _ = W5 m ρ c (Proc.devRef .tc main_arg17) := StableHlo.after_of_forall_not_mem (b := Proc.devRef .tc main_arg17) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

theorem W14_arg18 (c : Dev nD) : W14 m ρ c (Proc.devRef .tc main_arg18) = m ((c : Thread nD τ).loc main_arg18) :=
  calc W14 m ρ c (Proc.devRef .tc main_arg18)
    _ = W13 m ρ c (Proc.devRef .tc main_arg18) := W14_of_ne m ρ c main_arg18 (by decide)
    _ = W12 m ρ c (Proc.devRef .tc main_arg18) := StableHlo.after_of_forall_not_mem (b := Proc.devRef .tc main_arg18) _ _ (List.forall_iff_forall_mem.mp (by
          simp only [hostOps5_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg18) := StableHlo.after_of_forall_not_mem (b := Proc.devRef .tc main_arg18) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg18) := W11_of_ne m ρ c main_arg18 (by decide)
    _ = W9 m ρ c (Proc.devRef .tc main_arg18) := StableHlo.after_of_forall_not_mem (b := Proc.devRef .tc main_arg18) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg18) := W9_of_ne m ρ c main_arg18 (by decide)
    _ = W7 m ρ c (Proc.devRef .tc main_arg18) := StableHlo.after_of_forall_not_mem (b := Proc.devRef .tc main_arg18) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg18) := W7_of_ne m ρ c main_arg18 (by decide)
    _ = W5 m ρ c (Proc.devRef .tc main_arg18) := StableHlo.after_of_forall_not_mem (b := Proc.devRef .tc main_arg18) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg18) := StableHlo.after_of_forall_not_mem (b := Proc.devRef .tc main_arg18) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg18) := rfl

theorem W14_arg19 (c : Dev nD) : W14 m ρ c (Proc.devRef .tc main_arg19) = m ((c : Thread nD τ).loc main_arg19) :=
  calc W14 m ρ c (Proc.devRef .tc main_arg19)
    _ = W13 m ρ c (Proc.devRef .tc main_arg19) := W14_of_ne m ρ c main_arg19 (by decide)
    _ = W12 m ρ c (Proc.devRef .tc main_arg19) := StableHlo.after_of_forall_not_mem (b := Proc.devRef .tc main_arg19) _ _ (List.forall_iff_forall_mem.mp (by
          simp only [hostOps5_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg19) := StableHlo.after_of_forall_not_mem (b := Proc.devRef .tc main_arg19) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg19) := W11_of_ne m ρ c main_arg19 (by decide)
    _ = W9 m ρ c (Proc.devRef .tc main_arg19) := StableHlo.after_of_forall_not_mem (b := Proc.devRef .tc main_arg19) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg19) := W9_of_ne m ρ c main_arg19 (by decide)
    _ = W7 m ρ c (Proc.devRef .tc main_arg19) := StableHlo.after_of_forall_not_mem (b := Proc.devRef .tc main_arg19) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg19) := W7_of_ne m ρ c main_arg19 (by decide)
    _ = W5 m ρ c (Proc.devRef .tc main_arg19) := StableHlo.after_of_forall_not_mem (b := Proc.devRef .tc main_arg19) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg19) := StableHlo.after_of_forall_not_mem (b := Proc.devRef .tc main_arg19) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg19) := rfl

theorem W14_arg20 (c : Dev nD) : W14 m ρ c (Proc.devRef .tc main_arg20) = m ((c : Thread nD τ).loc main_arg20) :=
  calc W14 m ρ c (Proc.devRef .tc main_arg20)
    _ = W13 m ρ c (Proc.devRef .tc main_arg20) := W14_of_ne m ρ c main_arg20 (by decide)
    _ = W12 m ρ c (Proc.devRef .tc main_arg20) := StableHlo.after_of_forall_not_mem (b := Proc.devRef .tc main_arg20) _ _ (List.forall_iff_forall_mem.mp (by
          simp only [hostOps5_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg20) := StableHlo.after_of_forall_not_mem (b := Proc.devRef .tc main_arg20) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg20) := W11_of_ne m ρ c main_arg20 (by decide)
    _ = W9 m ρ c (Proc.devRef .tc main_arg20) := StableHlo.after_of_forall_not_mem (b := Proc.devRef .tc main_arg20) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg20) := W9_of_ne m ρ c main_arg20 (by decide)
    _ = W7 m ρ c (Proc.devRef .tc main_arg20) := StableHlo.after_of_forall_not_mem (b := Proc.devRef .tc main_arg20) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg20) := W7_of_ne m ρ c main_arg20 (by decide)
    _ = W5 m ρ c (Proc.devRef .tc main_arg20) := StableHlo.after_of_forall_not_mem (b := Proc.devRef .tc main_arg20) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg20) := StableHlo.after_of_forall_not_mem (b := Proc.devRef .tc main_arg20) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg20) := W4_of_ne m ρ c main_arg20 (by decide)
    _ = W2 m ρ c (Proc.devRef .tc main_arg20) := StableHlo.after_of_forall_not_mem (b := Proc.devRef .tc main_arg20) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg20) := W2_of_ne m ρ c main_arg20 (by decide)
    _ = W0 m ρ c (Proc.devRef .tc main_arg20) := StableHlo.after_of_forall_not_mem (b := Proc.devRef .tc main_arg20) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg20) := rfl

theorem W14_arg21 (c : Dev nD) : W14 m ρ c (Proc.devRef .tc main_arg21) = m ((c : Thread nD τ).loc main_arg21) :=
  calc W14 m ρ c (Proc.devRef .tc main_arg21)
    _ = W13 m ρ c (Proc.devRef .tc main_arg21) := W14_of_ne m ρ c main_arg21 (by decide)
    _ = W12 m ρ c (Proc.devRef .tc main_arg21) := StableHlo.after_of_forall_not_mem (b := Proc.devRef .tc main_arg21) _ _ (List.forall_iff_forall_mem.mp (by
          simp only [hostOps5_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg21) := StableHlo.after_of_forall_not_mem (b := Proc.devRef .tc main_arg21) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg21) := W11_of_ne m ρ c main_arg21 (by decide)
    _ = W9 m ρ c (Proc.devRef .tc main_arg21) := StableHlo.after_of_forall_not_mem (b := Proc.devRef .tc main_arg21) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg21) := W9_of_ne m ρ c main_arg21 (by decide)
    _ = W7 m ρ c (Proc.devRef .tc main_arg21) := StableHlo.after_of_forall_not_mem (b := Proc.devRef .tc main_arg21) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg21) := W7_of_ne m ρ c main_arg21 (by decide)
    _ = W5 m ρ c (Proc.devRef .tc main_arg21) := StableHlo.after_of_forall_not_mem (b := Proc.devRef .tc main_arg21) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg21) := StableHlo.after_of_forall_not_mem (b := Proc.devRef .tc main_arg21) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg21) := W4_of_ne m ρ c main_arg21 (by decide)
    _ = W2 m ρ c (Proc.devRef .tc main_arg21) := StableHlo.after_of_forall_not_mem (b := Proc.devRef .tc main_arg21) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg21) := W2_of_ne m ρ c main_arg21 (by decide)
    _ = W0 m ρ c (Proc.devRef .tc main_arg21) := StableHlo.after_of_forall_not_mem (b := Proc.devRef .tc main_arg21) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg21) := rfl

theorem W15_arg22 (c : Dev nD) : W15 m ρ c (Proc.devRef .tc main_arg22) = m ((c : Thread nD τ).loc main_arg22) :=
  calc W15 m ρ c (Proc.devRef .tc main_arg22)
    _ = W14 m ρ c (Proc.devRef .tc main_arg22) := W15_of_ne m ρ c main_arg22 (by decide)
    _ = W13 m ρ c (Proc.devRef .tc main_arg22) := W14_of_ne m ρ c main_arg22 (by decide)
    _ = W12 m ρ c (Proc.devRef .tc main_arg22) := StableHlo.after_of_forall_not_mem (b := Proc.devRef .tc main_arg22) _ _ (List.forall_iff_forall_mem.mp (by
          simp only [hostOps5_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg22) := StableHlo.after_of_forall_not_mem (b := Proc.devRef .tc main_arg22) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg22) := W11_of_ne m ρ c main_arg22 (by decide)
    _ = W9 m ρ c (Proc.devRef .tc main_arg22) := StableHlo.after_of_forall_not_mem (b := Proc.devRef .tc main_arg22) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg22) := W9_of_ne m ρ c main_arg22 (by decide)
    _ = W7 m ρ c (Proc.devRef .tc main_arg22) := StableHlo.after_of_forall_not_mem (b := Proc.devRef .tc main_arg22) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg22) := W7_of_ne m ρ c main_arg22 (by decide)
    _ = W5 m ρ c (Proc.devRef .tc main_arg22) := StableHlo.after_of_forall_not_mem (b := Proc.devRef .tc main_arg22) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg22) := StableHlo.after_of_forall_not_mem (b := Proc.devRef .tc main_arg22) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg22) := W4_of_ne m ρ c main_arg22 (by decide)
    _ = W2 m ρ c (Proc.devRef .tc main_arg22) := StableHlo.after_of_forall_not_mem (b := Proc.devRef .tc main_arg22) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg22) := W2_of_ne m ρ c main_arg22 (by decide)
    _ = W0 m ρ c (Proc.devRef .tc main_arg22) := StableHlo.after_of_forall_not_mem (b := Proc.devRef .tc main_arg22) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg22) := rfl

theorem W15_arg23 (c : Dev nD) : W15 m ρ c (Proc.devRef .tc main_arg23) = m ((c : Thread nD τ).loc main_arg23) :=
  calc W15 m ρ c (Proc.devRef .tc main_arg23)
    _ = W14 m ρ c (Proc.devRef .tc main_arg23) := W15_of_ne m ρ c main_arg23 (by decide)
    _ = W13 m ρ c (Proc.devRef .tc main_arg23) := W14_of_ne m ρ c main_arg23 (by decide)
    _ = W12 m ρ c (Proc.devRef .tc main_arg23) := StableHlo.after_of_forall_not_mem (b := Proc.devRef .tc main_arg23) _ _ (List.forall_iff_forall_mem.mp (by
          simp only [hostOps5_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg23) := StableHlo.after_of_forall_not_mem (b := Proc.devRef .tc main_arg23) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg23) := W11_of_ne m ρ c main_arg23 (by decide)
    _ = W9 m ρ c (Proc.devRef .tc main_arg23) := StableHlo.after_of_forall_not_mem (b := Proc.devRef .tc main_arg23) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg23) := W9_of_ne m ρ c main_arg23 (by decide)
    _ = W7 m ρ c (Proc.devRef .tc main_arg23) := StableHlo.after_of_forall_not_mem (b := Proc.devRef .tc main_arg23) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg23) := W7_of_ne m ρ c main_arg23 (by decide)
    _ = W5 m ρ c (Proc.devRef .tc main_arg23) := StableHlo.after_of_forall_not_mem (b := Proc.devRef .tc main_arg23) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg23) := StableHlo.after_of_forall_not_mem (b := Proc.devRef .tc main_arg23) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg23) := W4_of_ne m ρ c main_arg23 (by decide)
    _ = W2 m ρ c (Proc.devRef .tc main_arg23) := StableHlo.after_of_forall_not_mem (b := Proc.devRef .tc main_arg23) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg23) := W2_of_ne m ρ c main_arg23 (by decide)
    _ = W0 m ρ c (Proc.devRef .tc main_arg23) := StableHlo.after_of_forall_not_mem (b := Proc.devRef .tc main_arg23) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg23) := rfl

theorem W15_arg24 (c : Dev nD) : W15 m ρ c (Proc.devRef .tc main_arg24) = m ((c : Thread nD τ).loc main_arg24) :=
  calc W15 m ρ c (Proc.devRef .tc main_arg24)
    _ = W14 m ρ c (Proc.devRef .tc main_arg24) := W15_of_ne m ρ c main_arg24 (by decide)
    _ = W13 m ρ c (Proc.devRef .tc main_arg24) := W14_of_ne m ρ c main_arg24 (by decide)
    _ = W12 m ρ c (Proc.devRef .tc main_arg24) := StableHlo.after_of_forall_not_mem (b := Proc.devRef .tc main_arg24) _ _ (List.forall_iff_forall_mem.mp (by
          simp only [hostOps5_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg24) := StableHlo.after_of_forall_not_mem (b := Proc.devRef .tc main_arg24) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg24) := W11_of_ne m ρ c main_arg24 (by decide)
    _ = W9 m ρ c (Proc.devRef .tc main_arg24) := StableHlo.after_of_forall_not_mem (b := Proc.devRef .tc main_arg24) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg24) := W9_of_ne m ρ c main_arg24 (by decide)
    _ = W7 m ρ c (Proc.devRef .tc main_arg24) := StableHlo.after_of_forall_not_mem (b := Proc.devRef .tc main_arg24) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg24) := W7_of_ne m ρ c main_arg24 (by decide)
    _ = W5 m ρ c (Proc.devRef .tc main_arg24) := StableHlo.after_of_forall_not_mem (b := Proc.devRef .tc main_arg24) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg24) := StableHlo.after_of_forall_not_mem (b := Proc.devRef .tc main_arg24) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg24) := W4_of_ne m ρ c main_arg24 (by decide)
    _ = W2 m ρ c (Proc.devRef .tc main_arg24) := StableHlo.after_of_forall_not_mem (b := Proc.devRef .tc main_arg24) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg24) := W2_of_ne m ρ c main_arg24 (by decide)
    _ = W0 m ρ c (Proc.devRef .tc main_arg24) := StableHlo.after_of_forall_not_mem (b := Proc.devRef .tc main_arg24) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg24) := rfl

theorem W15_arg25 (c : Dev nD) : W15 m ρ c (Proc.devRef .tc main_arg25) = m ((c : Thread nD τ).loc main_arg25) :=
  calc W15 m ρ c (Proc.devRef .tc main_arg25)
    _ = W14 m ρ c (Proc.devRef .tc main_arg25) := W15_of_ne m ρ c main_arg25 (by decide)
    _ = W13 m ρ c (Proc.devRef .tc main_arg25) := W14_of_ne m ρ c main_arg25 (by decide)
    _ = W12 m ρ c (Proc.devRef .tc main_arg25) := StableHlo.after_of_forall_not_mem (b := Proc.devRef .tc main_arg25) _ _ (List.forall_iff_forall_mem.mp (by
          simp only [hostOps5_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg25) := StableHlo.after_of_forall_not_mem (b := Proc.devRef .tc main_arg25) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg25) := W11_of_ne m ρ c main_arg25 (by decide)
    _ = W9 m ρ c (Proc.devRef .tc main_arg25) := StableHlo.after_of_forall_not_mem (b := Proc.devRef .tc main_arg25) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg25) := W9_of_ne m ρ c main_arg25 (by decide)
    _ = W7 m ρ c (Proc.devRef .tc main_arg25) := StableHlo.after_of_forall_not_mem (b := Proc.devRef .tc main_arg25) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg25) := W7_of_ne m ρ c main_arg25 (by decide)
    _ = W5 m ρ c (Proc.devRef .tc main_arg25) := StableHlo.after_of_forall_not_mem (b := Proc.devRef .tc main_arg25) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg25) := StableHlo.after_of_forall_not_mem (b := Proc.devRef .tc main_arg25) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg25) := W4_of_ne m ρ c main_arg25 (by decide)
    _ = W2 m ρ c (Proc.devRef .tc main_arg25) := StableHlo.after_of_forall_not_mem (b := Proc.devRef .tc main_arg25) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg25) := W2_of_ne m ρ c main_arg25 (by decide)
    _ = W0 m ρ c (Proc.devRef .tc main_arg25) := StableHlo.after_of_forall_not_mem (b := Proc.devRef .tc main_arg25) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg25) := rfl

theorem W15_arg26 (c : Dev nD) : W15 m ρ c (Proc.devRef .tc main_arg26) = m ((c : Thread nD τ).loc main_arg26) :=
  calc W15 m ρ c (Proc.devRef .tc main_arg26)
    _ = W14 m ρ c (Proc.devRef .tc main_arg26) := W15_of_ne m ρ c main_arg26 (by decide)
    _ = W13 m ρ c (Proc.devRef .tc main_arg26) := W14_of_ne m ρ c main_arg26 (by decide)
    _ = W12 m ρ c (Proc.devRef .tc main_arg26) := StableHlo.after_of_forall_not_mem (b := Proc.devRef .tc main_arg26) _ _ (List.forall_iff_forall_mem.mp (by
          simp only [hostOps5_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg26) := StableHlo.after_of_forall_not_mem (b := Proc.devRef .tc main_arg26) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg26) := W11_of_ne m ρ c main_arg26 (by decide)
    _ = W9 m ρ c (Proc.devRef .tc main_arg26) := StableHlo.after_of_forall_not_mem (b := Proc.devRef .tc main_arg26) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg26) := W9_of_ne m ρ c main_arg26 (by decide)
    _ = W7 m ρ c (Proc.devRef .tc main_arg26) := StableHlo.after_of_forall_not_mem (b := Proc.devRef .tc main_arg26) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg26) := W7_of_ne m ρ c main_arg26 (by decide)
    _ = W5 m ρ c (Proc.devRef .tc main_arg26) := StableHlo.after_of_forall_not_mem (b := Proc.devRef .tc main_arg26) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg26) := StableHlo.after_of_forall_not_mem (b := Proc.devRef .tc main_arg26) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg26) := W4_of_ne m ρ c main_arg26 (by decide)
    _ = W2 m ρ c (Proc.devRef .tc main_arg26) := StableHlo.after_of_forall_not_mem (b := Proc.devRef .tc main_arg26) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg26) := W2_of_ne m ρ c main_arg26 (by decide)
    _ = W0 m ρ c (Proc.devRef .tc main_arg26) := StableHlo.after_of_forall_not_mem (b := Proc.devRef .tc main_arg26) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg26) := rfl

theorem W15_arg27 (c : Dev nD) : W15 m ρ c (Proc.devRef .tc main_arg27) = m ((c : Thread nD τ).loc main_arg27) :=
  calc W15 m ρ c (Proc.devRef .tc main_arg27)
    _ = W14 m ρ c (Proc.devRef .tc main_arg27) := W15_of_ne m ρ c main_arg27 (by decide)
    _ = W13 m ρ c (Proc.devRef .tc main_arg27) := W14_of_ne m ρ c main_arg27 (by decide)
    _ = W12 m ρ c (Proc.devRef .tc main_arg27) := StableHlo.after_of_forall_not_mem (b := Proc.devRef .tc main_arg27) _ _ (List.forall_iff_forall_mem.mp (by
          simp only [hostOps5_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg27) := StableHlo.after_of_forall_not_mem (b := Proc.devRef .tc main_arg27) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg27) := W11_of_ne m ρ c main_arg27 (by decide)
    _ = W9 m ρ c (Proc.devRef .tc main_arg27) := StableHlo.after_of_forall_not_mem (b := Proc.devRef .tc main_arg27) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg27) := W9_of_ne m ρ c main_arg27 (by decide)
    _ = W7 m ρ c (Proc.devRef .tc main_arg27) := StableHlo.after_of_forall_not_mem (b := Proc.devRef .tc main_arg27) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg27) := W7_of_ne m ρ c main_arg27 (by decide)
    _ = W5 m ρ c (Proc.devRef .tc main_arg27) := StableHlo.after_of_forall_not_mem (b := Proc.devRef .tc main_arg27) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg27) := StableHlo.after_of_forall_not_mem (b := Proc.devRef .tc main_arg27) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg27) := W4_of_ne m ρ c main_arg27 (by decide)
    _ = W2 m ρ c (Proc.devRef .tc main_arg27) := StableHlo.after_of_forall_not_mem (b := Proc.devRef .tc main_arg27) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg27) := W2_of_ne m ρ c main_arg27 (by decide)
    _ = W0 m ρ c (Proc.devRef .tc main_arg27) := StableHlo.after_of_forall_not_mem (b := Proc.devRef .tc main_arg27) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg27) := rfl

theorem W15_arg28 (c : Dev nD) : W15 m ρ c (Proc.devRef .tc main_arg28) = m ((c : Thread nD τ).loc main_arg28) :=
  calc W15 m ρ c (Proc.devRef .tc main_arg28)
    _ = W14 m ρ c (Proc.devRef .tc main_arg28) := W15_of_ne m ρ c main_arg28 (by decide)
    _ = W13 m ρ c (Proc.devRef .tc main_arg28) := W14_of_ne m ρ c main_arg28 (by decide)
    _ = W12 m ρ c (Proc.devRef .tc main_arg28) := StableHlo.after_of_forall_not_mem (b := Proc.devRef .tc main_arg28) _ _ (List.forall_iff_forall_mem.mp (by
          simp only [hostOps5_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg28) := StableHlo.after_of_forall_not_mem (b := Proc.devRef .tc main_arg28) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg28) := W11_of_ne m ρ c main_arg28 (by decide)
    _ = W9 m ρ c (Proc.devRef .tc main_arg28) := StableHlo.after_of_forall_not_mem (b := Proc.devRef .tc main_arg28) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg28) := W9_of_ne m ρ c main_arg28 (by decide)
    _ = W7 m ρ c (Proc.devRef .tc main_arg28) := StableHlo.after_of_forall_not_mem (b := Proc.devRef .tc main_arg28) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg28) := W7_of_ne m ρ c main_arg28 (by decide)
    _ = W5 m ρ c (Proc.devRef .tc main_arg28) := StableHlo.after_of_forall_not_mem (b := Proc.devRef .tc main_arg28) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg28) := StableHlo.after_of_forall_not_mem (b := Proc.devRef .tc main_arg28) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg28) := W4_of_ne m ρ c main_arg28 (by decide)
    _ = W2 m ρ c (Proc.devRef .tc main_arg28) := StableHlo.after_of_forall_not_mem (b := Proc.devRef .tc main_arg28) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg28) := W2_of_ne m ρ c main_arg28 (by decide)
    _ = W0 m ρ c (Proc.devRef .tc main_arg28) := StableHlo.after_of_forall_not_mem (b := Proc.devRef .tc main_arg28) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg28) := rfl

theorem W15_arg29 (c : Dev nD) : W15 m ρ c (Proc.devRef .tc main_arg29) = m ((c : Thread nD τ).loc main_arg29) :=
  calc W15 m ρ c (Proc.devRef .tc main_arg29)
    _ = W14 m ρ c (Proc.devRef .tc main_arg29) := W15_of_ne m ρ c main_arg29 (by decide)
    _ = W13 m ρ c (Proc.devRef .tc main_arg29) := W14_of_ne m ρ c main_arg29 (by decide)
    _ = W12 m ρ c (Proc.devRef .tc main_arg29) := StableHlo.after_of_forall_not_mem (b := Proc.devRef .tc main_arg29) _ _ (List.forall_iff_forall_mem.mp (by
          simp only [hostOps5_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg29) := StableHlo.after_of_forall_not_mem (b := Proc.devRef .tc main_arg29) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg29) := W11_of_ne m ρ c main_arg29 (by decide)
    _ = W9 m ρ c (Proc.devRef .tc main_arg29) := StableHlo.after_of_forall_not_mem (b := Proc.devRef .tc main_arg29) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg29) := W9_of_ne m ρ c main_arg29 (by decide)
    _ = W7 m ρ c (Proc.devRef .tc main_arg29) := StableHlo.after_of_forall_not_mem (b := Proc.devRef .tc main_arg29) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg29) := W7_of_ne m ρ c main_arg29 (by decide)
    _ = W5 m ρ c (Proc.devRef .tc main_arg29) := StableHlo.after_of_forall_not_mem (b := Proc.devRef .tc main_arg29) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg29) := StableHlo.after_of_forall_not_mem (b := Proc.devRef .tc main_arg29) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg29) := W4_of_ne m ρ c main_arg29 (by decide)
    _ = W2 m ρ c (Proc.devRef .tc main_arg29) := StableHlo.after_of_forall_not_mem (b := Proc.devRef .tc main_arg29) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg29) := W2_of_ne m ρ c main_arg29 (by decide)
    _ = W0 m ρ c (Proc.devRef .tc main_arg29) := StableHlo.after_of_forall_not_mem (b := Proc.devRef .tc main_arg29) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg29) := rfl

theorem W15_arg30 (c : Dev nD) : W15 m ρ c (Proc.devRef .tc main_arg30) = m ((c : Thread nD τ).loc main_arg30) :=
  calc W15 m ρ c (Proc.devRef .tc main_arg30)
    _ = W14 m ρ c (Proc.devRef .tc main_arg30) := W15_of_ne m ρ c main_arg30 (by decide)
    _ = W13 m ρ c (Proc.devRef .tc main_arg30) := W14_of_ne m ρ c main_arg30 (by decide)
    _ = W12 m ρ c (Proc.devRef .tc main_arg30) := StableHlo.after_of_forall_not_mem (b := Proc.devRef .tc main_arg30) _ _ (List.forall_iff_forall_mem.mp (by
          simp only [hostOps5_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg30) := StableHlo.after_of_forall_not_mem (b := Proc.devRef .tc main_arg30) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg30) := W11_of_ne m ρ c main_arg30 (by decide)
    _ = W9 m ρ c (Proc.devRef .tc main_arg30) := StableHlo.after_of_forall_not_mem (b := Proc.devRef .tc main_arg30) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg30) := W9_of_ne m ρ c main_arg30 (by decide)
    _ = W7 m ρ c (Proc.devRef .tc main_arg30) := StableHlo.after_of_forall_not_mem (b := Proc.devRef .tc main_arg30) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg30) := W7_of_ne m ρ c main_arg30 (by decide)
    _ = W5 m ρ c (Proc.devRef .tc main_arg30) := StableHlo.after_of_forall_not_mem (b := Proc.devRef .tc main_arg30) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg30) := StableHlo.after_of_forall_not_mem (b := Proc.devRef .tc main_arg30) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg30) := W4_of_ne m ρ c main_arg30 (by decide)
    _ = W2 m ρ c (Proc.devRef .tc main_arg30) := StableHlo.after_of_forall_not_mem (b := Proc.devRef .tc main_arg30) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg30) := W2_of_ne m ρ c main_arg30 (by decide)
    _ = W0 m ρ c (Proc.devRef .tc main_arg30) := StableHlo.after_of_forall_not_mem (b := Proc.devRef .tc main_arg30) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg30) := rfl

theorem W15_arg31 (c : Dev nD) : W15 m ρ c (Proc.devRef .tc main_arg31) = m ((c : Thread nD τ).loc main_arg31) :=
  calc W15 m ρ c (Proc.devRef .tc main_arg31)
    _ = W14 m ρ c (Proc.devRef .tc main_arg31) := W15_of_ne m ρ c main_arg31 (by decide)
    _ = W13 m ρ c (Proc.devRef .tc main_arg31) := W14_of_ne m ρ c main_arg31 (by decide)
    _ = W12 m ρ c (Proc.devRef .tc main_arg31) := StableHlo.after_of_forall_not_mem (b := Proc.devRef .tc main_arg31) _ _ (List.forall_iff_forall_mem.mp (by
          simp only [hostOps5_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg31) := StableHlo.after_of_forall_not_mem (b := Proc.devRef .tc main_arg31) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg31) := W11_of_ne m ρ c main_arg31 (by decide)
    _ = W9 m ρ c (Proc.devRef .tc main_arg31) := StableHlo.after_of_forall_not_mem (b := Proc.devRef .tc main_arg31) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg31) := W9_of_ne m ρ c main_arg31 (by decide)
    _ = W7 m ρ c (Proc.devRef .tc main_arg31) := StableHlo.after_of_forall_not_mem (b := Proc.devRef .tc main_arg31) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg31) := W7_of_ne m ρ c main_arg31 (by decide)
    _ = W5 m ρ c (Proc.devRef .tc main_arg31) := StableHlo.after_of_forall_not_mem (b := Proc.devRef .tc main_arg31) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg31) := StableHlo.after_of_forall_not_mem (b := Proc.devRef .tc main_arg31) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg31) := W4_of_ne m ρ c main_arg31 (by decide)
    _ = W2 m ρ c (Proc.devRef .tc main_arg31) := StableHlo.after_of_forall_not_mem (b := Proc.devRef .tc main_arg31) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg31) := W2_of_ne m ρ c main_arg31 (by decide)
    _ = W0 m ρ c (Proc.devRef .tc main_arg31) := StableHlo.after_of_forall_not_mem (b := Proc.devRef .tc main_arg31) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg31) := rfl

theorem W2_v3_from1 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem W7_v1_from1 (c : Dev nD) : W7 m ρ c (Proc.devRef .tc main_v1) = W1 m ρ c (Proc.devRef .tc main_v1) :=
  calc W7 m ρ c (Proc.devRef .tc main_v1)
    _ = W6 m ρ c (Proc.devRef .tc main_v1) := W7_of_ne m ρ c main_v1 (by decide)
    _ = W5 m ρ c (Proc.devRef .tc main_v1) := StableHlo.after_of_forall_not_mem (b := Proc.devRef .tc main_v1) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem W9_v3_from1 (c : Dev nD) : W9 m ρ c (Proc.devRef .tc main_v3) = W1 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := StableHlo.after_of_forall_not_mem (b := Proc.devRef .tc main_v3) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v3) := W7_of_ne m ρ c main_v3 (by decide)
    _ = W5 m ρ c (Proc.devRef .tc main_v3) := StableHlo.after_of_forall_not_mem (b := Proc.devRef .tc main_v3) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem W6_v15_from4 (c : Dev nD) : W6 m ρ c (Proc.devRef .tc main_v15) = W4 m ρ c (Proc.devRef .tc main_v15) :=
  calc W6 m ρ c (Proc.devRef .tc main_v15)
    _ = W5 m ρ c (Proc.devRef .tc main_v15) := StableHlo.after_of_forall_not_mem (b := Proc.devRef .tc main_v15) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v15) := StableHlo.after_of_forall_not_mem (b := Proc.devRef .tc main_v15) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W10_v20_from7 (c : Dev nD) : W10 m ρ c (Proc.devRef .tc main_v20) = W7 m ρ c (Proc.devRef .tc main_v20) :=
  calc W10 m ρ c (Proc.devRef .tc main_v20)
    _ = W9 m ρ c (Proc.devRef .tc main_v20) := StableHlo.after_of_forall_not_mem (b := Proc.devRef .tc main_v20) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v20) := W9_of_ne m ρ c main_v20 (by decide)
    _ = W7 m ρ c (Proc.devRef .tc main_v20) := StableHlo.after_of_forall_not_mem (b := Proc.devRef .tc main_v20) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W13_v32_from11 (c : Dev nD) : W13 m ρ c (Proc.devRef .tc main_v32) = W11 m ρ c (Proc.devRef .tc main_v32) :=
  calc W13 m ρ c (Proc.devRef .tc main_v32)
    _ = W12 m ρ c (Proc.devRef .tc main_v32) := StableHlo.after_of_forall_not_mem (b := Proc.devRef .tc main_v32) _ _ (List.forall_iff_forall_mem.mp (by
          simp only [hostOps5_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v32) := StableHlo.after_of_forall_not_mem (b := Proc.devRef .tc main_v32) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W15_v37_from14 (c : Dev nD) : W15 m ρ c (Proc.devRef .tc main_v37) = W14 m ρ c (Proc.devRef .tc main_v37) :=
  calc W15 m ρ c (Proc.devRef .tc main_v37)
    _ = W14 m ρ c (Proc.devRef .tc main_v37) := (W15_arr m ρ c 0).trans (((dat6 (V14 m ρ) c).arrAt_in 0 rfl _).trans (A_eq6 (V14 m ρ) c 0))

end Cert.KernelIdeal.Carry

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«181940_j74397423501381_1_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.LibPlainProduct.lean ====
/-
  A matrix unit's product with the plain dimension numbers, read on the extended reals — general in the
  extents M, K, N.

  The plain dimension numbers contract the second axis of an [M, K] left operand against the first axis of a
  [K, N] right operand, with no batch axis. At an output index (r, j) and contraction coordinate k the two
  operand indices are then (r, k) and (k, j), so the product accumulated into the zero array is, entry by entry,
  the sum over k of l (r, k) · w (k, j): the array `rowsTimes l w`. The same holds of any record of dimension
  numbers equal to the plain one, whatever its own well-formedness proof.
-/
import proofs.«181940_j74397423501381_1_alg».proof.Proof.LibRowsTimes

noncomputable section

namespace Cert.Dense

open Idealize.ShloMosaic Idealize.ShloMosaic.ValueIdx

variable {M K N : Nat}

/-- The left operand's row coordinate is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction coordinate. -/
theorem plain_lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem plain_rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- The left operand's index at output index `j` and contraction coordinate `k` is (row of `j`, `k`). -/
theorem plain_lhsIdx (j : (⟨2, ![M, N]⟩ : Shape).Idx) (k : Fin K) :
    (DotDims.plain M K N).lhsIdx j ((contrEquiv1 (DotDims.plain M K N) K rfl rfl).symm k) = ix2 (j 0 : Fin M) k := by
  have hk := contrEquiv1_symm_val (DotDims.plain M K N) K rfl rfl k
  funext a
  apply Fin.ext
  match a with
  | ⟨0, _⟩ => exact plain_lhs_row j _
  | ⟨1, _⟩ => exact (plain_lhs_col j _).trans hk

/-- The right operand's index there is (`k`, column of `j`). -/
theorem plain_rhsIdx (j : (⟨2, ![M, N]⟩ : Shape).Idx) (k : Fin K) :
    (DotDims.plain M K N).rhsIdx j ((contrEquiv1 (DotDims.plain M K N) K rfl rfl).symm k) = ix2 k (j 1 : Fin N) := by
  have hk := contrEquiv1_symm_val (DotDims.plain M K N) K rfl rfl k
  funext a
  apply Fin.ext
  match a with
  | ⟨0, _⟩ => exact (plain_rhs_row j _).trans hk
  | ⟨1, _⟩ => exact plain_rhs_col j _

/-- The product into the zero array is `rowsTimes`, whatever the two operands' float formats. -/
theorem matmul_plain_zero {φ₁ φ₂ : FTy} (prec : Option ContractPrecision)
    (l : FVec Ideal ⟨2, ![M, K]⟩ φ₁) (w : FVec Ideal ⟨2, ![K, N]⟩ φ₂) :
    matmul (DotDims.plain M K N) prec l w (constant (F := Ideal) ⟨2, ![M, N]⟩ .f32 0x00000000#32) = rowsTimes l w := by
  funext j
  simp only [matmul]
  rw [Ideal.matmul_constant_zero_apply]
  exact contraction_eq (DotDims.plain M K N) rfl rfl l w l w j j
    (fun k => congrArg l (plain_lhsIdx j k)) (fun k => congrArg w (plain_rhsIdx j k))

/-- The same of a record `d` of dimension numbers that is the plain one. -/
theorem matmul_zero_of_plain {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (w : FVec Ideal ⟨2, ![K, N]⟩ φ₂) :
    matmul d prec l w (constant (F := Ideal) ⟨2, ![M, N]⟩ .f32 0x00000000#32) = rowsTimes l w := by
  subst hd
  exact matmul_plain_zero prec l w

end Cert.Dense

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.Spec.lean ====
/-
  What each kernel region computes, as a function of whole arrays on the extended reals, entry by entry.

  * `msg`: an edge message, max((g + ea·We) + be, 0), g the gathered source rows.
  * `dense`: a linear layer h·W + b, the bias a vector added to every row; `lin` is the layer applied to a + agg.
  * `norm`: a batch normalisation with given statistics, (g·(pre − mean))·rsqrt(var + ε) + shift, column by column.
  * `bnrr` / `bnrs`: the normalisation followed by the rectifier twice, resp. by the rectifier and the logistic function.
  * `leaky`: x where x ≥ 0 and slope·x elsewhere, the comparison and the choice being the programs' own.
  * `mlp`: three dense layers, the first two followed by `leaky`, the last by the logistic function.

  The zero, ε and the slope are kept as the f32 words both programs print: the same word on both sides is never
  evaluated. All extents are parameters.
-/
import Idealize.ShloMosaic.PureOps.Ideal.Laws
import Idealize.ShloMosaic.Lib.ValueIdx
import proofs.«181940_j74397423501381_1_alg».proof.Proof.LibRowsTimes

noncomputable section

namespace Cert.Spec

open Idealize.ShloMosaic Idealize.ShloMosaic.ValueIdx Cert.Dense

/-- An [M, N] array of extended reals. -/
abbrev Mat (M N : Nat) : Type := (⟨2, ![M, N]⟩ : Shape).Idx → EReal
/-- A vector of N extended reals. -/
abbrev Row (N : Nat) : Type := (⟨1, ![N]⟩ : Shape).Idx → EReal

/-- The f32 word of 0.0. -/
def zeroW : EReal := Ideal.ofBits .f32 0x00000000#32
/-- The f32 word nearest 1e-5, the normalisation's ε. -/
def epsW : EReal := Ideal.ofBits .f32 0x3727C5AC#32
/-- The f32 word nearest 0.01, the leaky rectifier's slope. -/
def slopeW : EReal := Ideal.ofBits .f32 0x3C23D70A#32

/-- The edge message: max((g + ea·We) + be, 0). -/
def msg {E K D : Nat} (g : Mat E D) (ea : Mat E K) (We : Mat K D) (be : Row D) : Mat E D :=
  fun i => max ((g i + rowsTimes ea We i) + be (ix1 (i 1 : Fin D))) zeroW

/-- A linear layer: h·W + b. -/
def dense {N K D : Nat} (h : Mat N K) (W : Mat K D) (b : Row D) : Mat N D :=
  fun i => rowsTimes h W i + b (ix1 (i 1 : Fin D))

/-- The layer applied to the entrywise sum a + agg. -/
def lin {N K D : Nat} (a agg : Mat N K) (W : Mat K D) (b : Row D) : Mat N D :=
  dense (fun q => a q + agg q) W b

/-- Normalisation with given column statistics: (g·(pre − mean))·rsqrt(var + ε) + shift. -/
def norm {N D : Nat} (pre : Mat N D) (mean var g bt : Row D) : Mat N D :=
  fun i => (g (ix1 (i 1 : Fin D)) * (pre i - mean (ix1 (i 1 : Fin D)))) * Ideal.rsqrt (var (ix1 (i 1 : Fin D)) + epsW)
    + bt (ix1 (i 1 : Fin D))

/-- Normalisation, then the rectifier twice. -/
def bnrr {N D : Nat} (pre : Mat N D) (mean var g bt : Row D) : Mat N D :=
  fun i => max (max (norm pre mean var g bt i) zeroW) zeroW

/-- Normalisation, the rectifier, then the logistic function. -/
def bnrs {N D : Nat} (pre : Mat N D) (mean var g bt : Row D) : Mat N D :=
  fun i => Ideal.logistic (max (norm pre mean var g bt i) zeroW)

/-- The leaky rectifier: x where x ≥ 0 (the programs' ordered comparison against the zero word), slope·x elsewhere. -/
def leaky {N D : Nat} (x : Mat N D) : Mat N D :=
  fun i => Scalar.select (FloatOps.cmpf (F := Ideal) (φ := .f32) .oge (x i) zeroW) (x i) (slopeW * x i)

/-- The per-node perceptron: two leaky dense layers, a dense layer, the logistic function. -/
def mlp {N H : Nat} (h : Mat N H) (W1 : Mat H H) (b1 : Row H) (W2 : Mat H H) (b2 : Row H) (W3 : Mat H 1) (b3 : Row 1) : Mat N 1 :=
  fun i => Ideal.logistic (dense (leaky (dense (leaky (dense h W1 b1)) W2 b2)) W3 b3 i)

end Cert.Spec

end
-- ==== Proof.KPay.lean ====
/-
  Each region's body, as one pure function of the blocks it loads, is the corresponding function of Spec.lean at
  the block's extents: the matrix unit's product into a zero accumulator is the plain product (a change of float
  format is the identity on the extended reals), a bias vector given a leading unit axis and repeated down the
  rows reads the vector at the column, and the remaining operations act entry by entry.
-/
import proofs.«181940_j74397423501381_1_alg».proof.Proof.Gen.KernelIdeal.Skeleton
import proofs.«181940_j74397423501381_1_alg».proof.Proof.LibRowsCols
import proofs.«181940_j74397423501381_1_alg».proof.Proof.LibPlainProduct
import proofs.«181940_j74397423501381_1_alg».proof.Proof.LibColumnLayout
import proofs.«181940_j74397423501381_1_alg».proof.Proof.Spec
import Idealize.ShloMosaic.Lib.Pipeline.Value
import Idealize.ShloMosaic.Lib.ValueIdx
import Idealize.ShloMosaic.Lib.ValueLayout

noncomputable section

namespace Cert.KernelIdeal.Pay

open Cert.KernelIdeal Cert.KernelIdeal.Facts₀
open Idealize.ShloMosaic Idealize.ShloMosaic.ValueIdx Idealize.ShloMosaic.ColumnLayout Cert.Dense Cert.Spec

/-- The plain contraction record has one contracted axis and operand indices (row, k) and (k, column). -/
theorem rowsCols_plain {M K N : Nat} : RowsCols (DotDims.plain M K N) := ⟨rfl, rfl, plain_lhs_row, plain_lhs_col, plain_rhs_row, plain_rhs_col⟩

theorem rc0 : RowsCols dot_S4096x32_S32x128_S4096x128_1_0_0_1_n_n :=
  (rfl : dot_S4096x32_S32x128_S4096x128_1_0_0_1_n_n = DotDims.plain 4096 32 128) ▸ rowsCols_plain
theorem rc1 : RowsCols dot_S2048x128_S128x256_S2048x256_1_0_0_1_n_n :=
  (rfl : dot_S2048x128_S128x256_S2048x256_1_0_0_1_n_n = DotDims.plain 2048 128 256) ▸ rowsCols_plain
theorem rc3 : RowsCols dot_S4096x32_S32x256_S4096x256_1_0_0_1_n_n :=
  (rfl : dot_S4096x32_S32x256_S4096x256_1_0_0_1_n_n = DotDims.plain 4096 32 256) ▸ rowsCols_plain
theorem rc4 : RowsCols dot_S2048x256_S256x256_S2048x256_1_0_0_1_n_n :=
  (rfl : dot_S2048x256_S256x256_S2048x256_1_0_0_1_n_n = DotDims.plain 2048 256 256) ▸ rowsCols_plain
theorem rc6 : RowsCols dot_S4096x256_S256x256_S4096x256_1_0_0_1_n_n :=
  (rfl : dot_S4096x256_S256x256_S4096x256_1_0_0_1_n_n = DotDims.plain 4096 256 256) ▸ rowsCols_plain
theorem rc6' : RowsCols dot_S4096x256_S256x1_S4096x1_1_0_0_1_n_n :=
  (rfl : dot_S4096x256_S256x1_S4096x1_1_0_0_1_n_n = DotDims.plain 4096 256 1) ▸ rowsCols_plain

/-- The matrix unit's product into the zero array, as one function: the plain product. -/
theorem matmul_zero_eq {R K N : Nat} {d : DotDims ⟨2, ![R, K]⟩ ⟨2, ![K, N]⟩ ⟨2, ![R, N]⟩} (h : RowsCols d)
    (prec : Option ContractPrecision) {φ₁ φ₂ : FTy} (a : FVec Ideal ⟨2, ![R, K]⟩ φ₁) (w : FVec Ideal ⟨2, ![K, N]⟩ φ₂) :
    matmul d prec a w (constant (F := Ideal) ⟨2, ![R, N]⟩ .f32 0x00000000#32) = rowsTimes a w := by
  funext j
  simp only [matmul]
  exact matmul_zero_apply h prec a w j

/-- A product of operands cast to a narrower format, plus a bias vector given a leading unit axis and repeated down the
    rows: the dense layer. -/
theorem dense_block {R K N : Nat} {d : DotDims ⟨2, ![R, K]⟩ ⟨2, ![K, N]⟩ ⟨2, ![R, N]⟩} (h : RowsCols d)
    (prec : Option ContractPrecision) (a : FVec Ideal ⟨2, ![R, K]⟩ .f32) (w : FVec Ideal ⟨2, ![K, N]⟩ .f32) (b : FVec Ideal ⟨1, ![N]⟩ .f32)
    (hlt : FTy.bf16.bits < FTy.f32.bits) (h1 : (⟨1, ![N]⟩ : Shape).ShapeCasts ⟨2, ![1, N]⟩) (h2 : (⟨2, ![1, N]⟩ : Shape).Broadcasts ⟨2, ![R, N]⟩) :
    addf (matmul d prec (truncf .bf16 a hlt) (truncf .bf16 w hlt) (constant (F := Ideal) ⟨2, ![R, N]⟩ .f32 0x00000000#32))
      (broadcastTo ⟨2, ![R, N]⟩ (shapeCast ⟨2, ![1, N]⟩ b h1) h2) = Spec.dense a w b := by
  funext j
  obtain ⟨p, q, rfl⟩ : ∃ (p : Fin R) (q : Fin N), j = ix2 p q := ⟨j 0, j 1, eq_ix2 j⟩
  show matmul d prec (truncf .bf16 a hlt) (truncf .bf16 w hlt) (constant (F := Ideal) ⟨2, ![R, N]⟩ .f32 0x00000000#32) (ix2 p q)
    + broadcastTo ⟨2, ![R, N]⟩ (shapeCast ⟨2, ![1, N]⟩ b h1) h2 (ix2 p q) = _
  rw [matmul_zero_eq h, row_broadcast_apply]
  rfl

/-- The leaky rectifier as the bodies spell it. -/
theorem leaky_block {R N : Nat} (x : FVec Ideal ⟨2, ![R, N]⟩ .f32) :
    select (cmpf .oge x (broadcast ⟨2, ![R, N]⟩ (Scalar.ofBits (F := Ideal) .f32 0x00000000#32))) x
      (mulf (broadcast ⟨2, ![R, N]⟩ (Scalar.ofBits (F := Ideal) .f32 0x3C23D70A#32)) x) = Spec.leaky x := rfl

/-- Region 0's body: the edge message of the loaded blocks. -/
theorem pay0_eq (x0 : Vec Ideal S4096x32 .f32) (x1 : Vec Ideal S32x128 .f32) (x2 : Vec Ideal S128 .f32) (x3 : Vec Ideal S4096x128 .f32) :
    Gen.k0_pay1 x0 x1 x2 x3 = Spec.msg x3 x0 x1 x2 := by
  funext j
  obtain ⟨p, q, rfl⟩ : ∃ (p : Fin 4096) (q : Fin 128), j = ix2 p q := ⟨j 0, j 1, eq_ix2 j⟩
  unfold Gen.k0_pay1
  show max ((shapeCast S4096x128 x3 shapeCasts_S4096x128_S4096x128 (ix2 p q)
        + FloatOps.matmul dot_S4096x32_S32x128_S4096x128_1_0_0_1_n_n none (truncf .bf16 x0 bitsLt_bf16_f32) (truncf .bf16 x1 bitsLt_bf16_f32) (constant (F := Ideal) S4096x128 .f32 0x00000000#32) (ix2 p q))
        + broadcastTo S4096x128 (shapeCast S1x128 x2 shapeCasts_S128_S1x128) broadcasts_S1x128_S4096x128 (ix2 p q)) (Ideal.ofBits .f32 0x00000000#32) = _
  rw [shapeCast_self, matmul_zero_apply rc0, row_broadcast_apply]
  rfl

/-- Region 3's body: the same with 256 columns. -/
theorem pay3_eq (x0 : Vec Ideal S4096x32 .f32) (x1 : Vec Ideal S32x256 .f32) (x2 : Vec Ideal S256 .f32) (x3 : Vec Ideal S4096x256 .f32) :
    Gen.k3_pay1 x0 x1 x2 x3 = Spec.msg x3 x0 x1 x2 := by
  funext j
  obtain ⟨p, q, rfl⟩ : ∃ (p : Fin 4096) (q : Fin 256), j = ix2 p q := ⟨j 0, j 1, eq_ix2 j⟩
  unfold Gen.k3_pay1
  show max ((shapeCast S4096x256 x3 shapeCasts_S4096x256_S4096x256 (ix2 p q)
        + FloatOps.matmul dot_S4096x32_S32x256_S4096x256_1_0_0_1_n_n none (truncf .bf16 x0 bitsLt_bf16_f32) (truncf .bf16 x1 bitsLt_bf16_f32) (constant (F := Ideal) S4096x256 .f32 0x00000000#32) (ix2 p q))
        + broadcastTo S4096x256 (shapeCast S1x256 x2 shapeCasts_S256_S1x256) broadcasts_S1x256_S4096x256 (ix2 p q)) (Ideal.ofBits .f32 0x00000000#32) = _
  rw [shapeCast_self, matmul_zero_apply rc3, row_broadcast_apply]
  rfl

/-- Region 1's body: the dense layer of the sum of its two row blocks. -/
theorem pay1_eq (x0 x1 : Vec Ideal S2048x128 .f32) (x2 : Vec Ideal S128x256 .f32) (x3 : Vec Ideal S256 .f32) :
    Gen.k1_pay1 x0 x1 x2 x3 = Spec.lin x0 x1 x2 x3 := by
  unfold Gen.k1_pay1
  show addf (matmul dot_S2048x128_S128x256_S2048x256_1_0_0_1_n_n none
      (truncf .bf16 (addf x0 (shapeCast S2048x128 x1 shapeCasts_S2048x128_S2048x128)) bitsLt_bf16_f32) (truncf .bf16 x2 bitsLt_bf16_f32)
      (constant (F := Ideal) S2048x256 .f32 0x00000000#32))
    (broadcastTo S2048x256 (shapeCast S1x256 x3 shapeCasts_S256_S1x256) broadcasts_S1x256_S2048x256) = _
  rw [shapeCast_self]
  exact dense_block rc1 none (addf x0 x1) x2 x3 _ _ _

/-- Region 4's body: the same with 256 input columns. -/
theorem pay4_eq (x0 x1 : Vec Ideal S2048x256 .f32) (x2 : Vec Ideal S256x256 .f32) (x3 : Vec Ideal S256 .f32) :
    Gen.k4_pay1 x0 x1 x2 x3 = Spec.lin x0 x1 x2 x3 := by
  unfold Gen.k4_pay1
  show addf (matmul dot_S2048x256_S256x256_S2048x256_1_0_0_1_n_n none
      (truncf .bf16 (addf (shapeCast S2048x256 x0 shapeCasts_S2048x256_S2048x256) (shapeCast S2048x256 x1 shapeCasts_S2048x256_S2048x256)) bitsLt_bf16_f32) (truncf .bf16 x2 bitsLt_bf16_f32)
      (constant (F := Ideal) S2048x256 .f32 0x00000000#32))
    (broadcastTo S2048x256 (shapeCast S1x256 x3 shapeCasts_S256_S1x256) broadcasts_S1x256_S2048x256) = _
  rw [shapeCast_self, shapeCast_self]
  exact dense_block rc4 none (addf x0 x1) x2 x3 _ _ _

/-- The normalisation as regions 2 and 5 spell it, at an entry. -/
theorem norm_block (pre : Vec Ideal S4096x256 .f32) (mean var g bt : Vec Ideal S256 .f32) (p : Fin 4096) (q : Fin 256) :
    addf (mulf (mulf (broadcastTo S4096x256 (shapeCast S1x256 g shapeCasts_S256_S1x256) broadcasts_S1x256_S4096x256)
          (subf (shapeCast S4096x256 pre shapeCasts_S4096x256_S4096x256)
            (broadcastTo S4096x256 (shapeCast S1x256 (shapeCast S256 mean shapeCasts_S256_S256) shapeCasts_S256_S1x256) broadcasts_S1x256_S4096x256)))
        (broadcastTo S4096x256 (rsqrt (addf (shapeCast S1x256 (shapeCast S256 var shapeCasts_S256_S256) shapeCasts_S256_S1x256)
          (broadcast S1x256 (Scalar.ofBits (F := Ideal) .f32 0x3727C5AC#32)))) broadcasts_S1x256_S4096x256))
      (broadcastTo S4096x256 (shapeCast S1x256 bt shapeCasts_S256_S1x256) broadcasts_S1x256_S4096x256) (ix2 p q)
    = Spec.norm pre mean var g bt (ix2 p q) := by
  show (broadcastTo S4096x256 (shapeCast S1x256 g shapeCasts_S256_S1x256) broadcasts_S1x256_S4096x256 (ix2 p q)
        * (shapeCast S4096x256 pre shapeCasts_S4096x256_S4096x256 (ix2 p q)
          - broadcastTo S4096x256 (shapeCast S1x256 (shapeCast S256 mean shapeCasts_S256_S256) shapeCasts_S256_S1x256) broadcasts_S1x256_S4096x256 (ix2 p q)))
      * broadcastTo S4096x256 (rsqrt (addf (shapeCast S1x256 (shapeCast S256 var shapeCasts_S256_S256) shapeCasts_S256_S1x256)
          (broadcast S1x256 (Scalar.ofBits (F := Ideal) .f32 0x3727C5AC#32)))) broadcasts_S1x256_S4096x256 (ix2 p q)
      + broadcastTo S4096x256 (shapeCast S1x256 bt shapeCasts_S256_S1x256) broadcasts_S1x256_S4096x256 (ix2 p q) = _
  rw [shapeCast_self pre, shapeCast_self mean, shapeCast_self var, row_broadcast_apply, row_broadcast_apply, row_broadcast_apply,
    broadcastTo_1b_ab_apply]
  show (g (ix1 q) * (pre (ix2 p q) - mean (ix1 q)))
      * Ideal.rsqrt (shapeCast S1x256 var shapeCasts_S256_S1x256 (ix2 (0 : Fin 1) q) + Ideal.ofBits .f32 0x3727C5AC#32) + bt (ix1 q) = _
  rw [shapeCast_a_1a_apply]
  rfl

/-- Region 2's body: normalisation, then the rectifier twice. -/
theorem pay2_eq (x0 : Vec Ideal S4096x256 .f32) (x1 x2 x3 x4 : Vec Ideal S256 .f32) :
    Gen.k2_pay1 x0 x1 x2 x3 x4 = Spec.bnrr x0 x1 x2 x3 x4 := by
  funext j
  obtain ⟨p, q, rfl⟩ : ∃ (p : Fin 4096) (q : Fin 256), j = ix2 p q := ⟨j 0, j 1, eq_ix2 j⟩
  unfold Gen.k2_pay1
  exact congrArg (fun z => max (max z (Ideal.ofBits .f32 0x00000000#32)) (Ideal.ofBits .f32 0x00000000#32)) (norm_block x0 x1 x2 x3 x4 p q)

/-- Region 5's body: normalisation, the rectifier, the logistic function. -/
theorem pay5_eq (x0 : Vec Ideal S4096x256 .f32) (x1 x2 x3 x4 : Vec Ideal S256 .f32) :
    Gen.k5_pay1 x0 x1 x2 x3 x4 = Spec.bnrs x0 x1 x2 x3 x4 := by
  funext j
  obtain ⟨p, q, rfl⟩ : ∃ (p : Fin 4096) (q : Fin 256), j = ix2 p q := ⟨j 0, j 1, eq_ix2 j⟩
  unfold Gen.k5_pay1
  exact congrArg (fun z => Ideal.logistic (max z (Ideal.ofBits .f32 0x00000000#32))) (norm_block x0 x1 x2 x3 x4 p q)

/-- Region 6's body: the per-node perceptron of the loaded block of rows. -/
theorem pay6_eq (x0 : Vec Ideal S4096x256 .f32) (w1 : Vec Ideal S256x256 .f32) (b1 : Vec Ideal S256 .f32) (w2 : Vec Ideal S256x256 .f32)
    (b2 : Vec Ideal S256 .f32) (w3 : Vec Ideal S256x1 .f32) (b3 : Vec Ideal S1 .f32) :
    Gen.k6_pay1 x0 w1 b1 w2 b2 w3 b3 = Spec.mlp x0 w1 b1 w2 b2 w3 b3 := by
  unfold Gen.k6_pay1
  show logistic (addf (matmul dot_S4096x256_S256x1_S4096x1_1_0_0_1_n_n none
      (truncf .bf16 (select (cmpf .oge
          (addf (matmul dot_S4096x256_S256x256_S4096x256_1_0_0_1_n_n none
            (truncf .bf16 (select (cmpf .oge
                (addf (matmul dot_S4096x256_S256x256_S4096x256_1_0_0_1_n_n none
                  (truncf .bf16 (shapeCast S4096x256 x0 shapeCasts_S4096x256_S4096x256) bitsLt_bf16_f32) (truncf .bf16 w1 bitsLt_bf16_f32)
                  (constant (F := Ideal) S4096x256 .f32 0x00000000#32))
                  (broadcastTo S4096x256 (shapeCast S1x256 b1 shapeCasts_S256_S1x256) broadcasts_S1x256_S4096x256))
                (broadcast S4096x256 (Scalar.ofBits (F := Ideal) .f32 0x00000000#32)))
              (addf (matmul dot_S4096x256_S256x256_S4096x256_1_0_0_1_n_n none
                  (truncf .bf16 (shapeCast S4096x256 x0 shapeCasts_S4096x256_S4096x256) bitsLt_bf16_f32) (truncf .bf16 w1 bitsLt_bf16_f32)
                  (constant (F := Ideal) S4096x256 .f32 0x00000000#32))
                  (broadcastTo S4096x256 (shapeCast S1x256 b1 shapeCasts_S256_S1x256) broadcasts_S1x256_S4096x256))
              (mulf (broadcast S4096x256 (Scalar.ofBits (F := Ideal) .f32 0x3C23D70A#32))
                (addf (matmul dot_S4096x256_S256x256_S4096x256_1_0_0_1_n_n none
                  (truncf .bf16 (shapeCast S4096x256 x0 shapeCasts_S4096x256_S4096x256) bitsLt_bf16_f32) (truncf .bf16 w1 bitsLt_bf16_f32)
                  (constant (F := Ideal) S4096x256 .f32 0x00000000#32))
                  (broadcastTo S4096x256 (shapeCast S1x256 b1 shapeCasts_S256_S1x256) broadcasts_S1x256_S4096x256)))) bitsLt_bf16_f32)
            (truncf .bf16 w2 bitsLt_bf16_f32) (constant (F := Ideal) S4096x256 .f32 0x00000000#32))
            (broadcastTo S4096x256 (shapeCast S1x256 b2 shapeCasts_S256_S1x256) broadcasts_S1x256_S4096x256))
          (broadcast S4096x256 (Scalar.ofBits (F := Ideal) .f32 0x00000000#32)))
        _ _) bitsLt_bf16_f32)
      (truncf .bf16 w3 bitsLt_bf16_f32) (constant (F := Ideal) S4096x1 .f32 0x00000000#32))
      (broadcastTo S4096x1 (shapeCast S1x1 b3 shapeCasts_S1_S1x1) broadcasts_S1x1_S4096x1)) = _
  rw [shapeCast_self]
  simp only [dense_block rc6 none _ _ _ _ _ _, leaky_block]
  rw [dense_block rc6' none _ w3 b3 _ _ _]
  rfl

end Cert.KernelIdeal.Pay

end
-- ==== Proof.SpecRows.lean ====
/-
  Every function of Spec.lean is computed row by row: row r of the result depends on row r of each row-indexed
  input only (and on the whole weight arrays). `RowEq r' r x' x` says that row r' of x' is row r of x. Each
  function carries `RowEq` from its row-indexed inputs to its result, so a result computed one block of rows at a
  time is the whole result, block by block.
-/
import proofs.«181940_j74397423501381_1_alg».proof.Proof.Spec

noncomputable section

namespace Cert.Spec

open Idealize.ShloMosaic Idealize.ShloMosaic.ValueIdx Cert.Dense

/-- Row r' of the [R, D] array x' is row r of the [N, D] array x. -/
def RowEq {R N D : Nat} (r' : Fin R) (r : Fin N) (x' : Mat R D) (x : Mat N D) : Prop :=
  ∀ k : Fin D, x' (ix2 r' k) = x (ix2 r k)

variable {R N K D : Nat} {r' : Fin R} {r : Fin N}

theorem RowEq.add {x' y' : Mat R D} {x y : Mat N D} (hx : RowEq r' r x' x) (hy : RowEq r' r y' y) :
    RowEq r' r (fun q => x' q + y' q) (fun q => x q + y q) := fun k => by
  show x' (ix2 r' k) + y' (ix2 r' k) = x (ix2 r k) + y (ix2 r k)
  rw [hx k, hy k]

theorem rowsTimes_rowEq {h' : Mat R K} {h : Mat N K} (W : Mat K D) (hh : RowEq r' r h' h) :
    RowEq r' r (rowsTimes h' W) (rowsTimes h W) := fun k =>
  rowsTimes_of_rows h W h' W (ix2 r' k) (ix2 r k) (fun q => hh q) (fun _ => rfl)

theorem RowEq.dense {h' : Mat R K} {h : Mat N K} (W : Mat K D) (b : Row D) (hh : RowEq r' r h' h) :
    RowEq r' r (dense h' W b) (dense h W b) := fun k => by
  show rowsTimes h' W (ix2 r' k) + b (ix1 k) = rowsTimes h W (ix2 r k) + b (ix1 k)
  rw [rowsTimes_rowEq W hh k]

theorem RowEq.lin {a' g' : Mat R K} {a g : Mat N K} (W : Mat K D) (b : Row D) (ha : RowEq r' r a' a) (hg : RowEq r' r g' g) :
    RowEq r' r (lin a' g' W b) (lin a g W b) := RowEq.dense W b (RowEq.add ha hg)

theorem RowEq.msg {g' : Mat R D} {g : Mat N D} {ea' : Mat R K} {ea : Mat N K} (We : Mat K D) (be : Row D)
    (hg : RowEq r' r g' g) (hea : RowEq r' r ea' ea) : RowEq r' r (msg g' ea' We be) (msg g ea We be) := fun k => by
  show max ((g' (ix2 r' k) + rowsTimes ea' We (ix2 r' k)) + be (ix1 k)) zeroW
    = max ((g (ix2 r k) + rowsTimes ea We (ix2 r k)) + be (ix1 k)) zeroW
  rw [hg k, rowsTimes_rowEq We hea k]

theorem RowEq.norm {p' : Mat R D} {p : Mat N D} (mean var g bt : Row D) (hp : RowEq r' r p' p) :
    RowEq r' r (norm p' mean var g bt) (norm p mean var g bt) := fun k => by
  show (g (ix1 k) * (p' (ix2 r' k) - mean (ix1 k))) * Ideal.rsqrt (var (ix1 k) + epsW) + bt (ix1 k)
    = (g (ix1 k) * (p (ix2 r k) - mean (ix1 k))) * Ideal.rsqrt (var (ix1 k) + epsW) + bt (ix1 k)
  rw [hp k]

theorem RowEq.bnrr {p' : Mat R D} {p : Mat N D} (mean var g bt : Row D) (hp : RowEq r' r p' p) :
    RowEq r' r (bnrr p' mean var g bt) (bnrr p mean var g bt) := fun k => by
  show max (max (Spec.norm p' mean var g bt (ix2 r' k)) zeroW) zeroW = max (max (Spec.norm p mean var g bt (ix2 r k)) zeroW) zeroW
  rw [RowEq.norm mean var g bt hp k]

theorem RowEq.bnrs {p' : Mat R D} {p : Mat N D} (mean var g bt : Row D) (hp : RowEq r' r p' p) :
    RowEq r' r (bnrs p' mean var g bt) (bnrs p mean var g bt) := fun k => by
  show Ideal.logistic (max (Spec.norm p' mean var g bt (ix2 r' k)) zeroW) = Ideal.logistic (max (Spec.norm p mean var g bt (ix2 r k)) zeroW)
  rw [RowEq.norm mean var g bt hp k]

theorem RowEq.leaky {x' : Mat R D} {x : Mat N D} (hx : RowEq r' r x' x) : RowEq r' r (leaky x') (leaky x) := fun k => by
  show Scalar.select (FloatOps.cmpf (F := Ideal) (φ := .f32) .oge (x' (ix2 r' k)) zeroW) (x' (ix2 r' k)) (slopeW * x' (ix2 r' k))
    = Scalar.select (FloatOps.cmpf (F := Ideal) (φ := .f32) .oge (x (ix2 r k)) zeroW) (x (ix2 r k)) (slopeW * x (ix2 r k))
  rw [hx k]

theorem RowEq.mlp {h' : Mat R K} {h : Mat N K} (W1 : Mat K K) (b1 : Row K) (W2 : Mat K K) (b2 : Row K) (W3 : Mat K 1) (b3 : Row 1)
    (hh : RowEq r' r h' h) : RowEq r' r (mlp h' W1 b1 W2 b2 W3 b3) (mlp h W1 b1 W2 b2 W3 b3) := fun k => by
  show Ideal.logistic (Spec.dense (Spec.leaky (Spec.dense (Spec.leaky (Spec.dense h' W1 b1)) W2 b2)) W3 b3 (ix2 r' k))
    = Ideal.logistic (Spec.dense (Spec.leaky (Spec.dense (Spec.leaky (Spec.dense h W1 b1)) W2 b2)) W3 b3 (ix2 r k))
  rw [RowEq.dense W3 b3 (RowEq.leaky (RowEq.dense W2 b2 (RowEq.leaky (RowEq.dense W1 b1 hh)))) k]

end Cert.Spec

end
-- ==== Proof.KReg0.lean ====
/-
  Region 0 (the first edge message): the array its output window leaves after the run.

  The grid has 128 points; point t stages rows t·4096 … t·4096+4095 of each row-indexed operand and the whole of every
  other operand, and writes back rows t·4096 … of the output. The body computes `Spec.msg` of the staged blocks, and that
  function is computed row by row, so block t of the output is block t of `Spec.msg` of the whole arrays; the blocks
  tile the output, hence the output array ends as `Spec.msg` of the arrays the region found.
-/
import proofs.«181940_j74397423501381_1_alg».proof.Proof.Gen.KernelIdeal.Frame
import proofs.«181940_j74397423501381_1_alg».proof.Proof.KPay
import proofs.«181940_j74397423501381_1_alg».proof.Proof.SpecRows
import Idealize.ShloMosaic.Lib.Pipeline.Value

set_option maxRecDepth 16384

noncomputable section

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: a row-indexed operand's block index is the output's, every other index is 0. -/
theorem idx_facts : ∀ t : Fin cfg0.N, win0_0.index t (0 : Fin 2) = win0_4.index t (0 : Fin 2)
    ∧ win0_0.index t (1 : Fin 2) = 0
    ∧ win0_3.index t (0 : Fin 2) = win0_4.index t (0 : Fin 2)
    ∧ win0_3.index t (1 : Fin 2) = 0
    ∧ win0_1.index t (0 : Fin 2) = 0
    ∧ win0_1.index t (1 : Fin 2) = 0
    ∧ win0_2.index t (0 : Fin 1) = 0
    ∧ win0_4.index t (1 : Fin 2) = 0
    ∧ win0_4.index t (0 : Fin 2) ≤ 127 :=
  (by decide +kernel : ∀ t : Fin grid0.N, _)

/-- Every block of rows of the output is some point's. -/
theorem idx_onto : ∀ q0 : Fin 128, ∃ t : Fin cfg0.N, win0_4.index t = ![q0.val, 0] :=
  (by decide +kernel : ∀ q0 : Fin 128, ∃ t : Fin grid0.N, win0_4.index t = ![q0.val, 0])

/-- What point t writes back is block t of `Spec.msg` of the arrays the region found. -/
theorem flushed_eq (c : Dev nD) (t : Fin cfg0.N) :
    (dat0 V c).flushed 4 t = ((cfg0.win 4).blk t).view.read (Elt Ideal) (Spec.msg (V c main_v10) (V c main_arg2) (V c main_arg4) (V c main_arg5)) := by
  show (cfg0.win 4).cut (grid0.coords t) ((dat0 V c).after 4 t) = _
  rw [after0_4]
  unfold out0_4
  rw [View.canon_unit_zero hz]
  simp only [View.ld_unit_zero (S := S4096x32) hz, View.ld_unit_zero (S := S32x128) hz, View.ld_unit_zero (S := S128) hz1, View.ld_unit_zero (S := S4096x128) hz]
  rw [Pay.pay0_eq]
  obtain ⟨e0, e1, e2, e3, e4, e5, e6, e7, e8⟩ := idx_facts t
  have hw1 : iblk0 V c 1 t = V c main_arg4 := by
    funext y
    show V c main_arg4 (((cfg0.win 1).blk t).view.emb y) = V c main_arg4 y
    refine congrArg _ (funext fun a => Fin.ext ?_)
    match a with
    | ⟨0, _⟩ => show win0_1.index t (0 : Fin 2) * 32 + 1 * (y 0).val = (y 0).val; omega
    | ⟨1, _⟩ => show win0_1.index t (1 : Fin 2) * 128 + 1 * (y 1).val = (y 1).val; omega
  have hw2 : iblk0 V c 2 t = V c main_arg5 := by
    funext y
    show V c main_arg5 (((cfg0.win 2).blk t).view.emb y) = V c main_arg5 y
    refine congrArg _ (funext fun a => Fin.ext ?_)
    match a with
    | ⟨0, _⟩ => show win0_2.index t (0 : Fin 1) * 128 + 1 * (y 0).val = (y 0).val; omega
  rw [hw1, hw2]
  funext j
  obtain ⟨p, q, rfl⟩ : ∃ (p : Fin 4096) (q : Fin 128), j = ix2 p q := ⟨j 0, j 1, eq_ix2 j⟩
  have hp : p.val < 4096 := p.isLt
  have hr0 : Spec.RowEq p (⟨win0_4.index t (0 : Fin 2) * 4096 + p.val, by omega⟩ : Fin 524288) (iblk0 V c 0 t) (V c main_arg2) := fun k => by
    show V c main_arg2 (((cfg0.win 0).blk t).view.emb (ix2 p k)) = V c main_arg2 (ix2 (⟨win0_4.index t (0 : Fin 2) * 4096 + p.val, by omega⟩ : Fin 524288) k)
    refine congrArg _ (funext fun a => Fin.ext ?_)
    match a with
    | ⟨0, _⟩ => show win0_0.index t (0 : Fin 2) * 4096 + 1 * p.val = win0_4.index t (0 : Fin 2) * 4096 + p.val; omega
    | ⟨1, _⟩ => show win0_0.index t (1 : Fin 2) * 32 + 1 * k.val = k.val; omega
  have hr3 : Spec.RowEq p (⟨win0_4.index t (0 : Fin 2) * 4096 + p.val, by omega⟩ : Fin 524288) (iblk0 V c 3 t) (V c main_v10) := fun k => by
    show V c main_v10 (((cfg0.win 3).blk t).view.emb (ix2 p k)) = V c main_v10 (ix2 (⟨win0_4.index t (0 : Fin 2) * 4096 + p.val, by omega⟩ : Fin 524288) k)
    refine congrArg _ (funext fun a => Fin.ext ?_)
    match a with
    | ⟨0, _⟩ => show win0_3.index t (0 : Fin 2) * 4096 + 1 * p.val = win0_4.index t (0 : Fin 2) * 4096 + p.val; omega
    | ⟨1, _⟩ => show win0_3.index t (1 : Fin 2) * 128 + 1 * k.val = k.val; omega
  have hemb : ((cfg0.win 4).blk t).view.emb (ix2 p q) = ix2 (⟨win0_4.index t (0 : Fin 2) * 4096 + p.val, by omega⟩ : Fin 524288) q := by
    funext a; apply Fin.ext
    match a with
    | ⟨0, _⟩ => show win0_4.index t (0 : Fin 2) * 4096 + 1 * p.val = win0_4.index t (0 : Fin 2) * 4096 + p.val; omega
    | ⟨1, _⟩ => show win0_4.index t (1 : Fin 2) * 128 + 1 * q.val = q.val; omega
  show Spec.msg (iblk0 V c 3 t) (iblk0 V c 0 t) (V c main_arg4) (V c main_arg5) (ix2 p q) = Spec.msg (V c main_v10) (V c main_arg2) (V c main_arg4) (V c main_arg5) (((cfg0.win 4).blk t).view.emb (ix2 p q))
  rw [hemb]
  exact Spec.RowEq.msg _ _ hr3 hr0 q

/-- An index of the output array is in point t's block iff each coordinate is in the block's range on its axis. -/
theorem mem_blk (t : Fin cfg0.N) (i : S524288x128.Idx) :
    i ∈ ((cfg0.win 4).blk t).view.set ↔ ∀ a : Fin 2, win0_4.index t a * S4096x128.size a ≤ (i a).val ∧ (i a).val < win0_4.index t a * S4096x128.size a + S4096x128.size a := by
  show i ∈ ((View.whole main_v11).slice (win0_4.rect t)).set ↔ _
  rw [View.set_slice_whole, Rect.mem_set_unit]
  exact Iff.rfl

/-- The output's blocks cover the array: row r lies in the block of point r / 4096. -/
theorem cover (i : S524288x128.Idx) : ∃ t : Fin cfg0.N, (cfg0.win 4).flush t = true ∧ i ∈ ((cfg0.win 4).blk t).view.set := by
  have hi0 : (i 0).val < 524288 := (i 0).isLt
  have hi1 : (i 1).val < 128 := (i 1).isLt
  obtain ⟨t, ht⟩ := idx_onto ⟨(i 0).val / 4096, by omega⟩
  have q0 : win0_4.index t (0 : Fin 2) = (i 0).val / 4096 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 128 ≤ (i 1).val ∧ (i 1).val < win0_4.index t (1 : Fin 2) * 128 + 128; omega

/-- The output array after the run. -/
theorem final (c : Dev nD) : (dat0 V c).arrAt 4 cfg0.N = Spec.msg (V c main_v10) (V c main_arg2) (V c main_arg4) (V c main_arg5) :=
  (dat0 V c).arrAt_eq_of_cover 4 _ (fun t _ => flushed_eq V c t) cover

end Cert.KernelIdeal.Reg0

end
-- ==== Proof.KReg1.lean ====
/-
  Region 1 (the first dense layer): the array its output window leaves after the run.

  The grid has 16 points; point t stages rows t·2048 … t·2048+2047 of each row-indexed operand and the whole of every
  other operand, and writes back rows t·2048 … of the output. The body computes `Spec.lin` of the staged blocks, and that
  function is computed row by row, so block t of the output is block t of `Spec.lin` of the whole arrays; the blocks
  tile the output, hence the output array ends as `Spec.lin` of the arrays the region found.
-/
import proofs.«181940_j74397423501381_1_alg».proof.Proof.Gen.KernelIdeal.Frame
import proofs.«181940_j74397423501381_1_alg».proof.Proof.KPay
import proofs.«181940_j74397423501381_1_alg».proof.Proof.SpecRows
import Idealize.ShloMosaic.Lib.Pipeline.Value

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: a row-indexed operand's block index is the output's, every other index is 0. -/
theorem idx_facts : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0
    ∧ win1_2.index t (1 : Fin 2) = 0
    ∧ win1_3.index t (0 : Fin 1) = 0
    ∧ win1_4.index t (1 : Fin 2) = 0
    ∧ win1_4.index t (0 : Fin 2) ≤ 15 :=
  (by decide +kernel : ∀ t : Fin grid1.N, _)

/-- Every block of rows of the output is some point's. -/
theorem idx_onto : ∀ q0 : Fin 16, ∃ t : Fin cfg1.N, win1_4.index t = ![q0.val, 0] :=
  (by decide +kernel : ∀ q0 : Fin 16, ∃ t : Fin grid1.N, win1_4.index t = ![q0.val, 0])

/-- What point t writes back is block t of `Spec.lin` of the arrays the region found. -/
theorem flushed_eq (c : Dev nD) (t : Fin cfg1.N) :
    (dat1 V c).flushed 4 t = ((cfg1.win 4).blk t).view.read (Elt Ideal) (Spec.lin (V c main_arg0) (V c main_v14) (V c main_arg6) (V c main_arg7)) := by
  show (cfg1.win 4).cut (grid1.coords t) ((dat1 V c).after 4 t) = _
  rw [after1_4]
  unfold out1_4
  rw [View.canon_unit_zero hz]
  simp only [View.ld_unit_zero (S := S2048x128) hz, View.ld_unit_zero (S := S128x256) hz, View.ld_unit_zero (S := S256) hz1]
  rw [Pay.pay1_eq]
  obtain ⟨e0, e1, e2, e3, e4, e5, e6, e7, e8⟩ := idx_facts t
  have hw2 : iblk1 V c 2 t = V c main_arg6 := by
    funext y
    show V c main_arg6 (((cfg1.win 2).blk t).view.emb y) = V c main_arg6 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 256 + 1 * (y 1).val = (y 1).val; omega
  have hw3 : iblk1 V c 3 t = V c main_arg7 := by
    funext y
    show V c main_arg7 (((cfg1.win 3).blk t).view.emb y) = V c main_arg7 y
    refine congrArg _ (funext fun a => Fin.ext ?_)
    match a with
    | ⟨0, _⟩ => show win1_3.index t (0 : Fin 1) * 256 + 1 * (y 0).val = (y 0).val; omega
  rw [hw2, hw3]
  funext j
  obtain ⟨p, q, rfl⟩ : ∃ (p : Fin 2048) (q : Fin 256), j = ix2 p q := ⟨j 0, j 1, eq_ix2 j⟩
  have hp : p.val < 2048 := p.isLt
  have hr0 : Spec.RowEq p (⟨win1_4.index t (0 : Fin 2) * 2048 + p.val, by omega⟩ : Fin 32768) (iblk1 V c 0 t) (V c main_arg0) := fun k => by
    show V c main_arg0 (((cfg1.win 0).blk t).view.emb (ix2 p k)) = V c main_arg0 (ix2 (⟨win1_4.index t (0 : Fin 2) * 2048 + p.val, by omega⟩ : Fin 32768) k)
    refine congrArg _ (funext fun a => Fin.ext ?_)
    match a with
    | ⟨0, _⟩ => show win1_0.index t (0 : Fin 2) * 2048 + 1 * p.val = win1_4.index t (0 : Fin 2) * 2048 + p.val; omega
    | ⟨1, _⟩ => show win1_0.index t (1 : Fin 2) * 128 + 1 * k.val = k.val; omega
  have hr1 : Spec.RowEq p (⟨win1_4.index t (0 : Fin 2) * 2048 + p.val, by omega⟩ : Fin 32768) (iblk1 V c 1 t) (V c main_v14) := fun k => by
    show V c main_v14 (((cfg1.win 1).blk t).view.emb (ix2 p k)) = V c main_v14 (ix2 (⟨win1_4.index t (0 : Fin 2) * 2048 + p.val, by omega⟩ : Fin 32768) k)
    refine congrArg _ (funext fun a => Fin.ext ?_)
    match a with
    | ⟨0, _⟩ => show win1_1.index t (0 : Fin 2) * 2048 + 1 * p.val = win1_4.index t (0 : Fin 2) * 2048 + p.val; omega
    | ⟨1, _⟩ => show win1_1.index t (1 : Fin 2) * 128 + 1 * k.val = k.val; omega
  have hemb : ((cfg1.win 4).blk t).view.emb (ix2 p q) = ix2 (⟨win1_4.index t (0 : Fin 2) * 2048 + p.val, by omega⟩ : Fin 32768) q := by
    funext a; apply Fin.ext
    match a with
    | ⟨0, _⟩ => show win1_4.index t (0 : Fin 2) * 2048 + 1 * p.val = win1_4.index t (0 : Fin 2) * 2048 + p.val; omega
    | ⟨1, _⟩ => show win1_4.index t (1 : Fin 2) * 256 + 1 * q.val = q.val; omega
  show Spec.lin (iblk1 V c 0 t) (iblk1 V c 1 t) (V c main_arg6) (V c main_arg7) (ix2 p q) = Spec.lin (V c main_arg0) (V c main_v14) (V c main_arg6) (V c main_arg7) (((cfg1.win 4).blk t).view.emb (ix2 p q))
  rw [hemb]
  exact Spec.RowEq.lin _ _ hr0 hr1 q

/-- An index of the output array is in point t's block iff each coordinate is in the block's range on its axis. -/
theorem mem_blk (t : Fin cfg1.N) (i : S32768x256.Idx) :
    i ∈ ((cfg1.win 4).blk t).view.set ↔ ∀ a : Fin 2, win1_4.index t a * S2048x256.size a ≤ (i a).val ∧ (i a).val < win1_4.index t a * S2048x256.size a + S2048x256.size a := by
  show i ∈ ((View.whole main_v15).slice (win1_4.rect t)).set ↔ _
  rw [View.set_slice_whole, Rect.mem_set_unit]
  exact Iff.rfl

/-- The output's blocks cover the array: row r lies in the block of point r / 2048. -/
theorem cover (i : S32768x256.Idx) : ∃ t : Fin cfg1.N, (cfg1.win 4).flush t = true ∧ i ∈ ((cfg1.win 4).blk t).view.set := by
  have hi0 : (i 0).val < 32768 := (i 0).isLt
  have hi1 : (i 1).val < 256 := (i 1).isLt
  obtain ⟨t, ht⟩ := idx_onto ⟨(i 0).val / 2048, by omega⟩
  have q0 : win1_4.index t (0 : Fin 2) = (i 0).val / 2048 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 2048 ≤ (i 0).val ∧ (i 0).val < win1_4.index t (0 : Fin 2) * 2048 + 2048; omega
  | ⟨1, _⟩ => show win1_4.index t (1 : Fin 2) * 256 ≤ (i 1).val ∧ (i 1).val < win1_4.index t (1 : Fin 2) * 256 + 256; omega

/-- The output array after the run. -/
theorem final (c : Dev nD) : (dat1 V c).arrAt 4 cfg1.N = Spec.lin (V c main_arg0) (V c main_v14) (V c main_arg6) (V c main_arg7) :=
  (dat1 V c).arrAt_eq_of_cover 4 _ (fun t _ => flushed_eq V c t) cover

end Cert.KernelIdeal.Reg1

end
-- ==== Proof.KReg2.lean ====
/-
  Region 2 (the first normalisation): the array its output window leaves after the run.

  The grid has 8 points; point t stages rows t·4096 … t·4096+4095 of each row-indexed operand and the whole of every
  other operand, and writes back rows t·4096 … of the output. The body computes `Spec.bnrr` of the staged blocks, and that
  function is computed row by row, so block t of the output is block t of `Spec.bnrr` of the whole arrays; the blocks
  tile the output, hence the output array ends as `Spec.bnrr` of the arrays the region found.
-/
import proofs.«181940_j74397423501381_1_alg».proof.Proof.Gen.KernelIdeal.Frame
import proofs.«181940_j74397423501381_1_alg».proof.Proof.KPay
import proofs.«181940_j74397423501381_1_alg».proof.Proof.SpecRows
import Idealize.ShloMosaic.Lib.Pipeline.Value

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: a row-indexed operand's block index is the output's, every other index is 0. -/
theorem idx_facts : ∀ t : Fin cfg2.N, win2_0.index t (0 : Fin 2) = win2_5.index t (0 : Fin 2)
    ∧ win2_0.index t (1 : Fin 2) = 0
    ∧ win2_1.index t (0 : Fin 1) = 0
    ∧ win2_2.index t (0 : Fin 1) = 0
    ∧ win2_3.index t (0 : Fin 1) = 0
    ∧ win2_4.index t (0 : Fin 1) = 0
    ∧ win2_5.index t (1 : Fin 2) = 0
    ∧ win2_5.index t (0 : Fin 2) ≤ 7 :=
  (by decide +kernel : ∀ t : Fin grid2.N, _)

/-- Every block of rows of the output is some point's. -/
theorem idx_onto : ∀ q0 : Fin 8, ∃ t : Fin cfg2.N, win2_5.index t = ![q0.val, 0] :=
  (by decide +kernel : ∀ q0 : Fin 8, ∃ t : Fin grid2.N, win2_5.index t = ![q0.val, 0])

/-- What point t writes back is block t of `Spec.bnrr` of the arrays the region found. -/
theorem flushed_eq (c : Dev nD) (t : Fin cfg2.N) :
    (dat2 V c).flushed 5 t = ((cfg2.win 5).blk t).view.read (Elt Ideal) (Spec.bnrr (V c main_v15) (V c main_v18) (V c main_v19) (V c main_arg8) (V c main_arg9)) := by
  show (cfg2.win 5).cut (grid2.coords t) ((dat2 V c).after 5 t) = _
  rw [after2_5]
  unfold out2_5
  rw [View.canon_unit_zero hz]
  simp only [View.ld_unit_zero (S := S4096x256) hz, View.ld_unit_zero (S := S256) hz1]
  rw [Pay.pay2_eq]
  obtain ⟨e0, e1, e2, e3, e4, e5, e6, e7⟩ := idx_facts t
  have hw1 : iblk2 V c 1 t = V c main_v18 := by
    funext y
    show V c main_v18 (((cfg2.win 1).blk t).view.emb y) = V c main_v18 y
    refine congrArg _ (funext fun a => Fin.ext ?_)
    match a with
    | ⟨0, _⟩ => show win2_1.index t (0 : Fin 1) * 256 + 1 * (y 0).val = (y 0).val; omega
  have hw2 : iblk2 V c 2 t = V c main_v19 := by
    funext y
    show V c main_v19 (((cfg2.win 2).blk t).view.emb y) = V c main_v19 y
    refine congrArg _ (funext fun a => Fin.ext ?_)
    match a with
    | ⟨0, _⟩ => show win2_2.index t (0 : Fin 1) * 256 + 1 * (y 0).val = (y 0).val; omega
  have hw3 : iblk2 V c 3 t = V c main_arg8 := by
    funext y
    show V c main_arg8 (((cfg2.win 3).blk t).view.emb y) = V c main_arg8 y
    refine congrArg _ (funext fun a => Fin.ext ?_)
    match a with
    | ⟨0, _⟩ => show win2_3.index t (0 : Fin 1) * 256 + 1 * (y 0).val = (y 0).val; omega
  have hw4 : iblk2 V c 4 t = V c main_arg9 := by
    funext y
    show V c main_arg9 (((cfg2.win 4).blk t).view.emb y) = V c main_arg9 y
    refine congrArg _ (funext fun a => Fin.ext ?_)
    match a with
    | ⟨0, _⟩ => show win2_4.index t (0 : Fin 1) * 256 + 1 * (y 0).val = (y 0).val; omega
  rw [hw1, hw2, hw3, hw4]
  funext j
  obtain ⟨p, q, rfl⟩ : ∃ (p : Fin 4096) (q : Fin 256), j = ix2 p q := ⟨j 0, j 1, eq_ix2 j⟩
  have hp : p.val < 4096 := p.isLt
  have hr0 : Spec.RowEq p (⟨win2_5.index t (0 : Fin 2) * 4096 + p.val, by omega⟩ : Fin 32768) (iblk2 V c 0 t) (V c main_v15) := fun k => by
    show V c main_v15 (((cfg2.win 0).blk t).view.emb (ix2 p k)) = V c main_v15 (ix2 (⟨win2_5.index t (0 : Fin 2) * 4096 + p.val, by omega⟩ : Fin 32768) k)
    refine congrArg _ (funext fun a => Fin.ext ?_)
    match a with
    | ⟨0, _⟩ => show win2_0.index t (0 : Fin 2) * 4096 + 1 * p.val = win2_5.index t (0 : Fin 2) * 4096 + p.val; omega
    | ⟨1, _⟩ => show win2_0.index t (1 : Fin 2) * 256 + 1 * k.val = k.val; omega
  have hemb : ((cfg2.win 5).blk t).view.emb (ix2 p q) = ix2 (⟨win2_5.index t (0 : Fin 2) * 4096 + p.val, by omega⟩ : Fin 32768) q := by
    funext a; apply Fin.ext
    match a with
    | ⟨0, _⟩ => show win2_5.index t (0 : Fin 2) * 4096 + 1 * p.val = win2_5.index t (0 : Fin 2) * 4096 + p.val; omega
    | ⟨1, _⟩ => show win2_5.index t (1 : Fin 2) * 256 + 1 * q.val = q.val; omega
  show Spec.bnrr (iblk2 V c 0 t) (V c main_v18) (V c main_v19) (V c main_arg8) (V c main_arg9) (ix2 p q) = Spec.bnrr (V c main_v15) (V c main_v18) (V c main_v19) (V c main_arg8) (V c main_arg9) (((cfg2.win 5).blk t).view.emb (ix2 p q))
  rw [hemb]
  exact Spec.RowEq.bnrr _ _ _ _ hr0 q

/-- An index of the output array is in point t's block iff each coordinate is in the block's range on its axis. -/
theorem mem_blk (t : Fin cfg2.N) (i : S32768x256.Idx) :
    i ∈ ((cfg2.win 5).blk t).view.set ↔ ∀ a : Fin 2, win2_5.index t a * S4096x256.size a ≤ (i a).val ∧ (i a).val < win2_5.index t a * S4096x256.size a + S4096x256.size a := by
  show i ∈ ((View.whole main_v20).slice (win2_5.rect t)).set ↔ _
  rw [View.set_slice_whole, Rect.mem_set_unit]
  exact Iff.rfl

/-- The output's blocks cover the array: row r lies in the block of point r / 4096. -/
theorem cover (i : S32768x256.Idx) : ∃ t : Fin cfg2.N, (cfg2.win 5).flush t = true ∧ i ∈ ((cfg2.win 5).blk t).view.set := by
  have hi0 : (i 0).val < 32768 := (i 0).isLt
  have hi1 : (i 1).val < 256 := (i 1).isLt
  obtain ⟨t, ht⟩ := idx_onto ⟨(i 0).val / 4096, by omega⟩
  have q0 : win2_5.index t (0 : Fin 2) = (i 0).val / 4096 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 4096 ≤ (i 0).val ∧ (i 0).val < win2_5.index t (0 : Fin 2) * 4096 + 4096; omega
  | ⟨1, _⟩ => show win2_5.index t (1 : Fin 2) * 256 ≤ (i 1).val ∧ (i 1).val < win2_5.index t (1 : Fin 2) * 256 + 256; omega

/-- The output array after the run. -/
theorem final (c : Dev nD) : (dat2 V c).arrAt 5 cfg2.N = Spec.bnrr (V c main_v15) (V c main_v18) (V c main_v19) (V c main_arg8) (V c main_arg9) :=
  (dat2 V c).arrAt_eq_of_cover 5 _ (fun t _ => flushed_eq V c t) cover

end Cert.KernelIdeal.Reg2

end
-- ==== Proof.KReg3.lean ====
/-
  Region 3 (the second edge message): the array its output window leaves after the run.

  The grid has 128 points; point t stages rows t·4096 … t·4096+4095 of each row-indexed operand and the whole of every
  other operand, and writes back rows t·4096 … of the output. The body computes `Spec.msg` of the staged blocks, and that
  function is computed row by row, so block t of the output is block t of `Spec.msg` of the whole arrays; the blocks
  tile the output, hence the output array ends as `Spec.msg` of the arrays the region found.
-/
import proofs.«181940_j74397423501381_1_alg».proof.Proof.Gen.KernelIdeal.Frame
import proofs.«181940_j74397423501381_1_alg».proof.Proof.KPay
import proofs.«181940_j74397423501381_1_alg».proof.Proof.SpecRows
import Idealize.ShloMosaic.Lib.Pipeline.Value

set_option maxRecDepth 16384

noncomputable section

namespace Cert.KernelIdeal.Reg3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: a row-indexed operand's block index is the output's, every other index is 0. -/
theorem idx_facts : ∀ t : Fin cfg3.N, win3_0.index t (0 : Fin 2) = win3_4.index t (0 : Fin 2)
    ∧ win3_0.index t (1 : Fin 2) = 0
    ∧ win3_3.index t (0 : Fin 2) = win3_4.index t (0 : Fin 2)
    ∧ win3_3.index t (1 : Fin 2) = 0
    ∧ win3_1.index t (0 : Fin 2) = 0
    ∧ win3_1.index t (1 : Fin 2) = 0
    ∧ win3_2.index t (0 : Fin 1) = 0
    ∧ win3_4.index t (1 : Fin 2) = 0
    ∧ win3_4.index t (0 : Fin 2) ≤ 127 :=
  (by decide +kernel : ∀ t : Fin grid3.N, _)

/-- Every block of rows of the output is some point's. -/
theorem idx_onto : ∀ q0 : Fin 128, ∃ t : Fin cfg3.N, win3_4.index t = ![q0.val, 0] :=
  (by decide +kernel : ∀ q0 : Fin 128, ∃ t : Fin grid3.N, win3_4.index t = ![q0.val, 0])

/-- What point t writes back is block t of `Spec.msg` of the arrays the region found. -/
theorem flushed_eq (c : Dev nD) (t : Fin cfg3.N) :
    (dat3 V c).flushed 4 t = ((cfg3.win 4).blk t).view.read (Elt Ideal) (Spec.msg (V c main_v27) (V c main_arg2) (V c main_arg10) (V c main_arg11)) := by
  show (cfg3.win 4).cut (grid3.coords t) ((dat3 V c).after 4 t) = _
  rw [after3_4]
  unfold out3_4
  rw [View.canon_unit_zero hz]
  simp only [View.ld_unit_zero (S := S4096x32) hz, View.ld_unit_zero (S := S32x256) hz, View.ld_unit_zero (S := S256) hz1, View.ld_unit_zero (S := S4096x256) hz]
  rw [Pay.pay3_eq]
  obtain ⟨e0, e1, e2, e3, e4, e5, e6, e7, e8⟩ := idx_facts t
  have hw1 : iblk3 V c 1 t = V c main_arg10 := by
    funext y
    show V c main_arg10 (((cfg3.win 1).blk t).view.emb y) = V c main_arg10 y
    refine congrArg _ (funext fun a => Fin.ext ?_)
    match a with
    | ⟨0, _⟩ => show win3_1.index t (0 : Fin 2) * 32 + 1 * (y 0).val = (y 0).val; omega
    | ⟨1, _⟩ => show win3_1.index t (1 : Fin 2) * 256 + 1 * (y 1).val = (y 1).val; omega
  have hw2 : iblk3 V c 2 t = V c main_arg11 := by
    funext y
    show V c main_arg11 (((cfg3.win 2).blk t).view.emb y) = V c main_arg11 y
    refine congrArg _ (funext fun a => Fin.ext ?_)
    match a with
    | ⟨0, _⟩ => show win3_2.index t (0 : Fin 1) * 256 + 1 * (y 0).val = (y 0).val; omega
  rw [hw1, hw2]
  funext j
  obtain ⟨p, q, rfl⟩ : ∃ (p : Fin 4096) (q : Fin 256), j = ix2 p q := ⟨j 0, j 1, eq_ix2 j⟩
  have hp : p.val < 4096 := p.isLt
  have hr0 : Spec.RowEq p (⟨win3_4.index t (0 : Fin 2) * 4096 + p.val, by omega⟩ : Fin 524288) (iblk3 V c 0 t) (V c main_arg2) := fun k => by
    show V c main_arg2 (((cfg3.win 0).blk t).view.emb (ix2 p k)) = V c main_arg2 (ix2 (⟨win3_4.index t (0 : Fin 2) * 4096 + p.val, by omega⟩ : Fin 524288) k)
    refine congrArg _ (funext fun a => Fin.ext ?_)
    match a with
    | ⟨0, _⟩ => show win3_0.index t (0 : Fin 2) * 4096 + 1 * p.val = win3_4.index t (0 : Fin 2) * 4096 + p.val; omega
    | ⟨1, _⟩ => show win3_0.index t (1 : Fin 2) * 32 + 1 * k.val = k.val; omega
  have hr3 : Spec.RowEq p (⟨win3_4.index t (0 : Fin 2) * 4096 + p.val, by omega⟩ : Fin 524288) (iblk3 V c 3 t) (V c main_v27) := fun k => by
    show V c main_v27 (((cfg3.win 3).blk t).view.emb (ix2 p k)) = V c main_v27 (ix2 (⟨win3_4.index t (0 : Fin 2) * 4096 + p.val, by omega⟩ : Fin 524288) k)
    refine congrArg _ (funext fun a => Fin.ext ?_)
    match a with
    | ⟨0, _⟩ => show win3_3.index t (0 : Fin 2) * 4096 + 1 * p.val = win3_4.index t (0 : Fin 2) * 4096 + p.val; omega
    | ⟨1, _⟩ => show win3_3.index t (1 : Fin 2) * 256 + 1 * k.val = k.val; omega
  have hemb : ((cfg3.win 4).blk t).view.emb (ix2 p q) = ix2 (⟨win3_4.index t (0 : Fin 2) * 4096 + p.val, by omega⟩ : Fin 524288) q := by
    funext a; apply Fin.ext
    match a with
    | ⟨0, _⟩ => show win3_4.index t (0 : Fin 2) * 4096 + 1 * p.val = win3_4.index t (0 : Fin 2) * 4096 + p.val; omega
    | ⟨1, _⟩ => show win3_4.index t (1 : Fin 2) * 256 + 1 * q.val = q.val; omega
  show Spec.msg (iblk3 V c 3 t) (iblk3 V c 0 t) (V c main_arg10) (V c main_arg11) (ix2 p q) = Spec.msg (V c main_v27) (V c main_arg2) (V c main_arg10) (V c main_arg11) (((cfg3.win 4).blk t).view.emb (ix2 p q))
  rw [hemb]
  exact Spec.RowEq.msg _ _ hr3 hr0 q

/-- An index of the output array is in point t's block iff each coordinate is in the block's range on its axis. -/
theorem mem_blk (t : Fin cfg3.N) (i : S524288x256.Idx) :
    i ∈ ((cfg3.win 4).blk t).view.set ↔ ∀ a : Fin 2, win3_4.index t a * S4096x256.size a ≤ (i a).val ∧ (i a).val < win3_4.index t a * S4096x256.size a + S4096x256.size a := by
  show i ∈ ((View.whole main_v28).slice (win3_4.rect t)).set ↔ _
  rw [View.set_slice_whole, Rect.mem_set_unit]
  exact Iff.rfl

/-- The output's blocks cover the array: row r lies in the block of point r / 4096. -/
theorem cover (i : S524288x256.Idx) : ∃ t : Fin cfg3.N, (cfg3.win 4).flush t = true ∧ i ∈ ((cfg3.win 4).blk t).view.set := by
  have hi0 : (i 0).val < 524288 := (i 0).isLt
  have hi1 : (i 1).val < 256 := (i 1).isLt
  obtain ⟨t, ht⟩ := idx_onto ⟨(i 0).val / 4096, by omega⟩
  have q0 : win3_4.index t (0 : Fin 2) = (i 0).val / 4096 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 4096 ≤ (i 0).val ∧ (i 0).val < win3_4.index t (0 : Fin 2) * 4096 + 4096; omega
  | ⟨1, _⟩ => show win3_4.index t (1 : Fin 2) * 256 ≤ (i 1).val ∧ (i 1).val < win3_4.index t (1 : Fin 2) * 256 + 256; omega

/-- The output array after the run. -/
theorem final (c : Dev nD) : (dat3 V c).arrAt 4 cfg3.N = Spec.msg (V c main_v27) (V c main_arg2) (V c main_arg10) (V c main_arg11) :=
  (dat3 V c).arrAt_eq_of_cover 4 _ (fun t _ => flushed_eq V c t) cover

end Cert.KernelIdeal.Reg3

end
-- ==== Proof.KReg4.lean ====
/-
  Region 4 (the second dense layer): the array its output window leaves after the run.

  The grid has 16 points; point t stages rows t·2048 … t·2048+2047 of each row-indexed operand and the whole of every
  other operand, and writes back rows t·2048 … of the output. The body computes `Spec.lin` of the staged blocks, and that
  function is computed row by row, so block t of the output is block t of `Spec.lin` of the whole arrays; the blocks
  tile the output, hence the output array ends as `Spec.lin` of the arrays the region found.
-/
import proofs.«181940_j74397423501381_1_alg».proof.Proof.Gen.KernelIdeal.Frame
import proofs.«181940_j74397423501381_1_alg».proof.Proof.KPay
import proofs.«181940_j74397423501381_1_alg».proof.Proof.SpecRows
import Idealize.ShloMosaic.Lib.Pipeline.Value

set_option maxRecDepth 16384

noncomputable section

namespace Cert.KernelIdeal.Reg4

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: a row-indexed operand's block index is the output's, every other index is 0. -/
theorem idx_facts : ∀ t : Fin cfg4.N, win4_0.index t (0 : Fin 2) = win4_4.index t (0 : Fin 2)
    ∧ win4_0.index t (1 : Fin 2) = 0
    ∧ win4_1.index t (0 : Fin 2) = win4_4.index t (0 : Fin 2)
    ∧ win4_1.index t (1 : Fin 2) = 0
    ∧ win4_2.index t (0 : Fin 2) = 0
    ∧ win4_2.index t (1 : Fin 2) = 0
    ∧ win4_3.index t (0 : Fin 1) = 0
    ∧ win4_4.index t (1 : Fin 2) = 0
    ∧ win4_4.index t (0 : Fin 2) ≤ 15 :=
  (by decide +kernel : ∀ t : Fin grid4.N, _)

/-- Every block of rows of the output is some point's. -/
theorem idx_onto : ∀ q0 : Fin 16, ∃ t : Fin cfg4.N, win4_4.index t = ![q0.val, 0] :=
  (by decide +kernel : ∀ q0 : Fin 16, ∃ t : Fin grid4.N, win4_4.index t = ![q0.val, 0])

/-- What point t writes back is block t of `Spec.lin` of the arrays the region found. -/
theorem flushed_eq (c : Dev nD) (t : Fin cfg4.N) :
    (dat4 V c).flushed 4 t = ((cfg4.win 4).blk t).view.read (Elt Ideal) (Spec.lin (V c main_v20) (V c main_v31) (V c main_arg12) (V c main_arg13)) := by
  show (cfg4.win 4).cut (grid4.coords t) ((dat4 V c).after 4 t) = _
  rw [after4_4]
  unfold out4_4
  rw [View.canon_unit_zero hz]
  simp only [View.ld_unit_zero (S := S2048x256) hz, View.ld_unit_zero (S := S256x256) hz, View.ld_unit_zero (S := S256) hz1]
  rw [Pay.pay4_eq]
  obtain ⟨e0, e1, e2, e3, e4, e5, e6, e7, e8⟩ := idx_facts t
  have hw2 : iblk4 V c 2 t = V c main_arg12 := by
    funext y
    show V c main_arg12 (((cfg4.win 2).blk t).view.emb y) = V c main_arg12 y
    refine congrArg _ (funext fun a => Fin.ext ?_)
    match a with
    | ⟨0, _⟩ => show win4_2.index t (0 : Fin 2) * 256 + 1 * (y 0).val = (y 0).val; omega
    | ⟨1, _⟩ => show win4_2.index t (1 : Fin 2) * 256 + 1 * (y 1).val = (y 1).val; omega
  have hw3 : iblk4 V c 3 t = V c main_arg13 := by
    funext y
    show V c main_arg13 (((cfg4.win 3).blk t).view.emb y) = V c main_arg13 y
    refine congrArg _ (funext fun a => Fin.ext ?_)
    match a with
    | ⟨0, _⟩ => show win4_3.index t (0 : Fin 1) * 256 + 1 * (y 0).val = (y 0).val; omega
  rw [hw2, hw3]
  funext j
  obtain ⟨p, q, rfl⟩ : ∃ (p : Fin 2048) (q : Fin 256), j = ix2 p q := ⟨j 0, j 1, eq_ix2 j⟩
  have hp : p.val < 2048 := p.isLt
  have hr0 : Spec.RowEq p (⟨win4_4.index t (0 : Fin 2) * 2048 + p.val, by omega⟩ : Fin 32768) (iblk4 V c 0 t) (V c main_v20) := fun k => by
    show V c main_v20 (((cfg4.win 0).blk t).view.emb (ix2 p k)) = V c main_v20 (ix2 (⟨win4_4.index t (0 : Fin 2) * 2048 + p.val, by omega⟩ : Fin 32768) k)
    refine congrArg _ (funext fun a => Fin.ext ?_)
    match a with
    | ⟨0, _⟩ => show win4_0.index t (0 : Fin 2) * 2048 + 1 * p.val = win4_4.index t (0 : Fin 2) * 2048 + p.val; omega
    | ⟨1, _⟩ => show win4_0.index t (1 : Fin 2) * 256 + 1 * k.val = k.val; omega
  have hr1 : Spec.RowEq p (⟨win4_4.index t (0 : Fin 2) * 2048 + p.val, by omega⟩ : Fin 32768) (iblk4 V c 1 t) (V c main_v31) := fun k => by
    show V c main_v31 (((cfg4.win 1).blk t).view.emb (ix2 p k)) = V c main_v31 (ix2 (⟨win4_4.index t (0 : Fin 2) * 2048 + p.val, by omega⟩ : Fin 32768) k)
    refine congrArg _ (funext fun a => Fin.ext ?_)
    match a with
    | ⟨0, _⟩ => show win4_1.index t (0 : Fin 2) * 2048 + 1 * p.val = win4_4.index t (0 : Fin 2) * 2048 + p.val; omega
    | ⟨1, _⟩ => show win4_1.index t (1 : Fin 2) * 256 + 1 * k.val = k.val; omega
  have hemb : ((cfg4.win 4).blk t).view.emb (ix2 p q) = ix2 (⟨win4_4.index t (0 : Fin 2) * 2048 + p.val, by omega⟩ : Fin 32768) q := by
    funext a; apply Fin.ext
    match a with
    | ⟨0, _⟩ => show win4_4.index t (0 : Fin 2) * 2048 + 1 * p.val = win4_4.index t (0 : Fin 2) * 2048 + p.val; omega
    | ⟨1, _⟩ => show win4_4.index t (1 : Fin 2) * 256 + 1 * q.val = q.val; omega
  show Spec.lin (iblk4 V c 0 t) (iblk4 V c 1 t) (V c main_arg12) (V c main_arg13) (ix2 p q) = Spec.lin (V c main_v20) (V c main_v31) (V c main_arg12) (V c main_arg13) (((cfg4.win 4).blk t).view.emb (ix2 p q))
  rw [hemb]
  exact Spec.RowEq.lin _ _ hr0 hr1 q

/-- An index of the output array is in point t's block iff each coordinate is in the block's range on its axis. -/
theorem mem_blk (t : Fin cfg4.N) (i : S32768x256.Idx) :
    i ∈ ((cfg4.win 4).blk t).view.set ↔ ∀ a : Fin 2, win4_4.index t a * S2048x256.size a ≤ (i a).val ∧ (i a).val < win4_4.index t a * S2048x256.size a + S2048x256.size a := by
  show i ∈ ((View.whole main_v32).slice (win4_4.rect t)).set ↔ _
  rw [View.set_slice_whole, Rect.mem_set_unit]
  exact Iff.rfl

/-- The output's blocks cover the array: row r lies in the block of point r / 2048. -/
theorem cover (i : S32768x256.Idx) : ∃ t : Fin cfg4.N, (cfg4.win 4).flush t = true ∧ i ∈ ((cfg4.win 4).blk t).view.set := by
  have hi0 : (i 0).val < 32768 := (i 0).isLt
  have hi1 : (i 1).val < 256 := (i 1).isLt
  obtain ⟨t, ht⟩ := idx_onto ⟨(i 0).val / 2048, by omega⟩
  have q0 : win4_4.index t (0 : Fin 2) = (i 0).val / 2048 := congrFun ht 0
  have q1 : win4_4.index t (1 : Fin 2) = 0 := congrFun ht 1
  refine ⟨t, flush4_4 t, ?_⟩
  rw [mem_blk]
  intro a
  match a with
  | ⟨0, _⟩ => show win4_4.index t (0 : Fin 2) * 2048 ≤ (i 0).val ∧ (i 0).val < win4_4.index t (0 : Fin 2) * 2048 + 2048; omega
  | ⟨1, _⟩ => show win4_4.index t (1 : Fin 2) * 256 ≤ (i 1).val ∧ (i 1).val < win4_4.index t (1 : Fin 2) * 256 + 256; omega

/-- The output array after the run. -/
theorem final (c : Dev nD) : (dat4 V c).arrAt 4 cfg4.N = Spec.lin (V c main_v20) (V c main_v31) (V c main_arg12) (V c main_arg13) :=
  (dat4 V c).arrAt_eq_of_cover 4 _ (fun t _ => flushed_eq V c t) cover

end Cert.KernelIdeal.Reg4

end
-- ==== Proof.KReg5.lean ====
/-
  Region 5 (the second normalisation): the array its output window leaves after the run.

  The grid has 8 points; point t stages rows t·4096 … t·4096+4095 of each row-indexed operand and the whole of every
  other operand, and writes back rows t·4096 … of the output. The body computes `Spec.bnrs` of the staged blocks, and that
  function is computed row by row, so block t of the output is block t of `Spec.bnrs` of the whole arrays; the blocks
  tile the output, hence the output array ends as `Spec.bnrs` of the arrays the region found.
-/
import proofs.«181940_j74397423501381_1_alg».proof.Proof.Gen.KernelIdeal.Frame
import proofs.«181940_j74397423501381_1_alg».proof.Proof.KPay
import proofs.«181940_j74397423501381_1_alg».proof.Proof.SpecRows
import Idealize.ShloMosaic.Lib.Pipeline.Value

set_option maxRecDepth 16384

noncomputable section

namespace Cert.KernelIdeal.Reg5

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: a row-indexed operand's block index is the output's, every other index is 0. -/
theorem idx_facts : ∀ t : Fin cfg5.N, win5_0.index t (0 : Fin 2) = win5_5.index t (0 : Fin 2)
    ∧ win5_0.index t (1 : Fin 2) = 0
    ∧ win5_1.index t (0 : Fin 1) = 0
    ∧ win5_2.index t (0 : Fin 1) = 0
    ∧ win5_3.index t (0 : Fin 1) = 0
    ∧ win5_4.index t (0 : Fin 1) = 0
    ∧ win5_5.index t (1 : Fin 2) = 0
    ∧ win5_5.index t (0 : Fin 2) ≤ 7 :=
  (by decide +kernel : ∀ t : Fin grid5.N, _)

/-- Every block of rows of the output is some point's. -/
theorem idx_onto : ∀ q0 : Fin 8, ∃ t : Fin cfg5.N, win5_5.index t = ![q0.val, 0] :=
  (by decide +kernel : ∀ q0 : Fin 8, ∃ t : Fin grid5.N, win5_5.index t = ![q0.val, 0])

/-- What point t writes back is block t of `Spec.bnrs` of the arrays the region found. -/
theorem flushed_eq (c : Dev nD) (t : Fin cfg5.N) :
    (dat5 V c).flushed 5 t = ((cfg5.win 5).blk t).view.read (Elt Ideal) (Spec.bnrs (V c main_v32) (V c main_v35) (V c main_v36) (V c main_arg14) (V c main_arg15)) := by
  show (cfg5.win 5).cut (grid5.coords t) ((dat5 V c).after 5 t) = _
  rw [after5_5]
  unfold out5_5
  rw [View.canon_unit_zero hz]
  simp only [View.ld_unit_zero (S := S4096x256) hz, View.ld_unit_zero (S := S256) hz1]
  rw [Pay.pay5_eq]
  obtain ⟨e0, e1, e2, e3, e4, e5, e6, e7⟩ := idx_facts t
  have hw1 : iblk5 V c 1 t = V c main_v35 := by
    funext y
    show V c main_v35 (((cfg5.win 1).blk t).view.emb y) = V c main_v35 y
    refine congrArg _ (funext fun a => Fin.ext ?_)
    match a with
    | ⟨0, _⟩ => show win5_1.index t (0 : Fin 1) * 256 + 1 * (y 0).val = (y 0).val; omega
  have hw2 : iblk5 V c 2 t = V c main_v36 := by
    funext y
    show V c main_v36 (((cfg5.win 2).blk t).view.emb y) = V c main_v36 y
    refine congrArg _ (funext fun a => Fin.ext ?_)
    match a with
    | ⟨0, _⟩ => show win5_2.index t (0 : Fin 1) * 256 + 1 * (y 0).val = (y 0).val; omega
  have hw3 : iblk5 V c 3 t = V c main_arg14 := by
    funext y
    show V c main_arg14 (((cfg5.win 3).blk t).view.emb y) = V c main_arg14 y
    refine congrArg _ (funext fun a => Fin.ext ?_)
    match a with
    | ⟨0, _⟩ => show win5_3.index t (0 : Fin 1) * 256 + 1 * (y 0).val = (y 0).val; omega
  have hw4 : iblk5 V c 4 t = V c main_arg15 := by
    funext y
    show V c main_arg15 (((cfg5.win 4).blk t).view.emb y) = V c main_arg15 y
    refine congrArg _ (funext fun a => Fin.ext ?_)
    match a with
    | ⟨0, _⟩ => show win5_4.index t (0 : Fin 1) * 256 + 1 * (y 0).val = (y 0).val; omega
  rw [hw1, hw2, hw3, hw4]
  funext j
  obtain ⟨p, q, rfl⟩ : ∃ (p : Fin 4096) (q : Fin 256), j = ix2 p q := ⟨j 0, j 1, eq_ix2 j⟩
  have hp : p.val < 4096 := p.isLt
  have hr0 : Spec.RowEq p (⟨win5_5.index t (0 : Fin 2) * 4096 + p.val, by omega⟩ : Fin 32768) (iblk5 V c 0 t) (V c main_v32) := fun k => by
    show V c main_v32 (((cfg5.win 0).blk t).view.emb (ix2 p k)) = V c main_v32 (ix2 (⟨win5_5.index t (0 : Fin 2) * 4096 + p.val, by omega⟩ : Fin 32768) k)
    refine congrArg _ (funext fun a => Fin.ext ?_)
    match a with
    | ⟨0, _⟩ => show win5_0.index t (0 : Fin 2) * 4096 + 1 * p.val = win5_5.index t (0 : Fin 2) * 4096 + p.val; omega
    | ⟨1, _⟩ => show win5_0.index t (1 : Fin 2) * 256 + 1 * k.val = k.val; omega
  have hemb : ((cfg5.win 5).blk t).view.emb (ix2 p q) = ix2 (⟨win5_5.index t (0 : Fin 2) * 4096 + p.val, by omega⟩ : Fin 32768) q := by
    funext a; apply Fin.ext
    match a with
    | ⟨0, _⟩ => show win5_5.index t (0 : Fin 2) * 4096 + 1 * p.val = win5_5.index t (0 : Fin 2) * 4096 + p.val; omega
    | ⟨1, _⟩ => show win5_5.index t (1 : Fin 2) * 256 + 1 * q.val = q.val; omega
  show Spec.bnrs (iblk5 V c 0 t) (V c main_v35) (V c main_v36) (V c main_arg14) (V c main_arg15) (ix2 p q) = Spec.bnrs (V c main_v32) (V c main_v35) (V c main_v36) (V c main_arg14) (V c main_arg15) (((cfg5.win 5).blk t).view.emb (ix2 p q))
  rw [hemb]
  exact Spec.RowEq.bnrs _ _ _ _ hr0 q

/-- An index of the output array is in point t's block iff each coordinate is in the block's range on its axis. -/
theorem mem_blk (t : Fin cfg5.N) (i : S32768x256.Idx) :
    i ∈ ((cfg5.win 5).blk t).view.set ↔ ∀ a : Fin 2, win5_5.index t a * S4096x256.size a ≤ (i a).val ∧ (i a).val < win5_5.index t a * S4096x256.size a + S4096x256.size a := by
  show i ∈ ((View.whole main_v37).slice (win5_5.rect t)).set ↔ _
  rw [View.set_slice_whole, Rect.mem_set_unit]
  exact Iff.rfl

/-- The output's blocks cover the array: row r lies in the block of point r / 4096. -/
theorem cover (i : S32768x256.Idx) : ∃ t : Fin cfg5.N, (cfg5.win 5).flush t = true ∧ i ∈ ((cfg5.win 5).blk t).view.set := by
  have hi0 : (i 0).val < 32768 := (i 0).isLt
  have hi1 : (i 1).val < 256 := (i 1).isLt
  obtain ⟨t, ht⟩ := idx_onto ⟨(i 0).val / 4096, by omega⟩
  have q0 : win5_5.index t (0 : Fin 2) = (i 0).val / 4096 := congrFun ht 0
  have q1 : win5_5.index t (1 : Fin 2) = 0 := congrFun ht 1
  refine ⟨t, flush5_5 t, ?_⟩
  rw [mem_blk]
  intro a
  match a with
  | ⟨0, _⟩ => show win5_5.index t (0 : Fin 2) * 4096 ≤ (i 0).val ∧ (i 0).val < win5_5.index t (0 : Fin 2) * 4096 + 4096; omega
  | ⟨1, _⟩ => show win5_5.index t (1 : Fin 2) * 256 ≤ (i 1).val ∧ (i 1).val < win5_5.index t (1 : Fin 2) * 256 + 256; omega

/-- The output array after the run. -/
theorem final (c : Dev nD) : (dat5 V c).arrAt 5 cfg5.N = Spec.bnrs (V c main_v32) (V c main_v35) (V c main_v36) (V c main_arg14) (V c main_arg15) :=
  (dat5 V c).arrAt_eq_of_cover 5 _ (fun t _ => flushed_eq V c t) cover

end Cert.KernelIdeal.Reg5

end
-- ==== Proof.KReg6.lean ====
/-
  Region 6 (the per-node perceptron): the array its output window leaves after the run.

  The grid has 8 points; point t stages rows t·4096 … t·4096+4095 of each row-indexed operand and the whole of every
  other operand, and writes back rows t·4096 … of the output. The body computes `Spec.mlp` of the staged blocks, and that
  function is computed row by row, so block t of the output is block t of `Spec.mlp` of the whole arrays; the blocks
  tile the output, hence the output array ends as `Spec.mlp` of the arrays the region found.
-/
import proofs.«181940_j74397423501381_1_alg».proof.Proof.Gen.KernelIdeal.Frame
import proofs.«181940_j74397423501381_1_alg».proof.Proof.KPay
import proofs.«181940_j74397423501381_1_alg».proof.Proof.SpecRows
import Idealize.ShloMosaic.Lib.Pipeline.Value

set_option maxRecDepth 16384

noncomputable section

namespace Cert.KernelIdeal.Reg6

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: a row-indexed operand's block index is the output's, every other index is 0. -/
theorem idx_facts : ∀ t : Fin cfg6.N, win6_0.index t (0 : Fin 2) = win6_7.index t (0 : Fin 2)
    ∧ win6_0.index t (1 : Fin 2) = 0
    ∧ win6_1.index t (0 : Fin 2) = 0
    ∧ win6_1.index t (1 : Fin 2) = 0
    ∧ win6_3.index t (0 : Fin 2) = 0
    ∧ win6_3.index t (1 : Fin 2) = 0
    ∧ win6_5.index t (0 : Fin 2) = 0
    ∧ win6_5.index t (1 : Fin 2) = 0
    ∧ win6_2.index t (0 : Fin 1) = 0
    ∧ win6_4.index t (0 : Fin 1) = 0
    ∧ win6_6.index t (0 : Fin 1) = 0
    ∧ win6_7.index t (1 : Fin 2) = 0
    ∧ win6_7.index t (0 : Fin 2) ≤ 7 :=
  (by decide +kernel : ∀ t : Fin grid6.N, _)

/-- Every block of rows of the output is some point's. -/
theorem idx_onto : ∀ q0 : Fin 8, ∃ t : Fin cfg6.N, win6_7.index t = ![q0.val, 0] :=
  (by decide +kernel : ∀ q0 : Fin 8, ∃ t : Fin grid6.N, win6_7.index t = ![q0.val, 0])

set_option maxHeartbeats 4000000 in
/-- What point t writes back is block t of `Spec.mlp` of the arrays the region found. -/
theorem flushed_eq (c : Dev nD) (t : Fin cfg6.N) :
    (dat6 V c).flushed 7 t = ((cfg6.win 7).blk t).view.read (Elt Ideal) (Spec.mlp (V c main_v37) (V c main_arg16) (V c main_arg17) (V c main_arg18) (V c main_arg19) (V c main_arg20) (V c main_arg21)) := by
  show (cfg6.win 7).cut (grid6.coords t) ((dat6 V c).after 7 t) = _
  rw [after6_7]
  unfold out6_7
  rw [View.canon_unit_zero hz]
  simp only [View.ld_unit_zero (S := S4096x256) hz, View.ld_unit_zero (S := S256x256) hz, View.ld_unit_zero (S := S256) hz1, View.ld_unit_zero (S := S256x1) hz, View.ld_unit_zero (S := S1) hz1]
  rw [Pay.pay6_eq]
  obtain ⟨e0, e1, e2, e3, e4, e5, e6, e7, e8, e9, e10, e11, e12⟩ := idx_facts t
  have hw1 : iblk6 V c 1 t = V c main_arg16 := by
    funext y
    show V c main_arg16 (((cfg6.win 1).blk t).view.emb y) = V c main_arg16 y
    refine congrArg _ (funext fun a => Fin.ext ?_)
    match a with
    | ⟨0, _⟩ => show win6_1.index t (0 : Fin 2) * 256 + 1 * (y 0).val = (y 0).val; omega
    | ⟨1, _⟩ => show win6_1.index t (1 : Fin 2) * 256 + 1 * (y 1).val = (y 1).val; omega
  have hw3 : iblk6 V c 3 t = V c main_arg18 := by
    funext y
    show V c main_arg18 (((cfg6.win 3).blk t).view.emb y) = V c main_arg18 y
    refine congrArg _ (funext fun a => Fin.ext ?_)
    match a with
    | ⟨0, _⟩ => show win6_3.index t (0 : Fin 2) * 256 + 1 * (y 0).val = (y 0).val; omega
    | ⟨1, _⟩ => show win6_3.index t (1 : Fin 2) * 256 + 1 * (y 1).val = (y 1).val; omega
  have hw5 : iblk6 V c 5 t = V c main_arg20 := by
    funext y
    show V c main_arg20 (((cfg6.win 5).blk t).view.emb y) = V c main_arg20 y
    refine congrArg _ (funext fun a => Fin.ext ?_)
    match a with
    | ⟨0, _⟩ => show win6_5.index t (0 : Fin 2) * 256 + 1 * (y 0).val = (y 0).val; omega
    | ⟨1, _⟩ => show win6_5.index t (1 : Fin 2) * 1 + 1 * (y 1).val = (y 1).val; omega
  have hw2 : iblk6 V c 2 t = V c main_arg17 := by
    funext y
    show V c main_arg17 (((cfg6.win 2).blk t).view.emb y) = V c main_arg17 y
    refine congrArg _ (funext fun a => Fin.ext ?_)
    match a with
    | ⟨0, _⟩ => show win6_2.index t (0 : Fin 1) * 256 + 1 * (y 0).val = (y 0).val; omega
  have hw4 : iblk6 V c 4 t = V c main_arg19 := by
    funext y
    show V c main_arg19 (((cfg6.win 4).blk t).view.emb y) = V c main_arg19 y
    refine congrArg _ (funext fun a => Fin.ext ?_)
    match a with
    | ⟨0, _⟩ => show win6_4.index t (0 : Fin 1) * 256 + 1 * (y 0).val = (y 0).val; omega
  have hw6 : iblk6 V c 6 t = V c main_arg21 := by
    funext y
    show V c main_arg21 (((cfg6.win 6).blk t).view.emb y) = V c main_arg21 y
    refine congrArg _ (funext fun a => Fin.ext ?_)
    match a with
    | ⟨0, _⟩ => show win6_6.index t (0 : Fin 1) * 1 + 1 * (y 0).val = (y 0).val; omega
  rw [hw1, hw3, hw5, hw2, hw4, hw6]
  funext j
  obtain ⟨p, q, rfl⟩ : ∃ (p : Fin 4096) (q : Fin 1), j = ix2 p q := ⟨j 0, j 1, eq_ix2 j⟩
  have hp : p.val < 4096 := p.isLt
  have hr0 : Spec.RowEq p (⟨win6_7.index t (0 : Fin 2) * 4096 + p.val, by omega⟩ : Fin 32768) (iblk6 V c 0 t) (V c main_v37) := fun k => by
    show V c main_v37 (((cfg6.win 0).blk t).view.emb (ix2 p k)) = V c main_v37 (ix2 (⟨win6_7.index t (0 : Fin 2) * 4096 + p.val, by omega⟩ : Fin 32768) k)
    refine congrArg _ (funext fun a => Fin.ext ?_)
    match a with
    | ⟨0, _⟩ => show win6_0.index t (0 : Fin 2) * 4096 + 1 * p.val = win6_7.index t (0 : Fin 2) * 4096 + p.val; omega
    | ⟨1, _⟩ => show win6_0.index t (1 : Fin 2) * 256 + 1 * k.val = k.val; omega
  have hemb : ((cfg6.win 7).blk t).view.emb (ix2 p q) = ix2 (⟨win6_7.index t (0 : Fin 2) * 4096 + p.val, by omega⟩ : Fin 32768) q := by
    funext a; apply Fin.ext
    match a with
    | ⟨0, _⟩ => show win6_7.index t (0 : Fin 2) * 4096 + 1 * p.val = win6_7.index t (0 : Fin 2) * 4096 + p.val; omega
    | ⟨1, _⟩ => show win6_7.index t (1 : Fin 2) * 1 + 1 * q.val = q.val; omega
  show Spec.mlp (iblk6 V c 0 t) (V c main_arg16) (V c main_arg17) (V c main_arg18) (V c main_arg19) (V c main_arg20) (V c main_arg21) (ix2 p q) = Spec.mlp (V c main_v37) (V c main_arg16) (V c main_arg17) (V c main_arg18) (V c main_arg19) (V c main_arg20) (V c main_arg21) (((cfg6.win 7).blk t).view.emb (ix2 p q))
  rw [hemb]
  exact Spec.RowEq.mlp _ _ _ _ _ _ hr0 q

/-- An index of the output array is in point t's block iff each coordinate is in the block's range on its axis. -/
theorem mem_blk (t : Fin cfg6.N) (i : S32768x1.Idx) :
    i ∈ ((cfg6.win 7).blk t).view.set ↔ ∀ a : Fin 2, win6_7.index t a * S4096x1.size a ≤ (i a).val ∧ (i a).val < win6_7.index t a * S4096x1.size a + S4096x1.size a := by
  show i ∈ ((View.whole main_v38).slice (win6_7.rect t)).set ↔ _
  rw [View.set_slice_whole, Rect.mem_set_unit]
  exact Iff.rfl

/-- The output's blocks cover the array: row r lies in the block of point r / 4096. -/
theorem cover (i : S32768x1.Idx) : ∃ t : Fin cfg6.N, (cfg6.win 7).flush t = true ∧ i ∈ ((cfg6.win 7).blk t).view.set := by
  have hi0 : (i 0).val < 32768 := (i 0).isLt
  have hi1 : (i 1).val < 1 := (i 1).isLt
  obtain ⟨t, ht⟩ := idx_onto ⟨(i 0).val / 4096, by omega⟩
  have q0 : win6_7.index t (0 : Fin 2) = (i 0).val / 4096 := congrFun ht 0
  have q1 : win6_7.index t (1 : Fin 2) = 0 := congrFun ht 1
  refine ⟨t, flush6_7 t, ?_⟩
  rw [mem_blk]
  intro a
  match a with
  | ⟨0, _⟩ => show win6_7.index t (0 : Fin 2) * 4096 ≤ (i 0).val ∧ (i 0).val < win6_7.index t (0 : Fin 2) * 4096 + 4096; omega
  | ⟨1, _⟩ => show win6_7.index t (1 : Fin 2) * 1 ≤ (i 1).val ∧ (i 1).val < win6_7.index t (1 : Fin 2) * 1 + 1; omega

/-- The output array after the run. -/
theorem final (c : Dev nD) : (dat6 V c).arrAt 7 cfg6.N = Spec.mlp (V c main_v37) (V c main_arg16) (V c main_arg17) (V c main_arg18) (V c main_arg19) (V c main_arg20) (V c main_arg21) :=
  (dat6 V c).arrAt_eq_of_cover 7 _ (fun t _ => flushed_eq V c t) cover

end Cert.KernelIdeal.Reg6

end
-- ==== Proof.KFold.lean ====
/-
  The kernel program's fold read at each region's output: the array a region leaves is the corresponding function
  of Spec.lean of the arrays it found, and the argument arrays among those are the launch contents.
-/
import proofs.«181940_j74397423501381_1_alg».proof.Proof.KCarry
import proofs.«181940_j74397423501381_1_alg».proof.Proof.KReg0
import proofs.«181940_j74397423501381_1_alg».proof.Proof.KReg1
import proofs.«181940_j74397423501381_1_alg».proof.Proof.KReg2
import proofs.«181940_j74397423501381_1_alg».proof.Proof.KReg3
import proofs.«181940_j74397423501381_1_alg».proof.Proof.KReg4
import proofs.«181940_j74397423501381_1_alg».proof.Proof.KReg5
import proofs.«181940_j74397423501381_1_alg».proof.Proof.KReg6

set_option maxRecDepth 16384

noncomputable section

namespace Cert.KernelIdeal.Fold

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Region 0's output after the region. -/
theorem out0 (c : Dev nD) : W2 m ρ c (Proc.devRef .tc main_v11) = Spec.msg (W1 m ρ c (Proc.devRef .tc main_v10)) (m ((c : Thread nD τ).loc main_arg2)) (m ((c : Thread nD τ).loc main_arg4)) (m ((c : Thread nD τ).loc main_arg5)) :=
  (W2_arr m ρ c 4).trans ((Reg0.final (V1 m ρ) c).trans (by
    show Spec.msg (W1 m ρ c (Proc.devRef .tc main_v10)) (W1 m ρ c (Proc.devRef .tc main_arg2)) (W1 m ρ c (Proc.devRef .tc main_arg4)) (W1 m ρ c (Proc.devRef .tc main_arg5)) = _
    rw [Carry.W1_arg2 m ρ c, Carry.W1_arg4 m ρ c, Carry.W1_arg5 m ρ c]))

/-- Region 1's output after the region. -/
theorem out1 (c : Dev nD) : W4 m ρ c (Proc.devRef .tc main_v15) = Spec.lin (m ((c : Thread nD τ).loc main_arg0)) (W3 m ρ c (Proc.devRef .tc main_v14)) (m ((c : Thread nD τ).loc main_arg6)) (m ((c : Thread nD τ).loc main_arg7)) :=
  (W4_arr m ρ c 4).trans ((Reg1.final (V3 m ρ) c).trans (by
    show Spec.lin (W3 m ρ c (Proc.devRef .tc main_arg0)) (W3 m ρ c (Proc.devRef .tc main_v14)) (W3 m ρ c (Proc.devRef .tc main_arg6)) (W3 m ρ c (Proc.devRef .tc main_arg7)) = _
    rw [Carry.W3_arg0 m ρ c, Carry.W3_arg6 m ρ c, Carry.W3_arg7 m ρ c]))

/-- Region 2's output after the region. -/
theorem out2 (c : Dev nD) : W7 m ρ c (Proc.devRef .tc main_v20) = Spec.bnrr (W6 m ρ c (Proc.devRef .tc main_v15)) (W6 m ρ c (Proc.devRef .tc main_v18)) (W6 m ρ c (Proc.devRef .tc main_v19)) (m ((c : Thread nD τ).loc main_arg8)) (m ((c : Thread nD τ).loc main_arg9)) :=
  (W7_arr m ρ c 5).trans ((Reg2.final (V6 m ρ) c).trans (by
    show Spec.bnrr (W6 m ρ c (Proc.devRef .tc main_v15)) (W6 m ρ c (Proc.devRef .tc main_v18)) (W6 m ρ c (Proc.devRef .tc main_v19)) (W6 m ρ c (Proc.devRef .tc main_arg8)) (W6 m ρ c (Proc.devRef .tc main_arg9)) = _
    rw [Carry.W6_arg8 m ρ c, Carry.W6_arg9 m ρ c]))

/-- Region 3's output after the region. -/
theorem out3 (c : Dev nD) : W9 m ρ c (Proc.devRef .tc main_v28) = Spec.msg (W8 m ρ c (Proc.devRef .tc main_v27)) (m ((c : Thread nD τ).loc main_arg2)) (m ((c : Thread nD τ).loc main_arg10)) (m ((c : Thread nD τ).loc main_arg11)) :=
  (W9_arr m ρ c 4).trans ((Reg3.final (V8 m ρ) c).trans (by
    show Spec.msg (W8 m ρ c (Proc.devRef .tc main_v27)) (W8 m ρ c (Proc.devRef .tc main_arg2)) (W8 m ρ c (Proc.devRef .tc main_arg10)) (W8 m ρ c (Proc.devRef .tc main_arg11)) = _
    rw [Carry.W8_arg2 m ρ c, Carry.W8_arg10 m ρ c, Carry.W8_arg11 m ρ c]))

/-- Region 4's output after the region. -/
theorem out4 (c : Dev nD) : W11 m ρ c (Proc.devRef .tc main_v32) = Spec.lin (W10 m ρ c (Proc.devRef .tc main_v20)) (W10 m ρ c (Proc.devRef .tc main_v31)) (m ((c : Thread nD τ).loc main_arg12)) (m ((c : Thread nD τ).loc main_arg13)) :=
  (W11_arr m ρ c 4).trans ((Reg4.final (V10 m ρ) c).trans (by
    show Spec.lin (W10 m ρ c (Proc.devRef .tc main_v20)) (W10 m ρ c (Proc.devRef .tc main_v31)) (W10 m ρ c (Proc.devRef .tc main_arg12)) (W10 m ρ c (Proc.devRef .tc main_arg13)) = _
    rw [Carry.W10_arg12 m ρ c, Carry.W10_arg13 m ρ c]))

/-- Region 5's output after the region. -/
theorem out5 (c : Dev nD) : W14 m ρ c (Proc.devRef .tc main_v37) = Spec.bnrs (W13 m ρ c (Proc.devRef .tc main_v32)) (W13 m ρ c (Proc.devRef .tc main_v35)) (W13 m ρ c (Proc.devRef .tc main_v36)) (m ((c : Thread nD τ).loc main_arg14)) (m ((c : Thread nD τ).loc main_arg15)) :=
  (W14_arr m ρ c 5).trans ((Reg5.final (V13 m ρ) c).trans (by
    show Spec.bnrs (W13 m ρ c (Proc.devRef .tc main_v32)) (W13 m ρ c (Proc.devRef .tc main_v35)) (W13 m ρ c (Proc.devRef .tc main_v36)) (W13 m ρ c (Proc.devRef .tc main_arg14)) (W13 m ρ c (Proc.devRef .tc main_arg15)) = _
    rw [Carry.W13_arg14 m ρ c, Carry.W13_arg15 m ρ c]))

/-- Region 6's output after the region. -/
theorem out6 (c : Dev nD) : W15 m ρ c (Proc.devRef .tc main_v38) = Spec.mlp (W14 m ρ c (Proc.devRef .tc main_v37)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) :=
  (W15_arr m ρ c 7).trans ((Reg6.final (V14 m ρ) c).trans (by
    show Spec.mlp (W14 m ρ c (Proc.devRef .tc main_v37)) (W14 m ρ c (Proc.devRef .tc main_arg16)) (W14 m ρ c (Proc.devRef .tc main_arg17)) (W14 m ρ c (Proc.devRef .tc main_arg18)) (W14 m ρ c (Proc.devRef .tc main_arg19)) (W14 m ρ c (Proc.devRef .tc main_arg20)) (W14 m ρ c (Proc.devRef .tc main_arg21)) = _
    rw [Carry.W14_arg16 m ρ c, Carry.W14_arg17 m ρ c, Carry.W14_arg18 m ρ c, Carry.W14_arg19 m ρ c, Carry.W14_arg20 m ρ c, Carry.W14_arg21 m ρ c]))

end Cert.KernelIdeal.Fold

end
-- ==== Proof.RefRun.lean ====
/- The run of the reference program `ReferenceIdeal`'s @main read back as a list of host operations.
   @main is 208 statements and a return, thirteen of them calls of outlined functions (@relu, @_var — which calls
   @_where —, @relu_0 three times, @relu_1, @leaky_relu twice — which calls @_where_2 —, @_var_3 twice — which calls
   @_where —, @relu_4 twice); a call executes the callee's body on its operands, so the straight line the program
   runs is the 318 operations below: each call replaced by the callee's operations over that call's record of
   buffers. The line is cut into fourteen consecutive segments at the values a value proof reads; a segment holds
   the constants that precede its operations and the bodies of its calls. `run`: every weakly fair execution
   terminates with every buffer at the fold of the operations over the launch contents. -/
import proofs.«181940_j74397423501381_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- %0 … %10: the two rows of the edge table sliced out and flattened, the source index brought into range, the source rows gathered from %arg0. (13 operations) -/
abbrev seg0 : List (HloOp τ sig (Elt F)) :=
  [ unary main_arg1 main_v0 ((extractStridedSlice S1x524288 ![0, 0] · slices_S2x524288_S1x524288_0_0) : (⟨S2x524288, .i32⟩ : BufTy).Contents (Elt F) → (⟨S1x524288, .i32⟩ : BufTy).Contents (Elt F)),
    reshape main_v0 main_v1 rfl shapeCasts_S1x524288_S524288,
    unary main_arg1 main_v2 ((extractStridedSlice S1x524288 ![1, 0] · slices_S2x524288_S1x524288_1_0) : (⟨S2x524288, .i32⟩ : BufTy).Contents (Elt F) → (⟨S1x524288, .i32⟩ : BufTy).Contents (Elt F)),
    reshape main_v2 main_v3 rfl shapeCasts_S1x524288_S524288,
    nullary main_c (constantI S_ 32 0#32),
    unary main_c main_v4 (broadcastInDim S524288 ![] bcast_S_S524288 : (⟨S_, .i32⟩ : BufTy).Contents (Elt F) → (⟨S524288, .i32⟩ : BufTy).Contents (Elt F)),
    binary main_v1 main_v4 main_v5 (cmpi .slt : (⟨S524288, .i32⟩ : BufTy).Contents (Elt F) → (⟨S524288, .i32⟩ : BufTy).Contents (Elt F) → (⟨S524288, .i1⟩ : BufTy).Contents (Elt F)),
    nullary main_c_0 (constantI S_ 32 32768#32),
    unary main_c_0 main_v6 (broadcastInDim S524288 ![] bcast_S_S524288 : (⟨S_, .i32⟩ : BufTy).Contents (Elt F) → (⟨S524288, .i32⟩ : BufTy).Contents (Elt F)),
    binary main_v1 main_v6 main_v7 (addi : (⟨S524288, .i32⟩ : BufTy).Contents (Elt F) → (⟨S524288, .i32⟩ : BufTy).Contents (Elt F) → (⟨S524288, .i32⟩ : BufTy).Contents (Elt F)),
    ternary main_v5 main_v7 main_v1 main_v8 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v8 main_v9 (broadcastInDim S524288x1 ![0] bcast_S524288_S524288x1_0 : (⟨S524288, .i32⟩ : BufTy).Contents (Elt F) → (⟨S524288x1, .i32⟩ : BufTy).Contents (Elt F)),
    binary main_arg0 main_v9 main_v10 ((fun x i => Host.gather gather_S32768x128_S524288x1_S524288x128_1_0_n_n_0_1_1128 x i) : (⟨S32768x128, .f32⟩ : BufTy).Contents (Elt F) → (⟨S524288x1, .i32⟩ : BufTy).Contents (Elt F) → (⟨S524288x128, .f32⟩ : BufTy).Contents (Elt F)) ]

/-- %11 … %16: the edge features times the first edge weight, added to the gathered rows, the bias added, then @relu. (8 operations) -/
abbrev seg1 : List (HloOp τ sig (Elt F)) :=
  [ binary main_arg2 main_arg4 main_v11 ((fun l r => Host.dotGeneral dot_S524288x32_S32x128_S524288x128_1_0_0_1_n_n none l r) : (⟨S524288x32, .f32⟩ : BufTy).Contents (Elt F) → (⟨S32x128, .f32⟩ : BufTy).Contents (Elt F) → (⟨S524288x128, .f32⟩ : BufTy).Contents (Elt F)),
    binary main_v10 main_v11 main_v12 (addf : (⟨S524288x128, .f32⟩ : BufTy).Contents (Elt F) → (⟨S524288x128, .f32⟩ : BufTy).Contents (Elt F) → (⟨S524288x128, .f32⟩ : BufTy).Contents (Elt F)),
    unary main_arg5 main_v13 (broadcastInDim S1x128 ![1] bcast_S128_S1x128_1 : (⟨S128, .f32⟩ : BufTy).Contents (Elt F) → (⟨S1x128, .f32⟩ : BufTy).Contents (Elt F)),
    unary main_v13 main_v14 (broadcastInDim S524288x128 ![0, 1] bcast_S1x128_S524288x128_0_1 : (⟨S1x128, .f32⟩ : BufTy).Contents (Elt F) → (⟨S524288x128, .f32⟩ : BufTy).Contents (Elt F)),
    binary main_v12 main_v14 main_v15 (addf : (⟨S524288x128, .f32⟩ : BufTy).Contents (Elt F) → (⟨S524288x128, .f32⟩ : BufTy).Contents (Elt F) → (⟨S524288x128, .f32⟩ : BufTy).Contents (Elt F)),
    TRef.nullary (.of main_call0_cst : TRef sig ⟨S_, .f32⟩) (constant S_ .f32 0x00000000#32),
    TRef.unary (.of main_call0_cst : TRef sig ⟨S_, .f32⟩) (.of main_call0_v0 : TRef sig ⟨S524288x128, .f32⟩) (broadcastInDim S524288x128 ![] bcast_S_S524288x128),
    TRef.binary (.of main_v15 : TRef sig ⟨S524288x128, .f32⟩) (.of main_call0_v0 : TRef sig ⟨S524288x128, .f32⟩) (.of main_v16 : TRef sig ⟨S524288x128, .f32⟩) maximumf ]

/-- %17 … %19: the zero table and the scatter-add of the messages at the destination index. (4 operations) -/
abbrev seg2 : List (HloOp τ sig (Elt F)) :=
  [ nullary main_cst (constant S_ .f32 0x00000000#32),
    unary main_cst main_v17 (broadcastInDim S32768x128 ![] bcast_S_S32768x128 : (⟨S_, .f32⟩ : BufTy).Contents (Elt F) → (⟨S32768x128, .f32⟩ : BufTy).Contents (Elt F)),
    unary main_v3 main_v18 (broadcastInDim S524288x1 ![0] bcast_S524288_S524288x1_0 : (⟨S524288, .i32⟩ : BufTy).Contents (Elt F) → (⟨S524288x1, .i32⟩ : BufTy).Contents (Elt F)),
    ternary main_v17 main_v18 main_v16 main_v19 ((fun x i u => Host.scatterAdd scatter_S32768x128_S524288x1_S524288x128_1_0_0_1 x i u) : (⟨S32768x128, .f32⟩ : BufTy).Contents (Elt F) → (⟨S524288x1, .i32⟩ : BufTy).Contents (Elt F) → (⟨S524288x128, .f32⟩ : BufTy).Contents (Elt F) → (⟨S32768x128, .f32⟩ : BufTy).Contents (Elt F)) ]

/-- %20 … %24: the node features plus the aggregate, times the first dense weight, plus its bias. (5 operations) -/
abbrev seg3 : List (HloOp τ sig (Elt F)) :=
  [ binary main_arg0 main_v19 main_v20 (addf : (⟨S32768x128, .f32⟩ : BufTy).Contents (Elt F) → (⟨S32768x128, .f32⟩ : BufTy).Contents (Elt F) → (⟨S32768x128, .f32⟩ : BufTy).Contents (Elt F)),
    binary main_v20 main_arg6 main_v21 ((fun l r => Host.dotGeneral dot_S32768x128_S128x256_S32768x256_1_0_0_1_n_n none l r) : (⟨S32768x128, .f32⟩ : BufTy).Contents (Elt F) → (⟨S128x256, .f32⟩ : BufTy).Contents (Elt F) → (⟨S32768x256, .f32⟩ : BufTy).Contents (Elt F)),
    unary main_arg7 main_v22 (broadcastInDim S1x256 ![1] bcast_S256_S1x256_1 : (⟨S256, .f32⟩ : BufTy).Contents (Elt F) → (⟨S1x256, .f32⟩ : BufTy).Contents (Elt F)),
    unary main_v22 main_v23 (broadcastInDim S32768x256 ![0, 1] bcast_S1x256_S32768x256_0_1 : (⟨S1x256, .f32⟩ : BufTy).Contents (Elt F) → (⟨S32768x256, .f32⟩ : BufTy).Contents (Elt F)),
    binary main_v21 main_v23 main_v24 (addf : (⟨S32768x256, .f32⟩ : BufTy).Contents (Elt F) → (⟨S32768x256, .f32⟩ : BufTy).Contents (Elt F) → (⟨S32768x256, .f32⟩ : BufTy).Contents (Elt F)) ]

/-- %25 … %28: the column mean of %24 and @_var's column variance of it. (28 operations) -/
abbrev seg4 : List (HloOp τ sig (Elt F)) :=
  [ nullary main_cst_1 (constant S_ .f32 0x00000000#32),
    binary main_v24 main_cst_1 main_v25 ((fun x v => Host.reduceAdd x v reducesTo_S32768x256_S256_d0 h_S_) : (⟨S32768x256, .f32⟩ : BufTy).Contents (Elt F) → (⟨S_, .f32⟩ : BufTy).Contents (Elt F) → (⟨S256, .f32⟩ : BufTy).Contents (Elt F)),
    nullary main_cst_2 (constant S_ .f32 0x47000000#32),
    unary main_cst_2 main_v26 (broadcastInDim S256 ![] bcast_S_S256 : (⟨S_, .f32⟩ : BufTy).Contents (Elt F) → (⟨S256, .f32⟩ : BufTy).Contents (Elt F)),
    binary main_v25 main_v26 main_v27 (Host.divf : (⟨S256, .f32⟩ : BufTy).Contents (Elt F) → (⟨S256, .f32⟩ : BufTy).Contents (Elt F) → (⟨S256, .f32⟩ : BufTy).Contents (Elt F)),
    nullary main_c_3 (constantI S_ 32 0#32),
    TRef.nullary (.of main_call1_cst : TRef sig ⟨S_, .f32⟩) (constant S_ .f32 0x00000000#32),
    TRef.binary (.of main_v24 : TRef sig ⟨S32768x256, .f32⟩) (.of main_call1_cst : TRef sig ⟨S_, .f32⟩) (.of main_call1_v0 : TRef sig ⟨S256, .f32⟩) (fun x v => Host.reduceAdd x v reducesTo_S32768x256_S256_d0 h_S_),
    TRef.unary (.of main_call1_v0 : TRef sig ⟨S256, .f32⟩) (.of main_call1_v1 : TRef sig ⟨S1x256, .f32⟩) (broadcastInDim S1x256 ![1] bcast_S256_S1x256_1),
    TRef.nullary (.of main_call1_cst_0 : TRef sig ⟨S_, .f32⟩) (constant S_ .f32 0x47000000#32),
    TRef.unary (.of main_call1_cst_0 : TRef sig ⟨S_, .f32⟩) (.of main_call1_v2 : TRef sig ⟨S1x256, .f32⟩) (broadcastInDim S1x256 ![] bcast_S_S1x256),
    TRef.binary (.of main_call1_v1 : TRef sig ⟨S1x256, .f32⟩) (.of main_call1_v2 : TRef sig ⟨S1x256, .f32⟩) (.of main_call1_v3 : TRef sig ⟨S1x256, .f32⟩) Host.divf,
    TRef.unary (.of main_call1_v3 : TRef sig ⟨S1x256, .f32⟩) (.of main_call1_v4 : TRef sig ⟨S32768x256, .f32⟩) (broadcastInDim S32768x256 ![0, 1] bcast_S1x256_S32768x256_0_1),
    TRef.binary (.of main_v24 : TRef sig ⟨S32768x256, .f32⟩) (.of main_call1_v4 : TRef sig ⟨S32768x256, .f32⟩) (.of main_call1_v5 : TRef sig ⟨S32768x256, .f32⟩) subf,
    TRef.binary (.of main_call1_v5 : TRef sig ⟨S32768x256, .f32⟩) (.of main_call1_v5 : TRef sig ⟨S32768x256, .f32⟩) (.of main_call1_v6 : TRef sig ⟨S32768x256, .f32⟩) mulf,
    TRef.unary (.of main_c_3 : TRef sig ⟨S_, .i32⟩) (.of main_call1_v7 : TRef sig ⟨S_, .f32⟩) (sitofp .f32),
    TRef.nullary (.of main_call1_cst_1 : TRef sig ⟨S_, .f32⟩) (constant S_ .f32 0x47000000#32),
    TRef.binary (.of main_call1_cst_1 : TRef sig ⟨S_, .f32⟩) (.of main_call1_v7 : TRef sig ⟨S_, .f32⟩) (.of main_call1_v8 : TRef sig ⟨S_, .f32⟩) subf,
    TRef.nullary (.of main_call1_cst_2 : TRef sig ⟨S_, .f32⟩) (constant S_ .f32 0x00000000#32),
    TRef.binary (.of main_call1_v6 : TRef sig ⟨S32768x256, .f32⟩) (.of main_call1_cst_2 : TRef sig ⟨S_, .f32⟩) (.of main_call1_v9 : TRef sig ⟨S256, .f32⟩) (fun x v => Host.reduceAdd x v reducesTo_S32768x256_S256_d0 h_S_),
    TRef.unary (.of main_call1_v8 : TRef sig ⟨S_, .f32⟩) (.of main_call1_v10 : TRef sig ⟨S256, .f32⟩) (broadcastInDim S256 ![] bcast_S_S256),
    TRef.binary (.of main_call1_v9 : TRef sig ⟨S256, .f32⟩) (.of main_call1_v10 : TRef sig ⟨S256, .f32⟩) (.of main_call1_v11 : TRef sig ⟨S256, .f32⟩) Host.divf,
    TRef.nullary (.of main_call1_cst_3 : TRef sig ⟨S_, .f32⟩) (constant S_ .f32 0x00000000#32),
    TRef.binary (.of main_call1_v8 : TRef sig ⟨S_, .f32⟩) (.of main_call1_cst_3 : TRef sig ⟨S_, .f32⟩) (.of main_call1_v12 : TRef sig ⟨S_, .i1⟩) (cmpf .ogt),
    TRef.nullary (.of main_call1_cst_4 : TRef sig ⟨S_, .f32⟩) (constant S_ .f32 0x7FC00000#32),
    TRef.unary (.of main_call1_cst_4 : TRef sig ⟨S_, .f32⟩) (.of main_call1_call0_v0 : TRef sig ⟨S_, .f32⟩) id,
    TRef.unary (.of main_call1_call0_v0 : TRef sig ⟨S_, .f32⟩) (.of main_call1_call0_v1 : TRef sig ⟨S256, .f32⟩) (broadcastInDim S256 ![] bcast_S_S256),
    TRef.ternary (.of main_call1_v12 : TRef sig ⟨S_, .i1⟩) (.of main_call1_v11 : TRef sig ⟨S256, .f32⟩) (.of main_call1_call0_v1 : TRef sig ⟨S256, .f32⟩) (.of main_v28 : TRef sig ⟨S256, .f32⟩) (fun p a b => select (broadcastInDim S256 ![] bcast_S_S256 p) a b) ]

/-- %29 … %45: the normalisation (centred, scaled by the reciprocal root of variance plus epsilon, shifted), then @relu_0 twice. (22 operations) -/
abbrev seg5 : List (HloOp τ sig (Elt F)) :=
  [ unary main_v27 main_v29 (broadcastInDim S1x256 ![1] bcast_S256_S1x256_1 : (⟨S256, .f32⟩ : BufTy).Contents (Elt F) → (⟨S1x256, .f32⟩ : BufTy).Contents (Elt F)),
    unary main_v29 main_v30 (broadcastInDim S32768x256 ![0, 1] bcast_S1x256_S32768x256_0_1 : (⟨S1x256, .f32⟩ : BufTy).Contents (Elt F) → (⟨S32768x256, .f32⟩ : BufTy).Contents (Elt F)),
    binary main_v24 main_v30 main_v31 (subf : (⟨S32768x256, .f32⟩ : BufTy).Contents (Elt F) → (⟨S32768x256, .f32⟩ : BufTy).Contents (Elt F) → (⟨S32768x256, .f32⟩ : BufTy).Contents (Elt F)),
    unary main_arg8 main_v32 (broadcastInDim S1x256 ![1] bcast_S256_S1x256_1 : (⟨S256, .f32⟩ : BufTy).Contents (Elt F) → (⟨S1x256, .f32⟩ : BufTy).Contents (Elt F)),
    unary main_v32 main_v33 (broadcastInDim S32768x256 ![0, 1] bcast_S1x256_S32768x256_0_1 : (⟨S1x256, .f32⟩ : BufTy).Contents (Elt F) → (⟨S32768x256, .f32⟩ : BufTy).Contents (Elt F)),
    binary main_v33 main_v31 main_v34 (mulf : (⟨S32768x256, .f32⟩ : BufTy).Contents (Elt F) → (⟨S32768x256, .f32⟩ : BufTy).Contents (Elt F) → (⟨S32768x256, .f32⟩ : BufTy).Contents (Elt F)),
    nullary main_cst_4 (constant S_ .f32 0x3727C5AC#32),
    unary main_cst_4 main_v35 (broadcastInDim S256 ![] bcast_S_S256 : (⟨S_, .f32⟩ : BufTy).Contents (Elt F) → (⟨S256, .f32⟩ : BufTy).Contents (Elt F)),
    binary main_v28 main_v35 main_v36 (addf : (⟨S256, .f32⟩ : BufTy).Contents (Elt F) → (⟨S256, .f32⟩ : BufTy).Contents (Elt F) → (⟨S256, .f32⟩ : BufTy).Contents (Elt F)),
    unary main_v36 main_v37 (Host.rsqrt : (⟨S256, .f32⟩ : BufTy).Contents (Elt F) → (⟨S256, .f32⟩ : BufTy).Contents (Elt F)),
    unary main_v37 main_v38 (broadcastInDim S1x256 ![1] bcast_S256_S1x256_1 : (⟨S256, .f32⟩ : BufTy).Contents (Elt F) → (⟨S1x256, .f32⟩ : BufTy).Contents (Elt F)),
    unary main_v38 main_v39 (broadcastInDim S32768x256 ![0, 1] bcast_S1x256_S32768x256_0_1 : (⟨S1x256, .f32⟩ : BufTy).Contents (Elt F) → (⟨S32768x256, .f32⟩ : BufTy).Contents (Elt F)),
    binary main_v34 main_v39 main_v40 (mulf : (⟨S32768x256, .f32⟩ : BufTy).Contents (Elt F) → (⟨S32768x256, .f32⟩ : BufTy).Contents (Elt F) → (⟨S32768x256, .f32⟩ : BufTy).Contents (Elt F)),
    unary main_arg9 main_v41 (broadcastInDim S1x256 ![1] bcast_S256_S1x256_1 : (⟨S256, .f32⟩ : BufTy).Contents (Elt F) → (⟨S1x256, .f32⟩ : BufTy).Contents (Elt F)),
    unary main_v41 main_v42 (broadcastInDim S32768x256 ![0, 1] bcast_S1x256_S32768x256_0_1 : (⟨S1x256, .f32⟩ : BufTy).Contents (Elt F) → (⟨S32768x256, .f32⟩ : BufTy).Contents (Elt F)),
    binary main_v40 main_v42 main_v43 (addf : (⟨S32768x256, .f32⟩ : BufTy).Contents (Elt F) → (⟨S32768x256, .f32⟩ : BufTy).Contents (Elt F) → (⟨S32768x256, .f32⟩ : BufTy).Contents (Elt F)),
    TRef.nullary (.of main_call2_cst : TRef sig ⟨S_, .f32⟩) (constant S_ .f32 0x00000000#32),
    TRef.unary (.of main_call2_cst : TRef sig ⟨S_, .f32⟩) (.of main_call2_v0 : TRef sig ⟨S32768x256, .f32⟩) (broadcastInDim S32768x256 ![] bcast_S_S32768x256),
    TRef.binary (.of main_v43 : TRef sig ⟨S32768x256, .f32⟩) (.of main_call2_v0 : TRef sig ⟨S32768x256, .f32⟩) (.of main_v44 : TRef sig ⟨S32768x256, .f32⟩) maximumf,
    TRef.nullary (.of main_call3_cst : TRef sig ⟨S_, .f32⟩) (constant S_ .f32 0x00000000#32),
    TRef.unary (.of main_call3_cst : TRef sig ⟨S_, .f32⟩) (.of main_call3_v0 : TRef sig ⟨S32768x256, .f32⟩) (broadcastInDim S32768x256 ![] bcast_S_S32768x256),
    TRef.binary (.of main_v44 : TRef sig ⟨S32768x256, .f32⟩) (.of main_call3_v0 : TRef sig ⟨S32768x256, .f32⟩) (.of main_v45 : TRef sig ⟨S32768x256, .f32⟩) maximumf ]

/-- %46 … %52: the source index brought into range again and the rows of %45 gathered. (9 operations) -/
abbrev seg6 : List (HloOp τ sig (Elt F)) :=
  [ nullary main_c_5 (constantI S_ 32 0#32),
    unary main_c_5 main_v46 (broadcastInDim S524288 ![] bcast_S_S524288 : (⟨S_, .i32⟩ : BufTy).Contents (Elt F) → (⟨S524288, .i32⟩ : BufTy).Contents (Elt F)),
    binary main_v1 main_v46 main_v47 (cmpi .slt : (⟨S524288, .i32⟩ : BufTy).Contents (Elt F) → (⟨S524288, .i32⟩ : BufTy).Contents (Elt F) → (⟨S524288, .i1⟩ : BufTy).Contents (Elt F)),
    nullary main_c_6 (constantI S_ 32 32768#32),
    unary main_c_6 main_v48 (broadcastInDim S524288 ![] bcast_S_S524288 : (⟨S_, .i32⟩ : BufTy).Contents (Elt F) → (⟨S524288, .i32⟩ : BufTy).Contents (Elt F)),
    binary main_v1 main_v48 main_v49 (addi : (⟨S524288, .i32⟩ : BufTy).Contents (Elt F) → (⟨S524288, .i32⟩ : BufTy).Contents (Elt F) → (⟨S524288, .i32⟩ : BufTy).Contents (Elt F)),
    ternary main_v47 main_v49 main_v1 main_v50 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v50 main_v51 (broadcastInDim S524288x1 ![0] bcast_S524288_S524288x1_0 : (⟨S524288, .i32⟩ : BufTy).Contents (Elt F) → (⟨S524288x1, .i32⟩ : BufTy).Contents (Elt F)),
    binary main_v45 main_v51 main_v52 ((fun x i => Host.gather gather_S32768x256_S524288x1_S524288x256_1_0_n_n_0_1_1256 x i) : (⟨S32768x256, .f32⟩ : BufTy).Contents (Elt F) → (⟨S524288x1, .i32⟩ : BufTy).Contents (Elt F) → (⟨S524288x256, .f32⟩ : BufTy).Contents (Elt F)) ]

/-- %53 … %58: the edge features times the second edge weight, added to the gathered rows, the bias added, then @relu_1. (8 operations) -/
abbrev seg7 : List (HloOp τ sig (Elt F)) :=
  [ binary main_arg2 main_arg10 main_v53 ((fun l r => Host.dotGeneral dot_S524288x32_S32x256_S524288x256_1_0_0_1_n_n none l r) : (⟨S524288x32, .f32⟩ : BufTy).Contents (Elt F) → (⟨S32x256, .f32⟩ : BufTy).Contents (Elt F) → (⟨S524288x256, .f32⟩ : BufTy).Contents (Elt F)),
    binary main_v52 main_v53 main_v54 (addf : (⟨S524288x256, .f32⟩ : BufTy).Contents (Elt F) → (⟨S524288x256, .f32⟩ : BufTy).Contents (Elt F) → (⟨S524288x256, .f32⟩ : BufTy).Contents (Elt F)),
    unary main_arg11 main_v55 (broadcastInDim S1x256 ![1] bcast_S256_S1x256_1 : (⟨S256, .f32⟩ : BufTy).Contents (Elt F) → (⟨S1x256, .f32⟩ : BufTy).Contents (Elt F)),
    unary main_v55 main_v56 (broadcastInDim S524288x256 ![0, 1] bcast_S1x256_S524288x256_0_1 : (⟨S1x256, .f32⟩ : BufTy).Contents (Elt F) → (⟨S524288x256, .f32⟩ : BufTy).Contents (Elt F)),
    binary main_v54 main_v56 main_v57 (addf : (⟨S524288x256, .f32⟩ : BufTy).Contents (Elt F) → (⟨S524288x256, .f32⟩ : BufTy).Contents (Elt F) → (⟨S524288x256, .f32⟩ : BufTy).Contents (Elt F)),
    TRef.nullary (.of main_call4_cst : TRef sig ⟨S_, .f32⟩) (constant S_ .f32 0x00000000#32),
    TRef.unary (.of main_call4_cst : TRef sig ⟨S_, .f32⟩) (.of main_call4_v0 : TRef sig ⟨S524288x256, .f32⟩) (broadcastInDim S524288x256 ![] bcast_S_S524288x256),
    TRef.binary (.of main_v57 : TRef sig ⟨S524288x256, .f32⟩) (.of main_call4_v0 : TRef sig ⟨S524288x256, .f32⟩) (.of main_v58 : TRef sig ⟨S524288x256, .f32⟩) maximumf ]

/-- %59 … %61: the zero table and the scatter-add of the second messages. (4 operations) -/
abbrev seg8 : List (HloOp τ sig (Elt F)) :=
  [ nullary main_cst_7 (constant S_ .f32 0x00000000#32),
    unary main_cst_7 main_v59 (broadcastInDim S32768x256 ![] bcast_S_S32768x256 : (⟨S_, .f32⟩ : BufTy).Contents (Elt F) → (⟨S32768x256, .f32⟩ : BufTy).Contents (Elt F)),
    unary main_v3 main_v60 (broadcastInDim S524288x1 ![0] bcast_S524288_S524288x1_0 : (⟨S524288, .i32⟩ : BufTy).Contents (Elt F) → (⟨S524288x1, .i32⟩ : BufTy).Contents (Elt F)),
    ternary main_v59 main_v60 main_v58 main_v61 ((fun x i u => Host.scatterAdd scatter_S32768x256_S524288x1_S524288x256_1_0_0_1 x i u) : (⟨S32768x256, .f32⟩ : BufTy).Contents (Elt F) → (⟨S524288x1, .i32⟩ : BufTy).Contents (Elt F) → (⟨S524288x256, .f32⟩ : BufTy).Contents (Elt F) → (⟨S32768x256, .f32⟩ : BufTy).Contents (Elt F)) ]

/-- %62 … %66: %45 plus the aggregate, times the second dense weight, plus its bias. (5 operations) -/
abbrev seg9 : List (HloOp τ sig (Elt F)) :=
  [ binary main_v45 main_v61 main_v62 (addf : (⟨S32768x256, .f32⟩ : BufTy).Contents (Elt F) → (⟨S32768x256, .f32⟩ : BufTy).Contents (Elt F) → (⟨S32768x256, .f32⟩ : BufTy).Contents (Elt F)),
    binary main_v62 main_arg12 main_v63 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    unary main_arg13 main_v64 (broadcastInDim S1x256 ![1] bcast_S256_S1x256_1 : (⟨S256, .f32⟩ : BufTy).Contents (Elt F) → (⟨S1x256, .f32⟩ : BufTy).Contents (Elt F)),
    unary main_v64 main_v65 (broadcastInDim S32768x256 ![0, 1] bcast_S1x256_S32768x256_0_1 : (⟨S1x256, .f32⟩ : BufTy).Contents (Elt F) → (⟨S32768x256, .f32⟩ : BufTy).Contents (Elt F)),
    binary main_v63 main_v65 main_v66 (addf : (⟨S32768x256, .f32⟩ : BufTy).Contents (Elt F) → (⟨S32768x256, .f32⟩ : BufTy).Contents (Elt F) → (⟨S32768x256, .f32⟩ : BufTy).Contents (Elt F)) ]

/-- %67 … %70: the column mean of %66 and @_var's column variance of it. (28 operations) -/
abbrev seg10 : List (HloOp τ sig (Elt F)) :=
  [ nullary main_cst_8 (constant S_ .f32 0x00000000#32),
    binary main_v66 main_cst_8 main_v67 ((fun x v => Host.reduceAdd x v reducesTo_S32768x256_S256_d0 h_S_) : (⟨S32768x256, .f32⟩ : BufTy).Contents (Elt F) → (⟨S_, .f32⟩ : BufTy).Contents (Elt F) → (⟨S256, .f32⟩ : BufTy).Contents (Elt F)),
    nullary main_cst_9 (constant S_ .f32 0x47000000#32),
    unary main_cst_9 main_v68 (broadcastInDim S256 ![] bcast_S_S256 : (⟨S_, .f32⟩ : BufTy).Contents (Elt F) → (⟨S256, .f32⟩ : BufTy).Contents (Elt F)),
    binary main_v67 main_v68 main_v69 (Host.divf : (⟨S256, .f32⟩ : BufTy).Contents (Elt F) → (⟨S256, .f32⟩ : BufTy).Contents (Elt F) → (⟨S256, .f32⟩ : BufTy).Contents (Elt F)),
    nullary main_c_10 (constantI S_ 32 0#32),
    TRef.nullary (.of main_call5_cst : TRef sig ⟨S_, .f32⟩) (constant S_ .f32 0x00000000#32),
    TRef.binary (.of main_v66 : TRef sig ⟨S32768x256, .f32⟩) (.of main_call5_cst : TRef sig ⟨S_, .f32⟩) (.of main_call5_v0 : TRef sig ⟨S256, .f32⟩) (fun x v => Host.reduceAdd x v reducesTo_S32768x256_S256_d0 h_S_),
    TRef.unary (.of main_call5_v0 : TRef sig ⟨S256, .f32⟩) (.of main_call5_v1 : TRef sig ⟨S1x256, .f32⟩) (broadcastInDim S1x256 ![1] bcast_S256_S1x256_1),
    TRef.nullary (.of main_call5_cst_0 : TRef sig ⟨S_, .f32⟩) (constant S_ .f32 0x47000000#32),
    TRef.unary (.of main_call5_cst_0 : TRef sig ⟨S_, .f32⟩) (.of main_call5_v2 : TRef sig ⟨S1x256, .f32⟩) (broadcastInDim S1x256 ![] bcast_S_S1x256),
    TRef.binary (.of main_call5_v1 : TRef sig ⟨S1x256, .f32⟩) (.of main_call5_v2 : TRef sig ⟨S1x256, .f32⟩) (.of main_call5_v3 : TRef sig ⟨S1x256, .f32⟩) Host.divf,
    TRef.unary (.of main_call5_v3 : TRef sig ⟨S1x256, .f32⟩) (.of main_call5_v4 : TRef sig ⟨S32768x256, .f32⟩) (broadcastInDim S32768x256 ![0, 1] bcast_S1x256_S32768x256_0_1),
    TRef.binary (.of main_v66 : TRef sig ⟨S32768x256, .f32⟩) (.of main_call5_v4 : TRef sig ⟨S32768x256, .f32⟩) (.of main_call5_v5 : TRef sig ⟨S32768x256, .f32⟩) subf,
    TRef.binary (.of main_call5_v5 : TRef sig ⟨S32768x256, .f32⟩) (.of main_call5_v5 : TRef sig ⟨S32768x256, .f32⟩) (.of main_call5_v6 : TRef sig ⟨S32768x256, .f32⟩) mulf,
    TRef.unary (.of main_c_10 : TRef sig ⟨S_, .i32⟩) (.of main_call5_v7 : TRef sig ⟨S_, .f32⟩) (sitofp .f32),
    TRef.nullary (.of main_call5_cst_1 : TRef sig ⟨S_, .f32⟩) (constant S_ .f32 0x47000000#32),
    TRef.binary (.of main_call5_cst_1 : TRef sig ⟨S_, .f32⟩) (.of main_call5_v7 : TRef sig ⟨S_, .f32⟩) (.of main_call5_v8 : TRef sig ⟨S_, .f32⟩) subf,
    TRef.nullary (.of main_call5_cst_2 : TRef sig ⟨S_, .f32⟩) (constant S_ .f32 0x00000000#32),
    TRef.binary (.of main_call5_v6 : TRef sig ⟨S32768x256, .f32⟩) (.of main_call5_cst_2 : TRef sig ⟨S_, .f32⟩) (.of main_call5_v9 : TRef sig ⟨S256, .f32⟩) (fun x v => Host.reduceAdd x v reducesTo_S32768x256_S256_d0 h_S_),
    TRef.unary (.of main_call5_v8 : TRef sig ⟨S_, .f32⟩) (.of main_call5_v10 : TRef sig ⟨S256, .f32⟩) (broadcastInDim S256 ![] bcast_S_S256),
    TRef.binary (.of main_call5_v9 : TRef sig ⟨S256, .f32⟩) (.of main_call5_v10 : TRef sig ⟨S256, .f32⟩) (.of main_call5_v11 : TRef sig ⟨S256, .f32⟩) Host.divf,
    TRef.nullary (.of main_call5_cst_3 : TRef sig ⟨S_, .f32⟩) (constant S_ .f32 0x00000000#32),
    TRef.binary (.of main_call5_v8 : TRef sig ⟨S_, .f32⟩) (.of main_call5_cst_3 : TRef sig ⟨S_, .f32⟩) (.of main_call5_v12 : TRef sig ⟨S_, .i1⟩) (cmpf .ogt),
    TRef.nullary (.of main_call5_cst_4 : TRef sig ⟨S_, .f32⟩) (constant S_ .f32 0x7FC00000#32),
    TRef.unary (.of main_call5_cst_4 : TRef sig ⟨S_, .f32⟩) (.of main_call5_call0_v0 : TRef sig ⟨S_, .f32⟩) id,
    TRef.unary (.of main_call5_call0_v0 : TRef sig ⟨S_, .f32⟩) (.of main_call5_call0_v1 : TRef sig ⟨S256, .f32⟩) (broadcastInDim S256 ![] bcast_S_S256),
    TRef.ternary (.of main_call5_v12 : TRef sig ⟨S_, .i1⟩) (.of main_call5_v11 : TRef sig ⟨S256, .f32⟩) (.of main_call5_call0_v1 : TRef sig ⟨S256, .f32⟩) (.of main_v70 : TRef sig ⟨S256, .f32⟩) (fun p a b => select (broadcastInDim S256 ![] bcast_S_S256 p) a b) ]

/-- %71 … %92: the second normalisation, @relu_0, and the logistic function 1 / (1 + exp (−x)) of it. (27 operations) -/
abbrev seg11 : List (HloOp τ sig (Elt F)) :=
  [ unary main_v69 main_v71 (broadcastInDim S1x256 ![1] bcast_S256_S1x256_1 : (⟨S256, .f32⟩ : BufTy).Contents (Elt F) → (⟨S1x256, .f32⟩ : BufTy).Contents (Elt F)),
    unary main_v71 main_v72 (broadcastInDim S32768x256 ![0, 1] bcast_S1x256_S32768x256_0_1 : (⟨S1x256, .f32⟩ : BufTy).Contents (Elt F) → (⟨S32768x256, .f32⟩ : BufTy).Contents (Elt F)),
    binary main_v66 main_v72 main_v73 (subf : (⟨S32768x256, .f32⟩ : BufTy).Contents (Elt F) → (⟨S32768x256, .f32⟩ : BufTy).Contents (Elt F) → (⟨S32768x256, .f32⟩ : BufTy).Contents (Elt F)),
    unary main_arg14 main_v74 (broadcastInDim S1x256 ![1] bcast_S256_S1x256_1 : (⟨S256, .f32⟩ : BufTy).Contents (Elt F) → (⟨S1x256, .f32⟩ : BufTy).Contents (Elt F)),
    unary main_v74 main_v75 (broadcastInDim S32768x256 ![0, 1] bcast_S1x256_S32768x256_0_1 : (⟨S1x256, .f32⟩ : BufTy).Contents (Elt F) → (⟨S32768x256, .f32⟩ : BufTy).Contents (Elt F)),
    binary main_v75 main_v73 main_v76 (mulf : (⟨S32768x256, .f32⟩ : BufTy).Contents (Elt F) → (⟨S32768x256, .f32⟩ : BufTy).Contents (Elt F) → (⟨S32768x256, .f32⟩ : BufTy).Contents (Elt F)),
    nullary main_cst_11 (constant S_ .f32 0x3727C5AC#32),
    unary main_cst_11 main_v77 (broadcastInDim S256 ![] bcast_S_S256 : (⟨S_, .f32⟩ : BufTy).Contents (Elt F) → (⟨S256, .f32⟩ : BufTy).Contents (Elt F)),
    binary main_v70 main_v77 main_v78 (addf : (⟨S256, .f32⟩ : BufTy).Contents (Elt F) → (⟨S256, .f32⟩ : BufTy).Contents (Elt F) → (⟨S256, .f32⟩ : BufTy).Contents (Elt F)),
    unary main_v78 main_v79 (Host.rsqrt : (⟨S256, .f32⟩ : BufTy).Contents (Elt F) → (⟨S256, .f32⟩ : BufTy).Contents (Elt F)),
    unary main_v79 main_v80 (broadcastInDim S1x256 ![1] bcast_S256_S1x256_1 : (⟨S256, .f32⟩ : BufTy).Contents (Elt F) → (⟨S1x256, .f32⟩ : BufTy).Contents (Elt F)),
    unary main_v80 main_v81 (broadcastInDim S32768x256 ![0, 1] bcast_S1x256_S32768x256_0_1 : (⟨S1x256, .f32⟩ : BufTy).Contents (Elt F) → (⟨S32768x256, .f32⟩ : BufTy).Contents (Elt F)),
    binary main_v76 main_v81 main_v82 (mulf : (⟨S32768x256, .f32⟩ : BufTy).Contents (Elt F) → (⟨S32768x256, .f32⟩ : BufTy).Contents (Elt F) → (⟨S32768x256, .f32⟩ : BufTy).Contents (Elt F)),
    unary main_arg15 main_v83 (broadcastInDim S1x256 ![1] bcast_S256_S1x256_1 : (⟨S256, .f32⟩ : BufTy).Contents (Elt F) → (⟨S1x256, .f32⟩ : BufTy).Contents (Elt F)),
    unary main_v83 main_v84 (broadcastInDim S32768x256 ![0, 1] bcast_S1x256_S32768x256_0_1 : (⟨S1x256, .f32⟩ : BufTy).Contents (Elt F) → (⟨S32768x256, .f32⟩ : BufTy).Contents (Elt F)),
    binary main_v82 main_v84 main_v85 (addf : (⟨S32768x256, .f32⟩ : BufTy).Contents (Elt F) → (⟨S32768x256, .f32⟩ : BufTy).Contents (Elt F) → (⟨S32768x256, .f32⟩ : BufTy).Contents (Elt F)),
    TRef.nullary (.of main_call6_cst : TRef sig ⟨S_, .f32⟩) (constant S_ .f32 0x00000000#32),
    TRef.unary (.of main_call6_cst : TRef sig ⟨S_, .f32⟩) (.of main_call6_v0 : TRef sig ⟨S32768x256, .f32⟩) (broadcastInDim S32768x256 ![] bcast_S_S32768x256),
    TRef.binary (.of main_v85 : TRef sig ⟨S32768x256, .f32⟩) (.of main_call6_v0 : TRef sig ⟨S32768x256, .f32⟩) (.of main_v86 : TRef sig ⟨S32768x256, .f32⟩) maximumf,
    unary main_v86 main_v87 (Host.negf : (⟨S32768x256, .f32⟩ : BufTy).Contents (Elt F) → (⟨S32768x256, .f32⟩ : BufTy).Contents (Elt F)),
    unary main_v87 main_v88 (Host.exp : (⟨S32768x256, .f32⟩ : BufTy).Contents (Elt F) → (⟨S32768x256, .f32⟩ : BufTy).Contents (Elt F)),
    nullary main_cst_12 (constant S_ .f32 0x3F800000#32),
    unary main_cst_12 main_v89 (broadcastInDim S32768x256 ![] bcast_S_S32768x256 : (⟨S_, .f32⟩ : BufTy).Contents (Elt F) → (⟨S32768x256, .f32⟩ : BufTy).Contents (Elt F)),
    binary main_v89 main_v88 main_v90 (addf : (⟨S32768x256, .f32⟩ : BufTy).Contents (Elt F) → (⟨S32768x256, .f32⟩ : BufTy).Contents (Elt F) → (⟨S32768x256, .f32⟩ : BufTy).Contents (Elt F)),
    nullary main_cst_13 (constant S_ .f32 0x3F800000#32),
    unary main_cst_13 main_v91 (broadcastInDim S32768x256 ![] bcast_S_S32768x256 : (⟨S_, .f32⟩ : BufTy).Contents (Elt F) → (⟨S32768x256, .f32⟩ : BufTy).Contents (Elt F)),
    binary main_v91 main_v90 main_v92 (Host.divf : (⟨S32768x256, .f32⟩ : BufTy).Contents (Elt F) → (⟨S32768x256, .f32⟩ : BufTy).Contents (Elt F) → (⟨S32768x256, .f32⟩ : BufTy).Contents (Elt F)) ]

/-- %93 … %112: the per-node perceptron: two dense layers each followed by @leaky_relu, the dense layer to one column, its logistic function. (36 operations) -/
abbrev seg12 : List (HloOp τ sig (Elt F)) :=
  [ binary main_v92 main_arg16 main_v93 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    unary main_arg17 main_v94 (broadcastInDim S1x256 ![1] bcast_S256_S1x256_1 : (⟨S256, .f32⟩ : BufTy).Contents (Elt F) → (⟨S1x256, .f32⟩ : BufTy).Contents (Elt F)),
    unary main_v94 main_v95 (broadcastInDim S32768x256 ![0, 1] bcast_S1x256_S32768x256_0_1 : (⟨S1x256, .f32⟩ : BufTy).Contents (Elt F) → (⟨S32768x256, .f32⟩ : BufTy).Contents (Elt F)),
    binary main_v93 main_v95 main_v96 (addf : (⟨S32768x256, .f32⟩ : BufTy).Contents (Elt F) → (⟨S32768x256, .f32⟩ : BufTy).Contents (Elt F) → (⟨S32768x256, .f32⟩ : BufTy).Contents (Elt F)),
    nullary main_cst_14 (constant S_ .f32 0x3C23D70A#32),
    TRef.nullary (.of main_call7_cst : TRef sig ⟨S_, .f32⟩) (constant S_ .f32 0x00000000#32),
    TRef.unary (.of main_call7_cst : TRef sig ⟨S_, .f32⟩) (.of main_call7_v0 : TRef sig ⟨S32768x256, .f32⟩) (broadcastInDim S32768x256 ![] bcast_S_S32768x256),
    TRef.binary (.of main_v96 : TRef sig ⟨S32768x256, .f32⟩) (.of main_call7_v0 : TRef sig ⟨S32768x256, .f32⟩) (.of main_call7_v1 : TRef sig ⟨S32768x256, .i1⟩) (cmpf .oge),
    TRef.unary (.of main_cst_14 : TRef sig ⟨S_, .f32⟩) (.of main_call7_v2 : TRef sig ⟨S_, .f32⟩) id,
    TRef.unary (.of main_call7_v2 : TRef sig ⟨S_, .f32⟩) (.of main_call7_v3 : TRef sig ⟨S32768x256, .f32⟩) (broadcastInDim S32768x256 ![] bcast_S_S32768x256),
    TRef.binary (.of main_call7_v3 : TRef sig ⟨S32768x256, .f32⟩) (.of main_v96 : TRef sig ⟨S32768x256, .f32⟩) (.of main_call7_v4 : TRef sig ⟨S32768x256, .f32⟩) mulf,
    TRef.ternary (.of main_call7_v1 : TRef sig ⟨S32768x256, .i1⟩) (.of main_v96 : TRef sig ⟨S32768x256, .f32⟩) (.of main_call7_v4 : TRef sig ⟨S32768x256, .f32⟩) (.of main_v97 : TRef sig ⟨S32768x256, .f32⟩) select,
    binary main_v97 main_arg18 main_v98 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    unary main_arg19 main_v99 (broadcastInDim S1x256 ![1] bcast_S256_S1x256_1 : (⟨S256, .f32⟩ : BufTy).Contents (Elt F) → (⟨S1x256, .f32⟩ : BufTy).Contents (Elt F)),
    unary main_v99 main_v100 (broadcastInDim S32768x256 ![0, 1] bcast_S1x256_S32768x256_0_1 : (⟨S1x256, .f32⟩ : BufTy).Contents (Elt F) → (⟨S32768x256, .f32⟩ : BufTy).Contents (Elt F)),
    binary main_v98 main_v100 main_v101 (addf : (⟨S32768x256, .f32⟩ : BufTy).Contents (Elt F) → (⟨S32768x256, .f32⟩ : BufTy).Contents (Elt F) → (⟨S32768x256, .f32⟩ : BufTy).Contents (Elt F)),
    nullary main_cst_15 (constant S_ .f32 0x3C23D70A#32),
    TRef.nullary (.of main_call8_cst : TRef sig ⟨S_, .f32⟩) (constant S_ .f32 0x00000000#32),
    TRef.unary (.of main_call8_cst : TRef sig ⟨S_, .f32⟩) (.of main_call8_v0 : TRef sig ⟨S32768x256, .f32⟩) (broadcastInDim S32768x256 ![] bcast_S_S32768x256),
    TRef.binary (.of main_v101 : TRef sig ⟨S32768x256, .f32⟩) (.of main_call8_v0 : TRef sig ⟨S32768x256, .f32⟩) (.of main_call8_v1 : TRef sig ⟨S32768x256, .i1⟩) (cmpf .oge),
    TRef.unary (.of main_cst_15 : TRef sig ⟨S_, .f32⟩) (.of main_call8_v2 : TRef sig ⟨S_, .f32⟩) id,
    TRef.unary (.of main_call8_v2 : TRef sig ⟨S_, .f32⟩) (.of main_call8_v3 : TRef sig ⟨S32768x256, .f32⟩) (broadcastInDim S32768x256 ![] bcast_S_S32768x256),
    TRef.binary (.of main_call8_v3 : TRef sig ⟨S32768x256, .f32⟩) (.of main_v101 : TRef sig ⟨S32768x256, .f32⟩) (.of main_call8_v4 : TRef sig ⟨S32768x256, .f32⟩) mulf,
    TRef.ternary (.of main_call8_v1 : TRef sig ⟨S32768x256, .i1⟩) (.of main_v101 : TRef sig ⟨S32768x256, .f32⟩) (.of main_call8_v4 : TRef sig ⟨S32768x256, .f32⟩) (.of main_v102 : TRef sig ⟨S32768x256, .f32⟩) select,
    binary main_v102 main_arg20 main_v103 ((fun l r => Host.dotGeneral dot_S32768x256_S256x1_S32768x1_1_0_0_1_n_n none l r) : (⟨S32768x256, .f32⟩ : BufTy).Contents (Elt F) → (⟨S256x1, .f32⟩ : BufTy).Contents (Elt F) → (⟨S32768x1, .f32⟩ : BufTy).Contents (Elt F)),
    unary main_arg21 main_v104 (broadcastInDim S1x1 ![1] bcast_S1_S1x1_1 : (⟨S1, .f32⟩ : BufTy).Contents (Elt F) → (⟨S1x1, .f32⟩ : BufTy).Contents (Elt F)),
    unary main_v104 main_v105 (broadcastInDim S32768x1 ![0, 1] bcast_S1x1_S32768x1_0_1 : (⟨S1x1, .f32⟩ : BufTy).Contents (Elt F) → (⟨S32768x1, .f32⟩ : BufTy).Contents (Elt F)),
    binary main_v103 main_v105 main_v106 (addf : (⟨S32768x1, .f32⟩ : BufTy).Contents (Elt F) → (⟨S32768x1, .f32⟩ : BufTy).Contents (Elt F) → (⟨S32768x1, .f32⟩ : BufTy).Contents (Elt F)),
    unary main_v106 main_v107 (Host.negf : (⟨S32768x1, .f32⟩ : BufTy).Contents (Elt F) → (⟨S32768x1, .f32⟩ : BufTy).Contents (Elt F)),
    unary main_v107 main_v108 (Host.exp : (⟨S32768x1, .f32⟩ : BufTy).Contents (Elt F) → (⟨S32768x1, .f32⟩ : BufTy).Contents (Elt F)),
    nullary main_cst_16 (constant S_ .f32 0x3F800000#32),
    unary main_cst_16 main_v109 (broadcastInDim S32768x1 ![] bcast_S_S32768x1 : (⟨S_, .f32⟩ : BufTy).Contents (Elt F) → (⟨S32768x1, .f32⟩ : BufTy).Contents (Elt F)),
    binary main_v109 main_v108 main_v110 (addf : (⟨S32768x1, .f32⟩ : BufTy).Contents (Elt F) → (⟨S32768x1, .f32⟩ : BufTy).Contents (Elt F) → (⟨S32768x1, .f32⟩ : BufTy).Contents (Elt F)),
    nullary main_cst_17 (constant S_ .f32 0x3F800000#32),
    unary main_cst_17 main_v111 (broadcastInDim S32768x1 ![] bcast_S_S32768x1 : (⟨S_, .f32⟩ : BufTy).Contents (Elt F) → (⟨S32768x1, .f32⟩ : BufTy).Contents (Elt F)),
    binary main_v111 main_v110 main_v112 (Host.divf : (⟨S32768x1, .f32⟩ : BufTy).Contents (Elt F) → (⟨S32768x1, .f32⟩ : BufTy).Contents (Elt F) → (⟨S32768x1, .f32⟩ : BufTy).Contents (Elt F)) ]

/-- %113 … %175: the pooled head: both results reshaped per graph, the mean over a graph's nodes, two dense layers each with its normalisation and @relu_4, the last dense layer and its logistic function. (121 operations) -/
abbrev seg13 : List (HloOp τ sig (Elt F)) :=
  [ reshape main_v112 main_v113 rfl shapeCasts_S32768x1_S64x512,
    reshape main_v92 main_v114 rfl shapeCasts_S32768x256_S64x512x256,
    nullary main_cst_18 (constant S_ .f32 0x00000000#32),
    binary main_v114 main_cst_18 main_v115 ((fun x v => Host.reduceAdd x v reducesTo_S64x512x256_S64x256_d1 h_S_) : (⟨S64x512x256, .f32⟩ : BufTy).Contents (Elt F) → (⟨S_, .f32⟩ : BufTy).Contents (Elt F) → (⟨S64x256, .f32⟩ : BufTy).Contents (Elt F)),
    nullary main_cst_19 (constant S_ .f32 0x44000000#32),
    unary main_cst_19 main_v116 (broadcastInDim S64x256 ![] bcast_S_S64x256 : (⟨S_, .f32⟩ : BufTy).Contents (Elt F) → (⟨S64x256, .f32⟩ : BufTy).Contents (Elt F)),
    binary main_v115 main_v116 main_v117 (Host.divf : (⟨S64x256, .f32⟩ : BufTy).Contents (Elt F) → (⟨S64x256, .f32⟩ : BufTy).Contents (Elt F) → (⟨S64x256, .f32⟩ : BufTy).Contents (Elt F)),
    binary main_v117 main_arg22 main_v118 ((fun l r => Host.dotGeneral dot_S64x256_S256x256_S64x256_1_0_0_1_n_n none l r) : (⟨S64x256, .f32⟩ : BufTy).Contents (Elt F) → (⟨S256x256, .f32⟩ : BufTy).Contents (Elt F) → (⟨S64x256, .f32⟩ : BufTy).Contents (Elt F)),
    unary main_arg23 main_v119 (broadcastInDim S1x256 ![1] bcast_S256_S1x256_1 : (⟨S256, .f32⟩ : BufTy).Contents (Elt F) → (⟨S1x256, .f32⟩ : BufTy).Contents (Elt F)),
    unary main_v119 main_v120 (broadcastInDim S64x256 ![0, 1] bcast_S1x256_S64x256_0_1 : (⟨S1x256, .f32⟩ : BufTy).Contents (Elt F) → (⟨S64x256, .f32⟩ : BufTy).Contents (Elt F)),
    binary main_v118 main_v120 main_v121 (addf : (⟨S64x256, .f32⟩ : BufTy).Contents (Elt F) → (⟨S64x256, .f32⟩ : BufTy).Contents (Elt F) → (⟨S64x256, .f32⟩ : BufTy).Contents (Elt F)),
    nullary main_cst_20 (constant S_ .f32 0x00000000#32),
    binary main_v121 main_cst_20 main_v122 ((fun x v => Host.reduceAdd x v reducesTo_S64x256_S256_d0 h_S_) : (⟨S64x256, .f32⟩ : BufTy).Contents (Elt F) → (⟨S_, .f32⟩ : BufTy).Contents (Elt F) → (⟨S256, .f32⟩ : BufTy).Contents (Elt F)),
    nullary main_cst_21 (constant S_ .f32 0x42800000#32),
    unary main_cst_21 main_v123 (broadcastInDim S256 ![] bcast_S_S256 : (⟨S_, .f32⟩ : BufTy).Contents (Elt F) → (⟨S256, .f32⟩ : BufTy).Contents (Elt F)),
    binary main_v122 main_v123 main_v124 (Host.divf : (⟨S256, .f32⟩ : BufTy).Contents (Elt F) → (⟨S256, .f32⟩ : BufTy).Contents (Elt F) → (⟨S256, .f32⟩ : BufTy).Contents (Elt F)),
    nullary main_c_22 (constantI S_ 32 0#32),
    TRef.nullary (.of main_call9_cst : TRef sig ⟨S_, .f32⟩) (constant S_ .f32 0x00000000#32),
    TRef.binary (.of main_v121 : TRef sig ⟨S64x256, .f32⟩) (.of main_call9_cst : TRef sig ⟨S_, .f32⟩) (.of main_call9_v0 : TRef sig ⟨S256, .f32⟩) (fun x v => Host.reduceAdd x v reducesTo_S64x256_S256_d0 h_S_),
    TRef.unary (.of main_call9_v0 : TRef sig ⟨S256, .f32⟩) (.of main_call9_v1 : TRef sig ⟨S1x256, .f32⟩) (broadcastInDim S1x256 ![1] bcast_S256_S1x256_1),
    TRef.nullary (.of main_call9_cst_0 : TRef sig ⟨S_, .f32⟩) (constant S_ .f32 0x42800000#32),
    TRef.unary (.of main_call9_cst_0 : TRef sig ⟨S_, .f32⟩) (.of main_call9_v2 : TRef sig ⟨S1x256, .f32⟩) (broadcastInDim S1x256 ![] bcast_S_S1x256),
    TRef.binary (.of main_call9_v1 : TRef sig ⟨S1x256, .f32⟩) (.of main_call9_v2 : TRef sig ⟨S1x256, .f32⟩) (.of main_call9_v3 : TRef sig ⟨S1x256, .f32⟩) Host.divf,
    TRef.unary (.of main_call9_v3 : TRef sig ⟨S1x256, .f32⟩) (.of main_call9_v4 : TRef sig ⟨S64x256, .f32⟩) (broadcastInDim S64x256 ![0, 1] bcast_S1x256_S64x256_0_1),
    TRef.binary (.of main_v121 : TRef sig ⟨S64x256, .f32⟩) (.of main_call9_v4 : TRef sig ⟨S64x256, .f32⟩) (.of main_call9_v5 : TRef sig ⟨S64x256, .f32⟩) subf,
    TRef.binary (.of main_call9_v5 : TRef sig ⟨S64x256, .f32⟩) (.of main_call9_v5 : TRef sig ⟨S64x256, .f32⟩) (.of main_call9_v6 : TRef sig ⟨S64x256, .f32⟩) mulf,
    TRef.unary (.of main_c_22 : TRef sig ⟨S_, .i32⟩) (.of main_call9_v7 : TRef sig ⟨S_, .f32⟩) (sitofp .f32),
    TRef.nullary (.of main_call9_cst_1 : TRef sig ⟨S_, .f32⟩) (constant S_ .f32 0x42800000#32),
    TRef.binary (.of main_call9_cst_1 : TRef sig ⟨S_, .f32⟩) (.of main_call9_v7 : TRef sig ⟨S_, .f32⟩) (.of main_call9_v8 : TRef sig ⟨S_, .f32⟩) subf,
    TRef.nullary (.of main_call9_cst_2 : TRef sig ⟨S_, .f32⟩) (constant S_ .f32 0x00000000#32),
    TRef.binary (.of main_call9_v6 : TRef sig ⟨S64x256, .f32⟩) (.of main_call9_cst_2 : TRef sig ⟨S_, .f32⟩) (.of main_call9_v9 : TRef sig ⟨S256, .f32⟩) (fun x v => Host.reduceAdd x v reducesTo_S64x256_S256_d0 h_S_),
    TRef.unary (.of main_call9_v8 : TRef sig ⟨S_, .f32⟩) (.of main_call9_v10 : TRef sig ⟨S256, .f32⟩) (broadcastInDim S256 ![] bcast_S_S256),
    TRef.binary (.of main_call9_v9 : TRef sig ⟨S256, .f32⟩) (.of main_call9_v10 : TRef sig ⟨S256, .f32⟩) (.of main_call9_v11 : TRef sig ⟨S256, .f32⟩) Host.divf,
    TRef.nullary (.of main_call9_cst_3 : TRef sig ⟨S_, .f32⟩) (constant S_ .f32 0x00000000#32),
    TRef.binary (.of main_call9_v8 : TRef sig ⟨S_, .f32⟩) (.of main_call9_cst_3 : TRef sig ⟨S_, .f32⟩) (.of main_call9_v12 : TRef sig ⟨S_, .i1⟩) (cmpf .ogt),
    TRef.nullary (.of main_call9_cst_4 : TRef sig ⟨S_, .f32⟩) (constant S_ .f32 0x7FC00000#32),
    TRef.unary (.of main_call9_cst_4 : TRef sig ⟨S_, .f32⟩) (.of main_call9_call0_v0 : TRef sig ⟨S_, .f32⟩) id,
    TRef.unary (.of main_call9_call0_v0 : TRef sig ⟨S_, .f32⟩) (.of main_call9_call0_v1 : TRef sig ⟨S256, .f32⟩) (broadcastInDim S256 ![] bcast_S_S256),
    TRef.ternary (.of main_call9_v12 : TRef sig ⟨S_, .i1⟩) (.of main_call9_v11 : TRef sig ⟨S256, .f32⟩) (.of main_call9_call0_v1 : TRef sig ⟨S256, .f32⟩) (.of main_v125 : TRef sig ⟨S256, .f32⟩) (fun p a b => select (broadcastInDim S256 ![] bcast_S_S256 p) a b),
    unary main_v124 main_v126 (broadcastInDim S1x256 ![1] bcast_S256_S1x256_1 : (⟨S256, .f32⟩ : BufTy).Contents (Elt F) → (⟨S1x256, .f32⟩ : BufTy).Contents (Elt F)),
    unary main_v126 main_v127 (broadcastInDim S64x256 ![0, 1] bcast_S1x256_S64x256_0_1 : (⟨S1x256, .f32⟩ : BufTy).Contents (Elt F) → (⟨S64x256, .f32⟩ : BufTy).Contents (Elt F)),
    binary main_v121 main_v127 main_v128 (subf : (⟨S64x256, .f32⟩ : BufTy).Contents (Elt F) → (⟨S64x256, .f32⟩ : BufTy).Contents (Elt F) → (⟨S64x256, .f32⟩ : BufTy).Contents (Elt F)),
    unary main_arg24 main_v129 (broadcastInDim S1x256 ![1] bcast_S256_S1x256_1 : (⟨S256, .f32⟩ : BufTy).Contents (Elt F) → (⟨S1x256, .f32⟩ : BufTy).Contents (Elt F)),
    unary main_v129 main_v130 (broadcastInDim S64x256 ![0, 1] bcast_S1x256_S64x256_0_1 : (⟨S1x256, .f32⟩ : BufTy).Contents (Elt F) → (⟨S64x256, .f32⟩ : BufTy).Contents (Elt F)),
    binary main_v130 main_v128 main_v131 (mulf : (⟨S64x256, .f32⟩ : BufTy).Contents (Elt F) → (⟨S64x256, .f32⟩ : BufTy).Contents (Elt F) → (⟨S64x256, .f32⟩ : BufTy).Contents (Elt F)),
    nullary main_cst_23 (constant S_ .f32 0x3727C5AC#32),
    unary main_cst_23 main_v132 (broadcastInDim S256 ![] bcast_S_S256 : (⟨S_, .f32⟩ : BufTy).Contents (Elt F) → (⟨S256, .f32⟩ : BufTy).Contents (Elt F)),
    binary main_v125 main_v132 main_v133 (addf : (⟨S256, .f32⟩ : BufTy).Contents (Elt F) → (⟨S256, .f32⟩ : BufTy).Contents (Elt F) → (⟨S256, .f32⟩ : BufTy).Contents (Elt F)),
    unary main_v133 main_v134 (Host.rsqrt : (⟨S256, .f32⟩ : BufTy).Contents (Elt F) → (⟨S256, .f32⟩ : BufTy).Contents (Elt F)),
    unary main_v134 main_v135 (broadcastInDim S1x256 ![1] bcast_S256_S1x256_1 : (⟨S256, .f32⟩ : BufTy).Contents (Elt F) → (⟨S1x256, .f32⟩ : BufTy).Contents (Elt F)),
    unary main_v135 main_v136 (broadcastInDim S64x256 ![0, 1] bcast_S1x256_S64x256_0_1 : (⟨S1x256, .f32⟩ : BufTy).Contents (Elt F) → (⟨S64x256, .f32⟩ : BufTy).Contents (Elt F)),
    binary main_v131 main_v136 main_v137 (mulf : (⟨S64x256, .f32⟩ : BufTy).Contents (Elt F) → (⟨S64x256, .f32⟩ : BufTy).Contents (Elt F) → (⟨S64x256, .f32⟩ : BufTy).Contents (Elt F)),
    unary main_arg25 main_v138 (broadcastInDim S1x256 ![1] bcast_S256_S1x256_1 : (⟨S256, .f32⟩ : BufTy).Contents (Elt F) → (⟨S1x256, .f32⟩ : BufTy).Contents (Elt F)),
    unary main_v138 main_v139 (broadcastInDim S64x256 ![0, 1] bcast_S1x256_S64x256_0_1 : (⟨S1x256, .f32⟩ : BufTy).Contents (Elt F) → (⟨S64x256, .f32⟩ : BufTy).Contents (Elt F)),
    binary main_v137 main_v139 main_v140 (addf : (⟨S64x256, .f32⟩ : BufTy).Contents (Elt F) → (⟨S64x256, .f32⟩ : BufTy).Contents (Elt F) → (⟨S64x256, .f32⟩ : BufTy).Contents (Elt F)),
    TRef.nullary (.of main_call10_cst : TRef sig ⟨S_, .f32⟩) (constant S_ .f32 0x00000000#32),
    TRef.unary (.of main_call10_cst : TRef sig ⟨S_, .f32⟩) (.of main_call10_v0 : TRef sig ⟨S64x256, .f32⟩) (broadcastInDim S64x256 ![] bcast_S_S64x256),
    TRef.binary (.of main_v140 : TRef sig ⟨S64x256, .f32⟩) (.of main_call10_v0 : TRef sig ⟨S64x256, .f32⟩) (.of main_v141 : TRef sig ⟨S64x256, .f32⟩) maximumf,
    binary main_v141 main_arg26 main_v142 ((fun l r => Host.dotGeneral dot_S64x256_S256x256_S64x256_1_0_0_1_n_n none l r) : (⟨S64x256, .f32⟩ : BufTy).Contents (Elt F) → (⟨S256x256, .f32⟩ : BufTy).Contents (Elt F) → (⟨S64x256, .f32⟩ : BufTy).Contents (Elt F)),
    unary main_arg27 main_v143 (broadcastInDim S1x256 ![1] bcast_S256_S1x256_1 : (⟨S256, .f32⟩ : BufTy).Contents (Elt F) → (⟨S1x256, .f32⟩ : BufTy).Contents (Elt F)),
    unary main_v143 main_v144 (broadcastInDim S64x256 ![0, 1] bcast_S1x256_S64x256_0_1 : (⟨S1x256, .f32⟩ : BufTy).Contents (Elt F) → (⟨S64x256, .f32⟩ : BufTy).Contents (Elt F)),
    binary main_v142 main_v144 main_v145 (addf : (⟨S64x256, .f32⟩ : BufTy).Contents (Elt F) → (⟨S64x256, .f32⟩ : BufTy).Contents (Elt F) → (⟨S64x256, .f32⟩ : BufTy).Contents (Elt F)),
    nullary main_cst_24 (constant S_ .f32 0x00000000#32),
    binary main_v145 main_cst_24 main_v146 ((fun x v => Host.reduceAdd x v reducesTo_S64x256_S256_d0 h_S_) : (⟨S64x256, .f32⟩ : BufTy).Contents (Elt F) → (⟨S_, .f32⟩ : BufTy).Contents (Elt F) → (⟨S256, .f32⟩ : BufTy).Contents (Elt F)),
    nullary main_cst_25 (constant S_ .f32 0x42800000#32),
    unary main_cst_25 main_v147 (broadcastInDim S256 ![] bcast_S_S256 : (⟨S_, .f32⟩ : BufTy).Contents (Elt F) → (⟨S256, .f32⟩ : BufTy).Contents (Elt F)),
    binary main_v146 main_v147 main_v148 (Host.divf : (⟨S256, .f32⟩ : BufTy).Contents (Elt F) → (⟨S256, .f32⟩ : BufTy).Contents (Elt F) → (⟨S256, .f32⟩ : BufTy).Contents (Elt F)),
    nullary main_c_26 (constantI S_ 32 0#32),
    TRef.nullary (.of main_call11_cst : TRef sig ⟨S_, .f32⟩) (constant S_ .f32 0x00000000#32),
    TRef.binary (.of main_v145 : TRef sig ⟨S64x256, .f32⟩) (.of main_call11_cst : TRef sig ⟨S_, .f32⟩) (.of main_call11_v0 : TRef sig ⟨S256, .f32⟩) (fun x v => Host.reduceAdd x v reducesTo_S64x256_S256_d0 h_S_),
    TRef.unary (.of main_call11_v0 : TRef sig ⟨S256, .f32⟩) (.of main_call11_v1 : TRef sig ⟨S1x256, .f32⟩) (broadcastInDim S1x256 ![1] bcast_S256_S1x256_1),
    TRef.nullary (.of main_call11_cst_0 : TRef sig ⟨S_, .f32⟩) (constant S_ .f32 0x42800000#32),
    TRef.unary (.of main_call11_cst_0 : TRef sig ⟨S_, .f32⟩) (.of main_call11_v2 : TRef sig ⟨S1x256, .f32⟩) (broadcastInDim S1x256 ![] bcast_S_S1x256),
    TRef.binary (.of main_call11_v1 : TRef sig ⟨S1x256, .f32⟩) (.of main_call11_v2 : TRef sig ⟨S1x256, .f32⟩) (.of main_call11_v3 : TRef sig ⟨S1x256, .f32⟩) Host.divf,
    TRef.unary (.of main_call11_v3 : TRef sig ⟨S1x256, .f32⟩) (.of main_call11_v4 : TRef sig ⟨S64x256, .f32⟩) (broadcastInDim S64x256 ![0, 1] bcast_S1x256_S64x256_0_1),
    TRef.binary (.of main_v145 : TRef sig ⟨S64x256, .f32⟩) (.of main_call11_v4 : TRef sig ⟨S64x256, .f32⟩) (.of main_call11_v5 : TRef sig ⟨S64x256, .f32⟩) subf,
    TRef.binary (.of main_call11_v5 : TRef sig ⟨S64x256, .f32⟩) (.of main_call11_v5 : TRef sig ⟨S64x256, .f32⟩) (.of main_call11_v6 : TRef sig ⟨S64x256, .f32⟩) mulf,
    TRef.unary (.of main_c_26 : TRef sig ⟨S_, .i32⟩) (.of main_call11_v7 : TRef sig ⟨S_, .f32⟩) (sitofp .f32),
    TRef.nullary (.of main_call11_cst_1 : TRef sig ⟨S_, .f32⟩) (constant S_ .f32 0x42800000#32),
    TRef.binary (.of main_call11_cst_1 : TRef sig ⟨S_, .f32⟩) (.of main_call11_v7 : TRef sig ⟨S_, .f32⟩) (.of main_call11_v8 : TRef sig ⟨S_, .f32⟩) subf,
    TRef.nullary (.of main_call11_cst_2 : TRef sig ⟨S_, .f32⟩) (constant S_ .f32 0x00000000#32),
    TRef.binary (.of main_call11_v6 : TRef sig ⟨S64x256, .f32⟩) (.of main_call11_cst_2 : TRef sig ⟨S_, .f32⟩) (.of main_call11_v9 : TRef sig ⟨S256, .f32⟩) (fun x v => Host.reduceAdd x v reducesTo_S64x256_S256_d0 h_S_),
    TRef.unary (.of main_call11_v8 : TRef sig ⟨S_, .f32⟩) (.of main_call11_v10 : TRef sig ⟨S256, .f32⟩) (broadcastInDim S256 ![] bcast_S_S256),
    TRef.binary (.of main_call11_v9 : TRef sig ⟨S256, .f32⟩) (.of main_call11_v10 : TRef sig ⟨S256, .f32⟩) (.of main_call11_v11 : TRef sig ⟨S256, .f32⟩) Host.divf,
    TRef.nullary (.of main_call11_cst_3 : TRef sig ⟨S_, .f32⟩) (constant S_ .f32 0x00000000#32),
    TRef.binary (.of main_call11_v8 : TRef sig ⟨S_, .f32⟩) (.of main_call11_cst_3 : TRef sig ⟨S_, .f32⟩) (.of main_call11_v12 : TRef sig ⟨S_, .i1⟩) (cmpf .ogt),
    TRef.nullary (.of main_call11_cst_4 : TRef sig ⟨S_, .f32⟩) (constant S_ .f32 0x7FC00000#32),
    TRef.unary (.of main_call11_cst_4 : TRef sig ⟨S_, .f32⟩) (.of main_call11_call0_v0 : TRef sig ⟨S_, .f32⟩) id,
    TRef.unary (.of main_call11_call0_v0 : TRef sig ⟨S_, .f32⟩) (.of main_call11_call0_v1 : TRef sig ⟨S256, .f32⟩) (broadcastInDim S256 ![] bcast_S_S256),
    TRef.ternary (.of main_call11_v12 : TRef sig ⟨S_, .i1⟩) (.of main_call11_v11 : TRef sig ⟨S256, .f32⟩) (.of main_call11_call0_v1 : TRef sig ⟨S256, .f32⟩) (.of main_v149 : TRef sig ⟨S256, .f32⟩) (fun p a b => select (broadcastInDim S256 ![] bcast_S_S256 p) a b),
    unary main_v148 main_v150 (broadcastInDim S1x256 ![1] bcast_S256_S1x256_1 : (⟨S256, .f32⟩ : BufTy).Contents (Elt F) → (⟨S1x256, .f32⟩ : BufTy).Contents (Elt F)),
    unary main_v150 main_v151 (broadcastInDim S64x256 ![0, 1] bcast_S1x256_S64x256_0_1 : (⟨S1x256, .f32⟩ : BufTy).Contents (Elt F) → (⟨S64x256, .f32⟩ : BufTy).Contents (Elt F)),
    binary main_v145 main_v151 main_v152 (subf : (⟨S64x256, .f32⟩ : BufTy).Contents (Elt F) → (⟨S64x256, .f32⟩ : BufTy).Contents (Elt F) → (⟨S64x256, .f32⟩ : BufTy).Contents (Elt F)),
    unary main_arg28 main_v153 (broadcastInDim S1x256 ![1] bcast_S256_S1x256_1 : (⟨S256, .f32⟩ : BufTy).Contents (Elt F) → (⟨S1x256, .f32⟩ : BufTy).Contents (Elt F)),
    unary main_v153 main_v154 (broadcastInDim S64x256 ![0, 1] bcast_S1x256_S64x256_0_1 : (⟨S1x256, .f32⟩ : BufTy).Contents (Elt F) → (⟨S64x256, .f32⟩ : BufTy).Contents (Elt F)),
    binary main_v154 main_v152 main_v155 (mulf : (⟨S64x256, .f32⟩ : BufTy).Contents (Elt F) → (⟨S64x256, .f32⟩ : BufTy).Contents (Elt F) → (⟨S64x256, .f32⟩ : BufTy).Contents (Elt F)),
    nullary main_cst_27 (constant S_ .f32 0x3727C5AC#32),
    unary main_cst_27 main_v156 (broadcastInDim S256 ![] bcast_S_S256 : (⟨S_, .f32⟩ : BufTy).Contents (Elt F) → (⟨S256, .f32⟩ : BufTy).Contents (Elt F)),
    binary main_v149 main_v156 main_v157 (addf : (⟨S256, .f32⟩ : BufTy).Contents (Elt F) → (⟨S256, .f32⟩ : BufTy).Contents (Elt F) → (⟨S256, .f32⟩ : BufTy).Contents (Elt F)),
    unary main_v157 main_v158 (Host.rsqrt : (⟨S256, .f32⟩ : BufTy).Contents (Elt F) → (⟨S256, .f32⟩ : BufTy).Contents (Elt F)),
    unary main_v158 main_v159 (broadcastInDim S1x256 ![1] bcast_S256_S1x256_1 : (⟨S256, .f32⟩ : BufTy).Contents (Elt F) → (⟨S1x256, .f32⟩ : BufTy).Contents (Elt F)),
    unary main_v159 main_v160 (broadcastInDim S64x256 ![0, 1] bcast_S1x256_S64x256_0_1 : (⟨S1x256, .f32⟩ : BufTy).Contents (Elt F) → (⟨S64x256, .f32⟩ : BufTy).Contents (Elt F)),
    binary main_v155 main_v160 main_v161 (mulf : (⟨S64x256, .f32⟩ : BufTy).Contents (Elt F) → (⟨S64x256, .f32⟩ : BufTy).Contents (Elt F) → (⟨S64x256, .f32⟩ : BufTy).Contents (Elt F)),
    unary main_arg29 main_v162 (broadcastInDim S1x256 ![1] bcast_S256_S1x256_1 : (⟨S256, .f32⟩ : BufTy).Contents (Elt F) → (⟨S1x256, .f32⟩ : BufTy).Contents (Elt F)),
    unary main_v162 main_v163 (broadcastInDim S64x256 ![0, 1] bcast_S1x256_S64x256_0_1 : (⟨S1x256, .f32⟩ : BufTy).Contents (Elt F) → (⟨S64x256, .f32⟩ : BufTy).Contents (Elt F)),
    binary main_v161 main_v163 main_v164 (addf : (⟨S64x256, .f32⟩ : BufTy).Contents (Elt F) → (⟨S64x256, .f32⟩ : BufTy).Contents (Elt F) → (⟨S64x256, .f32⟩ : BufTy).Contents (Elt F)),
    TRef.nullary (.of main_call12_cst : TRef sig ⟨S_, .f32⟩) (constant S_ .f32 0x00000000#32),
    TRef.unary (.of main_call12_cst : TRef sig ⟨S_, .f32⟩) (.of main_call12_v0 : TRef sig ⟨S64x256, .f32⟩) (broadcastInDim S64x256 ![] bcast_S_S64x256),
    TRef.binary (.of main_v164 : TRef sig ⟨S64x256, .f32⟩) (.of main_call12_v0 : TRef sig ⟨S64x256, .f32⟩) (.of main_v165 : TRef sig ⟨S64x256, .f32⟩) maximumf,
    binary main_v165 main_arg30 main_v166 ((fun l r => Host.dotGeneral dot_S64x256_S256x10_S64x10_1_0_0_1_n_n none l r) : (⟨S64x256, .f32⟩ : BufTy).Contents (Elt F) → (⟨S256x10, .f32⟩ : BufTy).Contents (Elt F) → (⟨S64x10, .f32⟩ : BufTy).Contents (Elt F)),
    unary main_arg31 main_v167 (broadcastInDim S1x10 ![1] bcast_S10_S1x10_1 : (⟨S10, .f32⟩ : BufTy).Contents (Elt F) → (⟨S1x10, .f32⟩ : BufTy).Contents (Elt F)),
    unary main_v167 main_v168 (broadcastInDim S64x10 ![0, 1] bcast_S1x10_S64x10_0_1 : (⟨S1x10, .f32⟩ : BufTy).Contents (Elt F) → (⟨S64x10, .f32⟩ : BufTy).Contents (Elt F)),
    binary main_v166 main_v168 main_v169 (addf : (⟨S64x10, .f32⟩ : BufTy).Contents (Elt F) → (⟨S64x10, .f32⟩ : BufTy).Contents (Elt F) → (⟨S64x10, .f32⟩ : BufTy).Contents (Elt F)),
    unary main_v169 main_v170 (Host.negf : (⟨S64x10, .f32⟩ : BufTy).Contents (Elt F) → (⟨S64x10, .f32⟩ : BufTy).Contents (Elt F)),
    unary main_v170 main_v171 (Host.exp : (⟨S64x10, .f32⟩ : BufTy).Contents (Elt F) → (⟨S64x10, .f32⟩ : BufTy).Contents (Elt F)),
    nullary main_cst_28 (constant S_ .f32 0x3F800000#32),
    unary main_cst_28 main_v172 (broadcastInDim S64x10 ![] bcast_S_S64x10 : (⟨S_, .f32⟩ : BufTy).Contents (Elt F) → (⟨S64x10, .f32⟩ : BufTy).Contents (Elt F)),
    binary main_v172 main_v171 main_v173 (addf : (⟨S64x10, .f32⟩ : BufTy).Contents (Elt F) → (⟨S64x10, .f32⟩ : BufTy).Contents (Elt F) → (⟨S64x10, .f32⟩ : BufTy).Contents (Elt F)),
    nullary main_cst_29 (constant S_ .f32 0x3F800000#32),
    unary main_cst_29 main_v174 (broadcastInDim S64x10 ![] bcast_S_S64x10 : (⟨S_, .f32⟩ : BufTy).Contents (Elt F) → (⟨S64x10, .f32⟩ : BufTy).Contents (Elt F)),
    binary main_v174 main_v173 main_v175 (Host.divf : (⟨S64x10, .f32⟩ : BufTy).Contents (Elt F) → (⟨S64x10, .f32⟩ : BufTy).Contents (Elt F) → (⟨S64x10, .f32⟩ : BufTy).Contents (Elt F)) ]

/-- @main's 318 operations, in order. -/
abbrev ops : List (HloOp τ sig (Elt F)) :=
  seg0 ++ seg1 ++ seg2 ++ seg3 ++ seg4 ++ seg5 ++ seg6 ++ seg7 ++ seg8 ++ seg9 ++ seg10 ++ seg11 ++ seg12 ++ seg13

set_option maxRecDepth 32768 in
set_option maxHeartbeats 4000000 in
/-- @main is that straight line. Unfold the four windows of @main, the nine functions at their calls and the
    fourteen segments; split the run of the concatenation into the segments' runs (`seq_append`); re-associate
    sequencing on both sides (`bind_assoc`, `pure_bind`). Each side is then the same chain of 318 `hlo` steps. -/
theorem main_eq (c : Dev nD) : main (F := F) c = seq ops := by
  simp only [ops, seq_append, seg0, seg1, seg2, seg3, seg4, seg5, seg6, seg7, seg8, seg9, seg10, seg11, seg12, seg13, main, main_part0, main_part1, main_part2, main_part3,
    fn_relu.body, fn_where.body, fn_var.body, fn_relu_0.body, fn_relu_1.body, fn_where_2.body, fn_leaky_relu.body, fn_var_3.body, fn_relu_4.body, seq, bind_assoc, pure_bind] <;> rfl

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-! Every operation touches TensorCore buffers only: segment by segment, then the concatenation. -/

theorem seg0_sub : (seg0 : List (HloOp τ sig (Elt F))).Forall fun op => op.bufs ⊆ tcRefs τ sig :=
  ⟨unary_bufs_sub .., reshape_bufs_sub .., unary_bufs_sub .., reshape_bufs_sub .., nullary_bufs_sub ..,
    unary_bufs_sub .., binary_bufs_sub .., nullary_bufs_sub .., unary_bufs_sub .., binary_bufs_sub ..,
    ternary_bufs_sub .., unary_bufs_sub .., binary_bufs_sub ..⟩

theorem seg1_sub : (seg1 : List (HloOp τ sig (Elt F))).Forall fun op => op.bufs ⊆ tcRefs τ sig :=
  ⟨binary_bufs_sub .., binary_bufs_sub .., unary_bufs_sub .., unary_bufs_sub .., binary_bufs_sub ..,
    nullary_bufs_sub .., unary_bufs_sub .., binary_bufs_sub ..⟩

theorem seg2_sub : (seg2 : List (HloOp τ sig (Elt F))).Forall fun op => op.bufs ⊆ tcRefs τ sig :=
  ⟨nullary_bufs_sub .., unary_bufs_sub .., unary_bufs_sub .., ternary_bufs_sub ..⟩

theorem seg3_sub : (seg3 : List (HloOp τ sig (Elt F))).Forall fun op => op.bufs ⊆ tcRefs τ sig :=
  ⟨binary_bufs_sub .., binary_bufs_sub .., unary_bufs_sub .., unary_bufs_sub .., binary_bufs_sub ..⟩

theorem seg4_sub : (seg4 : List (HloOp τ sig (Elt F))).Forall fun op => op.bufs ⊆ tcRefs τ sig :=
  ⟨nullary_bufs_sub .., binary_bufs_sub .., nullary_bufs_sub .., unary_bufs_sub .., binary_bufs_sub ..,
    nullary_bufs_sub .., nullary_bufs_sub .., binary_bufs_sub .., unary_bufs_sub .., nullary_bufs_sub ..,
    unary_bufs_sub .., binary_bufs_sub .., unary_bufs_sub .., binary_bufs_sub .., binary_bufs_sub ..,
    unary_bufs_sub .., nullary_bufs_sub .., binary_bufs_sub .., nullary_bufs_sub .., binary_bufs_sub ..,
    unary_bufs_sub .., binary_bufs_sub .., nullary_bufs_sub .., binary_bufs_sub .., nullary_bufs_sub ..,
    unary_bufs_sub .., unary_bufs_sub .., ternary_bufs_sub ..⟩

theorem seg5_sub : (seg5 : List (HloOp τ sig (Elt F))).Forall fun op => op.bufs ⊆ tcRefs τ sig :=
  ⟨unary_bufs_sub .., unary_bufs_sub .., binary_bufs_sub .., unary_bufs_sub .., unary_bufs_sub ..,
    binary_bufs_sub .., nullary_bufs_sub .., unary_bufs_sub .., binary_bufs_sub .., unary_bufs_sub ..,
    unary_bufs_sub .., unary_bufs_sub .., binary_bufs_sub .., unary_bufs_sub .., unary_bufs_sub ..,
    binary_bufs_sub .., nullary_bufs_sub .., unary_bufs_sub .., binary_bufs_sub .., nullary_bufs_sub ..,
    unary_bufs_sub .., binary_bufs_sub ..⟩

theorem seg6_sub : (seg6 : List (HloOp τ sig (Elt F))).Forall fun op => op.bufs ⊆ tcRefs τ sig :=
  ⟨nullary_bufs_sub .., unary_bufs_sub .., binary_bufs_sub .., nullary_bufs_sub .., unary_bufs_sub ..,
    binary_bufs_sub .., ternary_bufs_sub .., unary_bufs_sub .., binary_bufs_sub ..⟩

theorem seg7_sub : (seg7 : List (HloOp τ sig (Elt F))).Forall fun op => op.bufs ⊆ tcRefs τ sig :=
  ⟨binary_bufs_sub .., binary_bufs_sub .., unary_bufs_sub .., unary_bufs_sub .., binary_bufs_sub ..,
    nullary_bufs_sub .., unary_bufs_sub .., binary_bufs_sub ..⟩

theorem seg8_sub : (seg8 : List (HloOp τ sig (Elt F))).Forall fun op => op.bufs ⊆ tcRefs τ sig :=
  ⟨nullary_bufs_sub .., unary_bufs_sub .., unary_bufs_sub .., ternary_bufs_sub ..⟩

theorem seg9_sub : (seg9 : List (HloOp τ sig (Elt F))).Forall fun op => op.bufs ⊆ tcRefs τ sig :=
  ⟨binary_bufs_sub .., binary_bufs_sub .., unary_bufs_sub .., unary_bufs_sub .., binary_bufs_sub ..⟩

theorem seg10_sub : (seg10 : List (HloOp τ sig (Elt F))).Forall fun op => op.bufs ⊆ tcRefs τ sig :=
  ⟨nullary_bufs_sub .., binary_bufs_sub .., nullary_bufs_sub .., unary_bufs_sub .., binary_bufs_sub ..,
    nullary_bufs_sub .., nullary_bufs_sub .., binary_bufs_sub .., unary_bufs_sub .., nullary_bufs_sub ..,
    unary_bufs_sub .., binary_bufs_sub .., unary_bufs_sub .., binary_bufs_sub .., binary_bufs_sub ..,
    unary_bufs_sub .., nullary_bufs_sub .., binary_bufs_sub .., nullary_bufs_sub .., binary_bufs_sub ..,
    unary_bufs_sub .., binary_bufs_sub .., nullary_bufs_sub .., binary_bufs_sub .., nullary_bufs_sub ..,
    unary_bufs_sub .., unary_bufs_sub .., ternary_bufs_sub ..⟩

theorem seg11_sub : (seg11 : List (HloOp τ sig (Elt F))).Forall fun op => op.bufs ⊆ tcRefs τ sig :=
  ⟨unary_bufs_sub .., unary_bufs_sub .., binary_bufs_sub .., unary_bufs_sub .., unary_bufs_sub ..,
    binary_bufs_sub .., nullary_bufs_sub .., unary_bufs_sub .., binary_bufs_sub .., unary_bufs_sub ..,
    unary_bufs_sub .., unary_bufs_sub .., binary_bufs_sub .., unary_bufs_sub .., unary_bufs_sub ..,
    binary_bufs_sub .., nullary_bufs_sub .., unary_bufs_sub .., binary_bufs_sub .., unary_bufs_sub ..,
    unary_bufs_sub .., nullary_bufs_sub .., unary_bufs_sub .., binary_bufs_sub .., nullary_bufs_sub ..,
    unary_bufs_sub .., binary_bufs_sub ..⟩

theorem seg12_sub : (seg12 : List (HloOp τ sig (Elt F))).Forall fun op => op.bufs ⊆ tcRefs τ sig :=
  ⟨binary_bufs_sub .., unary_bufs_sub .., unary_bufs_sub .., binary_bufs_sub .., nullary_bufs_sub ..,
    nullary_bufs_sub .., unary_bufs_sub .., binary_bufs_sub .., unary_bufs_sub .., unary_bufs_sub ..,
    binary_bufs_sub .., ternary_bufs_sub .., binary_bufs_sub .., unary_bufs_sub .., unary_bufs_sub ..,
    binary_bufs_sub .., nullary_bufs_sub .., nullary_bufs_sub .., unary_bufs_sub .., binary_bufs_sub ..,
    unary_bufs_sub .., unary_bufs_sub .., binary_bufs_sub .., ternary_bufs_sub .., binary_bufs_sub ..,
    unary_bufs_sub .., unary_bufs_sub .., binary_bufs_sub .., unary_bufs_sub .., unary_bufs_sub ..,
    nullary_bufs_sub .., unary_bufs_sub .., binary_bufs_sub .., nullary_bufs_sub .., unary_bufs_sub ..,
    binary_bufs_sub ..⟩

theorem seg13_sub : (seg13 : List (HloOp τ sig (Elt F))).Forall fun op => op.bufs ⊆ tcRefs τ sig :=
  ⟨reshape_bufs_sub .., reshape_bufs_sub .., nullary_bufs_sub .., binary_bufs_sub .., nullary_bufs_sub ..,
    unary_bufs_sub .., binary_bufs_sub .., binary_bufs_sub .., unary_bufs_sub .., unary_bufs_sub ..,
    binary_bufs_sub .., nullary_bufs_sub .., binary_bufs_sub .., nullary_bufs_sub .., unary_bufs_sub ..,
    binary_bufs_sub .., nullary_bufs_sub .., nullary_bufs_sub .., binary_bufs_sub .., unary_bufs_sub ..,
    nullary_bufs_sub .., unary_bufs_sub .., binary_bufs_sub .., unary_bufs_sub .., binary_bufs_sub ..,
    binary_bufs_sub .., unary_bufs_sub .., nullary_bufs_sub .., binary_bufs_sub .., nullary_bufs_sub ..,
    binary_bufs_sub .., unary_bufs_sub .., binary_bufs_sub .., nullary_bufs_sub .., binary_bufs_sub ..,
    nullary_bufs_sub .., unary_bufs_sub .., unary_bufs_sub .., ternary_bufs_sub .., unary_bufs_sub ..,
    unary_bufs_sub .., binary_bufs_sub .., unary_bufs_sub .., unary_bufs_sub .., binary_bufs_sub ..,
    nullary_bufs_sub .., unary_bufs_sub .., binary_bufs_sub .., unary_bufs_sub .., unary_bufs_sub ..,
    unary_bufs_sub .., binary_bufs_sub .., unary_bufs_sub .., unary_bufs_sub .., binary_bufs_sub ..,
    nullary_bufs_sub .., unary_bufs_sub .., binary_bufs_sub .., binary_bufs_sub .., unary_bufs_sub ..,
    unary_bufs_sub .., binary_bufs_sub .., nullary_bufs_sub .., binary_bufs_sub .., nullary_bufs_sub ..,
    unary_bufs_sub .., binary_bufs_sub .., nullary_bufs_sub .., nullary_bufs_sub .., binary_bufs_sub ..,
    unary_bufs_sub .., nullary_bufs_sub .., unary_bufs_sub .., binary_bufs_sub .., unary_bufs_sub ..,
    binary_bufs_sub .., binary_bufs_sub .., unary_bufs_sub .., nullary_bufs_sub .., binary_bufs_sub ..,
    nullary_bufs_sub .., binary_bufs_sub .., unary_bufs_sub .., binary_bufs_sub .., nullary_bufs_sub ..,
    binary_bufs_sub .., nullary_bufs_sub .., unary_bufs_sub .., unary_bufs_sub .., ternary_bufs_sub ..,
    unary_bufs_sub .., unary_bufs_sub .., binary_bufs_sub .., unary_bufs_sub .., unary_bufs_sub ..,
    binary_bufs_sub .., nullary_bufs_sub .., unary_bufs_sub .., binary_bufs_sub .., unary_bufs_sub ..,
    unary_bufs_sub .., unary_bufs_sub .., binary_bufs_sub .., unary_bufs_sub .., unary_bufs_sub ..,
    binary_bufs_sub .., nullary_bufs_sub .., unary_bufs_sub .., binary_bufs_sub .., binary_bufs_sub ..,
    unary_bufs_sub .., unary_bufs_sub .., binary_bufs_sub .., unary_bufs_sub .., unary_bufs_sub ..,
    nullary_bufs_sub .., unary_bufs_sub .., binary_bufs_sub .., nullary_bufs_sub .., unary_bufs_sub ..,
    binary_bufs_sub ..⟩

theorem ops_sub : (ops : List (HloOp τ sig (Elt F))).Forall fun op => op.bufs ⊆ tcRefs τ sig := by
  simp only [ops, List.forall_append]
  exact ⟨⟨⟨⟨⟨⟨⟨⟨⟨⟨⟨⟨⟨seg0_sub, seg1_sub⟩, seg2_sub⟩, seg3_sub⟩, seg4_sub⟩, seg5_sub⟩, seg6_sub⟩, seg7_sub⟩, seg8_sub⟩, seg9_sub⟩, seg10_sub⟩, seg11_sub⟩, seg12_sub⟩, seg13_sub⟩

/-! Every operation determines its results (none allocates a buffer with unspecified contents): segment by
    segment, by cases on the literal list, then the concatenation. -/

theorem seg0_fresh : ∀ op ∈ (seg0 : List (HloOp τ sig (Elt F))), op.fresh = ∅ := by
  intro _ h; (repeat (cases h with | head => rfl | tail _ h => ?_)); exact nomatch h

theorem seg1_fresh : ∀ op ∈ (seg1 : List (HloOp τ sig (Elt F))), op.fresh = ∅ := by
  intro _ h; (repeat (cases h with | head => rfl | tail _ h => ?_)); exact nomatch h

theorem seg2_fresh : ∀ op ∈ (seg2 : List (HloOp τ sig (Elt F))), op.fresh = ∅ := by
  intro _ h; (repeat (cases h with | head => rfl | tail _ h => ?_)); exact nomatch h

theorem seg3_fresh : ∀ op ∈ (seg3 : List (HloOp τ sig (Elt F))), op.fresh = ∅ := by
  intro _ h; (repeat (cases h with | head => rfl | tail _ h => ?_)); exact nomatch h

theorem seg4_fresh : ∀ op ∈ (seg4 : List (HloOp τ sig (Elt F))), op.fresh = ∅ := by
  intro _ h; (repeat (cases h with | head => rfl | tail _ h => ?_)); exact nomatch h

theorem seg5_fresh : ∀ op ∈ (seg5 : List (HloOp τ sig (Elt F))), op.fresh = ∅ := by
  intro _ h; (repeat (cases h with | head => rfl | tail _ h => ?_)); exact nomatch h

theorem seg6_fresh : ∀ op ∈ (seg6 : List (HloOp τ sig (Elt F))), op.fresh = ∅ := by
  intro _ h; (repeat (cases h with | head => rfl | tail _ h => ?_)); exact nomatch h

theorem seg7_fresh : ∀ op ∈ (seg7 : List (HloOp τ sig (Elt F))), op.fresh = ∅ := by
  intro _ h; (repeat (cases h with | head => rfl | tail _ h => ?_)); exact nomatch h

theorem seg8_fresh : ∀ op ∈ (seg8 : List (HloOp τ sig (Elt F))), op.fresh = ∅ := by
  intro _ h; (repeat (cases h with | head => rfl | tail _ h => ?_)); exact nomatch h

theorem seg9_fresh : ∀ op ∈ (seg9 : List (HloOp τ sig (Elt F))), op.fresh = ∅ := by
  intro _ h; (repeat (cases h with | head => rfl | tail _ h => ?_)); exact nomatch h

theorem seg10_fresh : ∀ op ∈ (seg10 : List (HloOp τ sig (Elt F))), op.fresh = ∅ := by
  intro _ h; (repeat (cases h with | head => rfl | tail _ h => ?_)); exact nomatch h

theorem seg11_fresh : ∀ op ∈ (seg11 : List (HloOp τ sig (Elt F))), op.fresh = ∅ := by
  intro _ h; (repeat (cases h with | head => rfl | tail _ h => ?_)); exact nomatch h

theorem seg12_fresh : ∀ op ∈ (seg12 : List (HloOp τ sig (Elt F))), op.fresh = ∅ := by
  intro _ h; (repeat (cases h with | head => rfl | tail _ h => ?_)); exact nomatch h

theorem seg13_fresh : ∀ op ∈ (seg13 : List (HloOp τ sig (Elt F))), op.fresh = ∅ := by
  intro _ h; (repeat (cases h with | head => rfl | tail _ h => ?_)); exact nomatch h

theorem fresh_append {l₁ l₂ : List (HloOp τ sig (Elt F))} (h₁ : ∀ op ∈ l₁, op.fresh = ∅) (h₂ : ∀ op ∈ l₂, op.fresh = ∅) :
    ∀ op ∈ l₁ ++ l₂, op.fresh = ∅ :=
  fun op h => (List.mem_append.mp h).elim (h₁ op) (h₂ op)

theorem ops_fresh : ∀ op ∈ (ops : List (HloOp τ sig (Elt F))), op.fresh = ∅ :=
  fresh_append (fresh_append (fresh_append (fresh_append (fresh_append (fresh_append (fresh_append (fresh_append (fresh_append (fresh_append (fresh_append (fresh_append (fresh_append (seg0_fresh) seg1_fresh) seg2_fresh) seg3_fresh) seg4_fresh) seg5_fresh) seg6_fresh) seg7_fresh) seg8_fresh) seg9_fresh) seg10_fresh) seg11_fresh) seg12_fresh) seg13_fresh

/-- On every device, for any float values, from any memory with zero counters: every weakly fair execution of
    @main terminates, and every final state has each TensorCore buffer at the fold of the 318 operations over
    the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after ops (StableHlo.launchContents m d) (Proc.devRef .tc b) :=
  run_seq scopedRefs_eq scopedSems_eq defs main (fun _ => ops) main_eq (fun _ => ops_sub) m ρ (fun _ => ops_fresh)

end Cert.ReferenceIdeal.RefRun

end
-- ==== Proof.LibHostStretches.lean ====
/-
  A straight line of host operations read in stretches, and a value carried through an outlined call.

  * `after_append`, `after_split`: what a line of host operations leaves (the fold `StableHlo.after` of the operations
    over the contents it starts from) is what its last part leaves from what its first part leaves. So a long line is
    read a stretch at a time, each stretch over an ARBITRARY starting valuation: the terms stay small, and values
    several later operations consume are named once (at the stretch's start) instead of being copied into every use.
  * `ofBuf_toBuf`: the operations of an outlined function (`func.call`) read and write their operands through typed
    references, a transport along the buffer's type equation each way. A value written that way and read back at
    its own type is the value. Rewriting with it first leaves a line with outlined calls comparable, by reading,
    with the same operations written without the calls.

  General in the topology, the reference signature and the element values.
-/
import Idealize.ShloMosaic.Lib.StableHlo.Run

namespace Cert.HostLine

open Idealize.ShloMosaic Idealize.ShloMosaic.StableHlo

variable {τ : Topo} {sig : RefSig} {Val : EltTy → Type}

/-- Two stretches run one after the other are their concatenation run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line of operations run as its first `n` and then the rest. -/
theorem after_split (n : Nat) (l : List (HloOp τ sig Val)) (V : Valuation τ sig Val) :
    after l V = after (l.drop n) (after (l.take n) V) := by
  rw [← after_append, List.take_append_drop]

/-- A value written to a typed reference's buffer and read back at the value's type is the value. -/
theorem ofBuf_toBuf {T : BufTy} (x : TRef sig T) (v : T.Contents Val) : x.ofBuf (x.toBuf v) = v := by
  obtain ⟨r, te, od, us⟩ := x
  subst te
  rfl

end Cert.HostLine
-- ==== Proof.Sim.lean ====
/-
  The stretches of host operations the two programs share — the gather of source rows, the scatter-add over target
  rows, the column mean and variance, and everything after the last region — are the same operations in the same
  order, applied to buffers that differ only in name. So from starting contents that agree on a stretch's inputs the
  two programs leave equal contents in the stretch's outputs: each side's fold is read as the operations' composed
  term of the inputs, the inputs are identified, and the two terms are then one term.
-/
import proofs.«181940_j74397423501381_1_alg».proof.Proof.Gen.KernelIdeal.Launch
import proofs.«181940_j74397423501381_1_alg».proof.Proof.RefRun
import Idealize.ShloMosaic.Lib.StableHlo.Run
import proofs.«181940_j74397423501381_1_alg».proof.Proof.LibHostStretches
import Idealize.ShloMosaic.PureOps.Ideal

noncomputable section

namespace Cert.Sim

open Idealize.ShloMosaic Idealize.ShloMosaic.TcCoe Idealize.SL.Sem

set_option maxHeartbeats 8000000 in
/-- Index preparation and the gather of source rows of the node features. -/
theorem gather1 (VK : Valuation Cert.KernelIdeal.τ Cert.KernelIdeal.sig (Elt Ideal)) (VR : Valuation Cert.ReferenceIdeal.τ Cert.ReferenceIdeal.sig (Elt Ideal))
    (h0 : VK (Proc.devRef .tc Cert.KernelIdeal.main_arg0) = VR (Proc.devRef .tc Cert.ReferenceIdeal.main_arg0))
    (h1 : VK (Proc.devRef .tc Cert.KernelIdeal.main_arg1) = VR (Proc.devRef .tc Cert.ReferenceIdeal.main_arg1)) :
    StableHlo.after (Cert.KernelIdeal.Gen.hostOps0 (F := Ideal)) VK (Proc.devRef .tc Cert.KernelIdeal.main_v10) = StableHlo.after (Cert.ReferenceIdeal.RefRun.seg0 (F := Ideal)) VR (Proc.devRef .tc Cert.ReferenceIdeal.main_v10)
    ∧ StableHlo.after (Cert.KernelIdeal.Gen.hostOps0 (F := Ideal)) VK (Proc.devRef .tc Cert.KernelIdeal.main_v1) = StableHlo.after (Cert.ReferenceIdeal.RefRun.seg0 (F := Ideal)) VR (Proc.devRef .tc Cert.ReferenceIdeal.main_v1)
    ∧ StableHlo.after (Cert.KernelIdeal.Gen.hostOps0 (F := Ideal)) VK (Proc.devRef .tc Cert.KernelIdeal.main_v3) = StableHlo.after (Cert.ReferenceIdeal.RefRun.seg0 (F := Ideal)) VR (Proc.devRef .tc Cert.ReferenceIdeal.main_v3) :=
  ⟨by
    dsimp only [Cert.KernelIdeal.Gen.hostOps0, Cert.ReferenceIdeal.RefRun.seg0, List.cons_append, List.nil_append]
    after_results_simp
    try simp only [Cert.HostLine.ofBuf_toBuf]
    try dsimp only [StableHlo.TRef.of]
    simp only [h0, h1]
    all_goals rfl,
   by
    dsimp only [Cert.KernelIdeal.Gen.hostOps0, Cert.ReferenceIdeal.RefRun.seg0, List.cons_append, List.nil_append]
    after_results_simp
    try simp only [Cert.HostLine.ofBuf_toBuf]
    try dsimp only [StableHlo.TRef.of]
    simp only [h0, h1]
    all_goals rfl,
   by
    dsimp only [Cert.KernelIdeal.Gen.hostOps0, Cert.ReferenceIdeal.RefRun.seg0, List.cons_append, List.nil_append]
    after_results_simp
    try simp only [Cert.HostLine.ofBuf_toBuf]
    try dsimp only [StableHlo.TRef.of]
    simp only [h0, h1]
    all_goals rfl⟩

set_option maxHeartbeats 8000000 in
/-- The first scatter-add of the messages over the target rows. -/
theorem scatter1 (VK : Valuation Cert.KernelIdeal.τ Cert.KernelIdeal.sig (Elt Ideal)) (VR : Valuation Cert.ReferenceIdeal.τ Cert.ReferenceIdeal.sig (Elt Ideal))
    (h0 : VK (Proc.devRef .tc Cert.KernelIdeal.main_v3) = VR (Proc.devRef .tc Cert.ReferenceIdeal.main_v3))
    (h1 : VK (Proc.devRef .tc Cert.KernelIdeal.main_v11) = VR (Proc.devRef .tc Cert.ReferenceIdeal.main_v16)) :
    StableHlo.after (Cert.KernelIdeal.Gen.hostOps1 (F := Ideal)) VK (Proc.devRef .tc Cert.KernelIdeal.main_v14) = StableHlo.after (Cert.ReferenceIdeal.RefRun.seg2 (F := Ideal)) VR (Proc.devRef .tc Cert.ReferenceIdeal.main_v19) :=
  by
    dsimp only [Cert.KernelIdeal.Gen.hostOps1, Cert.ReferenceIdeal.RefRun.seg2, List.cons_append, List.nil_append]
    after_results_simp
    try simp only [Cert.HostLine.ofBuf_toBuf]
    try dsimp only [StableHlo.TRef.of]
    simp only [h0, h1]
    all_goals rfl

set_option maxHeartbeats 8000000 in
/-- Column mean and variance of the first pre-activation. -/
theorem stats1 (VK : Valuation Cert.KernelIdeal.τ Cert.KernelIdeal.sig (Elt Ideal)) (VR : Valuation Cert.ReferenceIdeal.τ Cert.ReferenceIdeal.sig (Elt Ideal))
    (h0 : VK (Proc.devRef .tc Cert.KernelIdeal.main_v15) = VR (Proc.devRef .tc Cert.ReferenceIdeal.main_v24)) :
    StableHlo.after (Cert.KernelIdeal.Gen.hostOps2 (F := Ideal) ++ Cert.KernelIdeal.Gen.hostOps2_1 (F := Ideal)) VK (Proc.devRef .tc Cert.KernelIdeal.main_v18) = StableHlo.after (Cert.ReferenceIdeal.RefRun.seg4 (F := Ideal)) VR (Proc.devRef .tc Cert.ReferenceIdeal.main_v27)
    ∧ StableHlo.after (Cert.KernelIdeal.Gen.hostOps2 (F := Ideal) ++ Cert.KernelIdeal.Gen.hostOps2_1 (F := Ideal)) VK (Proc.devRef .tc Cert.KernelIdeal.main_v19) = StableHlo.after (Cert.ReferenceIdeal.RefRun.seg4 (F := Ideal)) VR (Proc.devRef .tc Cert.ReferenceIdeal.main_v28) :=
  ⟨by
    dsimp only [Cert.KernelIdeal.Gen.hostOps2, Cert.KernelIdeal.Gen.hostOps2_1, Cert.ReferenceIdeal.RefRun.seg4, List.cons_append, List.nil_append]
    after_results_simp
    try simp only [Cert.HostLine.ofBuf_toBuf]
    try dsimp only [StableHlo.TRef.of]
    simp only [h0]
    all_goals rfl,
   by
    dsimp only [Cert.KernelIdeal.Gen.hostOps2, Cert.KernelIdeal.Gen.hostOps2_1, Cert.ReferenceIdeal.RefRun.seg4, List.cons_append, List.nil_append]
    after_results_simp
    try simp only [Cert.HostLine.ofBuf_toBuf]
    try dsimp only [StableHlo.TRef.of]
    simp only [h0]
    all_goals rfl⟩

set_option maxHeartbeats 8000000 in
/-- The gather of source rows of the first hidden layer. -/
theorem gather2 (VK : Valuation Cert.KernelIdeal.τ Cert.KernelIdeal.sig (Elt Ideal)) (VR : Valuation Cert.ReferenceIdeal.τ Cert.ReferenceIdeal.sig (Elt Ideal))
    (h0 : VK (Proc.devRef .tc Cert.KernelIdeal.main_v1) = VR (Proc.devRef .tc Cert.ReferenceIdeal.main_v1))
    (h1 : VK (Proc.devRef .tc Cert.KernelIdeal.main_v20) = VR (Proc.devRef .tc Cert.ReferenceIdeal.main_v45)) :
    StableHlo.after (Cert.KernelIdeal.Gen.hostOps3 (F := Ideal)) VK (Proc.devRef .tc Cert.KernelIdeal.main_v27) = StableHlo.after (Cert.ReferenceIdeal.RefRun.seg6 (F := Ideal)) VR (Proc.devRef .tc Cert.ReferenceIdeal.main_v52) :=
  by
    dsimp only [Cert.KernelIdeal.Gen.hostOps3, Cert.ReferenceIdeal.RefRun.seg6, List.cons_append, List.nil_append]
    after_results_simp
    try simp only [Cert.HostLine.ofBuf_toBuf]
    try dsimp only [StableHlo.TRef.of]
    simp only [h0, h1]
    all_goals rfl

set_option maxHeartbeats 8000000 in
/-- The second scatter-add. -/
theorem scatter2 (VK : Valuation Cert.KernelIdeal.τ Cert.KernelIdeal.sig (Elt Ideal)) (VR : Valuation Cert.ReferenceIdeal.τ Cert.ReferenceIdeal.sig (Elt Ideal))
    (h0 : VK (Proc.devRef .tc Cert.KernelIdeal.main_v3) = VR (Proc.devRef .tc Cert.ReferenceIdeal.main_v3))
    (h1 : VK (Proc.devRef .tc Cert.KernelIdeal.main_v28) = VR (Proc.devRef .tc Cert.ReferenceIdeal.main_v58)) :
    StableHlo.after (Cert.KernelIdeal.Gen.hostOps4 (F := Ideal)) VK (Proc.devRef .tc Cert.KernelIdeal.main_v31) = StableHlo.after (Cert.ReferenceIdeal.RefRun.seg8 (F := Ideal)) VR (Proc.devRef .tc Cert.ReferenceIdeal.main_v61) :=
  by
    dsimp only [Cert.KernelIdeal.Gen.hostOps4, Cert.ReferenceIdeal.RefRun.seg8, List.cons_append, List.nil_append]
    after_results_simp
    try simp only [Cert.HostLine.ofBuf_toBuf]
    try dsimp only [StableHlo.TRef.of]
    simp only [h0, h1]
    all_goals rfl

set_option maxHeartbeats 8000000 in
/-- Column mean and variance of the second pre-activation. -/
theorem stats2 (VK : Valuation Cert.KernelIdeal.τ Cert.KernelIdeal.sig (Elt Ideal)) (VR : Valuation Cert.ReferenceIdeal.τ Cert.ReferenceIdeal.sig (Elt Ideal))
    (h0 : VK (Proc.devRef .tc Cert.KernelIdeal.main_v32) = VR (Proc.devRef .tc Cert.ReferenceIdeal.main_v66)) :
    StableHlo.after (Cert.KernelIdeal.Gen.hostOps5 (F := Ideal) ++ Cert.KernelIdeal.Gen.hostOps5_1 (F := Ideal)) VK (Proc.devRef .tc Cert.KernelIdeal.main_v35) = StableHlo.after (Cert.ReferenceIdeal.RefRun.seg10 (F := Ideal)) VR (Proc.devRef .tc Cert.ReferenceIdeal.main_v69)
    ∧ StableHlo.after (Cert.KernelIdeal.Gen.hostOps5 (F := Ideal) ++ Cert.KernelIdeal.Gen.hostOps5_1 (F := Ideal)) VK (Proc.devRef .tc Cert.KernelIdeal.main_v36) = StableHlo.after (Cert.ReferenceIdeal.RefRun.seg10 (F := Ideal)) VR (Proc.devRef .tc Cert.ReferenceIdeal.main_v70) :=
  ⟨by
    dsimp only [Cert.KernelIdeal.Gen.hostOps5, Cert.KernelIdeal.Gen.hostOps5_1, Cert.ReferenceIdeal.RefRun.seg10, List.cons_append, List.nil_append]
    after_results_simp
    try simp only [Cert.HostLine.ofBuf_toBuf]
    try dsimp only [StableHlo.TRef.of]
    simp only [h0]
    all_goals rfl,
   by
    dsimp only [Cert.KernelIdeal.Gen.hostOps5, Cert.KernelIdeal.Gen.hostOps5_1, Cert.ReferenceIdeal.RefRun.seg10, List.cons_append, List.nil_append]
    after_results_simp
    try simp only [Cert.HostLine.ofBuf_toBuf]
    try dsimp only [StableHlo.TRef.of]
    simp only [h0]
    all_goals rfl⟩

set_option maxHeartbeats 8000000 in
/-- Everything after the last region: the scores reshaped, the pooled features and the action head. -/
theorem tail (VK : Valuation Cert.KernelIdeal.τ Cert.KernelIdeal.sig (Elt Ideal)) (VR : Valuation Cert.ReferenceIdeal.τ Cert.ReferenceIdeal.sig (Elt Ideal))
    (h0 : VK (Proc.devRef .tc Cert.KernelIdeal.main_v38) = VR (Proc.devRef .tc Cert.ReferenceIdeal.main_v112))
    (h1 : VK (Proc.devRef .tc Cert.KernelIdeal.main_v37) = VR (Proc.devRef .tc Cert.ReferenceIdeal.main_v92))
    (h2 : VK (Proc.devRef .tc Cert.KernelIdeal.main_arg22) = VR (Proc.devRef .tc Cert.ReferenceIdeal.main_arg22))
    (h3 : VK (Proc.devRef .tc Cert.KernelIdeal.main_arg23) = VR (Proc.devRef .tc Cert.ReferenceIdeal.main_arg23))
    (h4 : VK (Proc.devRef .tc Cert.KernelIdeal.main_arg24) = VR (Proc.devRef .tc Cert.ReferenceIdeal.main_arg24))
    (h5 : VK (Proc.devRef .tc Cert.KernelIdeal.main_arg25) = VR (Proc.devRef .tc Cert.ReferenceIdeal.main_arg25))
    (h6 : VK (Proc.devRef .tc Cert.KernelIdeal.main_arg26) = VR (Proc.devRef .tc Cert.ReferenceIdeal.main_arg26))
    (h7 : VK (Proc.devRef .tc Cert.KernelIdeal.main_arg27) = VR (Proc.devRef .tc Cert.ReferenceIdeal.main_arg27))
    (h8 : VK (Proc.devRef .tc Cert.KernelIdeal.main_arg28) = VR (Proc.devRef .tc Cert.ReferenceIdeal.main_arg28))
    (h9 : VK (Proc.devRef .tc Cert.KernelIdeal.main_arg29) = VR (Proc.devRef .tc Cert.ReferenceIdeal.main_arg29))
    (h10 : VK (Proc.devRef .tc Cert.KernelIdeal.main_arg30) = VR (Proc.devRef .tc Cert.ReferenceIdeal.main_arg30))
    (h11 : VK (Proc.devRef .tc Cert.KernelIdeal.main_arg31) = VR (Proc.devRef .tc Cert.ReferenceIdeal.main_arg31)) :
    StableHlo.after (Cert.KernelIdeal.Gen.hostOps7 (F := Ideal) ++ Cert.KernelIdeal.Gen.hostOps7_1 (F := Ideal) ++ Cert.KernelIdeal.Gen.hostOps7_2 (F := Ideal) ++ Cert.KernelIdeal.Gen.hostOps7_3 (F := Ideal) ++ Cert.KernelIdeal.Gen.hostOps7_4 (F := Ideal) ++ Cert.KernelIdeal.Gen.hostOps7_5 (F := Ideal) ++ Cert.KernelIdeal.Gen.hostOps7_6 (F := Ideal) ++ Cert.KernelIdeal.Gen.hostOps7_7 (F := Ideal) ++ Cert.KernelIdeal.Gen.hostOps7_8 (F := Ideal)) VK (Proc.devRef .tc Cert.KernelIdeal.main_v101) = StableHlo.after (Cert.ReferenceIdeal.RefRun.seg13 (F := Ideal)) VR (Proc.devRef .tc Cert.ReferenceIdeal.main_v175)
    ∧ StableHlo.after (Cert.KernelIdeal.Gen.hostOps7 (F := Ideal) ++ Cert.KernelIdeal.Gen.hostOps7_1 (F := Ideal) ++ Cert.KernelIdeal.Gen.hostOps7_2 (F := Ideal) ++ Cert.KernelIdeal.Gen.hostOps7_3 (F := Ideal) ++ Cert.KernelIdeal.Gen.hostOps7_4 (F := Ideal) ++ Cert.KernelIdeal.Gen.hostOps7_5 (F := Ideal) ++ Cert.KernelIdeal.Gen.hostOps7_6 (F := Ideal) ++ Cert.KernelIdeal.Gen.hostOps7_7 (F := Ideal) ++ Cert.KernelIdeal.Gen.hostOps7_8 (F := Ideal)) VK (Proc.devRef .tc Cert.KernelIdeal.main_v39) = StableHlo.after (Cert.ReferenceIdeal.RefRun.seg13 (F := Ideal)) VR (Proc.devRef .tc Cert.ReferenceIdeal.main_v113) :=
  ⟨by
    dsimp only [Cert.KernelIdeal.Gen.hostOps7, Cert.KernelIdeal.Gen.hostOps7_1, Cert.KernelIdeal.Gen.hostOps7_2, Cert.KernelIdeal.Gen.hostOps7_3, Cert.KernelIdeal.Gen.hostOps7_4, Cert.KernelIdeal.Gen.hostOps7_5, Cert.KernelIdeal.Gen.hostOps7_6, Cert.KernelIdeal.Gen.hostOps7_7, Cert.KernelIdeal.Gen.hostOps7_8, Cert.ReferenceIdeal.RefRun.seg13, List.cons_append, List.nil_append]
    after_results_simp
    try simp only [Cert.HostLine.ofBuf_toBuf]
    try dsimp only [StableHlo.TRef.of]
    simp only [h0, h1, h2, h3, h4, h5, h6, h7, h8, h9, h10, h11]
    all_goals rfl,
   by
    dsimp only [Cert.KernelIdeal.Gen.hostOps7, Cert.KernelIdeal.Gen.hostOps7_1, Cert.KernelIdeal.Gen.hostOps7_2, Cert.KernelIdeal.Gen.hostOps7_3, Cert.KernelIdeal.Gen.hostOps7_4, Cert.KernelIdeal.Gen.hostOps7_5, Cert.KernelIdeal.Gen.hostOps7_6, Cert.KernelIdeal.Gen.hostOps7_7, Cert.KernelIdeal.Gen.hostOps7_8, Cert.ReferenceIdeal.RefRun.seg13, List.cons_append, List.nil_append]
    after_results_simp
    try simp only [Cert.HostLine.ofBuf_toBuf]
    try dsimp only [StableHlo.TRef.of]
    simp only [h0, h1, h2, h3, h4, h5, h6, h7, h8, h9, h10, h11]
    all_goals rfl⟩

end Cert.Sim

end
-- ==== Proof.LibHostColumn.lean ====
/-
  A vector repeated into a matrix by the host's two broadcasts.

  The host repeats a vector along a new axis in two steps: it first gives the vector a unit axis (`broadcast_in_dim`
  of [n] into [n, 1] along dimension 0, or of [b] into [1, b] along dimension 1), then repeats the unit axis
  (`broadcast_in_dim` of [n, 1] or [1, b] into [n, b] along dimensions 0 and 1). Read at (p, k) the result is the
  vector at the coordinate it was laid along: the row `p` for a column, the column `k` for a row. A size-one axis
  of the operand is read at 0 whatever the result's coordinate, which is why the case of a vector of one entry needs
  no separate statement.
-/
import Idealize.ShloMosaic.Lib.Pipeline.Value
import Idealize.ShloMosaic.Lib.ValueIdx

namespace Idealize.ShloMosaic.HostColumn

open Idealize.ShloMosaic Idealize.ShloMosaic.ValueIdx

variable {α : Type}

/-- A vector of `n` entries kept as an [n, 1] column and that column repeated to [n, b], both by the host's
    `broadcast_in_dim`, reads the vector at the row. -/
theorem column_apply {n b : Nat} (x : (⟨1, ![n]⟩ : Shape).Idx → α)
    (b1 : (⟨1, ![n]⟩ : Shape).BroadcastsInDim ⟨2, ![n, 1]⟩ ![0])
    (b2 : (⟨2, ![n, 1]⟩ : Shape).BroadcastsInDim ⟨2, ![n, b]⟩ ![0, 1]) (p : Fin n) (k : Fin b) :
    broadcastInDim ⟨2, ![n, b]⟩ ![0, 1] b2 (broadcastInDim ⟨2, ![n, 1]⟩ ![0] b1 x) (ix2 p k) = x (ix1 p) := by
  refine (broadcastInDim_apply _ b2 _ (ix2 p k) (ix2 p (0 : Fin 1)) fun a => ?_).trans
    (broadcastInDim_apply _ b1 x (ix2 p (0 : Fin 1)) (ix1 p) fun a => ?_)
  · match a with
    | ⟨0, _⟩ =>
      show p.val = if n = 1 then 0 else p.val
      split
      · have := p.isLt; omega
      · rfl
    | ⟨1, _⟩ => rfl
  · match a with
    | ⟨0, _⟩ =>
      show p.val = if n = 1 then 0 else p.val
      split
      · have := p.isLt; omega
      · rfl

/-- A vector of `b` entries given a leading unit axis and repeated down `n` rows, both by the host's
    `broadcast_in_dim`, reads the vector at the column. -/
theorem row_apply {n b : Nat} (x : (⟨1, ![b]⟩ : Shape).Idx → α)
    (b3 : (⟨1, ![b]⟩ : Shape).BroadcastsInDim ⟨2, ![1, b]⟩ ![1])
    (b4 : (⟨2, ![1, b]⟩ : Shape).BroadcastsInDim ⟨2, ![n, b]⟩ ![0, 1]) (p : Fin n) (j : Fin b) :
    broadcastInDim ⟨2, ![n, b]⟩ ![0, 1] b4 (broadcastInDim ⟨2, ![1, b]⟩ ![1] b3 x) (ix2 p j) = x (ix1 j) := by
  refine (broadcastInDim_apply _ b4 _ (ix2 p j) (ix2 (0 : Fin 1) j) fun a => ?_).trans
    (broadcastInDim_apply _ b3 x (ix2 (0 : Fin 1) j) (ix1 j) fun a => ?_)
  · match a with
    | ⟨0, _⟩ => rfl
    | ⟨1, _⟩ =>
      show j.val = if b = 1 then 0 else j.val
      split
      · have := j.isLt; omega
      · rfl
  · match a with
    | ⟨0, _⟩ =>
      show j.val = if b = 1 then 0 else j.val
      split
      · have := j.isLt; omega
      · rfl

end Idealize.ShloMosaic.HostColumn
-- ==== Proof.RefStagesA.lean ====
/-
  Stretches of the reference's host operations, as the pure terms the operations compose to, are the entry-by-entry
  functions of Spec.lean: the two edge messages and the two linear layers.

  Each stretch is a composition of entrywise operations (sum, maximum), one product of two arrays (the host's
  `dot_general`, which on the extended reals is the sum over the shared axis of left entry × right entry), a bias vector
  repeated down the rows (two `broadcast_in_dim`), and a scalar constant repeated to every entry (a `broadcast_in_dim` of a
  rank-0 array). Read at an entry (p, q): the product is `rowsTimes` at (p, q), the repeated vector is the vector at q, the
  repeated scalar is the scalar. The f32 word of the scalar is never evaluated.
-/
import proofs.«181940_j74397423501381_1_alg».proof.ReferenceIdeal
import proofs.«181940_j74397423501381_1_alg».proof.Proof.Spec
import proofs.«181940_j74397423501381_1_alg».proof.Proof.LibRowsCols
import proofs.«181940_j74397423501381_1_alg».proof.Proof.LibHostColumn

noncomputable section

namespace Cert.ReferenceIdeal.RefStages

open Idealize.ShloMosaic Idealize.ShloMosaic.ValueIdx Idealize.ShloMosaic.HostColumn
open Cert.ReferenceIdeal Cert.ReferenceIdeal.Facts₀ Cert.Spec Cert.Dense

variable [Facts]

/-- A scalar constant repeated to every entry of an array, read at an entry, is the constant's value. -/
theorem scalar_apply {t : Shape} (h : S_.BroadcastsInDim t (![] : Fin 0 → Fin t.rank)) (w : BitVec 32) (j : t.Idx) :
    broadcastInDim t ![] h (constant (F := Ideal) S_ .f32 w) j = Ideal.ofBits .f32 w := rfl

/-! ### The printed contraction records are "rows times columns" -/

theorem rc_dot_S524288x32_S32x128 : RowsCols dot_S524288x32_S32x128_S524288x128_1_0_0_1_n_n :=
  ⟨rfl, rfl, fun _ _ => rfl, fun _ _ => rfl, fun _ _ => rfl, fun _ _ => rfl⟩

theorem rc_dot_S32768x128_S128x256 : RowsCols dot_S32768x128_S128x256_S32768x256_1_0_0_1_n_n :=
  ⟨rfl, rfl, fun _ _ => rfl, fun _ _ => rfl, fun _ _ => rfl, fun _ _ => rfl⟩

theorem rc_dot_S524288x32_S32x256 : RowsCols dot_S524288x32_S32x256_S524288x256_1_0_0_1_n_n :=
  ⟨rfl, rfl, fun _ _ => rfl, fun _ _ => rfl, fun _ _ => rfl, fun _ _ => rfl⟩

theorem rc_dot_S32768x256_S256x256 : RowsCols dot_S32768x256_S256x256_S32768x256_1_0_0_1_n_n :=
  ⟨rfl, rfl, fun _ _ => rfl, fun _ _ => rfl, fun _ _ => rfl, fun _ _ => rfl⟩

/-! ### The edge messages -/

/-- First layer: the gathered rows plus the edge attributes' product with the edge weights, plus the bias repeated down
    the rows, then the maximum with the repeated zero — entry by entry, `max ((g + ea·We) + be) 0`. -/
theorem msg1_eq (g : FVec Ideal S524288x128 .f32) (ea : FVec Ideal S524288x32 .f32) (We : FVec Ideal S32x128 .f32)
    (be : FVec Ideal S128 .f32) :
    maximumf
      (addf (addf g (Host.dotGeneral dot_S524288x32_S32x128_S524288x128_1_0_0_1_n_n none ea We))
        (broadcastInDim S524288x128 ![0, 1] bcast_S1x128_S524288x128_0_1
          (broadcastInDim S1x128 ![1] bcast_S128_S1x128_1 be)))
      (broadcastInDim S524288x128 ![] bcast_S_S524288x128 (constant (F := Ideal) S_ .f32 0x00000000#32))
    = Spec.msg g ea We be := by
  funext i
  obtain ⟨p, q, rfl⟩ : ∃ (p : Fin 524288) (q : Fin 128), i = ix2 p q := ⟨i 0, i 1, eq_ix2 i⟩
  show max ((g (ix2 p q) + Host.dotGeneral dot_S524288x32_S32x128_S524288x128_1_0_0_1_n_n none ea We (ix2 p q))
      + broadcastInDim S524288x128 ![0, 1] bcast_S1x128_S524288x128_0_1
          (broadcastInDim S1x128 ![1] bcast_S128_S1x128_1 be) (ix2 p q))
      (Ideal.ofBits .f32 0x00000000#32) = _
  rw [dotGeneral_apply rc_dot_S524288x32_S32x128, row_apply]
  rfl

/-- Second layer: the same with 256 columns. -/
theorem msg2_eq (g : FVec Ideal S524288x256 .f32) (ea : FVec Ideal S524288x32 .f32) (We : FVec Ideal S32x256 .f32)
    (be : FVec Ideal S256 .f32) :
    maximumf
      (addf (addf g (Host.dotGeneral dot_S524288x32_S32x256_S524288x256_1_0_0_1_n_n none ea We))
        (broadcastInDim S524288x256 ![0, 1] bcast_S1x256_S524288x256_0_1
          (broadcastInDim S1x256 ![1] bcast_S256_S1x256_1 be)))
      (broadcastInDim S524288x256 ![] bcast_S_S524288x256 (constant (F := Ideal) S_ .f32 0x00000000#32))
    = Spec.msg g ea We be := by
  funext i
  obtain ⟨p, q, rfl⟩ : ∃ (p : Fin 524288) (q : Fin 256), i = ix2 p q := ⟨i 0, i 1, eq_ix2 i⟩
  show max ((g (ix2 p q) + Host.dotGeneral dot_S524288x32_S32x256_S524288x256_1_0_0_1_n_n none ea We (ix2 p q))
      + broadcastInDim S524288x256 ![0, 1] bcast_S1x256_S524288x256_0_1
          (broadcastInDim S1x256 ![1] bcast_S256_S1x256_1 be) (ix2 p q))
      (Ideal.ofBits .f32 0x00000000#32) = _
  rw [dotGeneral_apply rc_dot_S524288x32_S32x256, row_apply]
  rfl

/-! ### The linear layers -/

/-- First layer: the node features plus the aggregated messages, times the weights, plus the bias repeated down the
    rows — entry by entry, `(x + agg)·W + b`. -/
theorem lin1_eq (x agg : FVec Ideal S32768x128 .f32) (W : FVec Ideal S128x256 .f32) (b : FVec Ideal S256 .f32) :
    addf (Host.dotGeneral dot_S32768x128_S128x256_S32768x256_1_0_0_1_n_n none (addf x agg) W)
      (broadcastInDim S32768x256 ![0, 1] bcast_S1x256_S32768x256_0_1
        (broadcastInDim S1x256 ![1] bcast_S256_S1x256_1 b))
    = Spec.lin x agg W b := by
  funext i
  obtain ⟨p, q, rfl⟩ : ∃ (p : Fin 32768) (q : Fin 256), i = ix2 p q := ⟨i 0, i 1, eq_ix2 i⟩
  show Host.dotGeneral dot_S32768x128_S128x256_S32768x256_1_0_0_1_n_n none (addf x agg) W (ix2 p q)
      + broadcastInDim S32768x256 ![0, 1] bcast_S1x256_S32768x256_0_1
          (broadcastInDim S1x256 ![1] bcast_S256_S1x256_1 b) (ix2 p q) = _
  rw [dotGeneral_apply rc_dot_S32768x128_S128x256, row_apply]
  rfl

/-- Second layer: the same with 256 input columns. -/
theorem lin2_eq (h agg : FVec Ideal S32768x256 .f32) (W : FVec Ideal S256x256 .f32) (b : FVec Ideal S256 .f32) :
    addf (Host.dotGeneral dot_S32768x256_S256x256_S32768x256_1_0_0_1_n_n none (addf h agg) W)
      (broadcastInDim S32768x256 ![0, 1] bcast_S1x256_S32768x256_0_1
        (broadcastInDim S1x256 ![1] bcast_S256_S1x256_1 b))
    = Spec.lin h agg W b := by
  funext i
  obtain ⟨p, q, rfl⟩ : ∃ (p : Fin 32768) (q : Fin 256), i = ix2 p q := ⟨i 0, i 1, eq_ix2 i⟩
  show Host.dotGeneral dot_S32768x256_S256x256_S32768x256_1_0_0_1_n_n none (addf h agg) W (ix2 p q)
      + broadcastInDim S32768x256 ![0, 1] bcast_S1x256_S32768x256_0_1
          (broadcastInDim S1x256 ![1] bcast_S256_S1x256_1 b) (ix2 p q) = _
  rw [dotGeneral_apply rc_dot_S32768x256_S256x256, row_apply]
  rfl

end Cert.ReferenceIdeal.RefStages

end
-- ==== Proof.RefStagesB.lean ====
/-
  Stretches of the reference's host operations, as the pure terms the operations compose to, are the entry-by-entry
  functions of Spec.lean: the two batch normalisations with their activations, and the per-node perceptron.

  A normalisation stretch repeats four vectors down the rows (the mean, the scale, the reciprocal root of variance + ε,
  the shift) and combines them entrywise: (g·(pre − mean))·rsqrt(var + ε) + shift; the host's reciprocal root is, on the
  extended reals, the same function as everywhere else. The rectifier is the maximum with a repeated zero. The logistic
  function is spelt 1/(1 + exp(−x)) by the reference, with the constant 1 a repeated f32 word whose value is 1; that is
  the definition of the logistic function on the extended reals. The leaky rectifier is a choice, by the ordered
  comparison with a repeated zero, between x and slope·x. The words of zero, ε and the slope are never evaluated.
-/
import proofs.«181940_j74397423501381_1_alg».proof.ReferenceIdeal
import proofs.«181940_j74397423501381_1_alg».proof.Proof.Spec
import proofs.«181940_j74397423501381_1_alg».proof.Proof.LibRowsCols
import proofs.«181940_j74397423501381_1_alg».proof.Proof.LibHostColumn
import proofs.«181940_j74397423501381_1_alg».proof.Proof.RefStagesA

noncomputable section

namespace Cert.ReferenceIdeal.RefStages

open Idealize.ShloMosaic Idealize.ShloMosaic.ValueIdx Idealize.ShloMosaic.HostColumn
open Cert.ReferenceIdeal Cert.ReferenceIdeal.Facts₀ Cert.Spec Cert.Dense

variable [Facts]

/-- The f32 word 0x3F800000 is the number 1: sign 0, exponent field 127 (the bias), fraction 0. -/
theorem ofBits_one_f32 : Ideal.ofBits .f32 0x3F800000#32 = 1 := by
  simp [Ideal.ofBits, Ideal.ieee]
  rw [← EReal.coe_mul, ← EReal.coe_one, EReal.coe_eq_coe_iff]
  norm_num

/-- A vector of 256 entries repeated down 32768 rows by the host's two broadcasts. -/
local notation "rows256 " v:max =>
  broadcastInDim S32768x256 ![0, 1] bcast_S1x256_S32768x256_0_1 (broadcastInDim S1x256 ![1] bcast_S256_S1x256_1 v)

/-- The zero word repeated to a [32768, 256] array. -/
local notation "zeros256" =>
  broadcastInDim S32768x256 ![] bcast_S_S32768x256 (constant (F := Ideal) S_ FTy.f32 0x00000000#32)

/-- The word of 1 repeated to a [32768, 256] array. -/
local notation "ones256" =>
  broadcastInDim S32768x256 ![] bcast_S_S32768x256 (constant (F := Ideal) S_ FTy.f32 0x3F800000#32)

/-- The slope word repeated to a [32768, 256] array. -/
local notation "slopes256" =>
  broadcastInDim S32768x256 ![] bcast_S_S32768x256 (constant (F := Ideal) S_ FTy.f32 0x3C23D70A#32)

/-- The word of 1 repeated to a [32768, 1] array. -/
local notation "ones1" =>
  broadcastInDim S32768x1 ![] bcast_S_S32768x1 (constant (F := Ideal) S_ FTy.f32 0x3F800000#32)

/-! ### The normalisation -/

/-- The scale repeated down the rows times (pre minus the repeated mean), times the repeated reciprocal root of
    (variance + the repeated ε), plus the repeated shift — entry by entry, `(g·(pre − mean))·rsqrt(var + ε) + shift`. -/
theorem norm_eq (pre : FVec Ideal S32768x256 .f32) (mean var g bt : FVec Ideal S256 .f32) :
    addf
      (mulf (mulf (rows256 g) (subf pre (rows256 mean)))
        (rows256 (Host.rsqrt (addf var
          (broadcastInDim S256 ![] bcast_S_S256 (constant (F := Ideal) S_ .f32 0x3727C5AC#32))))))
      (rows256 bt)
    = Spec.norm pre mean var g bt := by
  funext i
  obtain ⟨p, q, rfl⟩ : ∃ (p : Fin 32768) (q : Fin 256), i = ix2 p q := ⟨i 0, i 1, eq_ix2 i⟩
  simp only [addf_apply, mulf_apply, subf_apply]
  rw [row_apply, row_apply, row_apply, row_apply]
  rfl

/-- First layer: the normalisation, then the rectifier twice. -/
theorem bnrr_eq (pre : FVec Ideal S32768x256 .f32) (mean var g bt : FVec Ideal S256 .f32) :
    maximumf
      (maximumf
        (addf
          (mulf (mulf (rows256 g) (subf pre (rows256 mean)))
            (rows256 (Host.rsqrt (addf var
              (broadcastInDim S256 ![] bcast_S_S256 (constant (F := Ideal) S_ .f32 0x3727C5AC#32))))))
          (rows256 bt))
        zeros256)
      zeros256
    = Spec.bnrr pre mean var g bt := by
  rw [norm_eq]
  rfl

/-- Second layer: the normalisation, the rectifier, then 1/(1 + exp(−x)), which is the logistic function. -/
theorem bnrs_eq (pre : FVec Ideal S32768x256 .f32) (mean var g bt : FVec Ideal S256 .f32) :
    Host.divf ones256
      (addf ones256
        (Host.exp (Host.negf
          (maximumf
            (addf
              (mulf (mulf (rows256 g) (subf pre (rows256 mean)))
                (rows256 (Host.rsqrt (addf var
                  (broadcastInDim S256 ![] bcast_S_S256 (constant (F := Ideal) S_ .f32 0x3727C5AC#32))))))
              (rows256 bt))
            zeros256))))
    = Spec.bnrs pre mean var g bt := by
  rw [norm_eq]
  funext i
  show Ideal.div (Ideal.ofBits .f32 0x3F800000#32)
      (Ideal.ofBits .f32 0x3F800000#32
        + Ideal.exp (-(max (Spec.norm pre mean var g bt i) (Ideal.ofBits .f32 0x00000000#32)))) = _
  rw [ofBits_one_f32]
  rfl

/-! ### The perceptron -/

theorem rc_dot_S32768x256_S256x1 : RowsCols dot_S32768x256_S256x1_S32768x1_1_0_0_1_n_n :=
  ⟨rfl, rfl, fun _ _ => rfl, fun _ _ => rfl, fun _ _ => rfl, fun _ _ => rfl⟩

/-- A dense layer of 256 columns: the product plus the bias repeated down the rows. -/
theorem dense256_eq (h : FVec Ideal S32768x256 .f32) (W : FVec Ideal S256x256 .f32) (b : FVec Ideal S256 .f32) :
    addf (Host.dotGeneral dot_S32768x256_S256x256_S32768x256_1_0_0_1_n_n none h W) (rows256 b)
    = Spec.dense h W b := by
  funext i
  obtain ⟨p, q, rfl⟩ : ∃ (p : Fin 32768) (q : Fin 256), i = ix2 p q := ⟨i 0, i 1, eq_ix2 i⟩
  simp only [addf_apply]
  rw [dotGeneral_apply rc_dot_S32768x256_S256x256, row_apply]
  rfl

/-- A dense layer of one column. -/
theorem dense1_eq (h : FVec Ideal S32768x256 .f32) (W : FVec Ideal S256x1 .f32) (b : FVec Ideal S1 .f32) :
    addf (Host.dotGeneral dot_S32768x256_S256x1_S32768x1_1_0_0_1_n_n none h W)
      (broadcastInDim S32768x1 ![0, 1] bcast_S1x1_S32768x1_0_1 (broadcastInDim S1x1 ![1] bcast_S1_S1x1_1 b))
    = Spec.dense h W b := by
  funext i
  obtain ⟨p, q, rfl⟩ : ∃ (p : Fin 32768) (q : Fin 1), i = ix2 p q := ⟨i 0, i 1, eq_ix2 i⟩
  simp only [addf_apply]
  rw [dotGeneral_apply rc_dot_S32768x256_S256x1, row_apply]
  rfl

/-- The leaky rectifier: the choice, by the ordered comparison with the repeated zero, between x and the repeated
    slope times x. -/
theorem leaky_eq (x : FVec Ideal S32768x256 .f32) :
    select (cmpf .oge x zeros256) x (mulf slopes256 x) = Spec.leaky x := rfl

/-- 1/(1 + exp(−x)) with the constant 1 the repeated f32 word of 1 is the logistic function, entry by entry. -/
theorem logistic1_eq (x : FVec Ideal S32768x1 .f32) :
    Host.divf ones1 (addf ones1 (Host.exp (Host.negf x))) = fun i => Ideal.logistic (x i) := by
  funext i
  show Ideal.div (Ideal.ofBits .f32 0x3F800000#32) (Ideal.ofBits .f32 0x3F800000#32 + Ideal.exp (-(x i))) = _
  rw [ofBits_one_f32]
  rfl

/-- The perceptron: two dense layers each followed by the leaky rectifier, a dense layer of one column, then
    1/(1 + exp(−x)). -/
theorem mlp_eq (h : FVec Ideal S32768x256 .f32) (W1 : FVec Ideal S256x256 .f32) (b1 : FVec Ideal S256 .f32)
    (W2 : FVec Ideal S256x256 .f32) (b2 : FVec Ideal S256 .f32) (W3 : FVec Ideal S256x1 .f32) (b3 : FVec Ideal S1 .f32) :
    Host.divf ones1
      (addf ones1
        (Host.exp (Host.negf
          (addf
            (Host.dotGeneral dot_S32768x256_S256x1_S32768x1_1_0_0_1_n_n none
              (select
                (cmpf .oge
                  (addf
                    (Host.dotGeneral dot_S32768x256_S256x256_S32768x256_1_0_0_1_n_n none
                      (select
                        (cmpf .oge
                          (addf (Host.dotGeneral dot_S32768x256_S256x256_S32768x256_1_0_0_1_n_n none h W1) (rows256 b1))
                          zeros256)
                        (addf (Host.dotGeneral dot_S32768x256_S256x256_S32768x256_1_0_0_1_n_n none h W1) (rows256 b1))
                        (mulf slopes256
                          (addf (Host.dotGeneral dot_S32768x256_S256x256_S32768x256_1_0_0_1_n_n none h W1) (rows256 b1))))
                      W2)
                    (rows256 b2))
                  zeros256)
                (addf
                  (Host.dotGeneral dot_S32768x256_S256x256_S32768x256_1_0_0_1_n_n none
                    (select
                      (cmpf .oge
                        (addf (Host.dotGeneral dot_S32768x256_S256x256_S32768x256_1_0_0_1_n_n none h W1) (rows256 b1))
                        zeros256)
                      (addf (Host.dotGeneral dot_S32768x256_S256x256_S32768x256_1_0_0_1_n_n none h W1) (rows256 b1))
                      (mulf slopes256
                        (addf (Host.dotGeneral dot_S32768x256_S256x256_S32768x256_1_0_0_1_n_n none h W1) (rows256 b1))))
                    W2)
                  (rows256 b2))
                (mulf slopes256
                  (addf
                    (Host.dotGeneral dot_S32768x256_S256x256_S32768x256_1_0_0_1_n_n none
                      (select
                        (cmpf .oge
                          (addf (Host.dotGeneral dot_S32768x256_S256x256_S32768x256_1_0_0_1_n_n none h W1) (rows256 b1))
                          zeros256)
                        (addf (Host.dotGeneral dot_S32768x256_S256x256_S32768x256_1_0_0_1_n_n none h W1) (rows256 b1))
                        (mulf slopes256
                          (addf (Host.dotGeneral dot_S32768x256_S256x256_S32768x256_1_0_0_1_n_n none h W1) (rows256 b1))))
                      W2)
                    (rows256 b2))))
              W3)
            (broadcastInDim S32768x1 ![0, 1] bcast_S1x1_S32768x1_0_1 (broadcastInDim S1x1 ![1] bcast_S1_S1x1_1 b3))))))
    = Spec.mlp h W1 b1 W2 b2 W3 b3 := by
  rw [dense256_eq, leaky_eq, dense256_eq, leaky_eq, dense1_eq, logistic1_eq]
  rfl

/-- The slope word, passed through the identity conversion, repeated to a [32768, 256] array. -/
local notation "slopesId256" =>
  broadcastInDim S32768x256 ![] bcast_S_S32768x256 (id (constant (F := Ideal) S_ FTy.f32 0x3C23D70A#32))

/-- The same with the slope constant passed through the identity conversion (f32 to f32) the reference applies to it
    before repeating it: the identity changes nothing. -/
theorem mlp_eq_id (h : FVec Ideal S32768x256 .f32) (W1 : FVec Ideal S256x256 .f32) (b1 : FVec Ideal S256 .f32)
    (W2 : FVec Ideal S256x256 .f32) (b2 : FVec Ideal S256 .f32) (W3 : FVec Ideal S256x1 .f32) (b3 : FVec Ideal S1 .f32) :
    Host.divf ones1
      (addf ones1
        (Host.exp (Host.negf
          (addf
            (Host.dotGeneral dot_S32768x256_S256x1_S32768x1_1_0_0_1_n_n none
              (select
                (cmpf .oge
                  (addf
                    (Host.dotGeneral dot_S32768x256_S256x256_S32768x256_1_0_0_1_n_n none
                      (select
                        (cmpf .oge
                          (addf (Host.dotGeneral dot_S32768x256_S256x256_S32768x256_1_0_0_1_n_n none h W1) (rows256 b1))
                          zeros256)
                        (addf (Host.dotGeneral dot_S32768x256_S256x256_S32768x256_1_0_0_1_n_n none h W1) (rows256 b1))
                        (mulf slopesId256
                          (addf (Host.dotGeneral dot_S32768x256_S256x256_S32768x256_1_0_0_1_n_n none h W1) (rows256 b1))))
                      W2)
                    (rows256 b2))
                  zeros256)
                (addf
                  (Host.dotGeneral dot_S32768x256_S256x256_S32768x256_1_0_0_1_n_n none
                    (select
                      (cmpf .oge
                        (addf (Host.dotGeneral dot_S32768x256_S256x256_S32768x256_1_0_0_1_n_n none h W1) (rows256 b1))
                        zeros256)
                      (addf (Host.dotGeneral dot_S32768x256_S256x256_S32768x256_1_0_0_1_n_n none h W1) (rows256 b1))
                      (mulf slopesId256
                        (addf (Host.dotGeneral dot_S32768x256_S256x256_S32768x256_1_0_0_1_n_n none h W1) (rows256 b1))))
                    W2)
                  (rows256 b2))
                (mulf slopesId256
                  (addf
                    (Host.dotGeneral dot_S32768x256_S256x256_S32768x256_1_0_0_1_n_n none
                      (select
                        (cmpf .oge
                          (addf (Host.dotGeneral dot_S32768x256_S256x256_S32768x256_1_0_0_1_n_n none h W1) (rows256 b1))
                          zeros256)
                        (addf (Host.dotGeneral dot_S32768x256_S256x256_S32768x256_1_0_0_1_n_n none h W1) (rows256 b1))
                        (mulf slopesId256
                          (addf (Host.dotGeneral dot_S32768x256_S256x256_S32768x256_1_0_0_1_n_n none h W1) (rows256 b1))))
                      W2)
                    (rows256 b2))))
              W3)
            (broadcastInDim S32768x1 ![0, 1] bcast_S1x1_S32768x1_0_1 (broadcastInDim S1x1 ![1] bcast_S1_S1x1_1 b3))))))
    = Spec.mlp h W1 b1 W2 b2 W3 b3 :=
  mlp_eq h W1 b1 W2 b2 W3 b3

end Cert.ReferenceIdeal.RefStages

end
-- ==== Proof.LibRefTransport.lean ====
/-
  Reading or writing a buffer through a typed reference whose value type is the buffer's own type is the identity.

  The operations of an outlined function (`func.call`) reach their operands through typed references, a transport along the
  equation "the buffer's type is the value's type". Where a value passes between such an operation and a plain one, one
  transport is left over after the written-then-read pairs cancel. For a literal buffer the two types are the same type, so
  that transport is the identity: `ofBuf_self`, `toBuf_self`. General in the reference signature and the element values.
-/
import Idealize.ShloMosaic.Lib.StableHlo.Run

namespace Cert.HostLine

open Idealize.ShloMosaic Idealize.ShloMosaic.StableHlo

variable {sig : RefSig} {Val : EltTy → Type}

/-- Reading a buffer's contents through a typed reference of the buffer's own type is the identity. -/
theorem ofBuf_self (r : Ref sig .tc) (h1 : r.ty = r.ty) (h2 : r.space ≠ .host) (h3 : r.isScoped = false)
    (v : r.ty.Contents Val) : (TRef.of (T := r.ty) r h1 h2 h3).ofBuf v = v := rfl

/-- Writing a value into a buffer through a typed reference of the buffer's own type is the identity. -/
theorem toBuf_self (r : Ref sig .tc) (h1 : r.ty = r.ty) (h2 : r.space ≠ .host) (h3 : r.isScoped = false)
    (v : r.ty.Contents Val) : (TRef.of (T := r.ty) r h1 h2 h3).toBuf v = v := rfl

end Cert.HostLine
-- ==== Proof.RefFold.lean ====
/-
  The reference's straight line of host operations, read a stretch at a time.

  The line is fourteen consecutive stretches. What the whole line leaves from given contents is what the last stretch
  leaves from what the stretches before it leave: `R1 V` … `R14 V` name the contents after each stretch, from ARBITRARY
  starting contents `V`. Seven of the stretches compute an edge message, a linear layer, a normalisation with its
  activations, or the per-node perceptron; for each, the buffer it ends in holds the entry-by-entry function of Spec.lean
  of the contents of the buffers it starts from. An outlined call's operations reach their operands through typed
  references of the buffers' own types, so the transports they leave are the identity.
-/
import proofs.«181940_j74397423501381_1_alg».proof.Proof.RefRun
import proofs.«181940_j74397423501381_1_alg».proof.Proof.RefStagesB
import proofs.«181940_j74397423501381_1_alg».proof.Proof.LibHostStretches
import proofs.«181940_j74397423501381_1_alg».proof.Proof.LibRefTransport

noncomputable section

namespace Cert.ReferenceIdeal.RefFold

open Cert.ReferenceIdeal Cert.ReferenceIdeal.RefRun Idealize.ShloMosaic Idealize.ShloMosaic.StableHlo

variable (V : Valuation τ sig (Elt Ideal))

/-! ### The contents after each stretch -/

/-- The contents after the first stretch. -/
abbrev R1 : Valuation τ sig (Elt Ideal) := after (seg0 (F := Ideal)) V
/-- The contents after stretch 2: stretch 2 run from the contents after stretch 1. -/
abbrev R2 : Valuation τ sig (Elt Ideal) := after (seg1 (F := Ideal)) (R1 V)
/-- The contents after stretch 3: stretch 3 run from the contents after stretch 2. -/
abbrev R3 : Valuation τ sig (Elt Ideal) := after (seg2 (F := Ideal)) (R2 V)
/-- The contents after stretch 4: stretch 4 run from the contents after stretch 3. -/
abbrev R4 : Valuation τ sig (Elt Ideal) := after (seg3 (F := Ideal)) (R3 V)
/-- The contents after stretch 5: stretch 5 run from the contents after stretch 4. -/
abbrev R5 : Valuation τ sig (Elt Ideal) := after (seg4 (F := Ideal)) (R4 V)
/-- The contents after stretch 6: stretch 6 run from the contents after stretch 5. -/
abbrev R6 : Valuation τ sig (Elt Ideal) := after (seg5 (F := Ideal)) (R5 V)
/-- The contents after stretch 7: stretch 7 run from the contents after stretch 6. -/
abbrev R7 : Valuation τ sig (Elt Ideal) := after (seg6 (F := Ideal)) (R6 V)
/-- The contents after stretch 8: stretch 8 run from the contents after stretch 7. -/
abbrev R8 : Valuation τ sig (Elt Ideal) := after (seg7 (F := Ideal)) (R7 V)
/-- The contents after stretch 9: stretch 9 run from the contents after stretch 8. -/
abbrev R9 : Valuation τ sig (Elt Ideal) := after (seg8 (F := Ideal)) (R8 V)
/-- The contents after stretch 10: stretch 10 run from the contents after stretch 9. -/
abbrev R10 : Valuation τ sig (Elt Ideal) := after (seg9 (F := Ideal)) (R9 V)
/-- The contents after stretch 11: stretch 11 run from the contents after stretch 10. -/
abbrev R11 : Valuation τ sig (Elt Ideal) := after (seg10 (F := Ideal)) (R10 V)
/-- The contents after stretch 12: stretch 12 run from the contents after stretch 11. -/
abbrev R12 : Valuation τ sig (Elt Ideal) := after (seg11 (F := Ideal)) (R11 V)
/-- The contents after stretch 13: stretch 13 run from the contents after stretch 12. -/
abbrev R13 : Valuation τ sig (Elt Ideal) := after (seg12 (F := Ideal)) (R12 V)
/-- The contents after stretch 14: stretch 14 run from the contents after stretch 13. -/
abbrev R14 : Valuation τ sig (Elt Ideal) := after (seg13 (F := Ideal)) (R13 V)

/-- The whole line run from `V` leaves what the fourteen stretches, run one after the other, leave. -/
theorem ops_fold : after (ops (F := Ideal)) V = R14 V := by
  unfold ops
  repeat rw [Cert.HostLine.after_append]

/-! ### What the computing stretches leave -/

/-- Stretch 2 (the first edge message): its result buffer holds the function of the contents it starts from. -/
theorem seg1_spec : after (seg1 (F := Ideal)) V (Proc.devRef .tc main_v16)
    = Spec.msg (V (Proc.devRef .tc main_v10)) (V (Proc.devRef .tc main_arg2)) (V (Proc.devRef .tc main_arg4)) (V (Proc.devRef .tc main_arg5)) := by
  dsimp only [seg1]
  after_results
  exact RefStages.msg1_eq _ _ _ _

/-- Stretch 4 (the first linear layer): its result buffer holds the function of the contents it starts from. -/
theorem seg3_spec : after (seg3 (F := Ideal)) V (Proc.devRef .tc main_v24)
    = Spec.lin (V (Proc.devRef .tc main_arg0)) (V (Proc.devRef .tc main_v19)) (V (Proc.devRef .tc main_arg6)) (V (Proc.devRef .tc main_arg7)) := by
  dsimp only [seg3]
  after_results
  exact RefStages.lin1_eq _ _ _ _

set_option maxHeartbeats 2000000 in  -- a stretch of some thirty operations read in one pass
/-- Stretch 6 (the first normalisation and the rectifier twice): its result buffer holds the function of the contents it starts from. -/
theorem seg5_spec : after (seg5 (F := Ideal)) V (Proc.devRef .tc main_v45)
    = Spec.bnrr (V (Proc.devRef .tc main_v24)) (V (Proc.devRef .tc main_v27)) (V (Proc.devRef .tc main_v28)) (V (Proc.devRef .tc main_arg8)) (V (Proc.devRef .tc main_arg9)) := by
  dsimp only [seg5]
  after_results_simp
  exact RefStages.bnrr_eq _ _ _ _ _

/-- Stretch 8 (the second edge message): its result buffer holds the function of the contents it starts from. -/
theorem seg7_spec : after (seg7 (F := Ideal)) V (Proc.devRef .tc main_v58)
    = Spec.msg (V (Proc.devRef .tc main_v52)) (V (Proc.devRef .tc main_arg2)) (V (Proc.devRef .tc main_arg10)) (V (Proc.devRef .tc main_arg11)) := by
  dsimp only [seg7]
  after_results
  exact RefStages.msg2_eq _ _ _ _

/-- Stretch 10 (the second linear layer): its result buffer holds the function of the contents it starts from. -/
theorem seg9_spec : after (seg9 (F := Ideal)) V (Proc.devRef .tc main_v66)
    = Spec.lin (V (Proc.devRef .tc main_v45)) (V (Proc.devRef .tc main_v61)) (V (Proc.devRef .tc main_arg12)) (V (Proc.devRef .tc main_arg13)) := by
  dsimp only [seg9]
  after_results
  exact RefStages.lin2_eq _ _ _ _

set_option maxHeartbeats 2000000 in  -- a stretch of some thirty operations read in one pass
/-- Stretch 12 (the second normalisation, the rectifier and the logistic function): its result buffer holds the function of the contents it starts from. -/
theorem seg11_spec : after (seg11 (F := Ideal)) V (Proc.devRef .tc main_v92)
    = Spec.bnrs (V (Proc.devRef .tc main_v66)) (V (Proc.devRef .tc main_v69)) (V (Proc.devRef .tc main_v70)) (V (Proc.devRef .tc main_arg14)) (V (Proc.devRef .tc main_arg15)) := by
  dsimp only [seg11]
  after_results_simp
  exact RefStages.bnrs_eq _ _ _ _ _

set_option maxHeartbeats 2000000 in  -- a stretch of some thirty operations read in one pass
/-- Stretch 13 (the per-node perceptron): its result buffer holds the function of the contents it starts from. -/
theorem seg12_spec : after (seg12 (F := Ideal)) V (Proc.devRef .tc main_v112)
    = Spec.mlp (V (Proc.devRef .tc main_v92)) (V (Proc.devRef .tc main_arg16)) (V (Proc.devRef .tc main_arg17)) (V (Proc.devRef .tc main_arg18)) (V (Proc.devRef .tc main_arg19)) (V (Proc.devRef .tc main_arg20)) (V (Proc.devRef .tc main_arg21)) := by
  dsimp only [seg12]
  after_results_simp
  exact RefStages.mlp_eq _ _ _ _ _ _ _

end Cert.ReferenceIdeal.RefFold

end
-- ==== Proof.RefCarry.lean ====
/-
  Buffers a stretch of the reference's host operations does not write keep their contents.

  For each of the fourteen stretches, the references its operations write are listed (`segK_W`, one entry per operation,
  in order), and every operation's written set is inside the list (`segK_writes`). A reference outside the list holds
  after the stretch what it held before (`R(K+1)_of`). Chained over consecutive stretches this carries a program
  argument from the start to the stretch that reads it, and an intermediate value from the stretch that computes it to
  a later stretch that reads it: which reference is which is decided over the literal references.
-/
import proofs.«181940_j74397423501381_1_alg».proof.Proof.RefFold

noncomputable section

namespace Cert.ReferenceIdeal.RefFold

open Cert.ReferenceIdeal Cert.ReferenceIdeal.RefRun Idealize.ShloMosaic Idealize.ShloMosaic.StableHlo

variable (V : Valuation τ sig (Elt Ideal))

/-! ### What each stretch writes -/

/-- The references stretch 1's operations write, one per operation, in order. -/
abbrev seg0_W : List (Ref sig .tc) :=
  [ main_v0, main_v1, main_v2, main_v3, main_c, main_v4, main_v5, main_c_0, main_v6, main_v7, main_v8, main_v9, main_v10 ]
theorem seg0_writes : (seg0 (F := Ideal)).Forall fun op => op.writes ⊆ (seg0_W.map (Proc.devRef (τ := τ) .tc)).toFinset := by
  simp only [seg0, List.Forall]
  repeat' apply And.intro
  all_goals
    simp only [nullary_writes, unary_writes, binary_writes, ternary_writes, quaternary_writes, reshape_writes,
      Finset.singleton_subset_iff, List.mem_toFinset]
    exact List.mem_map_of_mem (by decide)

/-- The references stretch 2's operations write, one per operation, in order. -/
abbrev seg1_W : List (Ref sig .tc) :=
  [ main_v11, main_v12, main_v13, main_v14, main_v15, main_call0_cst, main_call0_v0, main_v16 ]
theorem seg1_writes : (seg1 (F := Ideal)).Forall fun op => op.writes ⊆ (seg1_W.map (Proc.devRef (τ := τ) .tc)).toFinset := by
  simp only [seg1, List.Forall]
  repeat' apply And.intro
  all_goals
    simp only [nullary_writes, unary_writes, binary_writes, ternary_writes, quaternary_writes, reshape_writes,
      Finset.singleton_subset_iff, List.mem_toFinset]
    exact List.mem_map_of_mem (by decide)

/-- The references stretch 3's operations write, one per operation, in order. -/
abbrev seg2_W : List (Ref sig .tc) :=
  [ main_cst, main_v17, main_v18, main_v19 ]
theorem seg2_writes : (seg2 (F := Ideal)).Forall fun op => op.writes ⊆ (seg2_W.map (Proc.devRef (τ := τ) .tc)).toFinset := by
  simp only [seg2, List.Forall]
  repeat' apply And.intro
  all_goals
    simp only [nullary_writes, unary_writes, binary_writes, ternary_writes, quaternary_writes, reshape_writes,
      Finset.singleton_subset_iff, List.mem_toFinset]
    exact List.mem_map_of_mem (by decide)

/-- The references stretch 4's operations write, one per operation, in order. -/
abbrev seg3_W : List (Ref sig .tc) :=
  [ main_v20, main_v21, main_v22, main_v23, main_v24 ]
theorem seg3_writes : (seg3 (F := Ideal)).Forall fun op => op.writes ⊆ (seg3_W.map (Proc.devRef (τ := τ) .tc)).toFinset := by
  simp only [seg3, List.Forall]
  repeat' apply And.intro
  all_goals
    simp only [nullary_writes, unary_writes, binary_writes, ternary_writes, quaternary_writes, reshape_writes,
      Finset.singleton_subset_iff, List.mem_toFinset]
    exact List.mem_map_of_mem (by decide)

/-- The references stretch 5's operations write, one per operation, in order. -/
abbrev seg4_W : List (Ref sig .tc) :=
  [ main_cst_1, main_v25, main_cst_2, main_v26, main_v27, main_c_3, main_call1_cst, main_call1_v0, main_call1_v1, main_call1_cst_0, main_call1_v2,
    main_call1_v3, main_call1_v4, main_call1_v5, main_call1_v6, main_call1_v7, main_call1_cst_1, main_call1_v8, main_call1_cst_2, main_call1_v9,
    main_call1_v10, main_call1_v11, main_call1_cst_3, main_call1_v12, main_call1_cst_4, main_call1_call0_v0, main_call1_call0_v1, main_v28 ]
theorem seg4_writes : (seg4 (F := Ideal)).Forall fun op => op.writes ⊆ (seg4_W.map (Proc.devRef (τ := τ) .tc)).toFinset := by
  simp only [seg4, List.Forall]
  repeat' apply And.intro
  all_goals
    simp only [nullary_writes, unary_writes, binary_writes, ternary_writes, quaternary_writes, reshape_writes,
      Finset.singleton_subset_iff, List.mem_toFinset]
    exact List.mem_map_of_mem (by decide)

/-- The references stretch 6's operations write, one per operation, in order. -/
abbrev seg5_W : List (Ref sig .tc) :=
  [ main_v29, main_v30, main_v31, main_v32, main_v33, main_v34, main_cst_4, main_v35, main_v36, main_v37, main_v38, main_v39, main_v40, main_v41, main_v42,
    main_v43, main_call2_cst, main_call2_v0, main_v44, main_call3_cst, main_call3_v0, main_v45 ]
theorem seg5_writes : (seg5 (F := Ideal)).Forall fun op => op.writes ⊆ (seg5_W.map (Proc.devRef (τ := τ) .tc)).toFinset := by
  simp only [seg5, List.Forall]
  repeat' apply And.intro
  all_goals
    simp only [nullary_writes, unary_writes, binary_writes, ternary_writes, quaternary_writes, reshape_writes,
      Finset.singleton_subset_iff, List.mem_toFinset]
    exact List.mem_map_of_mem (by decide)

/-- The references stretch 7's operations write, one per operation, in order. -/
abbrev seg6_W : List (Ref sig .tc) :=
  [ main_c_5, main_v46, main_v47, main_c_6, main_v48, main_v49, main_v50, main_v51, main_v52 ]
theorem seg6_writes : (seg6 (F := Ideal)).Forall fun op => op.writes ⊆ (seg6_W.map (Proc.devRef (τ := τ) .tc)).toFinset := by
  simp only [seg6, List.Forall]
  repeat' apply And.intro
  all_goals
    simp only [nullary_writes, unary_writes, binary_writes, ternary_writes, quaternary_writes, reshape_writes,
      Finset.singleton_subset_iff, List.mem_toFinset]
    exact List.mem_map_of_mem (by decide)

/-- The references stretch 8's operations write, one per operation, in order. -/
abbrev seg7_W : List (Ref sig .tc) :=
  [ main_v53, main_v54, main_v55, main_v56, main_v57, main_call4_cst, main_call4_v0, main_v58 ]
theorem seg7_writes : (seg7 (F := Ideal)).Forall fun op => op.writes ⊆ (seg7_W.map (Proc.devRef (τ := τ) .tc)).toFinset := by
  simp only [seg7, List.Forall]
  repeat' apply And.intro
  all_goals
    simp only [nullary_writes, unary_writes, binary_writes, ternary_writes, quaternary_writes, reshape_writes,
      Finset.singleton_subset_iff, List.mem_toFinset]
    exact List.mem_map_of_mem (by decide)

/-- The references stretch 9's operations write, one per operation, in order. -/
abbrev seg8_W : List (Ref sig .tc) :=
  [ main_cst_7, main_v59, main_v60, main_v61 ]
theorem seg8_writes : (seg8 (F := Ideal)).Forall fun op => op.writes ⊆ (seg8_W.map (Proc.devRef (τ := τ) .tc)).toFinset := by
  simp only [seg8, List.Forall]
  repeat' apply And.intro
  all_goals
    simp only [nullary_writes, unary_writes, binary_writes, ternary_writes, quaternary_writes, reshape_writes,
      Finset.singleton_subset_iff, List.mem_toFinset]
    exact List.mem_map_of_mem (by decide)

/-- The references stretch 10's operations write, one per operation, in order. -/
abbrev seg9_W : List (Ref sig .tc) :=
  [ main_v62, main_v63, main_v64, main_v65, main_v66 ]
theorem seg9_writes : (seg9 (F := Ideal)).Forall fun op => op.writes ⊆ (seg9_W.map (Proc.devRef (τ := τ) .tc)).toFinset := by
  simp only [seg9, List.Forall]
  repeat' apply And.intro
  all_goals
    simp only [nullary_writes, unary_writes, binary_writes, ternary_writes, quaternary_writes, reshape_writes,
      Finset.singleton_subset_iff, List.mem_toFinset]
    exact List.mem_map_of_mem (by decide)

/-- The references stretch 11's operations write, one per operation, in order. -/
abbrev seg10_W : List (Ref sig .tc) :=
  [ main_cst_8, main_v67, main_cst_9, main_v68, main_v69, main_c_10, main_call5_cst, main_call5_v0, main_call5_v1, main_call5_cst_0, main_call5_v2,
    main_call5_v3, main_call5_v4, main_call5_v5, main_call5_v6, main_call5_v7, main_call5_cst_1, main_call5_v8, main_call5_cst_2, main_call5_v9,
    main_call5_v10, main_call5_v11, main_call5_cst_3, main_call5_v12, main_call5_cst_4, main_call5_call0_v0, main_call5_call0_v1, main_v70 ]
theorem seg10_writes : (seg10 (F := Ideal)).Forall fun op => op.writes ⊆ (seg10_W.map (Proc.devRef (τ := τ) .tc)).toFinset := by
  simp only [seg10, List.Forall]
  repeat' apply And.intro
  all_goals
    simp only [nullary_writes, unary_writes, binary_writes, ternary_writes, quaternary_writes, reshape_writes,
      Finset.singleton_subset_iff, List.mem_toFinset]
    exact List.mem_map_of_mem (by decide)

/-- The references stretch 12's operations write, one per operation, in order. -/
abbrev seg11_W : List (Ref sig .tc) :=
  [ main_v71, main_v72, main_v73, main_v74, main_v75, main_v76, main_cst_11, main_v77, main_v78, main_v79, main_v80, main_v81, main_v82, main_v83,
    main_v84, main_v85, main_call6_cst, main_call6_v0, main_v86, main_v87, main_v88, main_cst_12, main_v89, main_v90, main_cst_13, main_v91, main_v92 ]
theorem seg11_writes : (seg11 (F := Ideal)).Forall fun op => op.writes ⊆ (seg11_W.map (Proc.devRef (τ := τ) .tc)).toFinset := by
  simp only [seg11, List.Forall]
  repeat' apply And.intro
  all_goals
    simp only [nullary_writes, unary_writes, binary_writes, ternary_writes, quaternary_writes, reshape_writes,
      Finset.singleton_subset_iff, List.mem_toFinset]
    exact List.mem_map_of_mem (by decide)

/-- The references stretch 13's operations write, one per operation, in order. -/
abbrev seg12_W : List (Ref sig .tc) :=
  [ main_v93, main_v94, main_v95, main_v96, main_cst_14, main_call7_cst, main_call7_v0, main_call7_v1, main_call7_v2, main_call7_v3, main_call7_v4,
    main_v97, main_v98, main_v99, main_v100, main_v101, main_cst_15, main_call8_cst, main_call8_v0, main_call8_v1, main_call8_v2, main_call8_v3,
    main_call8_v4, main_v102, main_v103, main_v104, main_v105, main_v106, main_v107, main_v108, main_cst_16, main_v109, main_v110, main_cst_17, main_v111,
    main_v112 ]
theorem seg12_writes : (seg12 (F := Ideal)).Forall fun op => op.writes ⊆ (seg12_W.map (Proc.devRef (τ := τ) .tc)).toFinset := by
  simp only [seg12, List.Forall]
  repeat' apply And.intro
  all_goals
    simp only [nullary_writes, unary_writes, binary_writes, ternary_writes, quaternary_writes, reshape_writes,
      Finset.singleton_subset_iff, List.mem_toFinset]
    exact List.mem_map_of_mem (by decide)

/-- The references stretch 14's operations write, one per operation, in order. -/
abbrev seg13_W : List (Ref sig .tc) :=
  [ main_v113, main_v114, main_cst_18, main_v115, main_cst_19, main_v116, main_v117, main_v118, main_v119, main_v120, main_v121, main_cst_20, main_v122,
    main_cst_21, main_v123, main_v124, main_c_22, main_call9_cst, main_call9_v0, main_call9_v1, main_call9_cst_0, main_call9_v2, main_call9_v3,
    main_call9_v4, main_call9_v5, main_call9_v6, main_call9_v7, main_call9_cst_1, main_call9_v8, main_call9_cst_2, main_call9_v9, main_call9_v10,
    main_call9_v11, main_call9_cst_3, main_call9_v12, main_call9_cst_4, main_call9_call0_v0, main_call9_call0_v1, main_v125, main_v126, main_v127,
    main_v128, main_v129, main_v130, main_v131, main_cst_23, main_v132, main_v133, main_v134, main_v135, main_v136, main_v137, main_v138, main_v139,
    main_v140, main_call10_cst, main_call10_v0, main_v141, main_v142, main_v143, main_v144, main_v145, main_cst_24, main_v146, main_cst_25, main_v147,
    main_v148, main_c_26, main_call11_cst, main_call11_v0, main_call11_v1, main_call11_cst_0, main_call11_v2, main_call11_v3, main_call11_v4,
    main_call11_v5, main_call11_v6, main_call11_v7, main_call11_cst_1, main_call11_v8, main_call11_cst_2, main_call11_v9, main_call11_v10, main_call11_v11,
    main_call11_cst_3, main_call11_v12, main_call11_cst_4, main_call11_call0_v0, main_call11_call0_v1, main_v149, main_v150, main_v151, main_v152,
    main_v153, main_v154, main_v155, main_cst_27, main_v156, main_v157, main_v158, main_v159, main_v160, main_v161, main_v162, main_v163, main_v164,
    main_call12_cst, main_call12_v0, main_v165, main_v166, main_v167, main_v168, main_v169, main_v170, main_v171, main_cst_28, main_v172, main_v173,
    main_cst_29, main_v174, main_v175 ]
theorem seg13_writes : (seg13 (F := Ideal)).Forall fun op => op.writes ⊆ (seg13_W.map (Proc.devRef (τ := τ) .tc)).toFinset := by
  simp only [seg13, List.Forall]
  repeat' apply And.intro
  all_goals
    simp only [nullary_writes, unary_writes, binary_writes, ternary_writes, quaternary_writes, reshape_writes,
      Finset.singleton_subset_iff, List.mem_toFinset]
    exact List.mem_map_of_mem (by decide)

/-! ### A reference a stretch does not write -/

theorem R1_of (r : Ref sig .tc) (h : r ∉ seg0_W) : R1 V (Proc.devRef .tc r) = V (Proc.devRef .tc r) :=
  after_of_writes_sub _ _ seg0_writes h

theorem R2_of (r : Ref sig .tc) (h : r ∉ seg1_W) : R2 V (Proc.devRef .tc r) = R1 V (Proc.devRef .tc r) :=
  after_of_writes_sub _ _ seg1_writes h

theorem R3_of (r : Ref sig .tc) (h : r ∉ seg2_W) : R3 V (Proc.devRef .tc r) = R2 V (Proc.devRef .tc r) :=
  after_of_writes_sub _ _ seg2_writes h

theorem R4_of (r : Ref sig .tc) (h : r ∉ seg3_W) : R4 V (Proc.devRef .tc r) = R3 V (Proc.devRef .tc r) :=
  after_of_writes_sub _ _ seg3_writes h

theorem R5_of (r : Ref sig .tc) (h : r ∉ seg4_W) : R5 V (Proc.devRef .tc r) = R4 V (Proc.devRef .tc r) :=
  after_of_writes_sub _ _ seg4_writes h

theorem R6_of (r : Ref sig .tc) (h : r ∉ seg5_W) : R6 V (Proc.devRef .tc r) = R5 V (Proc.devRef .tc r) :=
  after_of_writes_sub _ _ seg5_writes h

theorem R7_of (r : Ref sig .tc) (h : r ∉ seg6_W) : R7 V (Proc.devRef .tc r) = R6 V (Proc.devRef .tc r) :=
  after_of_writes_sub _ _ seg6_writes h

theorem R8_of (r : Ref sig .tc) (h : r ∉ seg7_W) : R8 V (Proc.devRef .tc r) = R7 V (Proc.devRef .tc r) :=
  after_of_writes_sub _ _ seg7_writes h

theorem R9_of (r : Ref sig .tc) (h : r ∉ seg8_W) : R9 V (Proc.devRef .tc r) = R8 V (Proc.devRef .tc r) :=
  after_of_writes_sub _ _ seg8_writes h

theorem R10_of (r : Ref sig .tc) (h : r ∉ seg9_W) : R10 V (Proc.devRef .tc r) = R9 V (Proc.devRef .tc r) :=
  after_of_writes_sub _ _ seg9_writes h

theorem R11_of (r : Ref sig .tc) (h : r ∉ seg10_W) : R11 V (Proc.devRef .tc r) = R10 V (Proc.devRef .tc r) :=
  after_of_writes_sub _ _ seg10_writes h

theorem R12_of (r : Ref sig .tc) (h : r ∉ seg11_W) : R12 V (Proc.devRef .tc r) = R11 V (Proc.devRef .tc r) :=
  after_of_writes_sub _ _ seg11_writes h

theorem R13_of (r : Ref sig .tc) (h : r ∉ seg12_W) : R13 V (Proc.devRef .tc r) = R12 V (Proc.devRef .tc r) :=
  after_of_writes_sub _ _ seg12_writes h

theorem R14_of (r : Ref sig .tc) (h : r ∉ seg13_W) : R14 V (Proc.devRef .tc r) = R13 V (Proc.devRef .tc r) :=
  after_of_writes_sub _ _ seg13_writes h

/-! ### The program's arguments reach the stretch that reads them as given -/

theorem R1_main_arg2 : R1 V (Proc.devRef .tc main_arg2) = V (Proc.devRef .tc main_arg2) :=
  R1_of V main_arg2 (by decide)

theorem R1_main_arg4 : R1 V (Proc.devRef .tc main_arg4) = V (Proc.devRef .tc main_arg4) :=
  R1_of V main_arg4 (by decide)

theorem R1_main_arg5 : R1 V (Proc.devRef .tc main_arg5) = V (Proc.devRef .tc main_arg5) :=
  R1_of V main_arg5 (by decide)

theorem R3_main_arg0 : R3 V (Proc.devRef .tc main_arg0) = V (Proc.devRef .tc main_arg0) :=
  (R3_of V main_arg0 (by decide)).trans ((R2_of V main_arg0 (by decide)).trans (R1_of V main_arg0 (by decide)))

theorem R3_main_arg6 : R3 V (Proc.devRef .tc main_arg6) = V (Proc.devRef .tc main_arg6) :=
  (R3_of V main_arg6 (by decide)).trans ((R2_of V main_arg6 (by decide)).trans (R1_of V main_arg6 (by decide)))

theorem R3_main_arg7 : R3 V (Proc.devRef .tc main_arg7) = V (Proc.devRef .tc main_arg7) :=
  (R3_of V main_arg7 (by decide)).trans ((R2_of V main_arg7 (by decide)).trans (R1_of V main_arg7 (by decide)))

theorem R5_main_arg8 : R5 V (Proc.devRef .tc main_arg8) = V (Proc.devRef .tc main_arg8) :=
  (R5_of V main_arg8 (by decide)).trans ((R4_of V main_arg8 (by decide)).trans ((R3_of V main_arg8 (by decide)).trans ((R2_of V main_arg8 (by decide)).trans (R1_of V main_arg8 (by decide)))))

theorem R5_main_arg9 : R5 V (Proc.devRef .tc main_arg9) = V (Proc.devRef .tc main_arg9) :=
  (R5_of V main_arg9 (by decide)).trans ((R4_of V main_arg9 (by decide)).trans ((R3_of V main_arg9 (by decide)).trans ((R2_of V main_arg9 (by decide)).trans (R1_of V main_arg9 (by decide)))))

theorem R7_main_arg2 : R7 V (Proc.devRef .tc main_arg2) = V (Proc.devRef .tc main_arg2) :=
  (R7_of V main_arg2 (by decide)).trans ((R6_of V main_arg2 (by decide)).trans ((R5_of V main_arg2 (by decide)).trans ((R4_of V main_arg2 (by decide)).trans ((R3_of V main_arg2 (by decide)).trans ((R2_of V main_arg2 (by decide)).trans (R1_of V main_arg2 (by decide)))))))

theorem R7_main_arg10 : R7 V (Proc.devRef .tc main_arg10) = V (Proc.devRef .tc main_arg10) :=
  (R7_of V main_arg10 (by decide)).trans ((R6_of V main_arg10 (by decide)).trans ((R5_of V main_arg10 (by decide)).trans ((R4_of V main_arg10 (by decide)).trans ((R3_of V main_arg10 (by decide)).trans ((R2_of V main_arg10 (by decide)).trans (R1_of V main_arg10 (by decide)))))))

theorem R7_main_arg11 : R7 V (Proc.devRef .tc main_arg11) = V (Proc.devRef .tc main_arg11) :=
  (R7_of V main_arg11 (by decide)).trans ((R6_of V main_arg11 (by decide)).trans ((R5_of V main_arg11 (by decide)).trans ((R4_of V main_arg11 (by decide)).trans ((R3_of V main_arg11 (by decide)).trans ((R2_of V main_arg11 (by decide)).trans (R1_of V main_arg11 (by decide)))))))

theorem R9_main_arg12 : R9 V (Proc.devRef .tc main_arg12) = V (Proc.devRef .tc main_arg12) :=
  (R9_of V main_arg12 (by decide)).trans ((R8_of V main_arg12 (by decide)).trans ((R7_of V main_arg12 (by decide)).trans ((R6_of V main_arg12 (by decide)).trans ((R5_of V main_arg12 (by decide)).trans ((R4_of V main_arg12 (by decide)).trans ((R3_of V main_arg12 (by decide)).trans ((R2_of V main_arg12 (by decide)).trans (R1_of V main_arg12 (by decide)))))))))

theorem R9_main_arg13 : R9 V (Proc.devRef .tc main_arg13) = V (Proc.devRef .tc main_arg13) :=
  (R9_of V main_arg13 (by decide)).trans ((R8_of V main_arg13 (by decide)).trans ((R7_of V main_arg13 (by decide)).trans ((R6_of V main_arg13 (by decide)).trans ((R5_of V main_arg13 (by decide)).trans ((R4_of V main_arg13 (by decide)).trans ((R3_of V main_arg13 (by decide)).trans ((R2_of V main_arg13 (by decide)).trans (R1_of V main_arg13 (by decide)))))))))

theorem R11_main_arg14 : R11 V (Proc.devRef .tc main_arg14) = V (Proc.devRef .tc main_arg14) :=
  (R11_of V main_arg14 (by decide)).trans ((R10_of V main_arg14 (by decide)).trans ((R9_of V main_arg14 (by decide)).trans ((R8_of V main_arg14 (by decide)).trans ((R7_of V main_arg14 (by decide)).trans ((R6_of V main_arg14 (by decide)).trans ((R5_of V main_arg14 (by decide)).trans ((R4_of V main_arg14 (by decide)).trans ((R3_of V main_arg14 (by decide)).trans ((R2_of V main_arg14 (by decide)).trans (R1_of V main_arg14 (by decide)))))))))))

theorem R11_main_arg15 : R11 V (Proc.devRef .tc main_arg15) = V (Proc.devRef .tc main_arg15) :=
  (R11_of V main_arg15 (by decide)).trans ((R10_of V main_arg15 (by decide)).trans ((R9_of V main_arg15 (by decide)).trans ((R8_of V main_arg15 (by decide)).trans ((R7_of V main_arg15 (by decide)).trans ((R6_of V main_arg15 (by decide)).trans ((R5_of V main_arg15 (by decide)).trans ((R4_of V main_arg15 (by decide)).trans ((R3_of V main_arg15 (by decide)).trans ((R2_of V main_arg15 (by decide)).trans (R1_of V main_arg15 (by decide)))))))))))

theorem R12_main_arg16 : R12 V (Proc.devRef .tc main_arg16) = V (Proc.devRef .tc main_arg16) :=
  (R12_of V main_arg16 (by decide)).trans ((R11_of V main_arg16 (by decide)).trans ((R10_of V main_arg16 (by decide)).trans ((R9_of V main_arg16 (by decide)).trans ((R8_of V main_arg16 (by decide)).trans ((R7_of V main_arg16 (by decide)).trans ((R6_of V main_arg16 (by decide)).trans ((R5_of V main_arg16 (by decide)).trans ((R4_of V main_arg16 (by decide)).trans ((R3_of V main_arg16 (by decide)).trans ((R2_of V main_arg16 (by decide)).trans (R1_of V main_arg16 (by decide))))))))))))

theorem R12_main_arg17 : R12 V (Proc.devRef .tc main_arg17) = V (Proc.devRef .tc main_arg17) :=
  (R12_of V main_arg17 (by decide)).trans ((R11_of V main_arg17 (by decide)).trans ((R10_of V main_arg17 (by decide)).trans ((R9_of V main_arg17 (by decide)).trans ((R8_of V main_arg17 (by decide)).trans ((R7_of V main_arg17 (by decide)).trans ((R6_of V main_arg17 (by decide)).trans ((R5_of V main_arg17 (by decide)).trans ((R4_of V main_arg17 (by decide)).trans ((R3_of V main_arg17 (by decide)).trans ((R2_of V main_arg17 (by decide)).trans (R1_of V main_arg17 (by decide))))))))))))

theorem R12_main_arg18 : R12 V (Proc.devRef .tc main_arg18) = V (Proc.devRef .tc main_arg18) :=
  (R12_of V main_arg18 (by decide)).trans ((R11_of V main_arg18 (by decide)).trans ((R10_of V main_arg18 (by decide)).trans ((R9_of V main_arg18 (by decide)).trans ((R8_of V main_arg18 (by decide)).trans ((R7_of V main_arg18 (by decide)).trans ((R6_of V main_arg18 (by decide)).trans ((R5_of V main_arg18 (by decide)).trans ((R4_of V main_arg18 (by decide)).trans ((R3_of V main_arg18 (by decide)).trans ((R2_of V main_arg18 (by decide)).trans (R1_of V main_arg18 (by decide))))))))))))

theorem R12_main_arg19 : R12 V (Proc.devRef .tc main_arg19) = V (Proc.devRef .tc main_arg19) :=
  (R12_of V main_arg19 (by decide)).trans ((R11_of V main_arg19 (by decide)).trans ((R10_of V main_arg19 (by decide)).trans ((R9_of V main_arg19 (by decide)).trans ((R8_of V main_arg19 (by decide)).trans ((R7_of V main_arg19 (by decide)).trans ((R6_of V main_arg19 (by decide)).trans ((R5_of V main_arg19 (by decide)).trans ((R4_of V main_arg19 (by decide)).trans ((R3_of V main_arg19 (by decide)).trans ((R2_of V main_arg19 (by decide)).trans (R1_of V main_arg19 (by decide))))))))))))

theorem R12_main_arg20 : R12 V (Proc.devRef .tc main_arg20) = V (Proc.devRef .tc main_arg20) :=
  (R12_of V main_arg20 (by decide)).trans ((R11_of V main_arg20 (by decide)).trans ((R10_of V main_arg20 (by decide)).trans ((R9_of V main_arg20 (by decide)).trans ((R8_of V main_arg20 (by decide)).trans ((R7_of V main_arg20 (by decide)).trans ((R6_of V main_arg20 (by decide)).trans ((R5_of V main_arg20 (by decide)).trans ((R4_of V main_arg20 (by decide)).trans ((R3_of V main_arg20 (by decide)).trans ((R2_of V main_arg20 (by decide)).trans (R1_of V main_arg20 (by decide))))))))))))

theorem R12_main_arg21 : R12 V (Proc.devRef .tc main_arg21) = V (Proc.devRef .tc main_arg21) :=
  (R12_of V main_arg21 (by decide)).trans ((R11_of V main_arg21 (by decide)).trans ((R10_of V main_arg21 (by decide)).trans ((R9_of V main_arg21 (by decide)).trans ((R8_of V main_arg21 (by decide)).trans ((R7_of V main_arg21 (by decide)).trans ((R6_of V main_arg21 (by decide)).trans ((R5_of V main_arg21 (by decide)).trans ((R4_of V main_arg21 (by decide)).trans ((R3_of V main_arg21 (by decide)).trans ((R2_of V main_arg21 (by decide)).trans (R1_of V main_arg21 (by decide))))))))))))

theorem R13_main_arg22 : R13 V (Proc.devRef .tc main_arg22) = V (Proc.devRef .tc main_arg22) :=
  (R13_of V main_arg22 (by decide)).trans ((R12_of V main_arg22 (by decide)).trans ((R11_of V main_arg22 (by decide)).trans ((R10_of V main_arg22 (by decide)).trans ((R9_of V main_arg22 (by decide)).trans ((R8_of V main_arg22 (by decide)).trans ((R7_of V main_arg22 (by decide)).trans ((R6_of V main_arg22 (by decide)).trans ((R5_of V main_arg22 (by decide)).trans ((R4_of V main_arg22 (by decide)).trans ((R3_of V main_arg22 (by decide)).trans ((R2_of V main_arg22 (by decide)).trans (R1_of V main_arg22 (by decide)))))))))))))

theorem R13_main_arg23 : R13 V (Proc.devRef .tc main_arg23) = V (Proc.devRef .tc main_arg23) :=
  (R13_of V main_arg23 (by decide)).trans ((R12_of V main_arg23 (by decide)).trans ((R11_of V main_arg23 (by decide)).trans ((R10_of V main_arg23 (by decide)).trans ((R9_of V main_arg23 (by decide)).trans ((R8_of V main_arg23 (by decide)).trans ((R7_of V main_arg23 (by decide)).trans ((R6_of V main_arg23 (by decide)).trans ((R5_of V main_arg23 (by decide)).trans ((R4_of V main_arg23 (by decide)).trans ((R3_of V main_arg23 (by decide)).trans ((R2_of V main_arg23 (by decide)).trans (R1_of V main_arg23 (by decide)))))))))))))

theorem R13_main_arg24 : R13 V (Proc.devRef .tc main_arg24) = V (Proc.devRef .tc main_arg24) :=
  (R13_of V main_arg24 (by decide)).trans ((R12_of V main_arg24 (by decide)).trans ((R11_of V main_arg24 (by decide)).trans ((R10_of V main_arg24 (by decide)).trans ((R9_of V main_arg24 (by decide)).trans ((R8_of V main_arg24 (by decide)).trans ((R7_of V main_arg24 (by decide)).trans ((R6_of V main_arg24 (by decide)).trans ((R5_of V main_arg24 (by decide)).trans ((R4_of V main_arg24 (by decide)).trans ((R3_of V main_arg24 (by decide)).trans ((R2_of V main_arg24 (by decide)).trans (R1_of V main_arg24 (by decide)))))))))))))

theorem R13_main_arg25 : R13 V (Proc.devRef .tc main_arg25) = V (Proc.devRef .tc main_arg25) :=
  (R13_of V main_arg25 (by decide)).trans ((R12_of V main_arg25 (by decide)).trans ((R11_of V main_arg25 (by decide)).trans ((R10_of V main_arg25 (by decide)).trans ((R9_of V main_arg25 (by decide)).trans ((R8_of V main_arg25 (by decide)).trans ((R7_of V main_arg25 (by decide)).trans ((R6_of V main_arg25 (by decide)).trans ((R5_of V main_arg25 (by decide)).trans ((R4_of V main_arg25 (by decide)).trans ((R3_of V main_arg25 (by decide)).trans ((R2_of V main_arg25 (by decide)).trans (R1_of V main_arg25 (by decide)))))))))))))

theorem R13_main_arg26 : R13 V (Proc.devRef .tc main_arg26) = V (Proc.devRef .tc main_arg26) :=
  (R13_of V main_arg26 (by decide)).trans ((R12_of V main_arg26 (by decide)).trans ((R11_of V main_arg26 (by decide)).trans ((R10_of V main_arg26 (by decide)).trans ((R9_of V main_arg26 (by decide)).trans ((R8_of V main_arg26 (by decide)).trans ((R7_of V main_arg26 (by decide)).trans ((R6_of V main_arg26 (by decide)).trans ((R5_of V main_arg26 (by decide)).trans ((R4_of V main_arg26 (by decide)).trans ((R3_of V main_arg26 (by decide)).trans ((R2_of V main_arg26 (by decide)).trans (R1_of V main_arg26 (by decide)))))))))))))

theorem R13_main_arg27 : R13 V (Proc.devRef .tc main_arg27) = V (Proc.devRef .tc main_arg27) :=
  (R13_of V main_arg27 (by decide)).trans ((R12_of V main_arg27 (by decide)).trans ((R11_of V main_arg27 (by decide)).trans ((R10_of V main_arg27 (by decide)).trans ((R9_of V main_arg27 (by decide)).trans ((R8_of V main_arg27 (by decide)).trans ((R7_of V main_arg27 (by decide)).trans ((R6_of V main_arg27 (by decide)).trans ((R5_of V main_arg27 (by decide)).trans ((R4_of V main_arg27 (by decide)).trans ((R3_of V main_arg27 (by decide)).trans ((R2_of V main_arg27 (by decide)).trans (R1_of V main_arg27 (by decide)))))))))))))

theorem R13_main_arg28 : R13 V (Proc.devRef .tc main_arg28) = V (Proc.devRef .tc main_arg28) :=
  (R13_of V main_arg28 (by decide)).trans ((R12_of V main_arg28 (by decide)).trans ((R11_of V main_arg28 (by decide)).trans ((R10_of V main_arg28 (by decide)).trans ((R9_of V main_arg28 (by decide)).trans ((R8_of V main_arg28 (by decide)).trans ((R7_of V main_arg28 (by decide)).trans ((R6_of V main_arg28 (by decide)).trans ((R5_of V main_arg28 (by decide)).trans ((R4_of V main_arg28 (by decide)).trans ((R3_of V main_arg28 (by decide)).trans ((R2_of V main_arg28 (by decide)).trans (R1_of V main_arg28 (by decide)))))))))))))

theorem R13_main_arg29 : R13 V (Proc.devRef .tc main_arg29) = V (Proc.devRef .tc main_arg29) :=
  (R13_of V main_arg29 (by decide)).trans ((R12_of V main_arg29 (by decide)).trans ((R11_of V main_arg29 (by decide)).trans ((R10_of V main_arg29 (by decide)).trans ((R9_of V main_arg29 (by decide)).trans ((R8_of V main_arg29 (by decide)).trans ((R7_of V main_arg29 (by decide)).trans ((R6_of V main_arg29 (by decide)).trans ((R5_of V main_arg29 (by decide)).trans ((R4_of V main_arg29 (by decide)).trans ((R3_of V main_arg29 (by decide)).trans ((R2_of V main_arg29 (by decide)).trans (R1_of V main_arg29 (by decide)))))))))))))

theorem R13_main_arg30 : R13 V (Proc.devRef .tc main_arg30) = V (Proc.devRef .tc main_arg30) :=
  (R13_of V main_arg30 (by decide)).trans ((R12_of V main_arg30 (by decide)).trans ((R11_of V main_arg30 (by decide)).trans ((R10_of V main_arg30 (by decide)).trans ((R9_of V main_arg30 (by decide)).trans ((R8_of V main_arg30 (by decide)).trans ((R7_of V main_arg30 (by decide)).trans ((R6_of V main_arg30 (by decide)).trans ((R5_of V main_arg30 (by decide)).trans ((R4_of V main_arg30 (by decide)).trans ((R3_of V main_arg30 (by decide)).trans ((R2_of V main_arg30 (by decide)).trans (R1_of V main_arg30 (by decide)))))))))))))

theorem R13_main_arg31 : R13 V (Proc.devRef .tc main_arg31) = V (Proc.devRef .tc main_arg31) :=
  (R13_of V main_arg31 (by decide)).trans ((R12_of V main_arg31 (by decide)).trans ((R11_of V main_arg31 (by decide)).trans ((R10_of V main_arg31 (by decide)).trans ((R9_of V main_arg31 (by decide)).trans ((R8_of V main_arg31 (by decide)).trans ((R7_of V main_arg31 (by decide)).trans ((R6_of V main_arg31 (by decide)).trans ((R5_of V main_arg31 (by decide)).trans ((R4_of V main_arg31 (by decide)).trans ((R3_of V main_arg31 (by decide)).trans ((R2_of V main_arg31 (by decide)).trans (R1_of V main_arg31 (by decide)))))))))))))

/-! ### An intermediate value reaches a later stretch that reads it -/

theorem R2_main_v3 : R2 V (Proc.devRef .tc main_v3) = R1 V (Proc.devRef .tc main_v3) :=
  R2_of V main_v3 (by decide)

theorem R6_main_v1 : R6 V (Proc.devRef .tc main_v1) = R1 V (Proc.devRef .tc main_v1) :=
  (R6_of V main_v1 (by decide)).trans ((R5_of V main_v1 (by decide)).trans ((R4_of V main_v1 (by decide)).trans ((R3_of V main_v1 (by decide)).trans (R2_of V main_v1 (by decide)))))

theorem R8_main_v3 : R8 V (Proc.devRef .tc main_v3) = R1 V (Proc.devRef .tc main_v3) :=
  (R8_of V main_v3 (by decide)).trans ((R7_of V main_v3 (by decide)).trans ((R6_of V main_v3 (by decide)).trans ((R5_of V main_v3 (by decide)).trans ((R4_of V main_v3 (by decide)).trans ((R3_of V main_v3 (by decide)).trans (R2_of V main_v3 (by decide)))))))

theorem R5_main_v24 : R5 V (Proc.devRef .tc main_v24) = R4 V (Proc.devRef .tc main_v24) :=
  R5_of V main_v24 (by decide)

theorem R9_main_v45 : R9 V (Proc.devRef .tc main_v45) = R6 V (Proc.devRef .tc main_v45) :=
  (R9_of V main_v45 (by decide)).trans ((R8_of V main_v45 (by decide)).trans (R7_of V main_v45 (by decide)))

theorem R11_main_v66 : R11 V (Proc.devRef .tc main_v66) = R10 V (Proc.devRef .tc main_v66) :=
  R11_of V main_v66 (by decide)

theorem R13_main_v92 : R13 V (Proc.devRef .tc main_v92) = R12 V (Proc.devRef .tc main_v92) :=
  R13_of V main_v92 (by decide)

end Cert.ReferenceIdeal.RefFold

end
-- ==== Proof.Bridge.lean ====
/-
  The two programs' results are equal. Both programs are read as folds of the buffer contents through their
  segments: the kernel program through stretches of host operations and regions, the reference through the
  matching stretches of its one line of host operations. Segment by segment the buffers that matter hold equal
  contents: a shared stretch of host operations maps equal inputs to equal outputs (Sim), a region's output is the
  function of Spec.lean that the matching stretch of the reference computes (KFold on one side, RefFold on the
  other), argument arrays are the launch contents on both sides, and a value not written in between is carried along.
-/
import proofs.«181940_j74397423501381_1_alg».proof.Proof.KFold
import proofs.«181940_j74397423501381_1_alg».proof.Proof.Sim
import proofs.«181940_j74397423501381_1_alg».proof.Proof.RefCarry
import proofs.«181940_j74397423501381_1_alg».proof.Proof.LibHostStretches

set_option maxRecDepth 16384

noncomputable section

namespace Cert.Bridge

open Idealize.ShloMosaic Idealize.ShloMosaic.TcCoe Idealize.SL.Sem Idealize.ShloMosaic.StableHlo
open Cert.KernelIdeal.Gen Cert.ReferenceIdeal

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- The reference's launch contents on device c. -/
abbrev V0 (c : Dev Cert.ReferenceIdeal.nD) : Valuation Cert.ReferenceIdeal.τ Cert.ReferenceIdeal.sig (Elt Ideal) := launchContents m' c

/-- The kernel program's last stretches of host operations run as one. -/
theorem W24_eq (c : Dev Cert.KernelIdeal.nD) : W24 m ρ c = after (Cert.KernelIdeal.Gen.hostOps7 (F := Ideal) ++ Cert.KernelIdeal.Gen.hostOps7_1 (F := Ideal) ++ Cert.KernelIdeal.Gen.hostOps7_2 (F := Ideal) ++ Cert.KernelIdeal.Gen.hostOps7_3 (F := Ideal) ++ Cert.KernelIdeal.Gen.hostOps7_4 (F := Ideal) ++ Cert.KernelIdeal.Gen.hostOps7_5 (F := Ideal) ++ Cert.KernelIdeal.Gen.hostOps7_6 (F := Ideal) ++ Cert.KernelIdeal.Gen.hostOps7_7 (F := Ideal) ++ Cert.KernelIdeal.Gen.hostOps7_8 (F := Ideal)) (W15 m ρ c) := by
  simp only [Cert.HostLine.after_append]
theorem W6_eq (c : Dev Cert.KernelIdeal.nD) : W6 m ρ c = after (Cert.KernelIdeal.Gen.hostOps2 (F := Ideal) ++ Cert.KernelIdeal.Gen.hostOps2_1 (F := Ideal)) (W4 m ρ c) :=
  (Cert.HostLine.after_append _ _ _).symm
theorem W13_eq (c : Dev Cert.KernelIdeal.nD) : W13 m ρ c = after (Cert.KernelIdeal.Gen.hostOps5 (F := Ideal) ++ Cert.KernelIdeal.Gen.hostOps5_1 (F := Ideal)) (W11 m ρ c) :=
  (Cert.HostLine.after_append _ _ _).symm

set_option maxHeartbeats 4000000 in
/-- From memories that agree on the arguments, the kernel program's fold at its two result buffers is the
    reference's fold at its two result buffers. -/
theorem results (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) :
    W24 m ρ c (Proc.devRef .tc Cert.KernelIdeal.main_v101) = after (RefRun.ops (F := Ideal)) (launchContents m' c) (Proc.devRef .tc Cert.ReferenceIdeal.main_v175)
    ∧ W24 m ρ c (Proc.devRef .tc Cert.KernelIdeal.main_v39) = after (RefRun.ops (F := Ideal)) (launchContents m' c) (Proc.devRef .tc Cert.ReferenceIdeal.main_v113) := by
  obtain ⟨a0, a1, a2, a3, a4, a5, a6, a7, a8, a9, a10, a11, a12, a13, a14, a15, a16, a17, a18, a19, a20, a21, a22, a23, a24, a25, a26, a27, a28, a29, a30, a31⟩ := hag
  have v0_arg0 : V0 m' c (Proc.devRef .tc Cert.ReferenceIdeal.main_arg0) = m ((c : Thread Cert.KernelIdeal.nD Cert.KernelIdeal.τ).loc Cert.KernelIdeal.main_arg0) := a0
  have v0_arg1 : V0 m' c (Proc.devRef .tc Cert.ReferenceIdeal.main_arg1) = m ((c : Thread Cert.KernelIdeal.nD Cert.KernelIdeal.τ).loc Cert.KernelIdeal.main_arg1) := a1
  have v0_arg2 : V0 m' c (Proc.devRef .tc Cert.ReferenceIdeal.main_arg2) = m ((c : Thread Cert.KernelIdeal.nD Cert.KernelIdeal.τ).loc Cert.KernelIdeal.main_arg2) := a2
  have v0_arg3 : V0 m' c (Proc.devRef .tc Cert.ReferenceIdeal.main_arg3) = m ((c : Thread Cert.KernelIdeal.nD Cert.KernelIdeal.τ).loc Cert.KernelIdeal.main_arg3) := a3
  have v0_arg4 : V0 m' c (Proc.devRef .tc Cert.ReferenceIdeal.main_arg4) = m ((c : Thread Cert.KernelIdeal.nD Cert.KernelIdeal.τ).loc Cert.KernelIdeal.main_arg4) := a4
  have v0_arg5 : V0 m' c (Proc.devRef .tc Cert.ReferenceIdeal.main_arg5) = m ((c : Thread Cert.KernelIdeal.nD Cert.KernelIdeal.τ).loc Cert.KernelIdeal.main_arg5) := a5
  have v0_arg6 : V0 m' c (Proc.devRef .tc Cert.ReferenceIdeal.main_arg6) = m ((c : Thread Cert.KernelIdeal.nD Cert.KernelIdeal.τ).loc Cert.KernelIdeal.main_arg6) := a6
  have v0_arg7 : V0 m' c (Proc.devRef .tc Cert.ReferenceIdeal.main_arg7) = m ((c : Thread Cert.KernelIdeal.nD Cert.KernelIdeal.τ).loc Cert.KernelIdeal.main_arg7) := a7
  have v0_arg8 : V0 m' c (Proc.devRef .tc Cert.ReferenceIdeal.main_arg8) = m ((c : Thread Cert.KernelIdeal.nD Cert.KernelIdeal.τ).loc Cert.KernelIdeal.main_arg8) := a8
  have v0_arg9 : V0 m' c (Proc.devRef .tc Cert.ReferenceIdeal.main_arg9) = m ((c : Thread Cert.KernelIdeal.nD Cert.KernelIdeal.τ).loc Cert.KernelIdeal.main_arg9) := a9
  have v0_arg10 : V0 m' c (Proc.devRef .tc Cert.ReferenceIdeal.main_arg10) = m ((c : Thread Cert.KernelIdeal.nD Cert.KernelIdeal.τ).loc Cert.KernelIdeal.main_arg10) := a10
  have v0_arg11 : V0 m' c (Proc.devRef .tc Cert.ReferenceIdeal.main_arg11) = m ((c : Thread Cert.KernelIdeal.nD Cert.KernelIdeal.τ).loc Cert.KernelIdeal.main_arg11) := a11
  have v0_arg12 : V0 m' c (Proc.devRef .tc Cert.ReferenceIdeal.main_arg12) = m ((c : Thread Cert.KernelIdeal.nD Cert.KernelIdeal.τ).loc Cert.KernelIdeal.main_arg12) := a12
  have v0_arg13 : V0 m' c (Proc.devRef .tc Cert.ReferenceIdeal.main_arg13) = m ((c : Thread Cert.KernelIdeal.nD Cert.KernelIdeal.τ).loc Cert.KernelIdeal.main_arg13) := a13
  have v0_arg14 : V0 m' c (Proc.devRef .tc Cert.ReferenceIdeal.main_arg14) = m ((c : Thread Cert.KernelIdeal.nD Cert.KernelIdeal.τ).loc Cert.KernelIdeal.main_arg14) := a14
  have v0_arg15 : V0 m' c (Proc.devRef .tc Cert.ReferenceIdeal.main_arg15) = m ((c : Thread Cert.KernelIdeal.nD Cert.KernelIdeal.τ).loc Cert.KernelIdeal.main_arg15) := a15
  have v0_arg16 : V0 m' c (Proc.devRef .tc Cert.ReferenceIdeal.main_arg16) = m ((c : Thread Cert.KernelIdeal.nD Cert.KernelIdeal.τ).loc Cert.KernelIdeal.main_arg16) := a16
  have v0_arg17 : V0 m' c (Proc.devRef .tc Cert.ReferenceIdeal.main_arg17) = m ((c : Thread Cert.KernelIdeal.nD Cert.KernelIdeal.τ).loc Cert.KernelIdeal.main_arg17) := a17
  have v0_arg18 : V0 m' c (Proc.devRef .tc Cert.ReferenceIdeal.main_arg18) = m ((c : Thread Cert.KernelIdeal.nD Cert.KernelIdeal.τ).loc Cert.KernelIdeal.main_arg18) := a18
  have v0_arg19 : V0 m' c (Proc.devRef .tc Cert.ReferenceIdeal.main_arg19) = m ((c : Thread Cert.KernelIdeal.nD Cert.KernelIdeal.τ).loc Cert.KernelIdeal.main_arg19) := a19
  have v0_arg20 : V0 m' c (Proc.devRef .tc Cert.ReferenceIdeal.main_arg20) = m ((c : Thread Cert.KernelIdeal.nD Cert.KernelIdeal.τ).loc Cert.KernelIdeal.main_arg20) := a20
  have v0_arg21 : V0 m' c (Proc.devRef .tc Cert.ReferenceIdeal.main_arg21) = m ((c : Thread Cert.KernelIdeal.nD Cert.KernelIdeal.τ).loc Cert.KernelIdeal.main_arg21) := a21
  have v0_arg22 : V0 m' c (Proc.devRef .tc Cert.ReferenceIdeal.main_arg22) = m ((c : Thread Cert.KernelIdeal.nD Cert.KernelIdeal.τ).loc Cert.KernelIdeal.main_arg22) := a22
  have v0_arg23 : V0 m' c (Proc.devRef .tc Cert.ReferenceIdeal.main_arg23) = m ((c : Thread Cert.KernelIdeal.nD Cert.KernelIdeal.τ).loc Cert.KernelIdeal.main_arg23) := a23
  have v0_arg24 : V0 m' c (Proc.devRef .tc Cert.ReferenceIdeal.main_arg24) = m ((c : Thread Cert.KernelIdeal.nD Cert.KernelIdeal.τ).loc Cert.KernelIdeal.main_arg24) := a24
  have v0_arg25 : V0 m' c (Proc.devRef .tc Cert.ReferenceIdeal.main_arg25) = m ((c : Thread Cert.KernelIdeal.nD Cert.KernelIdeal.τ).loc Cert.KernelIdeal.main_arg25) := a25
  have v0_arg26 : V0 m' c (Proc.devRef .tc Cert.ReferenceIdeal.main_arg26) = m ((c : Thread Cert.KernelIdeal.nD Cert.KernelIdeal.τ).loc Cert.KernelIdeal.main_arg26) := a26
  have v0_arg27 : V0 m' c (Proc.devRef .tc Cert.ReferenceIdeal.main_arg27) = m ((c : Thread Cert.KernelIdeal.nD Cert.KernelIdeal.τ).loc Cert.KernelIdeal.main_arg27) := a27
  have v0_arg28 : V0 m' c (Proc.devRef .tc Cert.ReferenceIdeal.main_arg28) = m ((c : Thread Cert.KernelIdeal.nD Cert.KernelIdeal.τ).loc Cert.KernelIdeal.main_arg28) := a28
  have v0_arg29 : V0 m' c (Proc.devRef .tc Cert.ReferenceIdeal.main_arg29) = m ((c : Thread Cert.KernelIdeal.nD Cert.KernelIdeal.τ).loc Cert.KernelIdeal.main_arg29) := a29
  have v0_arg30 : V0 m' c (Proc.devRef .tc Cert.ReferenceIdeal.main_arg30) = m ((c : Thread Cert.KernelIdeal.nD Cert.KernelIdeal.τ).loc Cert.KernelIdeal.main_arg30) := a30
  have v0_arg31 : V0 m' c (Proc.devRef .tc Cert.ReferenceIdeal.main_arg31) = m ((c : Thread Cert.KernelIdeal.nD Cert.KernelIdeal.τ).loc Cert.KernelIdeal.main_arg31) := a31
  rw [RefFold.ops_fold]
  show W24 m ρ c (Proc.devRef .tc Cert.KernelIdeal.main_v101) = RefFold.R14 (V0 m' c) (Proc.devRef .tc Cert.ReferenceIdeal.main_v175) ∧ W24 m ρ c (Proc.devRef .tc Cert.KernelIdeal.main_v39) = RefFold.R14 (V0 m' c) (Proc.devRef .tc Cert.ReferenceIdeal.main_v113)
  -- the gather of source rows
  have s0 := Sim.gather1 (W0 m ρ c) (V0 m' c) a0.symm a1.symm
  have x10 : W1 m ρ c (Proc.devRef .tc Cert.KernelIdeal.main_v10) = RefFold.R1 (V0 m' c) (Proc.devRef .tc Cert.ReferenceIdeal.main_v10) := s0.1
  have x1 : W1 m ρ c (Proc.devRef .tc Cert.KernelIdeal.main_v1) = RefFold.R1 (V0 m' c) (Proc.devRef .tc Cert.ReferenceIdeal.main_v1) := s0.2.1
  have x3 : W1 m ρ c (Proc.devRef .tc Cert.KernelIdeal.main_v3) = RefFold.R1 (V0 m' c) (Proc.devRef .tc Cert.ReferenceIdeal.main_v3) := s0.2.2
  have x11 : W2 m ρ c (Proc.devRef .tc Cert.KernelIdeal.main_v11) = RefFold.R2 (V0 m' c) (Proc.devRef .tc Cert.ReferenceIdeal.main_v16) := by
    have e := RefFold.seg1_spec (RefFold.R1 (V0 m' c))
    rw [RefFold.R1_main_arg2 (V0 m' c), v0_arg2, RefFold.R1_main_arg4 (V0 m' c), v0_arg4, RefFold.R1_main_arg5 (V0 m' c), v0_arg5] at e
    rw [Cert.KernelIdeal.Fold.out0 m ρ c, x10]
    exact e.symm
  -- the first scatter-add
  have x3' : W2 m ρ c (Proc.devRef .tc Cert.KernelIdeal.main_v3) = RefFold.R2 (V0 m' c) (Proc.devRef .tc Cert.ReferenceIdeal.main_v3) := by
    rw [Cert.KernelIdeal.Carry.W2_v3_from1 m ρ c, RefFold.R2_main_v3 (V0 m' c)]; exact x3
  have x14 : W3 m ρ c (Proc.devRef .tc Cert.KernelIdeal.main_v14) = RefFold.R3 (V0 m' c) (Proc.devRef .tc Cert.ReferenceIdeal.main_v19) := Sim.scatter1 (W2 m ρ c) (RefFold.R2 (V0 m' c)) x3' x11
  have x15 : W4 m ρ c (Proc.devRef .tc Cert.KernelIdeal.main_v15) = RefFold.R4 (V0 m' c) (Proc.devRef .tc Cert.ReferenceIdeal.main_v24) := by
    have e := RefFold.seg3_spec (RefFold.R3 (V0 m' c))
    rw [RefFold.R3_main_arg0 (V0 m' c), v0_arg0, RefFold.R3_main_arg6 (V0 m' c), v0_arg6, RefFold.R3_main_arg7 (V0 m' c), v0_arg7] at e
    rw [Cert.KernelIdeal.Fold.out1 m ρ c, x14]
    exact e.symm
  -- the first statistics
  have s4 := Sim.stats1 (W4 m ρ c) (RefFold.R4 (V0 m' c)) x15
  have x18 : W6 m ρ c (Proc.devRef .tc Cert.KernelIdeal.main_v18) = RefFold.R5 (V0 m' c) (Proc.devRef .tc Cert.ReferenceIdeal.main_v27) := by rw [W6_eq m ρ c]; exact s4.1
  have x19 : W6 m ρ c (Proc.devRef .tc Cert.KernelIdeal.main_v19) = RefFold.R5 (V0 m' c) (Proc.devRef .tc Cert.ReferenceIdeal.main_v28) := by rw [W6_eq m ρ c]; exact s4.2
  have x15' : W6 m ρ c (Proc.devRef .tc Cert.KernelIdeal.main_v15) = RefFold.R5 (V0 m' c) (Proc.devRef .tc Cert.ReferenceIdeal.main_v24) := by
    rw [Cert.KernelIdeal.Carry.W6_v15_from4 m ρ c, RefFold.R5_main_v24 (V0 m' c)]; exact x15
  have x20 : W7 m ρ c (Proc.devRef .tc Cert.KernelIdeal.main_v20) = RefFold.R6 (V0 m' c) (Proc.devRef .tc Cert.ReferenceIdeal.main_v45) := by
    have e := RefFold.seg5_spec (RefFold.R5 (V0 m' c))
    rw [RefFold.R5_main_arg8 (V0 m' c), v0_arg8, RefFold.R5_main_arg9 (V0 m' c), v0_arg9] at e
    rw [Cert.KernelIdeal.Fold.out2 m ρ c, x15', x18, x19]
    exact e.symm
  -- the second gather
  have x1' : W7 m ρ c (Proc.devRef .tc Cert.KernelIdeal.main_v1) = RefFold.R6 (V0 m' c) (Proc.devRef .tc Cert.ReferenceIdeal.main_v1) := by
    rw [Cert.KernelIdeal.Carry.W7_v1_from1 m ρ c, RefFold.R6_main_v1 (V0 m' c)]; exact x1
  have x27 : W8 m ρ c (Proc.devRef .tc Cert.KernelIdeal.main_v27) = RefFold.R7 (V0 m' c) (Proc.devRef .tc Cert.ReferenceIdeal.main_v52) := Sim.gather2 (W7 m ρ c) (RefFold.R6 (V0 m' c)) x1' x20
  have x28 : W9 m ρ c (Proc.devRef .tc Cert.KernelIdeal.main_v28) = RefFold.R8 (V0 m' c) (Proc.devRef .tc Cert.ReferenceIdeal.main_v58) := by
    have e := RefFold.seg7_spec (RefFold.R7 (V0 m' c))
    rw [RefFold.R7_main_arg2 (V0 m' c), v0_arg2, RefFold.R7_main_arg10 (V0 m' c), v0_arg10, RefFold.R7_main_arg11 (V0 m' c), v0_arg11] at e
    rw [Cert.KernelIdeal.Fold.out3 m ρ c, x27]
    exact e.symm
  -- the second scatter-add
  have x3'' : W9 m ρ c (Proc.devRef .tc Cert.KernelIdeal.main_v3) = RefFold.R8 (V0 m' c) (Proc.devRef .tc Cert.ReferenceIdeal.main_v3) := by
    rw [Cert.KernelIdeal.Carry.W9_v3_from1 m ρ c, RefFold.R8_main_v3 (V0 m' c)]; exact x3
  have x31 : W10 m ρ c (Proc.devRef .tc Cert.KernelIdeal.main_v31) = RefFold.R9 (V0 m' c) (Proc.devRef .tc Cert.ReferenceIdeal.main_v61) := Sim.scatter2 (W9 m ρ c) (RefFold.R8 (V0 m' c)) x3'' x28
  have x20' : W10 m ρ c (Proc.devRef .tc Cert.KernelIdeal.main_v20) = RefFold.R9 (V0 m' c) (Proc.devRef .tc Cert.ReferenceIdeal.main_v45) := by
    rw [Cert.KernelIdeal.Carry.W10_v20_from7 m ρ c, RefFold.R9_main_v45 (V0 m' c)]; exact x20
  have x32 : W11 m ρ c (Proc.devRef .tc Cert.KernelIdeal.main_v32) = RefFold.R10 (V0 m' c) (Proc.devRef .tc Cert.ReferenceIdeal.main_v66) := by
    have e := RefFold.seg9_spec (RefFold.R9 (V0 m' c))
    rw [RefFold.R9_main_arg12 (V0 m' c), v0_arg12, RefFold.R9_main_arg13 (V0 m' c), v0_arg13] at e
    rw [Cert.KernelIdeal.Fold.out4 m ρ c, x20', x31]
    exact e.symm
  -- the second statistics
  have s10 := Sim.stats2 (W11 m ρ c) (RefFold.R10 (V0 m' c)) x32
  have x35 : W13 m ρ c (Proc.devRef .tc Cert.KernelIdeal.main_v35) = RefFold.R11 (V0 m' c) (Proc.devRef .tc Cert.ReferenceIdeal.main_v69) := by rw [W13_eq m ρ c]; exact s10.1
  have x36 : W13 m ρ c (Proc.devRef .tc Cert.KernelIdeal.main_v36) = RefFold.R11 (V0 m' c) (Proc.devRef .tc Cert.ReferenceIdeal.main_v70) := by rw [W13_eq m ρ c]; exact s10.2
  have x32' : W13 m ρ c (Proc.devRef .tc Cert.KernelIdeal.main_v32) = RefFold.R11 (V0 m' c) (Proc.devRef .tc Cert.ReferenceIdeal.main_v66) := by
    rw [Cert.KernelIdeal.Carry.W13_v32_from11 m ρ c, RefFold.R11_main_v66 (V0 m' c)]; exact x32
  have x37 : W14 m ρ c (Proc.devRef .tc Cert.KernelIdeal.main_v37) = RefFold.R12 (V0 m' c) (Proc.devRef .tc Cert.ReferenceIdeal.main_v92) := by
    have e := RefFold.seg11_spec (RefFold.R11 (V0 m' c))
    rw [RefFold.R11_main_arg14 (V0 m' c), v0_arg14, RefFold.R11_main_arg15 (V0 m' c), v0_arg15] at e
    rw [Cert.KernelIdeal.Fold.out5 m ρ c, x32', x35, x36]
    exact e.symm
  have x38 : W15 m ρ c (Proc.devRef .tc Cert.KernelIdeal.main_v38) = RefFold.R13 (V0 m' c) (Proc.devRef .tc Cert.ReferenceIdeal.main_v112) := by
    have e := RefFold.seg12_spec (RefFold.R12 (V0 m' c))
    rw [RefFold.R12_main_arg16 (V0 m' c), v0_arg16, RefFold.R12_main_arg17 (V0 m' c), v0_arg17, RefFold.R12_main_arg18 (V0 m' c), v0_arg18, RefFold.R12_main_arg19 (V0 m' c), v0_arg19, RefFold.R12_main_arg20 (V0 m' c), v0_arg20, RefFold.R12_main_arg21 (V0 m' c), v0_arg21] at e
    rw [Cert.KernelIdeal.Fold.out6 m ρ c, x37]
    exact e.symm
  -- everything after the last region
  have x37' : W15 m ρ c (Proc.devRef .tc Cert.KernelIdeal.main_v37) = RefFold.R13 (V0 m' c) (Proc.devRef .tc Cert.ReferenceIdeal.main_v92) := by
    rw [Cert.KernelIdeal.Carry.W15_v37_from14 m ρ c, RefFold.R13_main_v92 (V0 m' c)]; exact x37
  have t22 : W15 m ρ c (Proc.devRef .tc Cert.KernelIdeal.main_arg22) = RefFold.R13 (V0 m' c) (Proc.devRef .tc Cert.ReferenceIdeal.main_arg22) := by
    rw [Cert.KernelIdeal.Carry.W15_arg22 m ρ c, RefFold.R13_main_arg22 (V0 m' c)]; exact v0_arg22.symm
  have t23 : W15 m ρ c (Proc.devRef .tc Cert.KernelIdeal.main_arg23) = RefFold.R13 (V0 m' c) (Proc.devRef .tc Cert.ReferenceIdeal.main_arg23) := by
    rw [Cert.KernelIdeal.Carry.W15_arg23 m ρ c, RefFold.R13_main_arg23 (V0 m' c)]; exact v0_arg23.symm
  have t24 : W15 m ρ c (Proc.devRef .tc Cert.KernelIdeal.main_arg24) = RefFold.R13 (V0 m' c) (Proc.devRef .tc Cert.ReferenceIdeal.main_arg24) := by
    rw [Cert.KernelIdeal.Carry.W15_arg24 m ρ c, RefFold.R13_main_arg24 (V0 m' c)]; exact v0_arg24.symm
  have t25 : W15 m ρ c (Proc.devRef .tc Cert.KernelIdeal.main_arg25) = RefFold.R13 (V0 m' c) (Proc.devRef .tc Cert.ReferenceIdeal.main_arg25) := by
    rw [Cert.KernelIdeal.Carry.W15_arg25 m ρ c, RefFold.R13_main_arg25 (V0 m' c)]; exact v0_arg25.symm
  have t26 : W15 m ρ c (Proc.devRef .tc Cert.KernelIdeal.main_arg26) = RefFold.R13 (V0 m' c) (Proc.devRef .tc Cert.ReferenceIdeal.main_arg26) := by
    rw [Cert.KernelIdeal.Carry.W15_arg26 m ρ c, RefFold.R13_main_arg26 (V0 m' c)]; exact v0_arg26.symm
  have t27 : W15 m ρ c (Proc.devRef .tc Cert.KernelIdeal.main_arg27) = RefFold.R13 (V0 m' c) (Proc.devRef .tc Cert.ReferenceIdeal.main_arg27) := by
    rw [Cert.KernelIdeal.Carry.W15_arg27 m ρ c, RefFold.R13_main_arg27 (V0 m' c)]; exact v0_arg27.symm
  have t28 : W15 m ρ c (Proc.devRef .tc Cert.KernelIdeal.main_arg28) = RefFold.R13 (V0 m' c) (Proc.devRef .tc Cert.ReferenceIdeal.main_arg28) := by
    rw [Cert.KernelIdeal.Carry.W15_arg28 m ρ c, RefFold.R13_main_arg28 (V0 m' c)]; exact v0_arg28.symm
  have t29 : W15 m ρ c (Proc.devRef .tc Cert.KernelIdeal.main_arg29) = RefFold.R13 (V0 m' c) (Proc.devRef .tc Cert.ReferenceIdeal.main_arg29) := by
    rw [Cert.KernelIdeal.Carry.W15_arg29 m ρ c, RefFold.R13_main_arg29 (V0 m' c)]; exact v0_arg29.symm
  have t30 : W15 m ρ c (Proc.devRef .tc Cert.KernelIdeal.main_arg30) = RefFold.R13 (V0 m' c) (Proc.devRef .tc Cert.ReferenceIdeal.main_arg30) := by
    rw [Cert.KernelIdeal.Carry.W15_arg30 m ρ c, RefFold.R13_main_arg30 (V0 m' c)]; exact v0_arg30.symm
  have t31 : W15 m ρ c (Proc.devRef .tc Cert.KernelIdeal.main_arg31) = RefFold.R13 (V0 m' c) (Proc.devRef .tc Cert.ReferenceIdeal.main_arg31) := by
    rw [Cert.KernelIdeal.Carry.W15_arg31 m ρ c, RefFold.R13_main_arg31 (V0 m' c)]; exact v0_arg31.symm
  have sT := Sim.tail (W15 m ρ c) (RefFold.R13 (V0 m' c)) x38 x37' t22 t23 t24 t25 t26 t27 t28 t29 t30 t31
  rw [W24_eq m ρ c]
  exact sT

end Cert.Bridge

end
-- ==== Proof.Final.lean ====
/-
  The certificate's claims from the two programs' runs.

  The reference is one straight line of host operations; no operation writes an argument buffer, so its run gives
  the arguments back, which is its frame. The kernel programs' frames are their generated runs. For the value
  claim the results are named as the kernel program's fold at its result buffers; the kernel program's run ends
  there, and the reference's run ends at its own fold, which is the same pair of arrays when the two memories agree
  on the arguments (Bridge).
-/
import proofs.«181940_j74397423501381_1_alg».proof.Defs
import proofs.«181940_j74397423501381_1_alg».proof.Proof.Gen.Kernel.Frame
import proofs.«181940_j74397423501381_1_alg».proof.Proof.Gen.Pre_finite_inputs
import proofs.«181940_j74397423501381_1_alg».proof.Proof.KRun
import proofs.«181940_j74397423501381_1_alg».proof.Proof.Bridge

set_option maxRecDepth 16384

noncomputable section

namespace Cert.Final

open Idealize.ShloMosaic Idealize.ShloMosaic.TcCoe Idealize.SL.Sem Idealize.ShloMosaic.StableHlo
open Cert.ReferenceIdeal

theorem ref_arg0 (V : Valuation Cert.ReferenceIdeal.τ Cert.ReferenceIdeal.sig (Elt Ideal)) :
    after (RefRun.ops (F := Ideal)) V (Proc.devRef .tc Cert.ReferenceIdeal.main_arg0) = V (Proc.devRef .tc Cert.ReferenceIdeal.main_arg0) := by
  rw [RefFold.ops_fold]
  exact (RefFold.R14_of V Cert.ReferenceIdeal.main_arg0 (by decide)).trans ((RefFold.R13_of V Cert.ReferenceIdeal.main_arg0 (by decide)).trans ((RefFold.R12_of V Cert.ReferenceIdeal.main_arg0 (by decide)).trans ((RefFold.R11_of V Cert.ReferenceIdeal.main_arg0 (by decide)).trans ((RefFold.R10_of V Cert.ReferenceIdeal.main_arg0 (by decide)).trans ((RefFold.R9_of V Cert.ReferenceIdeal.main_arg0 (by decide)).trans ((RefFold.R8_of V Cert.ReferenceIdeal.main_arg0 (by decide)).trans ((RefFold.R7_of V Cert.ReferenceIdeal.main_arg0 (by decide)).trans ((RefFold.R6_of V Cert.ReferenceIdeal.main_arg0 (by decide)).trans ((RefFold.R5_of V Cert.ReferenceIdeal.main_arg0 (by decide)).trans ((RefFold.R4_of V Cert.ReferenceIdeal.main_arg0 (by decide)).trans ((RefFold.R3_of V Cert.ReferenceIdeal.main_arg0 (by decide)).trans ((RefFold.R2_of V Cert.ReferenceIdeal.main_arg0 (by decide)).trans ((RefFold.R1_of V Cert.ReferenceIdeal.main_arg0 (by decide)))))))))))))))

theorem ref_arg1 (V : Valuation Cert.ReferenceIdeal.τ Cert.ReferenceIdeal.sig (Elt Ideal)) :
    after (RefRun.ops (F := Ideal)) V (Proc.devRef .tc Cert.ReferenceIdeal.main_arg1) = V (Proc.devRef .tc Cert.ReferenceIdeal.main_arg1) := by
  rw [RefFold.ops_fold]
  exact (RefFold.R14_of V Cert.ReferenceIdeal.main_arg1 (by decide)).trans ((RefFold.R13_of V Cert.ReferenceIdeal.main_arg1 (by decide)).trans ((RefFold.R12_of V Cert.ReferenceIdeal.main_arg1 (by decide)).trans ((RefFold.R11_of V Cert.ReferenceIdeal.main_arg1 (by decide)).trans ((RefFold.R10_of V Cert.ReferenceIdeal.main_arg1 (by decide)).trans ((RefFold.R9_of V Cert.ReferenceIdeal.main_arg1 (by decide)).trans ((RefFold.R8_of V Cert.ReferenceIdeal.main_arg1 (by decide)).trans ((RefFold.R7_of V Cert.ReferenceIdeal.main_arg1 (by decide)).trans ((RefFold.R6_of V Cert.ReferenceIdeal.main_arg1 (by decide)).trans ((RefFold.R5_of V Cert.ReferenceIdeal.main_arg1 (by decide)).trans ((RefFold.R4_of V Cert.ReferenceIdeal.main_arg1 (by decide)).trans ((RefFold.R3_of V Cert.ReferenceIdeal.main_arg1 (by decide)).trans ((RefFold.R2_of V Cert.ReferenceIdeal.main_arg1 (by decide)).trans ((RefFold.R1_of V Cert.ReferenceIdeal.main_arg1 (by decide)))))))))))))))

theorem ref_arg2 (V : Valuation Cert.ReferenceIdeal.τ Cert.ReferenceIdeal.sig (Elt Ideal)) :
    after (RefRun.ops (F := Ideal)) V (Proc.devRef .tc Cert.ReferenceIdeal.main_arg2) = V (Proc.devRef .tc Cert.ReferenceIdeal.main_arg2) := by
  rw [RefFold.ops_fold]
  exact (RefFold.R14_of V Cert.ReferenceIdeal.main_arg2 (by decide)).trans ((RefFold.R13_of V Cert.ReferenceIdeal.main_arg2 (by decide)).trans ((RefFold.R12_of V Cert.ReferenceIdeal.main_arg2 (by decide)).trans ((RefFold.R11_of V Cert.ReferenceIdeal.main_arg2 (by decide)).trans ((RefFold.R10_of V Cert.ReferenceIdeal.main_arg2 (by decide)).trans ((RefFold.R9_of V Cert.ReferenceIdeal.main_arg2 (by decide)).trans ((RefFold.R8_of V Cert.ReferenceIdeal.main_arg2 (by decide)).trans ((RefFold.R7_of V Cert.ReferenceIdeal.main_arg2 (by decide)).trans ((RefFold.R6_of V Cert.ReferenceIdeal.main_arg2 (by decide)).trans ((RefFold.R5_of V Cert.ReferenceIdeal.main_arg2 (by decide)).trans ((RefFold.R4_of V Cert.ReferenceIdeal.main_arg2 (by decide)).trans ((RefFold.R3_of V Cert.ReferenceIdeal.main_arg2 (by decide)).trans ((RefFold.R2_of V Cert.ReferenceIdeal.main_arg2 (by decide)).trans ((RefFold.R1_of V Cert.ReferenceIdeal.main_arg2 (by decide)))))))))))))))

theorem ref_arg3 (V : Valuation Cert.ReferenceIdeal.τ Cert.ReferenceIdeal.sig (Elt Ideal)) :
    after (RefRun.ops (F := Ideal)) V (Proc.devRef .tc Cert.ReferenceIdeal.main_arg3) = V (Proc.devRef .tc Cert.ReferenceIdeal.main_arg3) := by
  rw [RefFold.ops_fold]
  exact (RefFold.R14_of V Cert.ReferenceIdeal.main_arg3 (by decide)).trans ((RefFold.R13_of V Cert.ReferenceIdeal.main_arg3 (by decide)).trans ((RefFold.R12_of V Cert.ReferenceIdeal.main_arg3 (by decide)).trans ((RefFold.R11_of V Cert.ReferenceIdeal.main_arg3 (by decide)).trans ((RefFold.R10_of V Cert.ReferenceIdeal.main_arg3 (by decide)).trans ((RefFold.R9_of V Cert.ReferenceIdeal.main_arg3 (by decide)).trans ((RefFold.R8_of V Cert.ReferenceIdeal.main_arg3 (by decide)).trans ((RefFold.R7_of V Cert.ReferenceIdeal.main_arg3 (by decide)).trans ((RefFold.R6_of V Cert.ReferenceIdeal.main_arg3 (by decide)).trans ((RefFold.R5_of V Cert.ReferenceIdeal.main_arg3 (by decide)).trans ((RefFold.R4_of V Cert.ReferenceIdeal.main_arg3 (by decide)).trans ((RefFold.R3_of V Cert.ReferenceIdeal.main_arg3 (by decide)).trans ((RefFold.R2_of V Cert.ReferenceIdeal.main_arg3 (by decide)).trans ((RefFold.R1_of V Cert.ReferenceIdeal.main_arg3 (by decide)))))))))))))))

theorem ref_arg4 (V : Valuation Cert.ReferenceIdeal.τ Cert.ReferenceIdeal.sig (Elt Ideal)) :
    after (RefRun.ops (F := Ideal)) V (Proc.devRef .tc Cert.ReferenceIdeal.main_arg4) = V (Proc.devRef .tc Cert.ReferenceIdeal.main_arg4) := by
  rw [RefFold.ops_fold]
  exact (RefFold.R14_of V Cert.ReferenceIdeal.main_arg4 (by decide)).trans ((RefFold.R13_of V Cert.ReferenceIdeal.main_arg4 (by decide)).trans ((RefFold.R12_of V Cert.ReferenceIdeal.main_arg4 (by decide)).trans ((RefFold.R11_of V Cert.ReferenceIdeal.main_arg4 (by decide)).trans ((RefFold.R10_of V Cert.ReferenceIdeal.main_arg4 (by decide)).trans ((RefFold.R9_of V Cert.ReferenceIdeal.main_arg4 (by decide)).trans ((RefFold.R8_of V Cert.ReferenceIdeal.main_arg4 (by decide)).trans ((RefFold.R7_of V Cert.ReferenceIdeal.main_arg4 (by decide)).trans ((RefFold.R6_of V Cert.ReferenceIdeal.main_arg4 (by decide)).trans ((RefFold.R5_of V Cert.ReferenceIdeal.main_arg4 (by decide)).trans ((RefFold.R4_of V Cert.ReferenceIdeal.main_arg4 (by decide)).trans ((RefFold.R3_of V Cert.ReferenceIdeal.main_arg4 (by decide)).trans ((RefFold.R2_of V Cert.ReferenceIdeal.main_arg4 (by decide)).trans ((RefFold.R1_of V Cert.ReferenceIdeal.main_arg4 (by decide)))))))))))))))

theorem ref_arg5 (V : Valuation Cert.ReferenceIdeal.τ Cert.ReferenceIdeal.sig (Elt Ideal)) :
    after (RefRun.ops (F := Ideal)) V (Proc.devRef .tc Cert.ReferenceIdeal.main_arg5) = V (Proc.devRef .tc Cert.ReferenceIdeal.main_arg5) := by
  rw [RefFold.ops_fold]
  exact (RefFold.R14_of V Cert.ReferenceIdeal.main_arg5 (by decide)).trans ((RefFold.R13_of V Cert.ReferenceIdeal.main_arg5 (by decide)).trans ((RefFold.R12_of V Cert.ReferenceIdeal.main_arg5 (by decide)).trans ((RefFold.R11_of V Cert.ReferenceIdeal.main_arg5 (by decide)).trans ((RefFold.R10_of V Cert.ReferenceIdeal.main_arg5 (by decide)).trans ((RefFold.R9_of V Cert.ReferenceIdeal.main_arg5 (by decide)).trans ((RefFold.R8_of V Cert.ReferenceIdeal.main_arg5 (by decide)).trans ((RefFold.R7_of V Cert.ReferenceIdeal.main_arg5 (by decide)).trans ((RefFold.R6_of V Cert.ReferenceIdeal.main_arg5 (by decide)).trans ((RefFold.R5_of V Cert.ReferenceIdeal.main_arg5 (by decide)).trans ((RefFold.R4_of V Cert.ReferenceIdeal.main_arg5 (by decide)).trans ((RefFold.R3_of V Cert.ReferenceIdeal.main_arg5 (by decide)).trans ((RefFold.R2_of V Cert.ReferenceIdeal.main_arg5 (by decide)).trans ((RefFold.R1_of V Cert.ReferenceIdeal.main_arg5 (by decide)))))))))))))))

theorem ref_arg6 (V : Valuation Cert.ReferenceIdeal.τ Cert.ReferenceIdeal.sig (Elt Ideal)) :
    after (RefRun.ops (F := Ideal)) V (Proc.devRef .tc Cert.ReferenceIdeal.main_arg6) = V (Proc.devRef .tc Cert.ReferenceIdeal.main_arg6) := by
  rw [RefFold.ops_fold]
  exact (RefFold.R14_of V Cert.ReferenceIdeal.main_arg6 (by decide)).trans ((RefFold.R13_of V Cert.ReferenceIdeal.main_arg6 (by decide)).trans ((RefFold.R12_of V Cert.ReferenceIdeal.main_arg6 (by decide)).trans ((RefFold.R11_of V Cert.ReferenceIdeal.main_arg6 (by decide)).trans ((RefFold.R10_of V Cert.ReferenceIdeal.main_arg6 (by decide)).trans ((RefFold.R9_of V Cert.ReferenceIdeal.main_arg6 (by decide)).trans ((RefFold.R8_of V Cert.ReferenceIdeal.main_arg6 (by decide)).trans ((RefFold.R7_of V Cert.ReferenceIdeal.main_arg6 (by decide)).trans ((RefFold.R6_of V Cert.ReferenceIdeal.main_arg6 (by decide)).trans ((RefFold.R5_of V Cert.ReferenceIdeal.main_arg6 (by decide)).trans ((RefFold.R4_of V Cert.ReferenceIdeal.main_arg6 (by decide)).trans ((RefFold.R3_of V Cert.ReferenceIdeal.main_arg6 (by decide)).trans ((RefFold.R2_of V Cert.ReferenceIdeal.main_arg6 (by decide)).trans ((RefFold.R1_of V Cert.ReferenceIdeal.main_arg6 (by decide)))))))))))))))

theorem ref_arg7 (V : Valuation Cert.ReferenceIdeal.τ Cert.ReferenceIdeal.sig (Elt Ideal)) :
    after (RefRun.ops (F := Ideal)) V (Proc.devRef .tc Cert.ReferenceIdeal.main_arg7) = V (Proc.devRef .tc Cert.ReferenceIdeal.main_arg7) := by
  rw [RefFold.ops_fold]
  exact (RefFold.R14_of V Cert.ReferenceIdeal.main_arg7 (by decide)).trans ((RefFold.R13_of V Cert.ReferenceIdeal.main_arg7 (by decide)).trans ((RefFold.R12_of V Cert.ReferenceIdeal.main_arg7 (by decide)).trans ((RefFold.R11_of V Cert.ReferenceIdeal.main_arg7 (by decide)).trans ((RefFold.R10_of V Cert.ReferenceIdeal.main_arg7 (by decide)).trans ((RefFold.R9_of V Cert.ReferenceIdeal.main_arg7 (by decide)).trans ((RefFold.R8_of V Cert.ReferenceIdeal.main_arg7 (by decide)).trans ((RefFold.R7_of V Cert.ReferenceIdeal.main_arg7 (by decide)).trans ((RefFold.R6_of V Cert.ReferenceIdeal.main_arg7 (by decide)).trans ((RefFold.R5_of V Cert.ReferenceIdeal.main_arg7 (by decide)).trans ((RefFold.R4_of V Cert.ReferenceIdeal.main_arg7 (by decide)).trans ((RefFold.R3_of V Cert.ReferenceIdeal.main_arg7 (by decide)).trans ((RefFold.R2_of V Cert.ReferenceIdeal.main_arg7 (by decide)).trans ((RefFold.R1_of V Cert.ReferenceIdeal.main_arg7 (by decide)))))))))))))))

theorem ref_arg8 (V : Valuation Cert.ReferenceIdeal.τ Cert.ReferenceIdeal.sig (Elt Ideal)) :
    after (RefRun.ops (F := Ideal)) V (Proc.devRef .tc Cert.ReferenceIdeal.main_arg8) = V (Proc.devRef .tc Cert.ReferenceIdeal.main_arg8) := by
  rw [RefFold.ops_fold]
  exact (RefFold.R14_of V Cert.ReferenceIdeal.main_arg8 (by decide)).trans ((RefFold.R13_of V Cert.ReferenceIdeal.main_arg8 (by decide)).trans ((RefFold.R12_of V Cert.ReferenceIdeal.main_arg8 (by decide)).trans ((RefFold.R11_of V Cert.ReferenceIdeal.main_arg8 (by decide)).trans ((RefFold.R10_of V Cert.ReferenceIdeal.main_arg8 (by decide)).trans ((RefFold.R9_of V Cert.ReferenceIdeal.main_arg8 (by decide)).trans ((RefFold.R8_of V Cert.ReferenceIdeal.main_arg8 (by decide)).trans ((RefFold.R7_of V Cert.ReferenceIdeal.main_arg8 (by decide)).trans ((RefFold.R6_of V Cert.ReferenceIdeal.main_arg8 (by decide)).trans ((RefFold.R5_of V Cert.ReferenceIdeal.main_arg8 (by decide)).trans ((RefFold.R4_of V Cert.ReferenceIdeal.main_arg8 (by decide)).trans ((RefFold.R3_of V Cert.ReferenceIdeal.main_arg8 (by decide)).trans ((RefFold.R2_of V Cert.ReferenceIdeal.main_arg8 (by decide)).trans ((RefFold.R1_of V Cert.ReferenceIdeal.main_arg8 (by decide)))))))))))))))

theorem ref_arg9 (V : Valuation Cert.ReferenceIdeal.τ Cert.ReferenceIdeal.sig (Elt Ideal)) :
    after (RefRun.ops (F := Ideal)) V (Proc.devRef .tc Cert.ReferenceIdeal.main_arg9) = V (Proc.devRef .tc Cert.ReferenceIdeal.main_arg9) := by
  rw [RefFold.ops_fold]
  exact (RefFold.R14_of V Cert.ReferenceIdeal.main_arg9 (by decide)).trans ((RefFold.R13_of V Cert.ReferenceIdeal.main_arg9 (by decide)).trans ((RefFold.R12_of V Cert.ReferenceIdeal.main_arg9 (by decide)).trans ((RefFold.R11_of V Cert.ReferenceIdeal.main_arg9 (by decide)).trans ((RefFold.R10_of V Cert.ReferenceIdeal.main_arg9 (by decide)).trans ((RefFold.R9_of V Cert.ReferenceIdeal.main_arg9 (by decide)).trans ((RefFold.R8_of V Cert.ReferenceIdeal.main_arg9 (by decide)).trans ((RefFold.R7_of V Cert.ReferenceIdeal.main_arg9 (by decide)).trans ((RefFold.R6_of V Cert.ReferenceIdeal.main_arg9 (by decide)).trans ((RefFold.R5_of V Cert.ReferenceIdeal.main_arg9 (by decide)).trans ((RefFold.R4_of V Cert.ReferenceIdeal.main_arg9 (by decide)).trans ((RefFold.R3_of V Cert.ReferenceIdeal.main_arg9 (by decide)).trans ((RefFold.R2_of V Cert.ReferenceIdeal.main_arg9 (by decide)).trans ((RefFold.R1_of V Cert.ReferenceIdeal.main_arg9 (by decide)))))))))))))))

theorem ref_arg10 (V : Valuation Cert.ReferenceIdeal.τ Cert.ReferenceIdeal.sig (Elt Ideal)) :
    after (RefRun.ops (F := Ideal)) V (Proc.devRef .tc Cert.ReferenceIdeal.main_arg10) = V (Proc.devRef .tc Cert.ReferenceIdeal.main_arg10) := by
  rw [RefFold.ops_fold]
  exact (RefFold.R14_of V Cert.ReferenceIdeal.main_arg10 (by decide)).trans ((RefFold.R13_of V Cert.ReferenceIdeal.main_arg10 (by decide)).trans ((RefFold.R12_of V Cert.ReferenceIdeal.main_arg10 (by decide)).trans ((RefFold.R11_of V Cert.ReferenceIdeal.main_arg10 (by decide)).trans ((RefFold.R10_of V Cert.ReferenceIdeal.main_arg10 (by decide)).trans ((RefFold.R9_of V Cert.ReferenceIdeal.main_arg10 (by decide)).trans ((RefFold.R8_of V Cert.ReferenceIdeal.main_arg10 (by decide)).trans ((RefFold.R7_of V Cert.ReferenceIdeal.main_arg10 (by decide)).trans ((RefFold.R6_of V Cert.ReferenceIdeal.main_arg10 (by decide)).trans ((RefFold.R5_of V Cert.ReferenceIdeal.main_arg10 (by decide)).trans ((RefFold.R4_of V Cert.ReferenceIdeal.main_arg10 (by decide)).trans ((RefFold.R3_of V Cert.ReferenceIdeal.main_arg10 (by decide)).trans ((RefFold.R2_of V Cert.ReferenceIdeal.main_arg10 (by decide)).trans ((RefFold.R1_of V Cert.ReferenceIdeal.main_arg10 (by decide)))))))))))))))

theorem ref_arg11 (V : Valuation Cert.ReferenceIdeal.τ Cert.ReferenceIdeal.sig (Elt Ideal)) :
    after (RefRun.ops (F := Ideal)) V (Proc.devRef .tc Cert.ReferenceIdeal.main_arg11) = V (Proc.devRef .tc Cert.ReferenceIdeal.main_arg11) := by
  rw [RefFold.ops_fold]
  exact (RefFold.R14_of V Cert.ReferenceIdeal.main_arg11 (by decide)).trans ((RefFold.R13_of V Cert.ReferenceIdeal.main_arg11 (by decide)).trans ((RefFold.R12_of V Cert.ReferenceIdeal.main_arg11 (by decide)).trans ((RefFold.R11_of V Cert.ReferenceIdeal.main_arg11 (by decide)).trans ((RefFold.R10_of V Cert.ReferenceIdeal.main_arg11 (by decide)).trans ((RefFold.R9_of V Cert.ReferenceIdeal.main_arg11 (by decide)).trans ((RefFold.R8_of V Cert.ReferenceIdeal.main_arg11 (by decide)).trans ((RefFold.R7_of V Cert.ReferenceIdeal.main_arg11 (by decide)).trans ((RefFold.R6_of V Cert.ReferenceIdeal.main_arg11 (by decide)).trans ((RefFold.R5_of V Cert.ReferenceIdeal.main_arg11 (by decide)).trans ((RefFold.R4_of V Cert.ReferenceIdeal.main_arg11 (by decide)).trans ((RefFold.R3_of V Cert.ReferenceIdeal.main_arg11 (by decide)).trans ((RefFold.R2_of V Cert.ReferenceIdeal.main_arg11 (by decide)).trans ((RefFold.R1_of V Cert.ReferenceIdeal.main_arg11 (by decide)))))))))))))))

theorem ref_arg12 (V : Valuation Cert.ReferenceIdeal.τ Cert.ReferenceIdeal.sig (Elt Ideal)) :
    after (RefRun.ops (F := Ideal)) V (Proc.devRef .tc Cert.ReferenceIdeal.main_arg12) = V (Proc.devRef .tc Cert.ReferenceIdeal.main_arg12) := by
  rw [RefFold.ops_fold]
  exact (RefFold.R14_of V Cert.ReferenceIdeal.main_arg12 (by decide)).trans ((RefFold.R13_of V Cert.ReferenceIdeal.main_arg12 (by decide)).trans ((RefFold.R12_of V Cert.ReferenceIdeal.main_arg12 (by decide)).trans ((RefFold.R11_of V Cert.ReferenceIdeal.main_arg12 (by decide)).trans ((RefFold.R10_of V Cert.ReferenceIdeal.main_arg12 (by decide)).trans ((RefFold.R9_of V Cert.ReferenceIdeal.main_arg12 (by decide)).trans ((RefFold.R8_of V Cert.ReferenceIdeal.main_arg12 (by decide)).trans ((RefFold.R7_of V Cert.ReferenceIdeal.main_arg12 (by decide)).trans ((RefFold.R6_of V Cert.ReferenceIdeal.main_arg12 (by decide)).trans ((RefFold.R5_of V Cert.ReferenceIdeal.main_arg12 (by decide)).trans ((RefFold.R4_of V Cert.ReferenceIdeal.main_arg12 (by decide)).trans ((RefFold.R3_of V Cert.ReferenceIdeal.main_arg12 (by decide)).trans ((RefFold.R2_of V Cert.ReferenceIdeal.main_arg12 (by decide)).trans ((RefFold.R1_of V Cert.ReferenceIdeal.main_arg12 (by decide)))))))))))))))

theorem ref_arg13 (V : Valuation Cert.ReferenceIdeal.τ Cert.ReferenceIdeal.sig (Elt Ideal)) :
    after (RefRun.ops (F := Ideal)) V (Proc.devRef .tc Cert.ReferenceIdeal.main_arg13) = V (Proc.devRef .tc Cert.ReferenceIdeal.main_arg13) := by
  rw [RefFold.ops_fold]
  exact (RefFold.R14_of V Cert.ReferenceIdeal.main_arg13 (by decide)).trans ((RefFold.R13_of V Cert.ReferenceIdeal.main_arg13 (by decide)).trans ((RefFold.R12_of V Cert.ReferenceIdeal.main_arg13 (by decide)).trans ((RefFold.R11_of V Cert.ReferenceIdeal.main_arg13 (by decide)).trans ((RefFold.R10_of V Cert.ReferenceIdeal.main_arg13 (by decide)).trans ((RefFold.R9_of V Cert.ReferenceIdeal.main_arg13 (by decide)).trans ((RefFold.R8_of V Cert.ReferenceIdeal.main_arg13 (by decide)).trans ((RefFold.R7_of V Cert.ReferenceIdeal.main_arg13 (by decide)).trans ((RefFold.R6_of V Cert.ReferenceIdeal.main_arg13 (by decide)).trans ((RefFold.R5_of V Cert.ReferenceIdeal.main_arg13 (by decide)).trans ((RefFold.R4_of V Cert.ReferenceIdeal.main_arg13 (by decide)).trans ((RefFold.R3_of V Cert.ReferenceIdeal.main_arg13 (by decide)).trans ((RefFold.R2_of V Cert.ReferenceIdeal.main_arg13 (by decide)).trans ((RefFold.R1_of V Cert.ReferenceIdeal.main_arg13 (by decide)))))))))))))))

theorem ref_arg14 (V : Valuation Cert.ReferenceIdeal.τ Cert.ReferenceIdeal.sig (Elt Ideal)) :
    after (RefRun.ops (F := Ideal)) V (Proc.devRef .tc Cert.ReferenceIdeal.main_arg14) = V (Proc.devRef .tc Cert.ReferenceIdeal.main_arg14) := by
  rw [RefFold.ops_fold]
  exact (RefFold.R14_of V Cert.ReferenceIdeal.main_arg14 (by decide)).trans ((RefFold.R13_of V Cert.ReferenceIdeal.main_arg14 (by decide)).trans ((RefFold.R12_of V Cert.ReferenceIdeal.main_arg14 (by decide)).trans ((RefFold.R11_of V Cert.ReferenceIdeal.main_arg14 (by decide)).trans ((RefFold.R10_of V Cert.ReferenceIdeal.main_arg14 (by decide)).trans ((RefFold.R9_of V Cert.ReferenceIdeal.main_arg14 (by decide)).trans ((RefFold.R8_of V Cert.ReferenceIdeal.main_arg14 (by decide)).trans ((RefFold.R7_of V Cert.ReferenceIdeal.main_arg14 (by decide)).trans ((RefFold.R6_of V Cert.ReferenceIdeal.main_arg14 (by decide)).trans ((RefFold.R5_of V Cert.ReferenceIdeal.main_arg14 (by decide)).trans ((RefFold.R4_of V Cert.ReferenceIdeal.main_arg14 (by decide)).trans ((RefFold.R3_of V Cert.ReferenceIdeal.main_arg14 (by decide)).trans ((RefFold.R2_of V Cert.ReferenceIdeal.main_arg14 (by decide)).trans ((RefFold.R1_of V Cert.ReferenceIdeal.main_arg14 (by decide)))))))))))))))

theorem ref_arg15 (V : Valuation Cert.ReferenceIdeal.τ Cert.ReferenceIdeal.sig (Elt Ideal)) :
    after (RefRun.ops (F := Ideal)) V (Proc.devRef .tc Cert.ReferenceIdeal.main_arg15) = V (Proc.devRef .tc Cert.ReferenceIdeal.main_arg15) := by
  rw [RefFold.ops_fold]
  exact (RefFold.R14_of V Cert.ReferenceIdeal.main_arg15 (by decide)).trans ((RefFold.R13_of V Cert.ReferenceIdeal.main_arg15 (by decide)).trans ((RefFold.R12_of V Cert.ReferenceIdeal.main_arg15 (by decide)).trans ((RefFold.R11_of V Cert.ReferenceIdeal.main_arg15 (by decide)).trans ((RefFold.R10_of V Cert.ReferenceIdeal.main_arg15 (by decide)).trans ((RefFold.R9_of V Cert.ReferenceIdeal.main_arg15 (by decide)).trans ((RefFold.R8_of V Cert.ReferenceIdeal.main_arg15 (by decide)).trans ((RefFold.R7_of V Cert.ReferenceIdeal.main_arg15 (by decide)).trans ((RefFold.R6_of V Cert.ReferenceIdeal.main_arg15 (by decide)).trans ((RefFold.R5_of V Cert.ReferenceIdeal.main_arg15 (by decide)).trans ((RefFold.R4_of V Cert.ReferenceIdeal.main_arg15 (by decide)).trans ((RefFold.R3_of V Cert.ReferenceIdeal.main_arg15 (by decide)).trans ((RefFold.R2_of V Cert.ReferenceIdeal.main_arg15 (by decide)).trans ((RefFold.R1_of V Cert.ReferenceIdeal.main_arg15 (by decide)))))))))))))))

theorem ref_arg16 (V : Valuation Cert.ReferenceIdeal.τ Cert.ReferenceIdeal.sig (Elt Ideal)) :
    after (RefRun.ops (F := Ideal)) V (Proc.devRef .tc Cert.ReferenceIdeal.main_arg16) = V (Proc.devRef .tc Cert.ReferenceIdeal.main_arg16) := by
  rw [RefFold.ops_fold]
  exact (RefFold.R14_of V Cert.ReferenceIdeal.main_arg16 (by decide)).trans ((RefFold.R13_of V Cert.ReferenceIdeal.main_arg16 (by decide)).trans ((RefFold.R12_of V Cert.ReferenceIdeal.main_arg16 (by decide)).trans ((RefFold.R11_of V Cert.ReferenceIdeal.main_arg16 (by decide)).trans ((RefFold.R10_of V Cert.ReferenceIdeal.main_arg16 (by decide)).trans ((RefFold.R9_of V Cert.ReferenceIdeal.main_arg16 (by decide)).trans ((RefFold.R8_of V Cert.ReferenceIdeal.main_arg16 (by decide)).trans ((RefFold.R7_of V Cert.ReferenceIdeal.main_arg16 (by decide)).trans ((RefFold.R6_of V Cert.ReferenceIdeal.main_arg16 (by decide)).trans ((RefFold.R5_of V Cert.ReferenceIdeal.main_arg16 (by decide)).trans ((RefFold.R4_of V Cert.ReferenceIdeal.main_arg16 (by decide)).trans ((RefFold.R3_of V Cert.ReferenceIdeal.main_arg16 (by decide)).trans ((RefFold.R2_of V Cert.ReferenceIdeal.main_arg16 (by decide)).trans ((RefFold.R1_of V Cert.ReferenceIdeal.main_arg16 (by decide)))))))))))))))

theorem ref_arg17 (V : Valuation Cert.ReferenceIdeal.τ Cert.ReferenceIdeal.sig (Elt Ideal)) :
    after (RefRun.ops (F := Ideal)) V (Proc.devRef .tc Cert.ReferenceIdeal.main_arg17) = V (Proc.devRef .tc Cert.ReferenceIdeal.main_arg17) := by
  rw [RefFold.ops_fold]
  exact (RefFold.R14_of V Cert.ReferenceIdeal.main_arg17 (by decide)).trans ((RefFold.R13_of V Cert.ReferenceIdeal.main_arg17 (by decide)).trans ((RefFold.R12_of V Cert.ReferenceIdeal.main_arg17 (by decide)).trans ((RefFold.R11_of V Cert.ReferenceIdeal.main_arg17 (by decide)).trans ((RefFold.R10_of V Cert.ReferenceIdeal.main_arg17 (by decide)).trans ((RefFold.R9_of V Cert.ReferenceIdeal.main_arg17 (by decide)).trans ((RefFold.R8_of V Cert.ReferenceIdeal.main_arg17 (by decide)).trans ((RefFold.R7_of V Cert.ReferenceIdeal.main_arg17 (by decide)).trans ((RefFold.R6_of V Cert.ReferenceIdeal.main_arg17 (by decide)).trans ((RefFold.R5_of V Cert.ReferenceIdeal.main_arg17 (by decide)).trans ((RefFold.R4_of V Cert.ReferenceIdeal.main_arg17 (by decide)).trans ((RefFold.R3_of V Cert.ReferenceIdeal.main_arg17 (by decide)).trans ((RefFold.R2_of V Cert.ReferenceIdeal.main_arg17 (by decide)).trans ((RefFold.R1_of V Cert.ReferenceIdeal.main_arg17 (by decide)))))))))))))))

theorem ref_arg18 (V : Valuation Cert.ReferenceIdeal.τ Cert.ReferenceIdeal.sig (Elt Ideal)) :
    after (RefRun.ops (F := Ideal)) V (Proc.devRef .tc Cert.ReferenceIdeal.main_arg18) = V (Proc.devRef .tc Cert.ReferenceIdeal.main_arg18) := by
  rw [RefFold.ops_fold]
  exact (RefFold.R14_of V Cert.ReferenceIdeal.main_arg18 (by decide)).trans ((RefFold.R13_of V Cert.ReferenceIdeal.main_arg18 (by decide)).trans ((RefFold.R12_of V Cert.ReferenceIdeal.main_arg18 (by decide)).trans ((RefFold.R11_of V Cert.ReferenceIdeal.main_arg18 (by decide)).trans ((RefFold.R10_of V Cert.ReferenceIdeal.main_arg18 (by decide)).trans ((RefFold.R9_of V Cert.ReferenceIdeal.main_arg18 (by decide)).trans ((RefFold.R8_of V Cert.ReferenceIdeal.main_arg18 (by decide)).trans ((RefFold.R7_of V Cert.ReferenceIdeal.main_arg18 (by decide)).trans ((RefFold.R6_of V Cert.ReferenceIdeal.main_arg18 (by decide)).trans ((RefFold.R5_of V Cert.ReferenceIdeal.main_arg18 (by decide)).trans ((RefFold.R4_of V Cert.ReferenceIdeal.main_arg18 (by decide)).trans ((RefFold.R3_of V Cert.ReferenceIdeal.main_arg18 (by decide)).trans ((RefFold.R2_of V Cert.ReferenceIdeal.main_arg18 (by decide)).trans ((RefFold.R1_of V Cert.ReferenceIdeal.main_arg18 (by decide)))))))))))))))

theorem ref_arg19 (V : Valuation Cert.ReferenceIdeal.τ Cert.ReferenceIdeal.sig (Elt Ideal)) :
    after (RefRun.ops (F := Ideal)) V (Proc.devRef .tc Cert.ReferenceIdeal.main_arg19) = V (Proc.devRef .tc Cert.ReferenceIdeal.main_arg19) := by
  rw [RefFold.ops_fold]
  exact (RefFold.R14_of V Cert.ReferenceIdeal.main_arg19 (by decide)).trans ((RefFold.R13_of V Cert.ReferenceIdeal.main_arg19 (by decide)).trans ((RefFold.R12_of V Cert.ReferenceIdeal.main_arg19 (by decide)).trans ((RefFold.R11_of V Cert.ReferenceIdeal.main_arg19 (by decide)).trans ((RefFold.R10_of V Cert.ReferenceIdeal.main_arg19 (by decide)).trans ((RefFold.R9_of V Cert.ReferenceIdeal.main_arg19 (by decide)).trans ((RefFold.R8_of V Cert.ReferenceIdeal.main_arg19 (by decide)).trans ((RefFold.R7_of V Cert.ReferenceIdeal.main_arg19 (by decide)).trans ((RefFold.R6_of V Cert.ReferenceIdeal.main_arg19 (by decide)).trans ((RefFold.R5_of V Cert.ReferenceIdeal.main_arg19 (by decide)).trans ((RefFold.R4_of V Cert.ReferenceIdeal.main_arg19 (by decide)).trans ((RefFold.R3_of V Cert.ReferenceIdeal.main_arg19 (by decide)).trans ((RefFold.R2_of V Cert.ReferenceIdeal.main_arg19 (by decide)).trans ((RefFold.R1_of V Cert.ReferenceIdeal.main_arg19 (by decide)))))))))))))))

theorem ref_arg20 (V : Valuation Cert.ReferenceIdeal.τ Cert.ReferenceIdeal.sig (Elt Ideal)) :
    after (RefRun.ops (F := Ideal)) V (Proc.devRef .tc Cert.ReferenceIdeal.main_arg20) = V (Proc.devRef .tc Cert.ReferenceIdeal.main_arg20) := by
  rw [RefFold.ops_fold]
  exact (RefFold.R14_of V Cert.ReferenceIdeal.main_arg20 (by decide)).trans ((RefFold.R13_of V Cert.ReferenceIdeal.main_arg20 (by decide)).trans ((RefFold.R12_of V Cert.ReferenceIdeal.main_arg20 (by decide)).trans ((RefFold.R11_of V Cert.ReferenceIdeal.main_arg20 (by decide)).trans ((RefFold.R10_of V Cert.ReferenceIdeal.main_arg20 (by decide)).trans ((RefFold.R9_of V Cert.ReferenceIdeal.main_arg20 (by decide)).trans ((RefFold.R8_of V Cert.ReferenceIdeal.main_arg20 (by decide)).trans ((RefFold.R7_of V Cert.ReferenceIdeal.main_arg20 (by decide)).trans ((RefFold.R6_of V Cert.ReferenceIdeal.main_arg20 (by decide)).trans ((RefFold.R5_of V Cert.ReferenceIdeal.main_arg20 (by decide)).trans ((RefFold.R4_of V Cert.ReferenceIdeal.main_arg20 (by decide)).trans ((RefFold.R3_of V Cert.ReferenceIdeal.main_arg20 (by decide)).trans ((RefFold.R2_of V Cert.ReferenceIdeal.main_arg20 (by decide)).trans ((RefFold.R1_of V Cert.ReferenceIdeal.main_arg20 (by decide)))))))))))))))

theorem ref_arg21 (V : Valuation Cert.ReferenceIdeal.τ Cert.ReferenceIdeal.sig (Elt Ideal)) :
    after (RefRun.ops (F := Ideal)) V (Proc.devRef .tc Cert.ReferenceIdeal.main_arg21) = V (Proc.devRef .tc Cert.ReferenceIdeal.main_arg21) := by
  rw [RefFold.ops_fold]
  exact (RefFold.R14_of V Cert.ReferenceIdeal.main_arg21 (by decide)).trans ((RefFold.R13_of V Cert.ReferenceIdeal.main_arg21 (by decide)).trans ((RefFold.R12_of V Cert.ReferenceIdeal.main_arg21 (by decide)).trans ((RefFold.R11_of V Cert.ReferenceIdeal.main_arg21 (by decide)).trans ((RefFold.R10_of V Cert.ReferenceIdeal.main_arg21 (by decide)).trans ((RefFold.R9_of V Cert.ReferenceIdeal.main_arg21 (by decide)).trans ((RefFold.R8_of V Cert.ReferenceIdeal.main_arg21 (by decide)).trans ((RefFold.R7_of V Cert.ReferenceIdeal.main_arg21 (by decide)).trans ((RefFold.R6_of V Cert.ReferenceIdeal.main_arg21 (by decide)).trans ((RefFold.R5_of V Cert.ReferenceIdeal.main_arg21 (by decide)).trans ((RefFold.R4_of V Cert.ReferenceIdeal.main_arg21 (by decide)).trans ((RefFold.R3_of V Cert.ReferenceIdeal.main_arg21 (by decide)).trans ((RefFold.R2_of V Cert.ReferenceIdeal.main_arg21 (by decide)).trans ((RefFold.R1_of V Cert.ReferenceIdeal.main_arg21 (by decide)))))))))))))))

theorem ref_arg22 (V : Valuation Cert.ReferenceIdeal.τ Cert.ReferenceIdeal.sig (Elt Ideal)) :
    after (RefRun.ops (F := Ideal)) V (Proc.devRef .tc Cert.ReferenceIdeal.main_arg22) = V (Proc.devRef .tc Cert.ReferenceIdeal.main_arg22) := by
  rw [RefFold.ops_fold]
  exact (RefFold.R14_of V Cert.ReferenceIdeal.main_arg22 (by decide)).trans ((RefFold.R13_of V Cert.ReferenceIdeal.main_arg22 (by decide)).trans ((RefFold.R12_of V Cert.ReferenceIdeal.main_arg22 (by decide)).trans ((RefFold.R11_of V Cert.ReferenceIdeal.main_arg22 (by decide)).trans ((RefFold.R10_of V Cert.ReferenceIdeal.main_arg22 (by decide)).trans ((RefFold.R9_of V Cert.ReferenceIdeal.main_arg22 (by decide)).trans ((RefFold.R8_of V Cert.ReferenceIdeal.main_arg22 (by decide)).trans ((RefFold.R7_of V Cert.ReferenceIdeal.main_arg22 (by decide)).trans ((RefFold.R6_of V Cert.ReferenceIdeal.main_arg22 (by decide)).trans ((RefFold.R5_of V Cert.ReferenceIdeal.main_arg22 (by decide)).trans ((RefFold.R4_of V Cert.ReferenceIdeal.main_arg22 (by decide)).trans ((RefFold.R3_of V Cert.ReferenceIdeal.main_arg22 (by decide)).trans ((RefFold.R2_of V Cert.ReferenceIdeal.main_arg22 (by decide)).trans ((RefFold.R1_of V Cert.ReferenceIdeal.main_arg22 (by decide)))))))))))))))

theorem ref_arg23 (V : Valuation Cert.ReferenceIdeal.τ Cert.ReferenceIdeal.sig (Elt Ideal)) :
    after (RefRun.ops (F := Ideal)) V (Proc.devRef .tc Cert.ReferenceIdeal.main_arg23) = V (Proc.devRef .tc Cert.ReferenceIdeal.main_arg23) := by
  rw [RefFold.ops_fold]
  exact (RefFold.R14_of V Cert.ReferenceIdeal.main_arg23 (by decide)).trans ((RefFold.R13_of V Cert.ReferenceIdeal.main_arg23 (by decide)).trans ((RefFold.R12_of V Cert.ReferenceIdeal.main_arg23 (by decide)).trans ((RefFold.R11_of V Cert.ReferenceIdeal.main_arg23 (by decide)).trans ((RefFold.R10_of V Cert.ReferenceIdeal.main_arg23 (by decide)).trans ((RefFold.R9_of V Cert.ReferenceIdeal.main_arg23 (by decide)).trans ((RefFold.R8_of V Cert.ReferenceIdeal.main_arg23 (by decide)).trans ((RefFold.R7_of V Cert.ReferenceIdeal.main_arg23 (by decide)).trans ((RefFold.R6_of V Cert.ReferenceIdeal.main_arg23 (by decide)).trans ((RefFold.R5_of V Cert.ReferenceIdeal.main_arg23 (by decide)).trans ((RefFold.R4_of V Cert.ReferenceIdeal.main_arg23 (by decide)).trans ((RefFold.R3_of V Cert.ReferenceIdeal.main_arg23 (by decide)).trans ((RefFold.R2_of V Cert.ReferenceIdeal.main_arg23 (by decide)).trans ((RefFold.R1_of V Cert.ReferenceIdeal.main_arg23 (by decide)))))))))))))))

theorem ref_arg24 (V : Valuation Cert.ReferenceIdeal.τ Cert.ReferenceIdeal.sig (Elt Ideal)) :
    after (RefRun.ops (F := Ideal)) V (Proc.devRef .tc Cert.ReferenceIdeal.main_arg24) = V (Proc.devRef .tc Cert.ReferenceIdeal.main_arg24) := by
  rw [RefFold.ops_fold]
  exact (RefFold.R14_of V Cert.ReferenceIdeal.main_arg24 (by decide)).trans ((RefFold.R13_of V Cert.ReferenceIdeal.main_arg24 (by decide)).trans ((RefFold.R12_of V Cert.ReferenceIdeal.main_arg24 (by decide)).trans ((RefFold.R11_of V Cert.ReferenceIdeal.main_arg24 (by decide)).trans ((RefFold.R10_of V Cert.ReferenceIdeal.main_arg24 (by decide)).trans ((RefFold.R9_of V Cert.ReferenceIdeal.main_arg24 (by decide)).trans ((RefFold.R8_of V Cert.ReferenceIdeal.main_arg24 (by decide)).trans ((RefFold.R7_of V Cert.ReferenceIdeal.main_arg24 (by decide)).trans ((RefFold.R6_of V Cert.ReferenceIdeal.main_arg24 (by decide)).trans ((RefFold.R5_of V Cert.ReferenceIdeal.main_arg24 (by decide)).trans ((RefFold.R4_of V Cert.ReferenceIdeal.main_arg24 (by decide)).trans ((RefFold.R3_of V Cert.ReferenceIdeal.main_arg24 (by decide)).trans ((RefFold.R2_of V Cert.ReferenceIdeal.main_arg24 (by decide)).trans ((RefFold.R1_of V Cert.ReferenceIdeal.main_arg24 (by decide)))))))))))))))

theorem ref_arg25 (V : Valuation Cert.ReferenceIdeal.τ Cert.ReferenceIdeal.sig (Elt Ideal)) :
    after (RefRun.ops (F := Ideal)) V (Proc.devRef .tc Cert.ReferenceIdeal.main_arg25) = V (Proc.devRef .tc Cert.ReferenceIdeal.main_arg25) := by
  rw [RefFold.ops_fold]
  exact (RefFold.R14_of V Cert.ReferenceIdeal.main_arg25 (by decide)).trans ((RefFold.R13_of V Cert.ReferenceIdeal.main_arg25 (by decide)).trans ((RefFold.R12_of V Cert.ReferenceIdeal.main_arg25 (by decide)).trans ((RefFold.R11_of V Cert.ReferenceIdeal.main_arg25 (by decide)).trans ((RefFold.R10_of V Cert.ReferenceIdeal.main_arg25 (by decide)).trans ((RefFold.R9_of V Cert.ReferenceIdeal.main_arg25 (by decide)).trans ((RefFold.R8_of V Cert.ReferenceIdeal.main_arg25 (by decide)).trans ((RefFold.R7_of V Cert.ReferenceIdeal.main_arg25 (by decide)).trans ((RefFold.R6_of V Cert.ReferenceIdeal.main_arg25 (by decide)).trans ((RefFold.R5_of V Cert.ReferenceIdeal.main_arg25 (by decide)).trans ((RefFold.R4_of V Cert.ReferenceIdeal.main_arg25 (by decide)).trans ((RefFold.R3_of V Cert.ReferenceIdeal.main_arg25 (by decide)).trans ((RefFold.R2_of V Cert.ReferenceIdeal.main_arg25 (by decide)).trans ((RefFold.R1_of V Cert.ReferenceIdeal.main_arg25 (by decide)))))))))))))))

theorem ref_arg26 (V : Valuation Cert.ReferenceIdeal.τ Cert.ReferenceIdeal.sig (Elt Ideal)) :
    after (RefRun.ops (F := Ideal)) V (Proc.devRef .tc Cert.ReferenceIdeal.main_arg26) = V (Proc.devRef .tc Cert.ReferenceIdeal.main_arg26) := by
  rw [RefFold.ops_fold]
  exact (RefFold.R14_of V Cert.ReferenceIdeal.main_arg26 (by decide)).trans ((RefFold.R13_of V Cert.ReferenceIdeal.main_arg26 (by decide)).trans ((RefFold.R12_of V Cert.ReferenceIdeal.main_arg26 (by decide)).trans ((RefFold.R11_of V Cert.ReferenceIdeal.main_arg26 (by decide)).trans ((RefFold.R10_of V Cert.ReferenceIdeal.main_arg26 (by decide)).trans ((RefFold.R9_of V Cert.ReferenceIdeal.main_arg26 (by decide)).trans ((RefFold.R8_of V Cert.ReferenceIdeal.main_arg26 (by decide)).trans ((RefFold.R7_of V Cert.ReferenceIdeal.main_arg26 (by decide)).trans ((RefFold.R6_of V Cert.ReferenceIdeal.main_arg26 (by decide)).trans ((RefFold.R5_of V Cert.ReferenceIdeal.main_arg26 (by decide)).trans ((RefFold.R4_of V Cert.ReferenceIdeal.main_arg26 (by decide)).trans ((RefFold.R3_of V Cert.ReferenceIdeal.main_arg26 (by decide)).trans ((RefFold.R2_of V Cert.ReferenceIdeal.main_arg26 (by decide)).trans ((RefFold.R1_of V Cert.ReferenceIdeal.main_arg26 (by decide)))))))))))))))

theorem ref_arg27 (V : Valuation Cert.ReferenceIdeal.τ Cert.ReferenceIdeal.sig (Elt Ideal)) :
    after (RefRun.ops (F := Ideal)) V (Proc.devRef .tc Cert.ReferenceIdeal.main_arg27) = V (Proc.devRef .tc Cert.ReferenceIdeal.main_arg27) := by
  rw [RefFold.ops_fold]
  exact (RefFold.R14_of V Cert.ReferenceIdeal.main_arg27 (by decide)).trans ((RefFold.R13_of V Cert.ReferenceIdeal.main_arg27 (by decide)).trans ((RefFold.R12_of V Cert.ReferenceIdeal.main_arg27 (by decide)).trans ((RefFold.R11_of V Cert.ReferenceIdeal.main_arg27 (by decide)).trans ((RefFold.R10_of V Cert.ReferenceIdeal.main_arg27 (by decide)).trans ((RefFold.R9_of V Cert.ReferenceIdeal.main_arg27 (by decide)).trans ((RefFold.R8_of V Cert.ReferenceIdeal.main_arg27 (by decide)).trans ((RefFold.R7_of V Cert.ReferenceIdeal.main_arg27 (by decide)).trans ((RefFold.R6_of V Cert.ReferenceIdeal.main_arg27 (by decide)).trans ((RefFold.R5_of V Cert.ReferenceIdeal.main_arg27 (by decide)).trans ((RefFold.R4_of V Cert.ReferenceIdeal.main_arg27 (by decide)).trans ((RefFold.R3_of V Cert.ReferenceIdeal.main_arg27 (by decide)).trans ((RefFold.R2_of V Cert.ReferenceIdeal.main_arg27 (by decide)).trans ((RefFold.R1_of V Cert.ReferenceIdeal.main_arg27 (by decide)))))))))))))))

theorem ref_arg28 (V : Valuation Cert.ReferenceIdeal.τ Cert.ReferenceIdeal.sig (Elt Ideal)) :
    after (RefRun.ops (F := Ideal)) V (Proc.devRef .tc Cert.ReferenceIdeal.main_arg28) = V (Proc.devRef .tc Cert.ReferenceIdeal.main_arg28) := by
  rw [RefFold.ops_fold]
  exact (RefFold.R14_of V Cert.ReferenceIdeal.main_arg28 (by decide)).trans ((RefFold.R13_of V Cert.ReferenceIdeal.main_arg28 (by decide)).trans ((RefFold.R12_of V Cert.ReferenceIdeal.main_arg28 (by decide)).trans ((RefFold.R11_of V Cert.ReferenceIdeal.main_arg28 (by decide)).trans ((RefFold.R10_of V Cert.ReferenceIdeal.main_arg28 (by decide)).trans ((RefFold.R9_of V Cert.ReferenceIdeal.main_arg28 (by decide)).trans ((RefFold.R8_of V Cert.ReferenceIdeal.main_arg28 (by decide)).trans ((RefFold.R7_of V Cert.ReferenceIdeal.main_arg28 (by decide)).trans ((RefFold.R6_of V Cert.ReferenceIdeal.main_arg28 (by decide)).trans ((RefFold.R5_of V Cert.ReferenceIdeal.main_arg28 (by decide)).trans ((RefFold.R4_of V Cert.ReferenceIdeal.main_arg28 (by decide)).trans ((RefFold.R3_of V Cert.ReferenceIdeal.main_arg28 (by decide)).trans ((RefFold.R2_of V Cert.ReferenceIdeal.main_arg28 (by decide)).trans ((RefFold.R1_of V Cert.ReferenceIdeal.main_arg28 (by decide)))))))))))))))

theorem ref_arg29 (V : Valuation Cert.ReferenceIdeal.τ Cert.ReferenceIdeal.sig (Elt Ideal)) :
    after (RefRun.ops (F := Ideal)) V (Proc.devRef .tc Cert.ReferenceIdeal.main_arg29) = V (Proc.devRef .tc Cert.ReferenceIdeal.main_arg29) := by
  rw [RefFold.ops_fold]
  exact (RefFold.R14_of V Cert.ReferenceIdeal.main_arg29 (by decide)).trans ((RefFold.R13_of V Cert.ReferenceIdeal.main_arg29 (by decide)).trans ((RefFold.R12_of V Cert.ReferenceIdeal.main_arg29 (by decide)).trans ((RefFold.R11_of V Cert.ReferenceIdeal.main_arg29 (by decide)).trans ((RefFold.R10_of V Cert.ReferenceIdeal.main_arg29 (by decide)).trans ((RefFold.R9_of V Cert.ReferenceIdeal.main_arg29 (by decide)).trans ((RefFold.R8_of V Cert.ReferenceIdeal.main_arg29 (by decide)).trans ((RefFold.R7_of V Cert.ReferenceIdeal.main_arg29 (by decide)).trans ((RefFold.R6_of V Cert.ReferenceIdeal.main_arg29 (by decide)).trans ((RefFold.R5_of V Cert.ReferenceIdeal.main_arg29 (by decide)).trans ((RefFold.R4_of V Cert.ReferenceIdeal.main_arg29 (by decide)).trans ((RefFold.R3_of V Cert.ReferenceIdeal.main_arg29 (by decide)).trans ((RefFold.R2_of V Cert.ReferenceIdeal.main_arg29 (by decide)).trans ((RefFold.R1_of V Cert.ReferenceIdeal.main_arg29 (by decide)))))))))))))))

theorem ref_arg30 (V : Valuation Cert.ReferenceIdeal.τ Cert.ReferenceIdeal.sig (Elt Ideal)) :
    after (RefRun.ops (F := Ideal)) V (Proc.devRef .tc Cert.ReferenceIdeal.main_arg30) = V (Proc.devRef .tc Cert.ReferenceIdeal.main_arg30) := by
  rw [RefFold.ops_fold]
  exact (RefFold.R14_of V Cert.ReferenceIdeal.main_arg30 (by decide)).trans ((RefFold.R13_of V Cert.ReferenceIdeal.main_arg30 (by decide)).trans ((RefFold.R12_of V Cert.ReferenceIdeal.main_arg30 (by decide)).trans ((RefFold.R11_of V Cert.ReferenceIdeal.main_arg30 (by decide)).trans ((RefFold.R10_of V Cert.ReferenceIdeal.main_arg30 (by decide)).trans ((RefFold.R9_of V Cert.ReferenceIdeal.main_arg30 (by decide)).trans ((RefFold.R8_of V Cert.ReferenceIdeal.main_arg30 (by decide)).trans ((RefFold.R7_of V Cert.ReferenceIdeal.main_arg30 (by decide)).trans ((RefFold.R6_of V Cert.ReferenceIdeal.main_arg30 (by decide)).trans ((RefFold.R5_of V Cert.ReferenceIdeal.main_arg30 (by decide)).trans ((RefFold.R4_of V Cert.ReferenceIdeal.main_arg30 (by decide)).trans ((RefFold.R3_of V Cert.ReferenceIdeal.main_arg30 (by decide)).trans ((RefFold.R2_of V Cert.ReferenceIdeal.main_arg30 (by decide)).trans ((RefFold.R1_of V Cert.ReferenceIdeal.main_arg30 (by decide)))))))))))))))

theorem ref_arg31 (V : Valuation Cert.ReferenceIdeal.τ Cert.ReferenceIdeal.sig (Elt Ideal)) :
    after (RefRun.ops (F := Ideal)) V (Proc.devRef .tc Cert.ReferenceIdeal.main_arg31) = V (Proc.devRef .tc Cert.ReferenceIdeal.main_arg31) := by
  rw [RefFold.ops_fold]
  exact (RefFold.R14_of V Cert.ReferenceIdeal.main_arg31 (by decide)).trans ((RefFold.R13_of V Cert.ReferenceIdeal.main_arg31 (by decide)).trans ((RefFold.R12_of V Cert.ReferenceIdeal.main_arg31 (by decide)).trans ((RefFold.R11_of V Cert.ReferenceIdeal.main_arg31 (by decide)).trans ((RefFold.R10_of V Cert.ReferenceIdeal.main_arg31 (by decide)).trans ((RefFold.R9_of V Cert.ReferenceIdeal.main_arg31 (by decide)).trans ((RefFold.R8_of V Cert.ReferenceIdeal.main_arg31 (by decide)).trans ((RefFold.R7_of V Cert.ReferenceIdeal.main_arg31 (by decide)).trans ((RefFold.R6_of V Cert.ReferenceIdeal.main_arg31 (by decide)).trans ((RefFold.R5_of V Cert.ReferenceIdeal.main_arg31 (by decide)).trans ((RefFold.R4_of V Cert.ReferenceIdeal.main_arg31 (by decide)).trans ((RefFold.R3_of V Cert.ReferenceIdeal.main_arg31 (by decide)).trans ((RefFold.R2_of V Cert.ReferenceIdeal.main_arg31 (by decide)).trans ((RefFold.R1_of V Cert.ReferenceIdeal.main_arg31 (by decide)))))))))))))))

theorem frame_k : Cert.frame_Kernel := fun m ρ _ => Cert.Kernel.Gen.frame m ρ
theorem frame_ki : Cert.frame_KernelIdeal := fun m ρ _ => Cert.KernelIdeal.Gen.frame m ρ

/-- The reference's run gives its arguments back. -/
theorem frame_ri : Cert.frame_ReferenceIdeal := fun m ρ _ =>
  (θ_run Cert.ReferenceIdeal.defs _ _).mono (fun r h c =>
    ⟨(h c Cert.ReferenceIdeal.main_arg0).trans (ref_arg0 _),
     (h c Cert.ReferenceIdeal.main_arg1).trans (ref_arg1 _),
     (h c Cert.ReferenceIdeal.main_arg2).trans (ref_arg2 _),
     (h c Cert.ReferenceIdeal.main_arg3).trans (ref_arg3 _),
     (h c Cert.ReferenceIdeal.main_arg4).trans (ref_arg4 _),
     (h c Cert.ReferenceIdeal.main_arg5).trans (ref_arg5 _),
     (h c Cert.ReferenceIdeal.main_arg6).trans (ref_arg6 _),
     (h c Cert.ReferenceIdeal.main_arg7).trans (ref_arg7 _),
     (h c Cert.ReferenceIdeal.main_arg8).trans (ref_arg8 _),
     (h c Cert.ReferenceIdeal.main_arg9).trans (ref_arg9 _),
     (h c Cert.ReferenceIdeal.main_arg10).trans (ref_arg10 _),
     (h c Cert.ReferenceIdeal.main_arg11).trans (ref_arg11 _),
     (h c Cert.ReferenceIdeal.main_arg12).trans (ref_arg12 _),
     (h c Cert.ReferenceIdeal.main_arg13).trans (ref_arg13 _),
     (h c Cert.ReferenceIdeal.main_arg14).trans (ref_arg14 _),
     (h c Cert.ReferenceIdeal.main_arg15).trans (ref_arg15 _),
     (h c Cert.ReferenceIdeal.main_arg16).trans (ref_arg16 _),
     (h c Cert.ReferenceIdeal.main_arg17).trans (ref_arg17 _),
     (h c Cert.ReferenceIdeal.main_arg18).trans (ref_arg18 _),
     (h c Cert.ReferenceIdeal.main_arg19).trans (ref_arg19 _),
     (h c Cert.ReferenceIdeal.main_arg20).trans (ref_arg20 _),
     (h c Cert.ReferenceIdeal.main_arg21).trans (ref_arg21 _),
     (h c Cert.ReferenceIdeal.main_arg22).trans (ref_arg22 _),
     (h c Cert.ReferenceIdeal.main_arg23).trans (ref_arg23 _),
     (h c Cert.ReferenceIdeal.main_arg24).trans (ref_arg24 _),
     (h c Cert.ReferenceIdeal.main_arg25).trans (ref_arg25 _),
     (h c Cert.ReferenceIdeal.main_arg26).trans (ref_arg26 _),
     (h c Cert.ReferenceIdeal.main_arg27).trans (ref_arg27 _),
     (h c Cert.ReferenceIdeal.main_arg28).trans (ref_arg28 _),
     (h c Cert.ReferenceIdeal.main_arg29).trans (ref_arg29 _),
     (h c Cert.ReferenceIdeal.main_arg30).trans (ref_arg30 _),
     (h c Cert.ReferenceIdeal.main_arg31).trans (ref_arg31 _)⟩)
    (RefRun.run (F := Ideal) m ρ)

/-- The two idealized programs end with equal results. -/
theorem algebraic : Cert.algebraic_KernelIdeal_ReferenceIdeal := by
  intro m ρ m' ρ' _ hagree
  refine ⟨fun c => Cert.KernelIdeal.Gen.W24 m ρ c (Proc.devRef .tc Cert.KernelIdeal.main_v101), fun c => Cert.KernelIdeal.Gen.W24 m ρ c (Proc.devRef .tc Cert.KernelIdeal.main_v39),
    Cert.KernelIdeal.Results.run (F := Ideal) m ρ, ?_⟩
  refine (θ_run Cert.ReferenceIdeal.defs _ _).mono (fun r h c => ?_) (RefRun.run (F := Ideal) m' ρ')
  have hb := Cert.Bridge.results m ρ m' c (hagree c)
  exact ⟨(h c Cert.ReferenceIdeal.main_v175).trans hb.1.symm, (h c Cert.ReferenceIdeal.main_v113).trans hb.2.symm,
     (h c Cert.ReferenceIdeal.main_arg0).trans (ref_arg0 _),
     (h c Cert.ReferenceIdeal.main_arg1).trans (ref_arg1 _),
     (h c Cert.ReferenceIdeal.main_arg2).trans (ref_arg2 _),
     (h c Cert.ReferenceIdeal.main_arg3).trans (ref_arg3 _),
     (h c Cert.ReferenceIdeal.main_arg4).trans (ref_arg4 _),
     (h c Cert.ReferenceIdeal.main_arg5).trans (ref_arg5 _),
     (h c Cert.ReferenceIdeal.main_arg6).trans (ref_arg6 _),
     (h c Cert.ReferenceIdeal.main_arg7).trans (ref_arg7 _),
     (h c Cert.ReferenceIdeal.main_arg8).trans (ref_arg8 _),
     (h c Cert.ReferenceIdeal.main_arg9).trans (ref_arg9 _),
     (h c Cert.ReferenceIdeal.main_arg10).trans (ref_arg10 _),
     (h c Cert.ReferenceIdeal.main_arg11).trans (ref_arg11 _),
     (h c Cert.ReferenceIdeal.main_arg12).trans (ref_arg12 _),
     (h c Cert.ReferenceIdeal.main_arg13).trans (ref_arg13 _),
     (h c Cert.ReferenceIdeal.main_arg14).trans (ref_arg14 _),
     (h c Cert.ReferenceIdeal.main_arg15).trans (ref_arg15 _),
     (h c Cert.ReferenceIdeal.main_arg16).trans (ref_arg16 _),
     (h c Cert.ReferenceIdeal.main_arg17).trans (ref_arg17 _),
     (h c Cert.ReferenceIdeal.main_arg18).trans (ref_arg18 _),
     (h c Cert.ReferenceIdeal.main_arg19).trans (ref_arg19 _),
     (h c Cert.ReferenceIdeal.main_arg20).trans (ref_arg20 _),
     (h c Cert.ReferenceIdeal.main_arg21).trans (ref_arg21 _),
     (h c Cert.ReferenceIdeal.main_arg22).trans (ref_arg22 _),
     (h c Cert.ReferenceIdeal.main_arg23).trans (ref_arg23 _),
     (h c Cert.ReferenceIdeal.main_arg24).trans (ref_arg24 _),
     (h c Cert.ReferenceIdeal.main_arg25).trans (ref_arg25 _),
     (h c Cert.ReferenceIdeal.main_arg26).trans (ref_arg26 _),
     (h c Cert.ReferenceIdeal.main_arg27).trans (ref_arg27 _),
     (h c Cert.ReferenceIdeal.main_arg28).trans (ref_arg28 _),
     (h c Cert.ReferenceIdeal.main_arg29).trans (ref_arg29 _),
     (h c Cert.ReferenceIdeal.main_arg30).trans (ref_arg30 _),
     (h c Cert.ReferenceIdeal.main_arg31).trans (ref_arg31 _)⟩

end Cert.Final

end
-- ==== Proof.lean ====
/-
  The certificate of the graph network kernel against its reference, on the extended reals.

  The kernel program computes two rounds of message passing — gather the source rows, an edge message
  max((x_src + e·We) + be, 0) in a region, scatter-add over the target rows, a dense layer of (x + agg) in a region,
  the column mean and variance on the host, a normalisation with rectifiers (and, in the second round, the logistic
  function) in a region — then a per-node perceptron in a region and a pooled head on the host. The reference
  computes the same with host operations only. At the ideal values a matrix unit's product of operands cast to a
  narrower format is the plain product, the logistic function is 1/(1 + exp(−x)) however it is spelt, and the host
  stretches are the same operations on both sides; no finiteness is needed. The ideal pass rewrote nothing, so the
  kernel's idealization is its own text.
-/
import proofs.«181940_j74397423501381_1_alg».proof.Defs
import proofs.«181940_j74397423501381_1_alg».proof.Proof.Final
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Final.frame_k, Cert.Final.frame_ki, Cert.Final.frame_ri, trivial, Cert.Final.algebraic⟩

end Cert.Proof

end
